-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v170) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x60 : Shape := ⟨2, ![131072, 60]⟩
abbrev S131072x20 : Shape := ⟨2, ![131072, 20]⟩
abbrev S131072 : Shape := ⟨1, ![131072]⟩
abbrev S101 : Shape := ⟨1, ![101]⟩
abbrev S80x256 : Shape := ⟨2, ![80, 256]⟩
abbrev S256 : Shape := ⟨1, ![256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x101 : Shape := ⟨2, ![64, 101]⟩
abbrev S_ : Shape := ⟨0, ![]⟩

class Facts : Prop where
  bcast_S_S131072x60 : S_.BroadcastsInDim S131072x60 (![] : Fin 0 → Fin S131072x60.rank)
  reducesTo_S131072x60_S_d0_1 : S131072x60.ReducesTo [0, 1] S_
  h_S_ : 0 < S_.numel
  bcast_S_S131072x20 : S_.BroadcastsInDim S131072x20 (![] : Fin 0 → Fin S131072x20.rank)
  reducesTo_S131072x20_S_d0_1 : S131072x20.ReducesTo [0, 1] S_
  bcast_S_S131072 : S_.BroadcastsInDim S131072 (![] : Fin 0 → Fin S131072.rank)
  reducesTo_S131072_S_d0 : S131072.ReducesTo [0] S_
  bcast_S_S101 : S_.BroadcastsInDim S101 (![] : Fin 0 → Fin S101.rank)
  reducesTo_S101_S_d0 : S101.ReducesTo [0] S_
  bcast_S_S80x256 : S_.BroadcastsInDim S80x256 (![] : Fin 0 → Fin S80x256.rank)
  reducesTo_S80x256_S_d0_1 : S80x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x101 : S_.BroadcastsInDim S64x101 (![] : Fin 0 → Fin S64x101.rank)
  reducesTo_S64x101_S_d0_1 : S64x101.ReducesTo [0, 1] S_

variable [Facts]

def fn_part5 {F : FTy → Type} [FloatOps F] (main_arg18 : FVec F S64x101 .f32) (main_arg19 : FVec F S101 .f32) (main_v83 : IVec S_ 1) (main_v84 : FVec F S64 .f32) (main_cst_32 : FVec F S_ .f32) : IVec S_ 1 :=
  let main_v85 : FVec F S64 .f32 := broadcastInDim S64 ![] bcast_S_S64 main_cst_32
  let main_v86 : IVec S64 1 := cmpf .olt main_v84 main_v85
  let main_c_33 : IVec S_ 1 := constantI S_ 1 1#1
  let main_v87 : IVec S_ 1 := (fun x v => Host.reduce IntOp.andi x v reducesTo_S64_S_d0 h_S_) main_v86 main_c_33
  let main_v88 : IVec S_ 1 := andi main_v83 main_v87
  let main_v89 : FVec F S64x101 .f32 := Host.absf main_arg18
  let main_cst_34 : FVec F S_ .f32 := constant S_ .f32 0x7F800000#32
  let main_v90 : FVec F S64x101 .f32 := broadcastInDim S64x101 ![] bcast_S_S64x101 main_cst_34
  let main_v91 : IVec S64x101 1 := cmpf .olt main_v89 main_v90
  let main_c_35 : IVec S_ 1 := constantI S_ 1 1#1
  let main_v92 : IVec S_ 1 := (fun x v => Host.reduce IntOp.andi x v reducesTo_S64x101_S_d0_1 h_S_) main_v91 main_c_35
  let main_v93 : IVec S_ 1 := andi main_v88 main_v92
  let main_v94 : FVec F S101 .f32 := Host.absf main_arg19
  let main_cst_36 : FVec F S_ .f32 := constant S_ .f32 0x7F800000#32
  let main_v95 : FVec F S101 .f32 := broadcastInDim S101 ![] bcast_S_S101 main_cst_36
  let main_v96 : IVec S101 1 := cmpf .olt main_v94 main_v95
  let main_c_37 : IVec S_ 1 := constantI S_ 1 1#1
  let main_v97 : IVec S_ 1 := (fun x v => Host.reduce IntOp.andi x v reducesTo_S101_S_d0 h_S_) main_v96 main_c_37
  let main_v98 : IVec S_ 1 := andi main_v93 main_v97
  main_v98

def fn_part4 {F : FTy → Type} [FloatOps F] (main_arg14 : FVec F S128x64 .f32) (main_arg15 : FVec F S64 .f32) (main_arg16 : FVec F S64 .f32) (main_arg17 : FVec F S64 .f32) (main_arg18 : FVec F S64x101 .f32) (main_arg19 : FVec F S101 .f32) (main_v63 : IVec S_ 1) (main_v67 : IVec S_ 1) : IVec S_ 1 :=
  let main_v68 : IVec S_ 1 := andi main_v63 main_v67
  let main_v69 : FVec F S128x64 .f32 := Host.absf main_arg14
  let main_cst_26 : FVec F S_ .f32 := constant S_ .f32 0x7F800000#32
  let main_v70 : FVec F S128x64 .f32 := broadcastInDim S128x64 ![] bcast_S_S128x64 main_cst_26
  let main_v71 : IVec S128x64 1 := cmpf .olt main_v69 main_v70
  let main_c_27 : IVec S_ 1 := constantI S_ 1 1#1
  let main_v72 : IVec S_ 1 := (fun x v => Host.reduce IntOp.andi x v reducesTo_S128x64_S_d0_1 h_S_) main_v71 main_c_27
  let main_v73 : IVec S_ 1 := andi main_v68 main_v72
  let main_v74 : FVec F S64 .f32 := Host.absf main_arg15
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  let main_v79 : FVec F S64 .f32 := Host.absf main_arg16
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  let main_v84 : FVec F S64 .f32 := Host.absf main_arg17
  let main_cst_32 : FVec F S_ .f32 := constant S_ .f32 0x7F800000#32
  fn_part5 (F := F) main_arg18 main_arg19 main_v83 main_v84 main_cst_32

def fn_part3 {F : FTy → Type} [FloatOps F] (main_arg11 : FVec F S128 .f32) (main_arg12 : FVec F S128 .f32) (main_arg13 : FVec F S128 .f32) (main_arg14 : FVec F S128x64 .f32) (main_arg15 : FVec F S64 .f32) (main_arg16 : FVec F S64 .f32) (main_arg17 : FVec F S64 .f32) (main_arg18 : FVec F S64x101 .f32) (main_arg19 : FVec F S101 .f32) (main_v48 : IVec S_ 1) (main_v49 : FVec F S256x128 .f32) (main_v50 : FVec F S256x128 .f32) : IVec S_ 1 :=
  let main_v51 : IVec S256x128 1 := cmpf .olt main_v49 main_v50
  let main_c_19 : IVec S_ 1 := constantI S_ 1 1#1
  let main_v52 : IVec S_ 1 := (fun x v => Host.reduce IntOp.andi x v reducesTo_S256x128_S_d0_1 h_S_) main_v51 main_c_19
  let main_v53 : IVec S_ 1 := andi main_v48 main_v52
  let main_v54 : FVec F S128 .f32 := Host.absf main_arg11
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg12
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg13
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg14 main_arg15 main_arg16 main_arg17 main_arg18 main_arg19 main_v63 main_v67

def fn_part2 {F : FTy → Type} [FloatOps F] (main_arg7 : FVec F S256 .f32) (main_arg8 : FVec F S256 .f32) (main_arg9 : FVec F S256 .f32) (main_arg10 : FVec F S256x128 .f32) (main_arg11 : FVec F S128 .f32) (main_arg12 : FVec F S128 .f32) (main_arg13 : FVec F S128 .f32) (main_arg14 : FVec F S128x64 .f32) (main_arg15 : FVec F S64 .f32) (main_arg16 : FVec F S64 .f32) (main_arg17 : FVec F S64 .f32) (main_arg18 : FVec F S64x101 .f32) (main_arg19 : FVec F S101 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256 .f32 := Host.absf main_arg9
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256x128 .f32 := Host.absf main_arg10
  let main_cst_18 : FVec F S_ .f32 := constant S_ .f32 0x7F800000#32
  let main_v50 : FVec F S256x128 .f32 := broadcastInDim S256x128 ![] bcast_S_S256x128 main_cst_18
  fn_part3 (F := F) main_arg11 main_arg12 main_arg13 main_arg14 main_arg15 main_arg16 main_arg17 main_arg18 main_arg19 main_v48 main_v49 main_v50

def fn_part1 {F : FTy → Type} [FloatOps F] (main_arg4 : FVec F S131072 .f32) (main_arg5 : FVec F S101 .f32) (main_arg6 : FVec F S80x256 .f32) (main_arg7 : FVec F S256 .f32) (main_arg8 : FVec F S256 .f32) (main_arg9 : FVec F S256 .f32) (main_arg10 : FVec F S256x128 .f32) (main_arg11 : FVec F S128 .f32) (main_arg12 : FVec F S128 .f32) (main_arg13 : FVec F S128 .f32) (main_arg14 : FVec F S128x64 .f32) (main_arg15 : FVec F S64 .f32) (main_arg16 : FVec F S64 .f32) (main_arg17 : FVec F S64 .f32) (main_arg18 : FVec F S64x101 .f32) (main_arg19 : FVec F S101 .f32) (main_v13 : IVec S_ 1) (main_v16 : IVec S131072 1) : IVec S_ 1 :=
  let main_c_5 : IVec S_ 1 := constantI S_ 1 1#1
  let main_v17 : IVec S_ 1 := (fun x v => Host.reduce IntOp.andi x v reducesTo_S131072_S_d0 h_S_) main_v16 main_c_5
  let main_v18 : IVec S_ 1 := andi main_v13 main_v17
  let main_v19 : FVec F S131072 .f32 := Host.absf main_arg4
  let main_cst_6 : FVec F S_ .f32 := constant S_ .f32 0x7F800000#32
  let main_v20 : FVec F S131072 .f32 := broadcastInDim S131072 ![] bcast_S_S131072 main_cst_6
  let main_v21 : IVec S131072 1 := cmpf .olt main_v19 main_v20
  let main_c_7 : IVec S_ 1 := constantI S_ 1 1#1
  let main_v22 : IVec S_ 1 := (fun x v => Host.reduce IntOp.andi x v reducesTo_S131072_S_d0 h_S_) main_v21 main_c_7
  let main_v23 : IVec S_ 1 := andi main_v18 main_v22
  let main_v24 : FVec F S101 .f32 := Host.absf main_arg5
  let main_cst_8 : FVec F S_ .f32 := constant S_ .f32 0x7F800000#32
  let main_v25 : FVec F S101 .f32 := broadcastInDim S101 ![] bcast_S_S101 main_cst_8
  let main_v26 : IVec S101 1 := cmpf .olt main_v24 main_v25
  let main_c_9 : IVec S_ 1 := constantI S_ 1 1#1
  let main_v27 : IVec S_ 1 := (fun x v => Host.reduce IntOp.andi x v reducesTo_S101_S_d0 h_S_) main_v26 main_c_9
  let main_v28 : IVec S_ 1 := andi main_v23 main_v27
  let main_v29 : FVec F S80x256 .f32 := Host.absf main_arg6
  let main_cst_10 : FVec F S_ .f32 := constant S_ .f32 0x7F800000#32
  let main_v30 : FVec F S80x256 .f32 := broadcastInDim S80x256 ![] bcast_S_S80x256 main_cst_10
  let main_v31 : IVec S80x256 1 := cmpf .olt main_v29 main_v30
  let main_c_11 : IVec S_ 1 := constantI S_ 1 1#1
  let main_v32 : IVec S_ 1 := (fun x v => Host.reduce IntOp.andi x v reducesTo_S80x256_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_v33

def fn {F : FTy → Type} [FloatOps F] (main_arg0 : FVec F S131072x60 .f32) (main_arg1 : FVec F S131072x20 .f32) (main_arg2 : FVec F S131072 .f32) (main_arg3 : FVec F S131072 .f32) (main_arg4 : FVec F S131072 .f32) (main_arg5 : FVec F S101 .f32) (main_arg6 : FVec F S80x256 .f32) (main_arg7 : FVec F S256 .f32) (main_arg8 : FVec F S256 .f32) (main_arg9 : FVec F S256 .f32) (main_arg10 : FVec F S256x128 .f32) (main_arg11 : FVec F S128 .f32) (main_arg12 : FVec F S128 .f32) (main_arg13 : FVec F S128 .f32) (main_arg14 : FVec F S128x64 .f32) (main_arg15 : FVec F S64 .f32) (main_arg16 : FVec F S64 .f32) (main_arg17 : FVec F S64 .f32) (main_arg18 : FVec F S64x101 .f32) (main_arg19 : FVec F S101 .f32) : IVec S_ 1 :=
  let main_v0 : FVec F S131072x60 .f32 := Host.absf main_arg0
  let main_cst : FVec F S_ .f32 := constant S_ .f32 0x7F800000#32
  let main_v1 : FVec F S131072x60 .f32 := broadcastInDim S131072x60 ![] bcast_S_S131072x60 main_cst
  let main_v2 : IVec S131072x60 1 := cmpf .olt main_v0 main_v1
  let main_c : IVec S_ 1 := constantI S_ 1 1#1
  let main_v3 : IVec S_ 1 := (fun x v => Host.reduce IntOp.andi x v reducesTo_S131072x60_S_d0_1 h_S_) main_v2 main_c
  let main_v4 : FVec F S131072x20 .f32 := Host.absf main_arg1
  let main_cst_0 : FVec F S_ .f32 := constant S_ .f32 0x7F800000#32
  let main_v5 : FVec F S131072x20 .f32 := broadcastInDim S131072x20 ![] bcast_S_S131072x20 main_cst_0
  let main_v6 : IVec S131072x20 1 := cmpf .olt main_v4 main_v5
  let main_c_1 : IVec S_ 1 := constantI S_ 1 1#1
  let main_v7 : IVec S_ 1 := (fun x v => Host.reduce IntOp.andi x v reducesTo_S131072x20_S_d0_1 h_S_) main_v6 main_c_1
  let main_v8 : IVec S_ 1 := andi main_v3 main_v7
  let main_v9 : FVec F S131072 .f32 := Host.absf main_arg2
  let main_cst_2 : FVec F S_ .f32 := constant S_ .f32 0x7F800000#32
  let main_v10 : FVec F S131072 .f32 := broadcastInDim S131072 ![] bcast_S_S131072 main_cst_2
  let main_v11 : IVec S131072 1 := cmpf .olt main_v9 main_v10
  let main_c_3 : IVec S_ 1 := constantI S_ 1 1#1
  let main_v12 : IVec S_ 1 := (fun x v => Host.reduce IntOp.andi x v reducesTo_S131072_S_d0 h_S_) main_v11 main_c_3
  let main_v13 : IVec S_ 1 := andi main_v8 main_v12
  let main_v14 : FVec F S131072 .f32 := Host.absf main_arg3
  let main_cst_4 : FVec F S_ .f32 := constant S_ .f32 0x7F800000#32
  let main_v15 : FVec F S131072 .f32 := broadcastInDim S131072 ![] bcast_S_S131072 main_cst_4
  let main_v16 : IVec S131072 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_v13 main_v16
-- ==== Kernel.lean ====
abbrev S131072x60 : Shape := ⟨2, ![131072, 60]⟩
abbrev S131072x20 : Shape := ⟨2, ![131072, 20]⟩
abbrev S131072 : Shape := ⟨1, ![131072]⟩
abbrev S101 : Shape := ⟨1, ![101]⟩
abbrev S80x256 : Shape := ⟨2, ![80, 256]⟩
abbrev S256 : Shape := ⟨1, ![256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x101 : Shape := ⟨2, ![64, 101]⟩
abbrev S131072x1 : Shape := ⟨2, ![131072, 1]⟩
abbrev S131072x3 : Shape := ⟨2, ![131072, 3]⟩
abbrev S1x101 : Shape := ⟨2, ![1, 101]⟩
abbrev S131072x101 : Shape := ⟨2, ![131072, 101]⟩
abbrev S1024x60 : Shape := ⟨2, ![1024, 60]⟩
abbrev S1024x20 : Shape := ⟨2, ![1024, 20]⟩
abbrev S1024x3 : Shape := ⟨2, ![1024, 3]⟩
abbrev S1024x101 : Shape := ⟨2, ![1024, 101]⟩
abbrev S1024x80 : Shape := ⟨2, ![1024, 80]⟩
abbrev S1024x256 : Shape := ⟨2, ![1024, 256]⟩
abbrev S1x256 : Shape := ⟨2, ![1, 256]⟩
abbrev S1024 : Shape := ⟨1, ![1024]⟩
abbrev S1024x1 : Shape := ⟨2, ![1024, 1]⟩
abbrev S1024x128 : Shape := ⟨2, ![1024, 128]⟩
abbrev S1x128 : Shape := ⟨2, ![1, 128]⟩
abbrev S1024x64 : Shape := ⟨2, ![1024, 64]⟩
abbrev S1x64 : Shape := ⟨2, ![1, 64]⟩

abbrev nBuf : Space → Nat
  | .hbm => 26
  | .vmem => 23
  | .smem => 0
  | _ => 0

abbrev bufTy : (tb : Table) → Fin (tcTables nBuf tb) → BufTy
  | .hbm, ⟨0, _⟩ => ⟨S131072x60, .f32⟩
  | .hbm, ⟨1, _⟩ => ⟨S131072x20, .f32⟩
  | .hbm, ⟨2, _⟩ => ⟨S131072, .f32⟩
  | .hbm, ⟨3, _⟩ => ⟨S131072, .f32⟩
  | .hbm, ⟨4, _⟩ => ⟨S131072, .f32⟩
  | .hbm, ⟨5, _⟩ => ⟨S101, .f32⟩
  | .hbm, ⟨6, _⟩ => ⟨S80x256, .f32⟩
  | .hbm, ⟨7, _⟩ => ⟨S256, .f32⟩
  | .hbm, ⟨8, _⟩ => ⟨S256, .f32⟩
  | .hbm, ⟨9, _⟩ => ⟨S256, .f32⟩
  | .hbm, ⟨10, _⟩ => ⟨S256x128, .f32⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S128x64, .f32⟩
  | .hbm, ⟨15, _⟩ => ⟨S64, .f32⟩
  | .hbm, ⟨16, _⟩ => ⟨S64, .f32⟩
  | .hbm, ⟨17, _⟩ => ⟨S64, .f32⟩
  | .hbm, ⟨18, _⟩ => ⟨S64x101, .f32⟩
  | .hbm, ⟨19, _⟩ => ⟨S101, .f32⟩
  | .hbm, ⟨20, _⟩ => ⟨S131072x1, .f32⟩
  | .hbm, ⟨21, _⟩ => ⟨S131072x1, .f32⟩
  | .hbm, ⟨22, _⟩ => ⟨S131072x1, .f32⟩
  | .hbm, ⟨23, _⟩ => ⟨S131072x3, .f32⟩
  | .hbm, ⟨24, _⟩ => ⟨S1x101, .f32⟩
  | .hbm, ⟨25, _⟩ => ⟨S131072x101, .f32⟩
  | .local _ .vmem, ⟨0, _⟩ => ⟨S1024x60, .f32⟩
  | .local _ .vmem, ⟨1, _⟩ => ⟨S1024x60, .f32⟩
  | .local _ .vmem, ⟨2, _⟩ => ⟨S1024x20, .f32⟩
  | .local _ .vmem, ⟨3, _⟩ => ⟨S1024x20, .f32⟩
  | .local _ .vmem, ⟨4, _⟩ => ⟨S1024x3, .f32⟩
  | .local _ .vmem, ⟨5, _⟩ => ⟨S1024x3, .f32⟩
  | .local _ .vmem, ⟨6, _⟩ => ⟨S1x101, .f32⟩
  | .local _ .vmem, ⟨7, _⟩ => ⟨S80x256, .f32⟩
  | .local _ .vmem, ⟨8, _⟩ => ⟨S256, .f32⟩
  | .local _ .vmem, ⟨9, _⟩ => ⟨S256, .f32⟩
  | .local _ .vmem, ⟨10, _⟩ => ⟨S256, .f32⟩
  | .local _ .vmem, ⟨11, _⟩ => ⟨S256x128, .f32⟩
  | .local _ .vmem, ⟨12, _⟩ => ⟨S128, .f32⟩
  | .local _ .vmem, ⟨13, _⟩ => ⟨S128, .f32⟩
  | .local _ .vmem, ⟨14, _⟩ => ⟨S128, .f32⟩
  | .local _ .vmem, ⟨15, _⟩ => ⟨S128x64, .f32⟩
  | .local _ .vmem, ⟨16, _⟩ => ⟨S64, .f32⟩
  | .local _ .vmem, ⟨17, _⟩ => ⟨S64, .f32⟩
  | .local _ .vmem, ⟨18, _⟩ => ⟨S64, .f32⟩
  | .local _ .vmem, ⟨19, _⟩ => ⟨S64x101, .f32⟩
  | .local _ .vmem, ⟨20, _⟩ => ⟨S101, .f32⟩
  | .local _ .vmem, ⟨21, _⟩ => ⟨S1024x101, .f32⟩
  | .local _ .vmem, ⟨22, _⟩ => ⟨S1024x101, .f32⟩
  | _, _ => ⟨S131072x60, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg17_0 : Ref sig .tc := ⟨.vmem, 20, rfl⟩
abbrev cc0_stg18_0 : Ref sig .tc := ⟨.vmem, 21, rfl⟩
abbrev cc0_stg18_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem17_0 : DmaSem sig := 20
abbrev cc0_sem18_0 : DmaSem sig := 21
abbrev cc0_sem18_1 : DmaSem sig := 22

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_14 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_15 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x60 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x20 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x101 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S80x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S64 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S64 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S64x101 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S101 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S1024x101 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

class Facts₀ : Prop where
  bcast_S131072_S131072x1_0 : S131072.BroadcastsInDim S131072x1 (![0] : Fin 1 → Fin S131072x1.rank)
  concatenates_S131072x1_S131072x1_S131072x1_S131072x3_d1 : Shape.Concatenates [S131072x1, S131072x1, S131072x1] S131072x3 1
  shapeCasts_S101_S1x101 : S101.ShapeCasts S1x101
  inb_S1024x60_S1024x60_0_0 : ∀ a, (![0, 0] : Fin 2 → Nat) a + S1024x60.size a ≤ S1024x60.size a
  h_S1024x60 : 0 < S1024x60.numel
  inb_S1024x20_S1024x20_0_0 : ∀ a, (![0, 0] : Fin 2 → Nat) a + S1024x20.size a ≤ S1024x20.size a
  h_S1024x20 : 0 < S1024x20.numel
  concatenates_S1024x60_S1024x20_S1024x80_d1 : Shape.Concatenates [S1024x60, S1024x20] S1024x80 1
  bitsLt_bf16_f32 : FTy.bits .bf16 < FTy.bits .f32
  inb_S80x256_S80x256_0_0 : ∀ a, (![0, 0] : Fin 2 → Nat) a + S80x256.size a ≤ S80x256.size a
  h_S80x256 : 0 < S80x256.numel
  inb_S256_S256_0 : ∀ a, (![0] : Fin 1 → Nat) a + S256.size a ≤ S256.size a
  h_S256 : 0 < S256.numel
  shapeCasts_S256_S1x256 : S256.ShapeCasts S1x256
  broadcasts_S1x256_S1024x256 : S1x256.Broadcasts S1024x256
  reduces_S1024x256_S1024 : S1024x256.Reduces [1] S1024
  shapeCasts_S1024_S1024x1 : S1024.ShapeCasts S1024x1
  broadcasts_S1024x1_S1024x256 : S1024x1.Broadcasts S1024x256
  inb_S256x128_S256x128_0_0 : ∀ a, (![0, 0] : Fin 2 → Nat) a + S256x128.size a ≤ S256x128.size a
  h_S256x128 : 0 < S256x128.numel
  inb_S128_S128_0 : ∀ a, (![0] : Fin 1 → Nat) a + S128.size a ≤ S128.size a
  h_S128 : 0 < S128.numel
  shapeCasts_S128_S1x128 : S128.ShapeCasts S1x128
  broadcasts_S1x128_S1024x128 : S1x128.Broadcasts S1024x128
  reduces_S1024x128_S1024 : S1024x128.Reduces [1] S1024
  broadcasts_S1024x1_S1024x128 : S1024x1.Broadcasts S1024x128
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S1024x64 : S1x64.Broadcasts S1024x64
  reduces_S1024x64_S1024 : S1024x64.Reduces [1] S1024
  broadcasts_S1024x1_S1024x64 : S1024x1.Broadcasts S1024x64
  inb_S64x101_S64x101_0_0 : ∀ a, (![0, 0] : Fin 2 → Nat) a + S64x101.size a ≤ S64x101.size a
  h_S64x101 : 0 < S64x101.numel
  inb_S101_S101_0 : ∀ a, (![0] : Fin 1 → Nat) a + S101.size a ≤ S101.size a
  h_S101 : 0 < S101.numel
  broadcasts_S1x101_S1024x101 : S1x101.Broadcasts S1024x101
  reduces_S1024x101_S1024 : S1024x101.Reduces [1] S1024
  broadcasts_S1024x1_S1024x101 : S1024x1.Broadcasts S1024x101
  inb_S1024x3_S1024x1_0_0 : ∀ a, (![0, 0] : Fin 2 → Nat) a + S1024x1.size a ≤ S1024x3.size a
  h_S1024x1 : 0 < S1024x1.numel
  shapeCasts_S1024x1_S1024x1 : S1024x1.ShapeCasts S1024x1
  inb_S1024x3_S1024x1_0_1 : ∀ a, (![0, 1] : Fin 2 → Nat) a + S1024x1.size a ≤ S1024x3.size a
  inb_S1024x3_S1024x1_0_2 : ∀ a, (![0, 2] : Fin 2 → Nat) a + S1024x1.size a ≤ S1024x3.size a
  inb_S1x101_S1x101_0_0 : ∀ a, (![0, 0] : Fin 2 → Nat) a + S1x101.size a ≤ S1x101.size a
  h_S1x101 : 0 < S1x101.numel
  shapeCasts_S1x101_S1x101 : S1x101.ShapeCasts S1x101
  iota_S1x101_d1_w32 : S1x101.Iotas .tc 32 [1]
  slices_S1024x101_o0_0_S1024x1 : S1024x101.Slices ![0, 0] S1024x1
  slices_S1024x101_o0_1_S1024x1 : S1024x101.Slices ![0, 1] S1024x1
  slices_S1024x101_o0_2_S1024x1 : S1024x101.Slices ![0, 2] S1024x1
  slices_S1024x101_o0_3_S1024x1 : S1024x101.Slices ![0, 3] S1024x1
  slices_S1024x101_o0_4_S1024x1 : S1024x101.Slices ![0, 4] S1024x1
  slices_S1024x101_o0_5_S1024x1 : S1024x101.Slices ![0, 5] S1024x1
  slices_S1024x101_o0_6_S1024x1 : S1024x101.Slices ![0, 6] S1024x1
  slices_S1024x101_o0_7_S1024x1 : S1024x101.Slices ![0, 7] S1024x1
  slices_S1024x101_o0_8_S1024x1 : S1024x101.Slices ![0, 8] S1024x1
  slices_S1024x101_o0_9_S1024x1 : S1024x101.Slices ![0, 9] S1024x1
  slices_S1024x101_o0_10_S1024x1 : S1024x101.Slices ![0, 10] S1024x1
  slices_S1024x101_o0_11_S1024x1 : S1024x101.Slices ![0, 11] S1024x1
  slices_S1024x101_o0_12_S1024x1 : S1024x101.Slices ![0, 12] S1024x1
  slices_S1024x101_o0_13_S1024x1 : S1024x101.Slices ![0, 13] S1024x1
  slices_S1024x101_o0_14_S1024x1 : S1024x101.Slices ![0, 14] S1024x1
  slices_S1024x101_o0_15_S1024x1 : S1024x101.Slices ![0, 15] S1024x1
  slices_S1024x101_o0_16_S1024x1 : S1024x101.Slices ![0, 16] S1024x1
  slices_S1024x101_o0_17_S1024x1 : S1024x101.Slices ![0, 17] S1024x1
  slices_S1024x101_o0_18_S1024x1 : S1024x101.Slices ![0, 18] S1024x1
  slices_S1024x101_o0_19_S1024x1 : S1024x101.Slices ![0, 19] S1024x1
  slices_S1024x101_o0_20_S1024x1 : S1024x101.Slices ![0, 20] S1024x1
  slices_S1024x101_o0_21_S1024x1 : S1024x101.Slices ![0, 21] S1024x1
  slices_S1024x101_o0_22_S1024x1 : S1024x101.Slices ![0, 22] S1024x1
  slices_S1024x101_o0_23_S1024x1 : S1024x101.Slices ![0, 23] S1024x1
  slices_S1024x101_o0_24_S1024x1 : S1024x101.Slices ![0, 24] S1024x1
  slices_S1024x101_o0_25_S1024x1 : S1024x101.Slices ![0, 25] S1024x1
  slices_S1024x101_o0_26_S1024x1 : S1024x101.Slices ![0, 26] S1024x1
  slices_S1024x101_o0_27_S1024x1 : S1024x101.Slices ![0, 27] S1024x1
  slices_S1024x101_o0_28_S1024x1 : S1024x101.Slices ![0, 28] S1024x1
  slices_S1024x101_o0_29_S1024x1 : S1024x101.Slices ![0, 29] S1024x1
  slices_S1024x101_o0_30_S1024x1 : S1024x101.Slices ![0, 30] S1024x1
  slices_S1024x101_o0_31_S1024x1 : S1024x101.Slices ![0, 31] S1024x1
  slices_S1024x101_o0_32_S1024x1 : S1024x101.Slices ![0, 32] S1024x1
  slices_S1024x101_o0_33_S1024x1 : S1024x101.Slices ![0, 33] S1024x1
  slices_S1024x101_o0_34_S1024x1 : S1024x101.Slices ![0, 34] S1024x1
  slices_S1024x101_o0_35_S1024x1 : S1024x101.Slices ![0, 35] S1024x1
  slices_S1024x101_o0_36_S1024x1 : S1024x101.Slices ![0, 36] S1024x1
  slices_S1024x101_o0_37_S1024x1 : S1024x101.Slices ![0, 37] S1024x1
  slices_S1024x101_o0_38_S1024x1 : S1024x101.Slices ![0, 38] S1024x1
  slices_S1024x101_o0_39_S1024x1 : S1024x101.Slices ![0, 39] S1024x1
  slices_S1024x101_o0_40_S1024x1 : S1024x101.Slices ![0, 40] S1024x1
  slices_S1024x101_o0_41_S1024x1 : S1024x101.Slices ![0, 41] S1024x1
  slices_S1024x101_o0_42_S1024x1 : S1024x101.Slices ![0, 42] S1024x1
  slices_S1024x101_o0_43_S1024x1 : S1024x101.Slices ![0, 43] S1024x1
  slices_S1024x101_o0_44_S1024x1 : S1024x101.Slices ![0, 44] S1024x1
  slices_S1024x101_o0_45_S1024x1 : S1024x101.Slices ![0, 45] S1024x1
  slices_S1024x101_o0_46_S1024x1 : S1024x101.Slices ![0, 46] S1024x1
  slices_S1024x101_o0_47_S1024x1 : S1024x101.Slices ![0, 47] S1024x1
  slices_S1024x101_o0_48_S1024x1 : S1024x101.Slices ![0, 48] S1024x1
  slices_S1024x101_o0_49_S1024x1 : S1024x101.Slices ![0, 49] S1024x1
  slices_S1024x101_o0_50_S1024x1 : S1024x101.Slices ![0, 50] S1024x1
  slices_S1024x101_o0_51_S1024x1 : S1024x101.Slices ![0, 51] S1024x1
  slices_S1024x101_o0_52_S1024x1 : S1024x101.Slices ![0, 52] S1024x1
  slices_S1024x101_o0_53_S1024x1 : S1024x101.Slices ![0, 53] S1024x1
  slices_S1024x101_o0_54_S1024x1 : S1024x101.Slices ![0, 54] S1024x1
  slices_S1024x101_o0_55_S1024x1 : S1024x101.Slices ![0, 55] S1024x1
  slices_S1024x101_o0_56_S1024x1 : S1024x101.Slices ![0, 56] S1024x1
  slices_S1024x101_o0_57_S1024x1 : S1024x101.Slices ![0, 57] S1024x1
  slices_S1024x101_o0_58_S1024x1 : S1024x101.Slices ![0, 58] S1024x1
  slices_S1024x101_o0_59_S1024x1 : S1024x101.Slices ![0, 59] S1024x1
  slices_S1024x101_o0_60_S1024x1 : S1024x101.Slices ![0, 60] S1024x1
  slices_S1024x101_o0_61_S1024x1 : S1024x101.Slices ![0, 61] S1024x1
  slices_S1024x101_o0_62_S1024x1 : S1024x101.Slices ![0, 62] S1024x1
  slices_S1024x101_o0_63_S1024x1 : S1024x101.Slices ![0, 63] S1024x1
  slices_S1024x101_o0_64_S1024x1 : S1024x101.Slices ![0, 64] S1024x1
  slices_S1024x101_o0_65_S1024x1 : S1024x101.Slices ![0, 65] S1024x1
  slices_S1024x101_o0_66_S1024x1 : S1024x101.Slices ![0, 66] S1024x1
  slices_S1024x101_o0_67_S1024x1 : S1024x101.Slices ![0, 67] S1024x1
  slices_S1024x101_o0_68_S1024x1 : S1024x101.Slices ![0, 68] S1024x1
  slices_S1024x101_o0_69_S1024x1 : S1024x101.Slices ![0, 69] S1024x1
  slices_S1024x101_o0_70_S1024x1 : S1024x101.Slices ![0, 70] S1024x1
  slices_S1024x101_o0_71_S1024x1 : S1024x101.Slices ![0, 71] S1024x1
  slices_S1024x101_o0_72_S1024x1 : S1024x101.Slices ![0, 72] S1024x1
  slices_S1024x101_o0_73_S1024x1 : S1024x101.Slices ![0, 73] S1024x1
  slices_S1024x101_o0_74_S1024x1 : S1024x101.Slices ![0, 74] S1024x1
  slices_S1024x101_o0_75_S1024x1 : S1024x101.Slices ![0, 75] S1024x1
  slices_S1024x101_o0_76_S1024x1 : S1024x101.Slices ![0, 76] S1024x1
  slices_S1024x101_o0_77_S1024x1 : S1024x101.Slices ![0, 77] S1024x1
  slices_S1024x101_o0_78_S1024x1 : S1024x101.Slices ![0, 78] S1024x1
  slices_S1024x101_o0_79_S1024x1 : S1024x101.Slices ![0, 79] S1024x1
  slices_S1024x101_o0_80_S1024x1 : S1024x101.Slices ![0, 80] S1024x1
  slices_S1024x101_o0_81_S1024x1 : S1024x101.Slices ![0, 81] S1024x1
  slices_S1024x101_o0_82_S1024x1 : S1024x101.Slices ![0, 82] S1024x1
  slices_S1024x101_o0_83_S1024x1 : S1024x101.Slices ![0, 83] S1024x1
  slices_S1024x101_o0_84_S1024x1 : S1024x101.Slices ![0, 84] S1024x1
  slices_S1024x101_o0_85_S1024x1 : S1024x101.Slices ![0, 85] S1024x1
  slices_S1024x101_o0_86_S1024x1 : S1024x101.Slices ![0, 86] S1024x1
  slices_S1024x101_o0_87_S1024x1 : S1024x101.Slices ![0, 87] S1024x1
  slices_S1024x101_o0_88_S1024x1 : S1024x101.Slices ![0, 88] S1024x1
  slices_S1024x101_o0_89_S1024x1 : S1024x101.Slices ![0, 89] S1024x1
  slices_S1024x101_o0_90_S1024x1 : S1024x101.Slices ![0, 90] S1024x1
  slices_S1024x101_o0_91_S1024x1 : S1024x101.Slices ![0, 91] S1024x1
  slices_S1024x101_o0_92_S1024x1 : S1024x101.Slices ![0, 92] S1024x1
  slices_S1024x101_o0_93_S1024x1 : S1024x101.Slices ![0, 93] S1024x1
  slices_S1024x101_o0_94_S1024x1 : S1024x101.Slices ![0, 94] S1024x1
  slices_S1024x101_o0_95_S1024x1 : S1024x101.Slices ![0, 95] S1024x1
  slices_S1024x101_o0_96_S1024x1 : S1024x101.Slices ![0, 96] S1024x1
  slices_S1024x101_o0_97_S1024x1 : S1024x101.Slices ![0, 97] S1024x1
  slices_S1024x101_o0_98_S1024x1 : S1024x101.Slices ![0, 98] S1024x1
  slices_S1024x101_o0_99_S1024x1 : S1024x101.Slices ![0, 99] S1024x1
  slices_S1024x101_o0_100_S1024x1 : S1024x101.Slices ![0, 100] S1024x1
  inb_S1024x101_S1024x101_0_0 : ∀ a, (![0, 0] : Fin 2 → Nat) a + S1024x101.size a ≤ S1024x101.size a
  h_S1024x101 : 0 < S1024x101.numel
  dot_S1024x80_S80x256_S1024x256_1_0_0_1_n_n_wf : DotDims.WF S1024x80 S80x256 S1024x256 [1] [0] [0] [1] [] []
  dot_S1024x256_S256x128_S1024x128_1_0_0_1_n_n_wf : DotDims.WF S1024x256 S256x128 S1024x128 [1] [0] [0] [1] [] []
  dot_S1024x128_S128x64_S1024x64_1_0_0_1_n_n_wf : DotDims.WF S1024x128 S128x64 S1024x64 [1] [0] [0] [1] [] []
  dot_S1024x64_S64x101_S1024x101_1_0_0_1_n_n_wf : DotDims.WF S1024x64 S64x101 S1024x101 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x60.size a ≤ S131072x60.size a
  hwx0_0 : ∀ i : grid0.Coords, EltTy.bits .f32 = 32 ∨ (Rect.block (s := S131072x60) S1024x60.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x20.size a ≤ S131072x20.size a
  hwx0_1 : ∀ i : grid0.Coords, EltTy.bits .f32 = 32 ∨ (Rect.block (s := S131072x20) S1024x20.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x3.size a ≤ S131072x3.size a
  hwx0_2 : ∀ i : grid0.Coords, EltTy.bits .f32 = 32 ∨ (Rect.block (s := S131072x3) S1024x3.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x101.size a ≤ S1x101.size a
  hwx0_3 : ∀ i : grid0.Coords, EltTy.bits .f32 = 32 ∨ (Rect.block (s := S1x101) S1x101.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S80x256.size a ≤ S80x256.size a
  hwx0_4 : ∀ i : grid0.Coords, EltTy.bits .f32 = 32 ∨ (Rect.block (s := S80x256) S80x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256.size a ≤ S256.size a
  hwx0_5 : ∀ i : grid0.Coords, EltTy.bits .f32 = 32 ∨ (Rect.block (s := S256) S256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256.size a ≤ S256.size a
  hwx0_6 : ∀ i : grid0.Coords, EltTy.bits .f32 = 32 ∨ (Rect.block (s := S256) S256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256.size a ≤ S256.size a
  hwx0_7 : ∀ i : grid0.Coords, EltTy.bits .f32 = 32 ∨ (Rect.block (s := S256) S256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256x128.size a ≤ S256x128.size a
  hwx0_8 : ∀ i : grid0.Coords, EltTy.bits .f32 = 32 ∨ (Rect.block (s := S256x128) S256x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128.size a ≤ S128.size a
  hwx0_9 : ∀ i : grid0.Coords, EltTy.bits .f32 = 32 ∨ (Rect.block (s := S128) S128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128.size a ≤ S128.size a
  hwx0_10 : ∀ i : grid0.Coords, EltTy.bits .f32 = 32 ∨ (Rect.block (s := S128) S128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128.size a ≤ S128.size a
  hwx0_11 : ∀ i : grid0.Coords, EltTy.bits .f32 = 32 ∨ (Rect.block (s := S128) S128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S128x64.size a ≤ S128x64.size a
  hwx0_12 : ∀ i : grid0.Coords, EltTy.bits .f32 = 32 ∨ (Rect.block (s := S128x64) S128x64.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S64.size a ≤ S64.size a
  hwx0_13 : ∀ i : grid0.Coords, EltTy.bits .f32 = 32 ∨ (Rect.block (s := S64) S64.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S64.size a ≤ S64.size a
  hwx0_14 : ∀ i : grid0.Coords, EltTy.bits .f32 = 32 ∨ (Rect.block (s := S64) S64.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S64.size a ≤ S64.size a
  hwx0_15 : ∀ i : grid0.Coords, EltTy.bits .f32 = 32 ∨ (Rect.block (s := S64) S64.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S64x101.size a ≤ S64x101.size a
  hwx0_16 : ∀ i : grid0.Coords, EltTy.bits .f32 = 32 ∨ (Rect.block (s := S64x101) S64x101.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S101.size a ≤ S101.size a
  hwx0_17 : ∀ i : grid0.Coords, EltTy.bits .f32 = 32 ∨ (Rect.block (s := S101) S101.size (cc0_transform_17 i) (hinb0_17 i)).WholeWords (EltTy.packing .f32)
  hstage0_18 : ∀ j, (stage0_18 j).IsWhole
  nbuf0_18 : grid0.bufCount reads0_18 false = 2
  hreads0_18 : ∀ i i' : grid0.Coords, (∀ a, reads0_18 a = true → i a = i' a) → cc0_transform_18 i = cc0_transform_18 i'
  hinb0_18 : ∀ (i : grid0.Coords) a, (cc0_transform_18 i a + 1) * S1024x101.size a ≤ S131072x101.size a
  hwx0_18 : ∀ i : grid0.Coords, EltTy.bits .f32 = 32 ∨ (Rect.block (s := S131072x101) S1024x101.size (cc0_transform_18 i) (hinb0_18 i)).WholeWords (EltTy.packing .f32)

variable [Facts₀]

def dot_S1024x80_S80x256_S1024x256_1_0_0_1_n_n : DotDims S1024x80 S80x256 S1024x256 where
  lhsContracting := [1]
  rhsContracting := [0]
  lhsNonContracting := [0]
  rhsNonContracting := [1]
  lhsBatch := []
  rhsBatch := []
  wf := dot_S1024x80_S80x256_S1024x256_1_0_0_1_n_n_wf
def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf
def dot_S1024x128_S128x64_S1024x64_1_0_0_1_n_n : DotDims S1024x128 S128x64 S1024x64 where
  lhsContracting := [1]
  rhsContracting := [0]
  lhsNonContracting := [0]
  rhsNonContracting := [1]
  lhsBatch := []
  rhsBatch := []
  wf := dot_S1024x128_S128x64_S1024x64_1_0_0_1_n_n_wf
def dot_S1024x64_S64x101_S1024x101_1_0_0_1_n_n : DotDims S1024x64 S64x101 S1024x101 where
  lhsContracting := [1]
  rhsContracting := [0]
  lhsNonContracting := [0]
  rhsNonContracting := [1]
  lhsBatch := []
  rhsBatch := []
  wf := dot_S1024x64_S64x101_S1024x101_1_0_0_1_n_n_wf

abbrev win0_0 : Pipeline.Window sig grid0 :=
  Pipeline.Window.ofSpec (Memref.whole main_arg0) S1024x60.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x20.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1024x3.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x101.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S80x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg8) S256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg9) S256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg10) S256x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg11) S128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg12) S128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg13) S128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg14) S128x64.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg15) S64.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg16) S64.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg17) S64.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_arg18) S64x101.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_arg19) S101.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v5) S1024x101.size cc0_transform_18 reads0_18 true false 2 stage0_18 sem0_18
    hrank0 hreads0_18 hinb0_18 nbuf0_18 (Memref.isWhole_whole _) hwx0_18 hstage0_18

abbrev win0 : Fin 19 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | ⟨_ + 19, h⟩ => absurd h (Nat.not_lt.2 (Nat.le_add_left _ _))
abbrev spec0 : Fin 19 → Pipeline.WinSpec sig grid0.rank := fun w => (win0 w).toWinSpec

class Facts : Prop extends Facts₀ where

variable [Facts]
-- ==== ReferenceIdeal.lean ====
abbrev S131072x60 : Shape := ⟨2, ![131072, 60]⟩
abbrev S131072x20 : Shape := ⟨2, ![131072, 20]⟩
abbrev S131072 : Shape := ⟨1, ![131072]⟩
abbrev S101 : Shape := ⟨1, ![101]⟩
abbrev S80x256 : Shape := ⟨2, ![80, 256]⟩
abbrev S256 : Shape := ⟨1, ![256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x101 : Shape := ⟨2, ![64, 101]⟩
abbrev S131072x1 : Shape := ⟨2, ![131072, 1]⟩
abbrev S1x101 : Shape := ⟨2, ![1, 101]⟩
abbrev S131072x101 : Shape := ⟨2, ![131072, 101]⟩
abbrev S_ : Shape := ⟨0, ![]⟩
abbrev S131072x80 : Shape := ⟨2, ![131072, 80]⟩
abbrev S131072x256 : Shape := ⟨2, ![131072, 256]⟩
abbrev S1x256 : Shape := ⟨2, ![1, 256]⟩
abbrev S131072x128 : Shape := ⟨2, ![131072, 128]⟩
abbrev S1x128 : Shape := ⟨2, ![1, 128]⟩
abbrev S131072x64 : Shape := ⟨2, ![131072, 64]⟩
abbrev S1x64 : Shape := ⟨2, ![1, 64]⟩
abbrev S13238272 : Shape := ⟨1, ![13238272]⟩
abbrev S13238272x1 : Shape := ⟨2, ![13238272, 1]⟩

abbrev nBuf : Space → Nat
  | .hbm => 266
  | .vmem => 0
  | .smem => 0
  | _ => 0

abbrev hbmTy0_0 (i : Nat) : BufTy := match i % 128 with
  | 0 => ⟨S131072x60, .f32⟩
  | 1 => ⟨S131072x20, .f32⟩
  | 2 => ⟨S131072, .f32⟩
  | 3 => ⟨S131072, .f32⟩
  | 4 => ⟨S131072, .f32⟩
  | 5 => ⟨S101, .f32⟩
  | 6 => ⟨S80x256, .f32⟩
  | 7 => ⟨S256, .f32⟩
  | 8 => ⟨S256, .f32⟩
  | 9 => ⟨S256, .f32⟩
  | 10 => ⟨S256x128, .f32⟩
  | 11 => ⟨S128, .f32⟩
  | 12 => ⟨S128, .f32⟩
  | 13 => ⟨S128, .f32⟩
  | 14 => ⟨S128x64, .f32⟩
  | 15 => ⟨S64, .f32⟩
  | 16 => ⟨S64, .f32⟩
  | 17 => ⟨S64, .f32⟩
  | 18 => ⟨S64x101, .f32⟩
  | 19 => ⟨S101, .f32⟩
  | 20 => ⟨S131072x1, .f32⟩
  | 21 => ⟨S131072x1, .f32⟩
  | 22 => ⟨S131072x1, .f32⟩
  | 23 => ⟨S131072x1, .f32⟩
  | 24 => ⟨S1x101, .f32⟩
  | 25 => ⟨S131072x101, .f32⟩
  | 26 => ⟨S131072x101, .f32⟩
  | 27 => ⟨S131072x101, .f32⟩
  | 28 => ⟨S131072x101, .f32⟩
  | 29 => ⟨S131072x101, .f32⟩
  | 30 => ⟨S_, .f32⟩
  | 31 => ⟨S_, .f32⟩
  | 32 => ⟨S_, .f32⟩
  | 33 => ⟨S131072x101, .f32⟩
  | 34 => ⟨S131072x101, .f32⟩
  | 35 => ⟨S_, .f32⟩
  | 36 => ⟨S131072x101, .f32⟩
  | 37 => ⟨S131072x101, .f32⟩
  | 38 => ⟨S_, .f32⟩
  | 39 => ⟨S131072x101, .f32⟩
  | 40 => ⟨S131072x101, .f32⟩
  | 41 => ⟨S_, .f32⟩
  | 42 => ⟨S131072x101, .f32⟩
  | 43 => ⟨S131072x101, .f32⟩
  | 44 => ⟨S131072x101, .f32⟩
  | 45 => ⟨S131072x101, .i32⟩
  | 46 => ⟨S131072x101, .f32⟩
  | 47 => ⟨S131072x101, .i32⟩
  | 48 => ⟨S131072x101, .i1⟩
  | 49 => ⟨S_, .i32⟩
  | 50 => ⟨S131072x101, .i32⟩
  | 51 => ⟨S131072x101, .i1⟩
  | 52 => ⟨S131072x101, .i1⟩
  | 53 => ⟨S_, .i32⟩
  | 54 => ⟨S131072x101, .i32⟩
  | 55 => ⟨S131072x101, .i1⟩
  | 56 => ⟨S131072x101, .i1⟩
  | 57 => ⟨S_, .i32⟩
  | 58 => ⟨S131072x101, .i32⟩
  | 59 => ⟨S131072x101, .i32⟩
  | 60 => ⟨S131072x101, .i32⟩
  | 61 => ⟨S_, .i32⟩
  | 62 => ⟨S131072x101, .i32⟩
  | 63 => ⟨S131072x101, .i32⟩
  | 64 => ⟨S131072x101, .i32⟩
  | 65 => ⟨S131072x101, .f32⟩
  | 66 => ⟨S131072x101, .f32⟩
  | 67 => ⟨S131072x80, .f32⟩
  | 68 => ⟨S131072x256, .f32⟩
  | 69 => ⟨S1x256, .f32⟩
  | 70 => ⟨S131072x256, .f32⟩
  | 71 => ⟨S131072x256, .f32⟩
  | 72 => ⟨S_, .f32⟩
  | 73 => ⟨S131072, .f32⟩
  | 74 => ⟨S131072x1, .f32⟩
  | 75 => ⟨S_, .f32⟩
  | 76 => ⟨S131072x1, .f32⟩
  | 77 => ⟨S131072x1, .f32⟩
  | 78 => ⟨S131072x256, .f32⟩
  | 79 => ⟨S131072x256, .f32⟩
  | 80 => ⟨S131072x256, .f32⟩
  | 81 => ⟨S_, .f32⟩
  | 82 => ⟨S131072, .f32⟩
  | 83 => ⟨S131072x1, .f32⟩
  | 84 => ⟨S_, .f32⟩
  | 85 => ⟨S131072x1, .f32⟩
  | 86 => ⟨S131072x1, .f32⟩
  | 87 => ⟨S131072x256, .f32⟩
  | 88 => ⟨S131072x256, .f32⟩
  | 89 => ⟨S_, .f32⟩
  | 90 => ⟨S131072x1, .f32⟩
  | 91 => ⟨S131072x1, .f32⟩
  | 92 => ⟨S131072x1, .f32⟩
  | 93 => ⟨S131072x256, .f32⟩
  | 94 => ⟨S131072x256, .f32⟩
  | 95 => ⟨S1x256, .f32⟩
  | 96 => ⟨S131072x256, .f32⟩
  | 97 => ⟨S131072x256, .f32⟩
  | 98 => ⟨S1x256, .f32⟩
  | 99 => ⟨S131072x256, .f32⟩
  | 100 => ⟨S131072x256, .f32⟩
  | 101 => ⟨S131072x256, .f32⟩
  | 102 => ⟨S131072x256, .f32⟩
  | 103 => ⟨S_, .f32⟩
  | 104 => ⟨S131072x256, .f32⟩
  | 105 => ⟨S131072x256, .f32⟩
  | 106 => ⟨S_, .f32⟩
  | 107 => ⟨S131072x256, .f32⟩
  | 108 => ⟨S131072x256, .f32⟩
  | 109 => ⟨S131072x256, .f32⟩
  | 110 => ⟨S131072x128, .f32⟩
  | 111 => ⟨S1x128, .f32⟩
  | 112 => ⟨S131072x128, .f32⟩
  | 113 => ⟨S131072x128, .f32⟩
  | 114 => ⟨S_, .f32⟩
  | 115 => ⟨S131072, .f32⟩
  | 116 => ⟨S131072x1, .f32⟩
  | 117 => ⟨S_, .f32⟩
  | 118 => ⟨S131072x1, .f32⟩
  | 119 => ⟨S131072x1, .f32⟩
  | 120 => ⟨S131072x128, .f32⟩
  | 121 => ⟨S131072x128, .f32⟩
  | 122 => ⟨S131072x128, .f32⟩
  | 123 => ⟨S_, .f32⟩
  | 124 => ⟨S131072, .f32⟩
  | 125 => ⟨S131072x1, .f32⟩
  | 126 => ⟨S_, .f32⟩
  | 127 => ⟨S131072x1, .f32⟩
  | _ => ⟨S131072x60, .f32⟩

abbrev hbmTy0_1 (i : Nat) : BufTy := match i % 128 with
  | 0 => ⟨S131072x1, .f32⟩
  | 1 => ⟨S131072x128, .f32⟩
  | 2 => ⟨S131072x128, .f32⟩
  | 3 => ⟨S_, .f32⟩
  | 4 => ⟨S131072x1, .f32⟩
  | 5 => ⟨S131072x1, .f32⟩
  | 6 => ⟨S131072x1, .f32⟩
  | 7 => ⟨S131072x128, .f32⟩
  | 8 => ⟨S131072x128, .f32⟩
  | 9 => ⟨S1x128, .f32⟩
  | 10 => ⟨S131072x128, .f32⟩
  | 11 => ⟨S131072x128, .f32⟩
  | 12 => ⟨S1x128, .f32⟩
  | 13 => ⟨S131072x128, .f32⟩
  | 14 => ⟨S131072x128, .f32⟩
  | 15 => ⟨S131072x128, .f32⟩
  | 16 => ⟨S131072x128, .f32⟩
  | 17 => ⟨S_, .f32⟩
  | 18 => ⟨S131072x128, .f32⟩
  | 19 => ⟨S131072x128, .f32⟩
  | 20 => ⟨S_, .f32⟩
  | 21 => ⟨S131072x128, .f32⟩
  | 22 => ⟨S131072x128, .f32⟩
  | 23 => ⟨S131072x128, .f32⟩
  | 24 => ⟨S131072x64, .f32⟩
  | 25 => ⟨S1x64, .f32⟩
  | 26 => ⟨S131072x64, .f32⟩
  | 27 => ⟨S131072x64, .f32⟩
  | 28 => ⟨S_, .f32⟩
  | 29 => ⟨S131072, .f32⟩
  | 30 => ⟨S131072x1, .f32⟩
  | 31 => ⟨S_, .f32⟩
  | 32 => ⟨S131072x1, .f32⟩
  | 33 => ⟨S131072x1, .f32⟩
  | 34 => ⟨S131072x64, .f32⟩
  | 35 => ⟨S131072x64, .f32⟩
  | 36 => ⟨S131072x64, .f32⟩
  | 37 => ⟨S_, .f32⟩
  | 38 => ⟨S131072, .f32⟩
  | 39 => ⟨S131072x1, .f32⟩
  | 40 => ⟨S_, .f32⟩
  | 41 => ⟨S131072x1, .f32⟩
  | 42 => ⟨S131072x1, .f32⟩
  | 43 => ⟨S131072x64, .f32⟩
  | 44 => ⟨S131072x64, .f32⟩
  | 45 => ⟨S_, .f32⟩
  | 46 => ⟨S131072x1, .f32⟩
  | 47 => ⟨S131072x1, .f32⟩
  | 48 => ⟨S131072x1, .f32⟩
  | 49 => ⟨S131072x64, .f32⟩
  | 50 => ⟨S131072x64, .f32⟩
  | 51 => ⟨S1x64, .f32⟩
  | 52 => ⟨S131072x64, .f32⟩
  | 53 => ⟨S131072x64, .f32⟩
  | 54 => ⟨S1x64, .f32⟩
  | 55 => ⟨S131072x64, .f32⟩
  | 56 => ⟨S131072x64, .f32⟩
  | 57 => ⟨S131072x64, .f32⟩
  | 58 => ⟨S131072x64, .f32⟩
  | 59 => ⟨S_, .f32⟩
  | 60 => ⟨S131072x64, .f32⟩
  | 61 => ⟨S131072x64, .f32⟩
  | 62 => ⟨S_, .f32⟩
  | 63 => ⟨S131072x64, .f32⟩
  | 64 => ⟨S131072x64, .f32⟩
  | 65 => ⟨S131072x64, .f32⟩
  | 66 => ⟨S131072x101, .f32⟩
  | 67 => ⟨S1x101, .f32⟩
  | 68 => ⟨S131072x101, .f32⟩
  | 69 => ⟨S131072x101, .f32⟩
  | 70 => ⟨S_, .f32⟩
  | 71 => ⟨S131072, .f32⟩
  | 72 => ⟨S_, .f32⟩
  | 73 => ⟨S131072, .f32⟩
  | 74 => ⟨S131072, .f32⟩
  | 75 => ⟨S131072x1, .f32⟩
  | 76 => ⟨S131072x101, .f32⟩
  | 77 => ⟨S131072x101, .f32⟩
  | 78 => ⟨S131072x101, .f32⟩
  | 79 => ⟨S_, .f32⟩
  | 80 => ⟨S131072, .f32⟩
  | 81 => ⟨S131072x1, .f32⟩
  | 82 => ⟨S131072x101, .f32⟩
  | 83 => ⟨S131072x101, .f32⟩
  | 84 => ⟨S131072, .i32⟩
  | 85 => ⟨S_, .i32⟩
  | 86 => ⟨S131072, .i32⟩
  | 87 => ⟨S131072, .i32⟩
  | 88 => ⟨S131072x1, .i32⟩
  | 89 => ⟨S131072x101, .i32⟩
  | 90 => ⟨S131072x101, .i32⟩
  | 91 => ⟨S13238272, .i32⟩
  | 92 => ⟨S_, .i32⟩
  | 93 => ⟨S_, .i32⟩
  | 94 => ⟨S_, .i32⟩
  | 95 => ⟨S13238272, .i32⟩
  | 96 => ⟨S13238272, .i32⟩
  | 97 => ⟨S_, .i32⟩
  | 98 => ⟨S13238272, .i32⟩
  | 99 => ⟨S13238272, .i32⟩
  | 100 => ⟨S131072x101, .i32⟩
  | 101 => ⟨S131072x101, .i32⟩
  | 102 => ⟨S13238272, .i32⟩
  | 103 => ⟨S_, .i32⟩
  | 104 => ⟨S_, .i32⟩
  | 105 => ⟨S_, .i32⟩
  | 106 => ⟨S13238272, .i32⟩
  | 107 => ⟨S13238272, .i32⟩
  | 108 => ⟨S_, .i32⟩
  | 109 => ⟨S13238272, .i32⟩
  | 110 => ⟨S13238272, .i32⟩
  | 111 => ⟨S131072x101, .f32⟩
  | 112 => ⟨S131072x101, .f32⟩
  | 113 => ⟨S13238272, .f32⟩
  | 114 => ⟨S131072x101, .f32⟩
  | 115 => ⟨S131072x101, .f32⟩
  | 116 => ⟨S13238272, .f32⟩
  | 117 => ⟨S_, .f32⟩
  | 118 => ⟨S13238272, .f32⟩
  | 119 => ⟨S_, .i32⟩
  | 120 => ⟨S13238272, .i32⟩
  | 121 => ⟨S13238272, .i1⟩
  | 122 => ⟨S_, .i32⟩
  | 123 => ⟨S13238272, .i32⟩
  | 124 => ⟨S13238272, .i32⟩
  | 125 => ⟨S13238272, .i32⟩
  | 126 => ⟨S13238272x1, .i32⟩
  | 127 => ⟨S13238272, .f32⟩
  | _ => ⟨S131072x60, .f32⟩

abbrev hbmTy0_2 (i : Nat) : BufTy := match i % 128 with
  | 0 => ⟨S_, .i32⟩
  | 1 => ⟨S13238272, .i32⟩
  | 2 => ⟨S13238272, .i1⟩
  | 3 => ⟨S_, .i32⟩
  | 4 => ⟨S13238272, .i32⟩
  | 5 => ⟨S13238272, .i32⟩
  | 6 => ⟨S13238272, .i32⟩
  | 7 => ⟨S13238272x1, .i32⟩
  | 8 => ⟨S13238272, .f32⟩
  | 9 => ⟨S131072x101, .f32⟩
  | _ => ⟨S131072x60, .f32⟩

abbrev hbmTy (i : Nat) : BufTy := match i / 128 with
  | 0 => hbmTy0_0 i
  | 1 => hbmTy0_1 i
  | 2 => hbmTy0_2 i
  | _ => ⟨S131072x60, .f32⟩

abbrev bufTy : (tb : Table) → Fin (tcTables nBuf tb) → BufTy
  | .hbm, ⟨i, _⟩ => hbmTy i
  | _, _ => ⟨S131072x60, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_cst : Ref sig .tc := ⟨.hbm, 30, rfl⟩
abbrev main_cst_0 : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_v10 : Ref sig .tc := ⟨.hbm, 37, rfl⟩
abbrev main_cst_1 : Ref sig .tc := ⟨.hbm, 38, rfl⟩
abbrev main_v11 : Ref sig .tc := ⟨.hbm, 39, rfl⟩
abbrev main_v12 : Ref sig .tc := ⟨.hbm, 40, rfl⟩
abbrev main_cst_2 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_c : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_c_3 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_c_4 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_c_5 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_cst_6 : Ref sig .tc := ⟨.hbm, 72, rfl⟩
abbrev main_v39 : Ref sig .tc := ⟨.hbm, 73, rfl⟩
abbrev main_v40 : Ref sig .tc := ⟨.hbm, 74, rfl⟩
abbrev main_cst_7 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_cst_8 : Ref sig .tc := ⟨.hbm, 81, rfl⟩
abbrev main_v46 : Ref sig .tc := ⟨.hbm, 82, rfl⟩
abbrev main_v47 : Ref sig .tc := ⟨.hbm, 83, rfl⟩
abbrev main_cst_9 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_cst_10 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_call3_v0 : Ref sig .tc := ⟨.hbm, 101, rfl⟩
abbrev main_call3_v1 : Ref sig .tc := ⟨.hbm, 102, rfl⟩
abbrev main_call3_cst : Ref sig .tc := ⟨.hbm, 103, rfl⟩
abbrev main_call3_v2 : Ref sig .tc := ⟨.hbm, 104, rfl⟩
abbrev main_call3_v3 : Ref sig .tc := ⟨.hbm, 105, rfl⟩
abbrev main_call3_cst_0 : Ref sig .tc := ⟨.hbm, 106, rfl⟩
abbrev main_call3_v4 : Ref sig .tc := ⟨.hbm, 107, rfl⟩
abbrev main_call3_v5 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_cst_11 : Ref sig .tc := ⟨.hbm, 114, rfl⟩
abbrev main_v68 : Ref sig .tc := ⟨.hbm, 115, rfl⟩
abbrev main_v69 : Ref sig .tc := ⟨.hbm, 116, rfl⟩
abbrev main_cst_12 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_cst_13 : Ref sig .tc := ⟨.hbm, 123, rfl⟩
abbrev main_v75 : Ref sig .tc := ⟨.hbm, 124, rfl⟩
abbrev main_v76 : Ref sig .tc := ⟨.hbm, 125, rfl⟩
abbrev main_cst_14 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_v80 : Ref sig .tc := ⟨.hbm, 130, rfl⟩
abbrev main_cst_15 : Ref sig .tc := ⟨.hbm, 131, rfl⟩
abbrev main_v81 : Ref sig .tc := ⟨.hbm, 132, rfl⟩
abbrev main_v82 : Ref sig .tc := ⟨.hbm, 133, rfl⟩
abbrev main_v83 : Ref sig .tc := ⟨.hbm, 134, rfl⟩
abbrev main_v84 : Ref sig .tc := ⟨.hbm, 135, rfl⟩
abbrev main_v85 : Ref sig .tc := ⟨.hbm, 136, rfl⟩
abbrev main_v86 : Ref sig .tc := ⟨.hbm, 137, rfl⟩
abbrev main_v87 : Ref sig .tc := ⟨.hbm, 138, rfl⟩
abbrev main_v88 : Ref sig .tc := ⟨.hbm, 139, rfl⟩
abbrev main_v89 : Ref sig .tc := ⟨.hbm, 140, rfl⟩
abbrev main_v90 : Ref sig .tc := ⟨.hbm, 141, rfl⟩
abbrev main_v91 : Ref sig .tc := ⟨.hbm, 142, rfl⟩
abbrev main_call4_v0 : Ref sig .tc := ⟨.hbm, 143, rfl⟩
abbrev main_call4_v1 : Ref sig .tc := ⟨.hbm, 144, rfl⟩
abbrev main_call4_cst : Ref sig .tc := ⟨.hbm, 145, rfl⟩
abbrev main_call4_v2 : Ref sig .tc := ⟨.hbm, 146, rfl⟩
abbrev main_call4_v3 : Ref sig .tc := ⟨.hbm, 147, rfl⟩
abbrev main_call4_cst_0 : Ref sig .tc := ⟨.hbm, 148, rfl⟩
abbrev main_call4_v4 : Ref sig .tc := ⟨.hbm, 149, rfl⟩
abbrev main_call4_v5 : Ref sig .tc := ⟨.hbm, 150, rfl⟩
abbrev main_v92 : Ref sig .tc := ⟨.hbm, 151, rfl⟩
abbrev main_v93 : Ref sig .tc := ⟨.hbm, 152, rfl⟩
abbrev main_v94 : Ref sig .tc := ⟨.hbm, 153, rfl⟩
abbrev main_v95 : Ref sig .tc := ⟨.hbm, 154, rfl⟩
abbrev main_v96 : Ref sig .tc := ⟨.hbm, 155, rfl⟩
abbrev main_cst_16 : Ref sig .tc := ⟨.hbm, 156, rfl⟩
abbrev main_v97 : Ref sig .tc := ⟨.hbm, 157, rfl⟩
abbrev main_v98 : Ref sig .tc := ⟨.hbm, 158, rfl⟩
abbrev main_cst_17 : Ref sig .tc := ⟨.hbm, 159, rfl⟩
abbrev main_v99 : Ref sig .tc := ⟨.hbm, 160, rfl⟩
abbrev main_v100 : Ref sig .tc := ⟨.hbm, 161, rfl⟩
abbrev main_v101 : Ref sig .tc := ⟨.hbm, 162, rfl⟩
abbrev main_v102 : Ref sig .tc := ⟨.hbm, 163, rfl⟩
abbrev main_v103 : Ref sig .tc := ⟨.hbm, 164, rfl⟩
abbrev main_cst_18 : Ref sig .tc := ⟨.hbm, 165, rfl⟩
abbrev main_v104 : Ref sig .tc := ⟨.hbm, 166, rfl⟩
abbrev main_v105 : Ref sig .tc := ⟨.hbm, 167, rfl⟩
abbrev main_cst_19 : Ref sig .tc := ⟨.hbm, 168, rfl⟩
abbrev main_v106 : Ref sig .tc := ⟨.hbm, 169, rfl⟩
abbrev main_v107 : Ref sig .tc := ⟨.hbm, 170, rfl⟩
abbrev main_v108 : Ref sig .tc := ⟨.hbm, 171, rfl⟩
abbrev main_v109 : Ref sig .tc := ⟨.hbm, 172, rfl⟩
abbrev main_cst_20 : Ref sig .tc := ⟨.hbm, 173, rfl⟩
abbrev main_v110 : Ref sig .tc := ⟨.hbm, 174, rfl⟩
abbrev main_v111 : Ref sig .tc := ⟨.hbm, 175, rfl⟩
abbrev main_v112 : Ref sig .tc := ⟨.hbm, 176, rfl⟩
abbrev main_v113 : Ref sig .tc := ⟨.hbm, 177, rfl⟩
abbrev main_v114 : Ref sig .tc := ⟨.hbm, 178, rfl⟩
abbrev main_v115 : Ref sig .tc := ⟨.hbm, 179, rfl⟩
abbrev main_v116 : Ref sig .tc := ⟨.hbm, 180, rfl⟩
abbrev main_v117 : Ref sig .tc := ⟨.hbm, 181, rfl⟩
abbrev main_v118 : Ref sig .tc := ⟨.hbm, 182, rfl⟩
abbrev main_v119 : Ref sig .tc := ⟨.hbm, 183, rfl⟩
abbrev main_v120 : Ref sig .tc := ⟨.hbm, 184, rfl⟩
abbrev main_call5_v0 : Ref sig .tc := ⟨.hbm, 185, rfl⟩
abbrev main_call5_v1 : Ref sig .tc := ⟨.hbm, 186, rfl⟩
abbrev main_call5_cst : Ref sig .tc := ⟨.hbm, 187, rfl⟩
abbrev main_call5_v2 : Ref sig .tc := ⟨.hbm, 188, rfl⟩
abbrev main_call5_v3 : Ref sig .tc := ⟨.hbm, 189, rfl⟩
abbrev main_call5_cst_0 : Ref sig .tc := ⟨.hbm, 190, rfl⟩
abbrev main_call5_v4 : Ref sig .tc := ⟨.hbm, 191, rfl⟩
abbrev main_call5_v5 : Ref sig .tc := ⟨.hbm, 192, rfl⟩
abbrev main_v121 : Ref sig .tc := ⟨.hbm, 193, rfl⟩
abbrev main_v122 : Ref sig .tc := ⟨.hbm, 194, rfl⟩
abbrev main_v123 : Ref sig .tc := ⟨.hbm, 195, rfl⟩
abbrev main_v124 : Ref sig .tc := ⟨.hbm, 196, rfl⟩
abbrev main_v125 : Ref sig .tc := ⟨.hbm, 197, rfl⟩
abbrev main_cst_21 : Ref sig .tc := ⟨.hbm, 198, rfl⟩
abbrev main_v126 : Ref sig .tc := ⟨.hbm, 199, rfl⟩
abbrev main_cst_22 : Ref sig .tc := ⟨.hbm, 200, rfl⟩
abbrev main_v127 : Ref sig .tc := ⟨.hbm, 201, rfl⟩
abbrev main_v128 : Ref sig .tc := ⟨.hbm, 202, rfl⟩
abbrev main_v129 : Ref sig .tc := ⟨.hbm, 203, rfl⟩
abbrev main_v130 : Ref sig .tc := ⟨.hbm, 204, rfl⟩
abbrev main_v131 : Ref sig .tc := ⟨.hbm, 205, rfl⟩
abbrev main_v132 : Ref sig .tc := ⟨.hbm, 206, rfl⟩
abbrev main_cst_23 : Ref sig .tc := ⟨.hbm, 207, rfl⟩
abbrev main_v133 : Ref sig .tc := ⟨.hbm, 208, rfl⟩
abbrev main_v134 : Ref sig .tc := ⟨.hbm, 209, rfl⟩
abbrev main_v135 : Ref sig .tc := ⟨.hbm, 210, rfl⟩
abbrev main_v136 : Ref sig .tc := ⟨.hbm, 211, rfl⟩
abbrev main_v137 : Ref sig .tc := ⟨.hbm, 212, rfl⟩
abbrev main_c_24 : Ref sig .tc := ⟨.hbm, 213, rfl⟩
abbrev main_v138 : Ref sig .tc := ⟨.hbm, 214, rfl⟩
abbrev main_v139 : Ref sig .tc := ⟨.hbm, 215, rfl⟩
abbrev main_v140 : Ref sig .tc := ⟨.hbm, 216, rfl⟩
abbrev main_v141 : Ref sig .tc := ⟨.hbm, 217, rfl⟩
abbrev main_v142 : Ref sig .tc := ⟨.hbm, 218, rfl⟩
abbrev main_v143 : Ref sig .tc := ⟨.hbm, 219, rfl⟩
abbrev main_c_25 : Ref sig .tc := ⟨.hbm, 220, rfl⟩
abbrev main_c_26 : Ref sig .tc := ⟨.hbm, 221, rfl⟩
abbrev main_call6_v0 : Ref sig .tc := ⟨.hbm, 222, rfl⟩
abbrev main_call6_v1 : Ref sig .tc := ⟨.hbm, 223, rfl⟩
abbrev main_call6_v2 : Ref sig .tc := ⟨.hbm, 224, rfl⟩
abbrev main_call6_v3 : Ref sig .tc := ⟨.hbm, 225, rfl⟩
abbrev main_call6_v4 : Ref sig .tc := ⟨.hbm, 226, rfl⟩
abbrev main_v144 : Ref sig .tc := ⟨.hbm, 227, rfl⟩
abbrev main_v145 : Ref sig .tc := ⟨.hbm, 228, rfl⟩
abbrev main_v146 : Ref sig .tc := ⟨.hbm, 229, rfl⟩
abbrev main_v147 : Ref sig .tc := ⟨.hbm, 230, rfl⟩
abbrev main_c_27 : Ref sig .tc := ⟨.hbm, 231, rfl⟩
abbrev main_c_28 : Ref sig .tc := ⟨.hbm, 232, rfl⟩
abbrev main_call7_v0 : Ref sig .tc := ⟨.hbm, 233, rfl⟩
abbrev main_call7_v1 : Ref sig .tc := ⟨.hbm, 234, rfl⟩
abbrev main_call7_v2 : Ref sig .tc := ⟨.hbm, 235, rfl⟩
abbrev main_call7_v3 : Ref sig .tc := ⟨.hbm, 236, rfl⟩
abbrev main_call7_v4 : Ref sig .tc := ⟨.hbm, 237, rfl⟩
abbrev main_v148 : Ref sig .tc := ⟨.hbm, 238, rfl⟩
abbrev main_v149 : Ref sig .tc := ⟨.hbm, 239, rfl⟩
abbrev main_v150 : Ref sig .tc := ⟨.hbm, 240, rfl⟩
abbrev main_v151 : Ref sig .tc := ⟨.hbm, 241, rfl⟩
abbrev main_v152 : Ref sig .tc := ⟨.hbm, 242, rfl⟩
abbrev main_v153 : Ref sig .tc := ⟨.hbm, 243, rfl⟩
abbrev main_v154 : Ref sig .tc := ⟨.hbm, 244, rfl⟩
abbrev main_cst_29 : Ref sig .tc := ⟨.hbm, 245, rfl⟩
abbrev main_v155 : Ref sig .tc := ⟨.hbm, 246, rfl⟩
abbrev main_c_30 : Ref sig .tc := ⟨.hbm, 247, rfl⟩
abbrev main_v156 : Ref sig .tc := ⟨.hbm, 248, rfl⟩
abbrev main_v157 : Ref sig .tc := ⟨.hbm, 249, rfl⟩
abbrev main_c_31 : Ref sig .tc := ⟨.hbm, 250, rfl⟩
abbrev main_v158 : Ref sig .tc := ⟨.hbm, 251, rfl⟩
abbrev main_v159 : Ref sig .tc := ⟨.hbm, 252, rfl⟩
abbrev main_v160 : Ref sig .tc := ⟨.hbm, 253, rfl⟩
abbrev main_v161 : Ref sig .tc := ⟨.hbm, 254, rfl⟩
abbrev main_v162 : Ref sig .tc := ⟨.hbm, 255, rfl⟩
abbrev main_c_32 : Ref sig .tc := ⟨.hbm, 256, rfl⟩
abbrev main_v163 : Ref sig .tc := ⟨.hbm, 257, rfl⟩
abbrev main_v164 : Ref sig .tc := ⟨.hbm, 258, rfl⟩
abbrev main_c_33 : Ref sig .tc := ⟨.hbm, 259, rfl⟩
abbrev main_v165 : Ref sig .tc := ⟨.hbm, 260, rfl⟩
abbrev main_v166 : Ref sig .tc := ⟨.hbm, 261, rfl⟩
abbrev main_v167 : Ref sig .tc := ⟨.hbm, 262, rfl⟩
abbrev main_v168 : Ref sig .tc := ⟨.hbm, 263, rfl⟩
abbrev main_v169 : Ref sig .tc := ⟨.hbm, 264, rfl⟩
abbrev main_v170 : Ref sig .tc := ⟨.hbm, 265, rfl⟩

abbrev nD : Nat := 1
abbrev τ : Topo := Topo.v7x

variable {F : FTy → Type} [FloatOps F]

class Facts₀ : Prop where
  bcast_S131072_S131072x1_0 : S131072.BroadcastsInDim S131072x1 (![0] : Fin 1 → Fin S131072x1.rank)
  bcast_S101_S1x101_1 : S101.BroadcastsInDim S1x101 (![1] : Fin 1 → Fin S1x101.rank)
  bcast_S131072x1_S131072x101_0_1 : S131072x1.BroadcastsInDim S131072x101 (![0, 1] : Fin 2 → Fin S131072x101.rank)
  bcast_S1x101_S131072x101_0_1 : S1x101.BroadcastsInDim S131072x101 (![0, 1] : Fin 2 → Fin S131072x101.rank)
  bcast_S_S131072x101 : S_.BroadcastsInDim S131072x101 (![] : Fin 0 → Fin S131072x101.rank)
  concatenates_S131072x60_S131072x20_S131072x80_d1 : Shape.Concatenates [S131072x60, S131072x20] S131072x80 1
  bcast_S256_S1x256_1 : S256.BroadcastsInDim S1x256 (![1] : Fin 1 → Fin S1x256.rank)
  bcast_S1x256_S131072x256_0_1 : S1x256.BroadcastsInDim S131072x256 (![0, 1] : Fin 2 → Fin S131072x256.rank)
  reducesTo_S131072x256_S131072_d1 : S131072x256.ReducesTo [1] S131072
  h_S_ : 0 < S_.numel
  bcast_S_S131072x1 : S_.BroadcastsInDim S131072x1 (![] : Fin 0 → Fin S131072x1.rank)
  bcast_S131072x1_S131072x256_0_1 : S131072x1.BroadcastsInDim S131072x256 (![0, 1] : Fin 2 → Fin S131072x256.rank)
  bcast_S_S131072x256 : S_.BroadcastsInDim S131072x256 (![] : Fin 0 → Fin S131072x256.rank)
  bcast_S128_S1x128_1 : S128.BroadcastsInDim S1x128 (![1] : Fin 1 → Fin S1x128.rank)
  bcast_S1x128_S131072x128_0_1 : S1x128.BroadcastsInDim S131072x128 (![0, 1] : Fin 2 → Fin S131072x128.rank)
  reducesTo_S131072x128_S131072_d1 : S131072x128.ReducesTo [1] S131072
  bcast_S131072x1_S131072x128_0_1 : S131072x1.BroadcastsInDim S131072x128 (![0, 1] : Fin 2 → Fin S131072x128.rank)
  bcast_S_S131072x128 : S_.BroadcastsInDim S131072x128 (![] : Fin 0 → Fin S131072x128.rank)
  bcast_S64_S1x64_1 : S64.BroadcastsInDim S1x64 (![1] : Fin 1 → Fin S1x64.rank)
  bcast_S1x64_S131072x64_0_1 : S1x64.BroadcastsInDim S131072x64 (![0, 1] : Fin 2 → Fin S131072x64.rank)
  reducesTo_S131072x64_S131072_d1 : S131072x64.ReducesTo [1] S131072
  bcast_S131072x1_S131072x64_0_1 : S131072x1.BroadcastsInDim S131072x64 (![0, 1] : Fin 2 → Fin S131072x64.rank)
  bcast_S_S131072x64 : S_.BroadcastsInDim S131072x64 (![] : Fin 0 → Fin S131072x64.rank)
  reducesTo_S131072x101_S131072_d1 : S131072x101.ReducesTo [1] S131072
  bcast_S_S131072 : S_.BroadcastsInDim S131072 (![] : Fin 0 → Fin S131072.rank)
  shapeCasts_S131072x101_S13238272 : S131072x101.ShapeCasts S13238272
  bcast_S_S13238272 : S_.BroadcastsInDim S13238272 (![] : Fin 0 → Fin S13238272.rank)
  bcast_S13238272_S13238272x1_0 : S13238272.BroadcastsInDim S13238272x1 (![0] : Fin 1 → Fin S13238272x1.rank)
  shapeCasts_S13238272_S131072x101 : S13238272.ShapeCasts S131072x101
  dot_S131072x80_S80x256_S131072x256_1_0_0_1_n_n_wf : DotDims.WF S131072x80 S80x256 S131072x256 [1] [0] [0] [1] [] []
  dot_S131072x256_S256x128_S131072x128_1_0_0_1_n_n_wf : DotDims.WF S131072x256 S256x128 S131072x128 [1] [0] [0] [1] [] []
  dot_S131072x128_S128x64_S131072x64_1_0_0_1_n_n_wf : DotDims.WF S131072x128 S128x64 S131072x64 [1] [0] [0] [1] [] []
  dot_S131072x64_S64x101_S131072x101_1_0_0_1_n_n_wf : DotDims.WF S131072x64 S64x101 S131072x101 [1] [0] [0] [1] [] []
  scatter_S13238272_S13238272x1_S13238272_n_0_0_1_wf : ScatterDims.WF S13238272 S13238272x1 S13238272 [] [0] [0] 1

variable [Facts₀]

def dot_S131072x80_S80x256_S131072x256_1_0_0_1_n_n : DotDims S131072x80 S80x256 S131072x256 where
  lhsContracting := [1]
  rhsContracting := [0]
  lhsNonContracting := [0]
  rhsNonContracting := [1]
  lhsBatch := []
  rhsBatch := []
  wf := dot_S131072x80_S80x256_S131072x256_1_0_0_1_n_n_wf
def dot_S131072x256_S256x128_S131072x128_1_0_0_1_n_n : DotDims S131072x256 S256x128 S131072x128 where
  lhsContracting := [1]
  rhsContracting := [0]
  lhsNonContracting := [0]
  rhsNonContracting := [1]
  lhsBatch := []
  rhsBatch := []
  wf := dot_S131072x256_S256x128_S131072x128_1_0_0_1_n_n_wf
def dot_S131072x128_S128x64_S131072x64_1_0_0_1_n_n : DotDims S131072x128 S128x64 S131072x64 where
  lhsContracting := [1]
  rhsContracting := [0]
  lhsNonContracting := [0]
  rhsNonContracting := [1]
  lhsBatch := []
  rhsBatch := []
  wf := dot_S131072x128_S128x64_S131072x64_1_0_0_1_n_n_wf
def dot_S131072x64_S64x101_S131072x101_1_0_0_1_n_n : DotDims S131072x64 S64x101 S131072x101 where
  lhsContracting := [1]
  rhsContracting := [0]
  lhsNonContracting := [0]
  rhsNonContracting := [1]
  lhsBatch := []
  rhsBatch := []
  wf := dot_S131072x64_S64x101_S131072x101_1_0_0_1_n_n_wf
def scatter_S13238272_S13238272x1_S13238272_n_0_0_1 : ScatterDims S13238272 S13238272x1 S13238272 where
  updateWindowDims := []
  insertedWindowDims := [0]
  scatterDimsToOperandDims := [0]
  indexVectorDim := 1
  wf := scatter_S13238272_S13238272x1_S13238272_n_0_0_1_wf

class Facts : Prop extends Facts₀ where

variable [Facts]
-- ==== Proof.KernelFrame.lean ====
/- The frame of `Kernel`: @main is five host operations (three broadcasts, a three-way concatenation, a
   reshape) and then one pipelined region over 128 grid points. The region's body reads its eighteen input
   windows through literal rectangles and writes its one output window whole, once. So: the arrays the region
   finds are what the host operations leave (`V`), no host operation writes an argument array, every input
   window's staging buffer holds its block at every point, the body leaves the inputs as they were and the
   output block at a value computed from the input blocks alone (`bodyVal`); the pipeline's frame run then gives that
   every array of the pipeline ends at what the proof data say and every other unscoped buffer as the region
   found it — in particular every argument array ends as launched. -/
import proofs.«100750_j352187318805_1_alg».proof.Proof.Gen.Kernel.Launch
import proofs.«100750_j352187318805_1_alg».proof.Proof.Gen.Kernel.Skeleton
import proofs.«100750_j352187318805_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body reads and writes through -/

abbrev r0_0 : Rect S1024x60 := Rect.unit (s := S1024x60) ![0, 0] S1024x60.size inb_S1024x60_S1024x60_0_0
abbrev r0_1 : Rect S1024x20 := Rect.unit (s := S1024x20) ![0, 0] S1024x20.size inb_S1024x20_S1024x20_0_0
abbrev r0_2 : Rect S80x256 := Rect.unit (s := S80x256) ![0, 0] S80x256.size inb_S80x256_S80x256_0_0
abbrev r0_3 : Rect S256 := Rect.unit (s := S256) ![0] S256.size inb_S256_S256_0
abbrev r0_4 : Rect S256x128 := Rect.unit (s := S256x128) ![0, 0] S256x128.size inb_S256x128_S256x128_0_0
abbrev r0_5 : Rect S128 := Rect.unit (s := S128) ![0] S128.size inb_S128_S128_0
abbrev r0_6 : Rect S128x64 := Rect.unit (s := S128x64) ![0, 0] S128x64.size inb_S128x64_S128x64_0_0
abbrev r0_7 : Rect S64 := Rect.unit (s := S64) ![0] S64.size inb_S64_S64_0
abbrev r0_8 : Rect S64x101 := Rect.unit (s := S64x101) ![0, 0] S64x101.size inb_S64x101_S64x101_0_0
abbrev r0_9 : Rect S101 := Rect.unit (s := S101) ![0] S101.size inb_S101_S101_0
abbrev r0_10 : Rect S1024x3 := Rect.unit (s := S1024x3) ![0, 0] S1024x1.size inb_S1024x3_S1024x1_0_0
abbrev r0_11 : Rect S1024x3 := Rect.unit (s := S1024x3) ![0, 1] S1024x1.size inb_S1024x3_S1024x1_0_1
abbrev r0_12 : Rect S1024x3 := Rect.unit (s := S1024x3) ![0, 2] S1024x1.size inb_S1024x3_S1024x1_0_2
abbrev r0_13 : Rect S1x101 := Rect.unit (s := S1x101) ![0, 0] S1x101.size inb_S1x101_S1x101_0_0
/-- the whole output block: the body's one store -/
abbrev r0_14 : Rect S1024x101 := Rect.unit (s := S1024x101) ![0, 0] S1024x101.size inb_S1024x101_S1024x101_0_0

/-! ## The stored value -/

/-- What the body stores, from the input windows' blocks `x0 … x17`: the body's pure payloads composed in the order
    the body computes them, each load replaced by the block read through the load's rectangle. -/
noncomputable def bodyVal (x0 : Vec F S1024x60 .f32) (x1 : Vec F S1024x20 .f32) (x2 : Vec F S1024x3 .f32) (x3 : Vec F S1x101 .f32)
    (x4 : Vec F S80x256 .f32) (x5 x6 x7 : Vec F S256 .f32) (x8 : Vec F S256x128 .f32) (x9 x10 x11 : Vec F S128 .f32)
    (x12 : Vec F S128x64 .f32) (x13 x14 x15 : Vec F S64 .f32) (x16 : Vec F S64x101 .f32) (x17 : Vec F S101 .f32) :
    FVec F S1024x101 .f32 :=
  -- part 1
  have v0 : Vec F S1024x60 .f32 := View.ld x0 r0_0
  have v1 : Vec F S1024x20 .f32 := View.ld x1 r0_1
  have v4 : Vec F S80x256 .f32 := View.ld x4 r0_2
  have v7 : Vec F S256 .f32 := View.ld x5 r0_3
  have v29 : Vec F S256 .f32 := View.ld x6 r0_3
  have v33 : Vec F S256 .f32 := View.ld x7 r0_3
  have v40 : Vec F S256x128 .f32 := View.ld x8 r0_4
  have v39 : FVec F S1024x256 .bf16 := k0_pay2 v0 v1 v4 v7 v29 v33
  have v41 : FVec F S256x128 .bf16 := k0_pay3 v40
  -- part 2
  have v43 : Vec F S128 .f32 := View.ld x9 r0_5
  have v65 : Vec F S128 .f32 := View.ld x10 r0_5
  have v69 : Vec F S128 .f32 := View.ld x11 r0_5
  have v76 : Vec F S128x64 .f32 := View.ld x12 r0_6
  have v79 : Vec F S64 .f32 := View.ld x13 r0_7
  have v82 : FVec F S1024x64 .f32 := k0_pay4 v39 v41 v43 v65 v69 v76 v79
  have v86 : FVec F S1024x1 .f32 := k0_pay5 v39 v41 v43 v65 v69 v76 v79
  -- part 3
  have v101 : Vec F S64 .f32 := View.ld x14 r0_7
  have v105 : Vec F S64 .f32 := View.ld x15 r0_7
  have v112 : Vec F S64x101 .f32 := View.ld x16 r0_8
  have v115 : Vec F S101 .f32 := View.ld x17 r0_9
  have v130 : Vec F S1024x1 .f32 := View.ld x2 r0_10
  have v129 : FVec F S1024x101 .f32 := k0_pay6 v82 v86 v101 v105 v112 v115
  have v131 : FVec F S1024x1 .f32 := k0_pay7 v130
  -- part 4
  have v132 : Vec F S1024x1 .f32 := View.ld x2 r0_11
  have v134 : Vec F S1024x1 .f32 := View.ld x2 r0_12
  have v136 : Vec F S1x101 .f32 := View.ld x3 r0_13
  have v170 : IVec S1x101 32 := iota .tc S1x101 32 [1] iota_S1x101_d1_w32
  have cst_54 : F .f32 := Scalar.ofBits .f32 0x00000000#32
  have v162 : IVec S1024x101 32 := k0_pay9 v131 v132 v134 v136
  have v167 : FVec F S1024x101 .f32 := k0_pay11 v129 v131 v132 v134 v136
  have v169 : FVec F S1024x101 .f32 := k0_pay12 v129 v131 v132 v134 v136
  have v171 : FVec F S1024x101 .f32 := k0_pay13 (F := F)
  have v172 : IVec S1024x1 32 := k0_pay14 v131 v132 v134 v136
  have v173 : FVec F S1024x1 .f32 := k0_pay15 v129 v131 v132 v134 v136
  have v174 : FVec F S1024x1 .f32 := k0_pay16 v129 v131 v132 v134 v136
  have v177 : IVec S1024x101 1 := k0_pay17 v131 v132 v134 v136
  -- part 5
  have cst_62 : F .f32 := Scalar.ofBits .f32 0x00000000#32
  have v216 : FVec F S1024x1 .f32 := k0_pay19 v169
  have v224 : FVec F S1024x101 .f32 := k0_pay20 v162 v167 v169 v170 v171 v172 v173 v174 v177 cst_54
  have v229 : IVec S1024x101 1 := k0_pay21 v162 v170
  -- part 6
  have cst_69 : F .f32 := Scalar.ofBits .f32 0x00000000#32
  have v276 : FVec F S1024x101 .f32 := k0_pay22 v162 v167 v169 v170 v216 v224 v229 cst_62
  have v277 : IVec S1024x1 32 := k0_pay23 v162
  have v278 : FVec F S1024x1 .f32 := k0_pay24 v167
  have v279 : FVec F S1024x1 .f32 := k0_pay25 v169
  have v282 : IVec S1024x101 1 := k0_pay26 v162 v170
  -- part 7
  have cst_77 : F .f32 := Scalar.ofBits .f32 0x00000000#32
  have v321 : FVec F S1024x1 .f32 := k0_pay28 v169
  have v329 : FVec F S1024x101 .f32 := k0_pay29 v162 v167 v169 v170 v276 v277 v278 v279 v282 cst_69
  have v334 : IVec S1024x101 1 := k0_pay30 v162 v170
  -- part 8
  have cst_84 : F .f32 := Scalar.ofBits .f32 0x00000000#32
  have v381 : FVec F S1024x101 .f32 := k0_pay31 v162 v167 v169 v170 v321 v329 v334 cst_77
  have v382 : IVec S1024x1 32 := k0_pay32 v162
  have v383 : FVec F S1024x1 .f32 := k0_pay33 v167
  have v384 : FVec F S1024x1 .f32 := k0_pay34 v169
  have v387 : IVec S1024x101 1 := k0_pay35 v162 v170
  -- part 9
  have cst_92 : F .f32 := Scalar.ofBits .f32 0x00000000#32
  have v426 : FVec F S1024x1 .f32 := k0_pay37 v169
  have v434 : FVec F S1024x101 .f32 := k0_pay38 v162 v167 v169 v170 v381 v382 v383 v384 v387 cst_84
  have v439 : IVec S1024x101 1 := k0_pay39 v162 v170
  -- part 10
  have cst_99 : F .f32 := Scalar.ofBits .f32 0x00000000#32
  have v486 : FVec F S1024x101 .f32 := k0_pay40 v162 v167 v169 v170 v426 v434 v439 cst_92
  have v487 : IVec S1024x1 32 := k0_pay41 v162
  have v488 : FVec F S1024x1 .f32 := k0_pay42 v167
  have v489 : FVec F S1024x1 .f32 := k0_pay43 v169
  have v492 : IVec S1024x101 1 := k0_pay44 v162 v170
  -- part 11
  have cst_107 : F .f32 := Scalar.ofBits .f32 0x00000000#32
  have v531 : FVec F S1024x1 .f32 := k0_pay46 v169
  have v539 : FVec F S1024x101 .f32 := k0_pay47 v162 v167 v169 v170 v486 v487 v488 v489 v492 cst_99
  have v544 : IVec S1024x101 1 := k0_pay48 v162 v170
  -- part 12
  have cst_114 : F .f32 := Scalar.ofBits .f32 0x00000000#32
  have v591 : FVec F S1024x101 .f32 := k0_pay49 v162 v167 v169 v170 v531 v539 v544 cst_107
  have v592 : IVec S1024x1 32 := k0_pay50 v162
  have v593 : FVec F S1024x1 .f32 := k0_pay51 v167
  have v594 : FVec F S1024x1 .f32 := k0_pay52 v169
  have v597 : IVec S1024x101 1 := k0_pay53 v162 v170
  -- part 13
  have cst_122 : F .f32 := Scalar.ofBits .f32 0x00000000#32
  have v636 : FVec F S1024x1 .f32 := k0_pay55 v169
  have v644 : FVec F S1024x101 .f32 := k0_pay56 v162 v167 v169 v170 v591 v592 v593 v594 v597 cst_114
  have v649 : IVec S1024x101 1 := k0_pay57 v162 v170
  -- part 14
  have cst_129 : F .f32 := Scalar.ofBits .f32 0x00000000#32
  have v696 : FVec F S1024x101 .f32 := k0_pay58 v162 v167 v169 v170 v636 v644 v649 cst_122
  have v697 : IVec S1024x1 32 := k0_pay59 v162
  have v698 : FVec F S1024x1 .f32 := k0_pay60 v167
  have v699 : FVec F S1024x1 .f32 := k0_pay61 v169
  have v702 : IVec S1024x101 1 := k0_pay62 v162 v170
  -- part 15
  have cst_137 : F .f32 := Scalar.ofBits .f32 0x00000000#32
  have v741 : FVec F S1024x1 .f32 := k0_pay64 v169
  have v749 : FVec F S1024x101 .f32 := k0_pay65 v162 v167 v169 v170 v696 v697 v698 v699 v702 cst_129
  have v754 : IVec S1024x101 1 := k0_pay66 v162 v170
  -- part 16
  have cst_144 : F .f32 := Scalar.ofBits .f32 0x00000000#32
  have v801 : FVec F S1024x101 .f32 := k0_pay67 v162 v167 v169 v170 v741 v749 v754 cst_137
  have v802 : IVec S1024x1 32 := k0_pay68 v162
  have v803 : FVec F S1024x1 .f32 := k0_pay69 v167
  have v804 : FVec F S1024x1 .f32 := k0_pay70 v169
  have v807 : IVec S1024x101 1 := k0_pay71 v162 v170
  -- part 17
  have cst_152 : F .f32 := Scalar.ofBits .f32 0x00000000#32
  have v846 : FVec F S1024x1 .f32 := k0_pay73 v169
  have v854 : FVec F S1024x101 .f32 := k0_pay74 v162 v167 v169 v170 v801 v802 v803 v804 v807 cst_144
  have v859 : IVec S1024x101 1 := k0_pay75 v162 v170
  -- part 18
  have cst_159 : F .f32 := Scalar.ofBits .f32 0x00000000#32
  have v906 : FVec F S1024x101 .f32 := k0_pay76 v162 v167 v169 v170 v846 v854 v859 cst_152
  have v907 : IVec S1024x1 32 := k0_pay77 v162
  have v908 : FVec F S1024x1 .f32 := k0_pay78 v167
  have v909 : FVec F S1024x1 .f32 := k0_pay79 v169
  have v912 : IVec S1024x101 1 := k0_pay80 v162 v170
  -- part 19
  have cst_167 : F .f32 := Scalar.ofBits .f32 0x00000000#32
  have v951 : FVec F S1024x1 .f32 := k0_pay82 v169
  have v959 : FVec F S1024x101 .f32 := k0_pay83 v162 v167 v169 v170 v906 v907 v908 v909 v912 cst_159
  have v964 : IVec S1024x101 1 := k0_pay84 v162 v170
  -- part 20
  have cst_174 : F .f32 := Scalar.ofBits .f32 0x00000000#32
  have v1011 : FVec F S1024x101 .f32 := k0_pay85 v162 v167 v169 v170 v951 v959 v964 cst_167
  have v1012 : IVec S1024x1 32 := k0_pay86 v162
  have v1013 : FVec F S1024x1 .f32 := k0_pay87 v167
  have v1014 : FVec F S1024x1 .f32 := k0_pay88 v169
  have v1017 : IVec S1024x101 1 := k0_pay89 v162 v170
  -- part 21
  have cst_182 : F .f32 := Scalar.ofBits .f32 0x00000000#32
  have v1056 : FVec F S1024x1 .f32 := k0_pay91 v169
  have v1064 : FVec F S1024x101 .f32 := k0_pay92 v162 v167 v169 v170 v1011 v1012 v1013 v1014 v1017 cst_174
  have v1069 : IVec S1024x101 1 := k0_pay93 v162 v170
  -- part 22
  have cst_189 : F .f32 := Scalar.ofBits .f32 0x00000000#32
  have v1116 : FVec F S1024x101 .f32 := k0_pay94 v162 v167 v169 v170 v1056 v1064 v1069 cst_182
  have v1117 : IVec S1024x1 32 := k0_pay95 v162
  have v1118 : FVec F S1024x1 .f32 := k0_pay96 v167
  have v1119 : FVec F S1024x1 .f32 := k0_pay97 v169
  have v1122 : IVec S1024x101 1 := k0_pay98 v162 v170
  -- part 23
  have cst_197 : F .f32 := Scalar.ofBits .f32 0x00000000#32
  have v1161 : FVec F S1024x1 .f32 := k0_pay100 v169
  have v1169 : FVec F S1024x101 .f32 := k0_pay101 v162 v167 v169 v170 v1116 v1117 v1118 v1119 v1122 cst_189
  have v1174 : IVec S1024x101 1 := k0_pay102 v162 v170
  -- part 24
  have cst_204 : F .f32 := Scalar.ofBits .f32 0x00000000#32
  have v1221 : FVec F S1024x101 .f32 := k0_pay103 v162 v167 v169 v170 v1161 v1169 v1174 cst_197
  have v1222 : IVec S1024x1 32 := k0_pay104 v162
  have v1223 : FVec F S1024x1 .f32 := k0_pay105 v167
  have v1224 : FVec F S1024x1 .f32 := k0_pay106 v169
  have v1227 : IVec S1024x101 1 := k0_pay107 v162 v170
  -- part 25
  have cst_212 : F .f32 := Scalar.ofBits .f32 0x00000000#32
  have v1266 : FVec F S1024x1 .f32 := k0_pay109 v169
  have v1274 : FVec F S1024x101 .f32 := k0_pay110 v162 v167 v169 v170 v1221 v1222 v1223 v1224 v1227 cst_204
  have v1279 : IVec S1024x101 1 := k0_pay111 v162 v170
  -- part 26
  have cst_219 : F .f32 := Scalar.ofBits .f32 0x00000000#32
  have v1326 : FVec F S1024x101 .f32 := k0_pay112 v162 v167 v169 v170 v1266 v1274 v1279 cst_212
  have v1327 : IVec S1024x1 32 := k0_pay113 v162
  have v1328 : FVec F S1024x1 .f32 := k0_pay114 v167
  have v1329 : FVec F S1024x1 .f32 := k0_pay115 v169
  have v1332 : IVec S1024x101 1 := k0_pay116 v162 v170
  -- part 27
  have cst_227 : F .f32 := Scalar.ofBits .f32 0x00000000#32
  have v1371 : FVec F S1024x1 .f32 := k0_pay118 v169
  have v1379 : FVec F S1024x101 .f32 := k0_pay119 v162 v167 v169 v170 v1326 v1327 v1328 v1329 v1332 cst_219
  have v1384 : IVec S1024x101 1 := k0_pay120 v162 v170
  -- part 28
  have cst_234 : F .f32 := Scalar.ofBits .f32 0x00000000#32
  have v1431 : FVec F S1024x101 .f32 := k0_pay121 v162 v167 v169 v170 v1371 v1379 v1384 cst_227
  have v1432 : IVec S1024x1 32 := k0_pay122 v162
  have v1433 : FVec F S1024x1 .f32 := k0_pay123 v167
  have v1434 : FVec F S1024x1 .f32 := k0_pay124 v169
  have v1437 : IVec S1024x101 1 := k0_pay125 v162 v170
  -- part 29
  have cst_242 : F .f32 := Scalar.ofBits .f32 0x00000000#32
  have v1476 : FVec F S1024x1 .f32 := k0_pay127 v169
  have v1484 : FVec F S1024x101 .f32 := k0_pay128 v162 v167 v169 v170 v1431 v1432 v1433 v1434 v1437 cst_234
  have v1489 : IVec S1024x101 1 := k0_pay129 v162 v170
  -- part 30
  have cst_249 : F .f32 := Scalar.ofBits .f32 0x00000000#32
  have v1536 : FVec F S1024x101 .f32 := k0_pay130 v162 v167 v169 v170 v1476 v1484 v1489 cst_242
  have v1537 : IVec S1024x1 32 := k0_pay131 v162
  have v1538 : FVec F S1024x1 .f32 := k0_pay132 v167
  have v1539 : FVec F S1024x1 .f32 := k0_pay133 v169
  have v1542 : IVec S1024x101 1 := k0_pay134 v162 v170
  -- part 31
  have cst_257 : F .f32 := Scalar.ofBits .f32 0x00000000#32
  have v1581 : FVec F S1024x1 .f32 := k0_pay136 v169
  have v1589 : FVec F S1024x101 .f32 := k0_pay137 v162 v167 v169 v170 v1536 v1537 v1538 v1539 v1542 cst_249
  have v1594 : IVec S1024x101 1 := k0_pay138 v162 v170
  -- part 32
  have cst_264 : F .f32 := Scalar.ofBits .f32 0x00000000#32
  have v1641 : FVec F S1024x101 .f32 := k0_pay139 v162 v167 v169 v170 v1581 v1589 v1594 cst_257
  have v1642 : IVec S1024x1 32 := k0_pay140 v162
  have v1643 : FVec F S1024x1 .f32 := k0_pay141 v167
  have v1644 : FVec F S1024x1 .f32 := k0_pay142 v169
  have v1647 : IVec S1024x101 1 := k0_pay143 v162 v170
  -- part 33
  have cst_272 : F .f32 := Scalar.ofBits .f32 0x00000000#32
  have v1686 : FVec F S1024x1 .f32 := k0_pay145 v169
  have v1694 : FVec F S1024x101 .f32 := k0_pay146 v162 v167 v169 v170 v1641 v1642 v1643 v1644 v1647 cst_264
  have v1699 : IVec S1024x101 1 := k0_pay147 v162 v170
  -- part 34
  have cst_279 : F .f32 := Scalar.ofBits .f32 0x00000000#32
  have v1746 : FVec F S1024x101 .f32 := k0_pay148 v162 v167 v169 v170 v1686 v1694 v1699 cst_272
  have v1747 : IVec S1024x1 32 := k0_pay149 v162
  have v1748 : FVec F S1024x1 .f32 := k0_pay150 v167
  have v1749 : FVec F S1024x1 .f32 := k0_pay151 v169
  have v1752 : IVec S1024x101 1 := k0_pay152 v162 v170
  -- part 35
  have cst_287 : F .f32 := Scalar.ofBits .f32 0x00000000#32
  have v1791 : FVec F S1024x1 .f32 := k0_pay154 v169
  have v1799 : FVec F S1024x101 .f32 := k0_pay155 v162 v167 v169 v170 v1746 v1747 v1748 v1749 v1752 cst_279
  have v1804 : IVec S1024x101 1 := k0_pay156 v162 v170
  -- part 36
  have cst_294 : F .f32 := Scalar.ofBits .f32 0x00000000#32
  have v1851 : FVec F S1024x101 .f32 := k0_pay157 v162 v167 v169 v170 v1791 v1799 v1804 cst_287
  have v1852 : IVec S1024x1 32 := k0_pay158 v162
  have v1853 : FVec F S1024x1 .f32 := k0_pay159 v167
  have v1854 : FVec F S1024x1 .f32 := k0_pay160 v169
  have v1857 : IVec S1024x101 1 := k0_pay161 v162 v170
  -- part 37
  have cst_302 : F .f32 := Scalar.ofBits .f32 0x00000000#32
  have v1896 : FVec F S1024x1 .f32 := k0_pay163 v169
  have v1904 : FVec F S1024x101 .f32 := k0_pay164 v162 v167 v169 v170 v1851 v1852 v1853 v1854 v1857 cst_294
  have v1909 : IVec S1024x101 1 := k0_pay165 v162 v170
  -- part 38
  have cst_309 : F .f32 := Scalar.ofBits .f32 0x00000000#32
  have v1956 : FVec F S1024x101 .f32 := k0_pay166 v162 v167 v169 v170 v1896 v1904 v1909 cst_302
  have v1957 : IVec S1024x1 32 := k0_pay167 v162
  have v1958 : FVec F S1024x1 .f32 := k0_pay168 v167
  have v1959 : FVec F S1024x1 .f32 := k0_pay169 v169
  have v1962 : IVec S1024x101 1 := k0_pay170 v162 v170
  -- part 39
  have cst_317 : F .f32 := Scalar.ofBits .f32 0x00000000#32
  have v2001 : FVec F S1024x1 .f32 := k0_pay172 v169
  have v2009 : FVec F S1024x101 .f32 := k0_pay173 v162 v167 v169 v170 v1956 v1957 v1958 v1959 v1962 cst_309
  have v2014 : IVec S1024x101 1 := k0_pay174 v162 v170
  -- part 40
  have cst_324 : F .f32 := Scalar.ofBits .f32 0x00000000#32
  have v2061 : FVec F S1024x101 .f32 := k0_pay175 v162 v167 v169 v170 v2001 v2009 v2014 cst_317
  have v2062 : IVec S1024x1 32 := k0_pay176 v162
  have v2063 : FVec F S1024x1 .f32 := k0_pay177 v167
  have v2064 : FVec F S1024x1 .f32 := k0_pay178 v169
  have v2067 : IVec S1024x101 1 := k0_pay179 v162 v170
  -- part 41
  have cst_332 : F .f32 := Scalar.ofBits .f32 0x00000000#32
  have v2106 : FVec F S1024x1 .f32 := k0_pay181 v169
  have v2114 : FVec F S1024x101 .f32 := k0_pay182 v162 v167 v169 v170 v2061 v2062 v2063 v2064 v2067 cst_324
  have v2119 : IVec S1024x101 1 := k0_pay183 v162 v170
  -- part 42
  have cst_339 : F .f32 := Scalar.ofBits .f32 0x00000000#32
  have v2166 : FVec F S1024x101 .f32 := k0_pay184 v162 v167 v169 v170 v2106 v2114 v2119 cst_332
  have v2167 : IVec S1024x1 32 := k0_pay185 v162
  have v2168 : FVec F S1024x1 .f32 := k0_pay186 v167
  have v2169 : FVec F S1024x1 .f32 := k0_pay187 v169
  have v2172 : IVec S1024x101 1 := k0_pay188 v162 v170
  -- part 43
  have cst_347 : F .f32 := Scalar.ofBits .f32 0x00000000#32
  have v2211 : FVec F S1024x1 .f32 := k0_pay190 v169
  have v2219 : FVec F S1024x101 .f32 := k0_pay191 v162 v167 v169 v170 v2166 v2167 v2168 v2169 v2172 cst_339
  have v2224 : IVec S1024x101 1 := k0_pay192 v162 v170
  -- part 44
  have cst_354 : F .f32 := Scalar.ofBits .f32 0x00000000#32
  have v2271 : FVec F S1024x101 .f32 := k0_pay193 v162 v167 v169 v170 v2211 v2219 v2224 cst_347
  have v2272 : IVec S1024x1 32 := k0_pay194 v162
  have v2273 : FVec F S1024x1 .f32 := k0_pay195 v167
  have v2274 : FVec F S1024x1 .f32 := k0_pay196 v169
  have v2277 : IVec S1024x101 1 := k0_pay197 v162 v170
  -- the last part's results and the stored sum
  have v2282 : FVec F S1024x101 .f32 := k0_pay198 v2271 v2273 v2277 cst_354
  have v2291 : FVec F S1024x101 .f32 := k0_pay199 v170 v2272 v2274
  k0_pay1 v2282 v2291
variable (m : (ℓ : Loc nD τ sig) → Buf (Elt F) ℓ) (ρ : Dev nD → PrngReg)
/-! ## @main up to the region -/

/-- Core `c`'s TensorCore buffers when the region is entered: what the five host operations before it
    (three broadcasts, the three-way concatenation, the reshape) leave of the memory as launched. -/
abbrev V (c : Dev nD) (b : Ref sig .tc) : Buf (Elt F) ((c : Thread nD τ).loc b) :=
  StableHlo.after hostOps0 (fun b => m (c, b)) b

/-- The host operations allocate nothing. -/
theorem hostOps0_fresh : (hostOps0 : List (HloOp τ sig (Elt F))).Forall fun op => op.fresh = ∅ := by
  simp only [List.Forall]; repeat' constructor

/-- @main up to the region: the host operations, then the region found at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes `main_arg10`: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes `main_arg11`: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes `main_arg12`: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes `main_arg13`: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes `main_arg14`: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes `main_arg15`: the region finds it as launched. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes `main_arg16`: the region finds it as launched. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes `main_arg17`: the region finds it as launched. -/
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes `main_arg18`: the region finds it as launched. -/
theorem V_main_arg18 (c : Dev nD) : V m c main_arg18 = m ((c : Thread nD τ).loc main_arg18) :=
  StableHlo.after_of_forall_not_mem (b := Proc.devRef .tc main_arg18) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes `main_arg19`: the region finds it as launched. -/
theorem V_main_arg19 (c : Dev nD) : V m c main_arg19 = m ((c : Thread nD τ).loc main_arg19) :=
  StableHlo.after_of_forall_not_mem (b := Proc.devRef .tc main_arg19) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof
    data whose array is `V`'s and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for any proof
    data whose array is `V`'s and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for any proof
    data whose array is `V`'s and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for any proof
    data whose array is `V`'s and whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for any proof
    data whose array is `V`'s and whose body leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for any proof
    data whose array is `V`'s and whose body leaves the block in place. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for any proof
    data whose array is `V`'s and whose body leaves the block in place. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for any proof
    data whose array is `V`'s and whose body leaves the block in place. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for any proof
    data whose array is `V`'s and whose body leaves the block in place. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for any proof
    data whose array is `V`'s and whose body leaves the block in place. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not, for any proof
    data whose array is `V`'s and whose body leaves the block in place. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, fetched there or not, for any proof
    data whose array is `V`'s and whose body leaves the block in place. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's current staging buffer holds its block at every point, fetched there or not, for any proof
    data whose array is `V`'s and whose body leaves the block in place. -/
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- Input window 13's current staging buffer holds its block at every point, fetched there or not, for any proof
    data whose array is `V`'s and whose body leaves the block in place. -/
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
/-- Input window 14's current staging buffer holds its block at every point, fetched there or not, for any proof
    data whose array is `V`'s and whose body leaves the block in place. -/
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
/-- Input window 15's current staging buffer holds its block at every point, fetched there or not, for any proof
    data whose array is `V`'s and whose body leaves the block in place. -/
theorem before0_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)
/-- Input window 16's current staging buffer holds its block at every point, fetched there or not, for any proof
    data whose array is `V`'s and whose body leaves the block in place. -/
theorem before0_16_of {c : Dev nD} (dat : Dat τ (Elt F) Unit ℕ (UR sig nD τ) ℕ cfg0 c) (hA : dat.A 16 = V m c (Pipeline.arrRef spec0 16))
    (hafter : ∀ t, dat.after 16 t = iblk m c 16 t) (t : Fin cfg0.N) (d) : dat.before 16 t d = iblk m c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)
/-- Input window 17's current staging buffer holds its block at every point, fetched there or not, for any proof
    data whose array is `V`'s and whose body leaves the block in place. -/
theorem before0_17_of {c : Dev nD} (dat : Dat τ (Elt F) Unit ℕ (UR sig nD τ) ℕ cfg0 c) (hA : dat.A 17 = V m c (Pipeline.arrRef spec0 17))
    (hafter : ∀ t, dat.after 17 t = iblk m c 17 t) (t : Fin cfg0.N) (d) : dat.before 17 t d = iblk m c 17 t :=
  (dat.before_in_eq_fetched 17 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- `main_arg0` ends as launched: window 0's array, an input, ends at its entry contents, which the host operations did not write. -/
theorem frame_arg0 (dats : (p : Fin 1) → (c : Dev nD) → Dat τ (Elt F) Unit ℕ (UR sig nD τ) ℕ (cfgs p) c)
    (hA : ∀ c w, (dats 0 c).A w = V m c (Pipeline.arrRef spec0 w)) (r : PUnit × MemSt nD τ sig (Elt F))
    (h : Pipeline.FramePost cfgs dats 0 (V m) r) (c : Dev nD) :
    r.2.mem ((c.tc : Thread nD τ).loc main_arg0) = m ((c.tc : Thread nD τ).loc main_arg0) :=
  ((h c).1 0).trans (((dats 0 c).arrAt_in 0 rfl _).trans ((hA c 0).trans (V_main_arg0 m c)))
/-- `main_arg1` ends as launched: window 1's array, an input, ends at its entry contents, which the host operations did not write. -/
theorem frame_arg1 (dats : (p : Fin 1) → (c : Dev nD) → Dat τ (Elt F) Unit ℕ (UR sig nD τ) ℕ (cfgs p) c)
    (hA : ∀ c w, (dats 0 c).A w = V m c (Pipeline.arrRef spec0 w)) (r : PUnit × MemSt nD τ sig (Elt F))
    (h : Pipeline.FramePost cfgs dats 0 (V m) r) (c : Dev nD) :
    r.2.mem ((c.tc : Thread nD τ).loc main_arg1) = m ((c.tc : Thread nD τ).loc main_arg1) :=
  ((h c).1 1).trans (((dats 0 c).arrAt_in 1 rfl _).trans ((hA c 1).trans (V_main_arg1 m c)))
/-- `main_arg2` ends as launched: no window stages it, so the frame post's second clause reads it at the region's entry, which the host operations did not write. -/
theorem frame_arg2 (dats : (p : Fin 1) → (c : Dev nD) → Dat τ (Elt F) Unit ℕ (UR sig nD τ) ℕ (cfgs p) c)
    (hA : ∀ c w, (dats 0 c).A w = V m c (Pipeline.arrRef spec0 w)) (r : PUnit × MemSt nD τ sig (Elt F))
    (h : Pipeline.FramePost cfgs dats 0 (V m) r) (c : Dev nD) :
    r.2.mem ((c.tc : Thread nD τ).loc main_arg2) = m ((c.tc : Thread nD τ).loc main_arg2) :=
  ((h c).2 main_arg2 (Pipeline.mem_restRefs_of main_arg2 (by decide) (by decide))).trans (V_main_arg2 m c)
/-- `main_arg3` ends as launched: no window stages it, so the frame post's second clause reads it at the region's entry, which the host operations did not write. -/
theorem frame_arg3 (dats : (p : Fin 1) → (c : Dev nD) → Dat τ (Elt F) Unit ℕ (UR sig nD τ) ℕ (cfgs p) c)
    (hA : ∀ c w, (dats 0 c).A w = V m c (Pipeline.arrRef spec0 w)) (r : PUnit × MemSt nD τ sig (Elt F))
    (h : Pipeline.FramePost cfgs dats 0 (V m) r) (c : Dev nD) :
    r.2.mem ((c.tc : Thread nD τ).loc main_arg3) = m ((c.tc : Thread nD τ).loc main_arg3) :=
  ((h c).2 main_arg3 (Pipeline.mem_restRefs_of main_arg3 (by decide) (by decide))).trans (V_main_arg3 m c)
/-- `main_arg4` ends as launched: no window stages it, so the frame post's second clause reads it at the region's entry, which the host operations did not write. -/
theorem frame_arg4 (dats : (p : Fin 1) → (c : Dev nD) → Dat τ (Elt F) Unit ℕ (UR sig nD τ) ℕ (cfgs p) c)
    (hA : ∀ c w, (dats 0 c).A w = V m c (Pipeline.arrRef spec0 w)) (r : PUnit × MemSt nD τ sig (Elt F))
    (h : Pipeline.FramePost cfgs dats 0 (V m) r) (c : Dev nD) :
    r.2.mem ((c.tc : Thread nD τ).loc main_arg4) = m ((c.tc : Thread nD τ).loc main_arg4) :=
  ((h c).2 main_arg4 (Pipeline.mem_restRefs_of main_arg4 (by decide) (by decide))).trans (V_main_arg4 m c)
/-- `main_arg5` ends as launched: no window stages it, so the frame post's second clause reads it at the region's entry, which the host operations did not write. -/
theorem frame_arg5 (dats : (p : Fin 1) → (c : Dev nD) → Dat τ (Elt F) Unit ℕ (UR sig nD τ) ℕ (cfgs p) c)
    (hA : ∀ c w, (dats 0 c).A w = V m c (Pipeline.arrRef spec0 w)) (r : PUnit × MemSt nD τ sig (Elt F))
    (h : Pipeline.FramePost cfgs dats 0 (V m) r) (c : Dev nD) :
    r.2.mem ((c.tc : Thread nD τ).loc main_arg5) = m ((c.tc : Thread nD τ).loc main_arg5) :=
  ((h c).2 main_arg5 (Pipeline.mem_restRefs_of main_arg5 (by decide) (by decide))).trans (V_main_arg5 m c)
/-- `main_arg6` ends as launched: window 4's array, an input, ends at its entry contents, which the host operations did not write. -/
theorem frame_arg6 (dats : (p : Fin 1) → (c : Dev nD) → Dat τ (Elt F) Unit ℕ (UR sig nD τ) ℕ (cfgs p) c)
    (hA : ∀ c w, (dats 0 c).A w = V m c (Pipeline.arrRef spec0 w)) (r : PUnit × MemSt nD τ sig (Elt F))
    (h : Pipeline.FramePost cfgs dats 0 (V m) r) (c : Dev nD) :
    r.2.mem ((c.tc : Thread nD τ).loc main_arg6) = m ((c.tc : Thread nD τ).loc main_arg6) :=
  ((h c).1 4).trans (((dats 0 c).arrAt_in 4 rfl _).trans ((hA c 4).trans (V_main_arg6 m c)))
/-- `main_arg7` ends as launched: window 5's array, an input, ends at its entry contents, which the host operations did not write. -/
theorem frame_arg7 (dats : (p : Fin 1) → (c : Dev nD) → Dat τ (Elt F) Unit ℕ (UR sig nD τ) ℕ (cfgs p) c)
    (hA : ∀ c w, (dats 0 c).A w = V m c (Pipeline.arrRef spec0 w)) (r : PUnit × MemSt nD τ sig (Elt F))
    (h : Pipeline.FramePost cfgs dats 0 (V m) r) (c : Dev nD) :
    r.2.mem ((c.tc : Thread nD τ).loc main_arg7) = m ((c.tc : Thread nD τ).loc main_arg7) :=
  ((h c).1 5).trans (((dats 0 c).arrAt_in 5 rfl _).trans ((hA c 5).trans (V_main_arg7 m c)))
/-- `main_arg8` ends as launched: window 6's array, an input, ends at its entry contents, which the host operations did not write. -/
theorem frame_arg8 (dats : (p : Fin 1) → (c : Dev nD) → Dat τ (Elt F) Unit ℕ (UR sig nD τ) ℕ (cfgs p) c)
    (hA : ∀ c w, (dats 0 c).A w = V m c (Pipeline.arrRef spec0 w)) (r : PUnit × MemSt nD τ sig (Elt F))
    (h : Pipeline.FramePost cfgs dats 0 (V m) r) (c : Dev nD) :
    r.2.mem ((c.tc : Thread nD τ).loc main_arg8) = m ((c.tc : Thread nD τ).loc main_arg8) :=
  ((h c).1 6).trans (((dats 0 c).arrAt_in 6 rfl _).trans ((hA c 6).trans (V_main_arg8 m c)))
/-- `main_arg9` ends as launched: window 7's array, an input, ends at its entry contents, which the host operations did not write. -/
theorem frame_arg9 (dats : (p : Fin 1) → (c : Dev nD) → Dat τ (Elt F) Unit ℕ (UR sig nD τ) ℕ (cfgs p) c)
    (hA : ∀ c w, (dats 0 c).A w = V m c (Pipeline.arrRef spec0 w)) (r : PUnit × MemSt nD τ sig (Elt F))
    (h : Pipeline.FramePost cfgs dats 0 (V m) r) (c : Dev nD) :
    r.2.mem ((c.tc : Thread nD τ).loc main_arg9) = m ((c.tc : Thread nD τ).loc main_arg9) :=
  ((h c).1 7).trans (((dats 0 c).arrAt_in 7 rfl _).trans ((hA c 7).trans (V_main_arg9 m c)))
/-- `main_arg10` ends as launched: window 8's array, an input, ends at its entry contents, which the host operations did not write. -/
theorem frame_arg10 (dats : (p : Fin 1) → (c : Dev nD) → Dat τ (Elt F) Unit ℕ (UR sig nD τ) ℕ (cfgs p) c)
    (hA : ∀ c w, (dats 0 c).A w = V m c (Pipeline.arrRef spec0 w)) (r : PUnit × MemSt nD τ sig (Elt F))
    (h : Pipeline.FramePost cfgs dats 0 (V m) r) (c : Dev nD) :
    r.2.mem ((c.tc : Thread nD τ).loc main_arg10) = m ((c.tc : Thread nD τ).loc main_arg10) :=
  ((h c).1 8).trans (((dats 0 c).arrAt_in 8 rfl _).trans ((hA c 8).trans (V_main_arg10 m c)))
/-- `main_arg11` ends as launched: window 9's array, an input, ends at its entry contents, which the host operations did not write. -/
theorem frame_arg11 (dats : (p : Fin 1) → (c : Dev nD) → Dat τ (Elt F) Unit ℕ (UR sig nD τ) ℕ (cfgs p) c)
    (hA : ∀ c w, (dats 0 c).A w = V m c (Pipeline.arrRef spec0 w)) (r : PUnit × MemSt nD τ sig (Elt F))
    (h : Pipeline.FramePost cfgs dats 0 (V m) r) (c : Dev nD) :
    r.2.mem ((c.tc : Thread nD τ).loc main_arg11) = m ((c.tc : Thread nD τ).loc main_arg11) :=
  ((h c).1 9).trans (((dats 0 c).arrAt_in 9 rfl _).trans ((hA c 9).trans (V_main_arg11 m c)))
/-- `main_arg12` ends as launched: window 10's array, an input, ends at its entry contents, which the host operations did not write. -/
theorem frame_arg12 (dats : (p : Fin 1) → (c : Dev nD) → Dat τ (Elt F) Unit ℕ (UR sig nD τ) ℕ (cfgs p) c)
    (hA : ∀ c w, (dats 0 c).A w = V m c (Pipeline.arrRef spec0 w)) (r : PUnit × MemSt nD τ sig (Elt F))
    (h : Pipeline.FramePost cfgs dats 0 (V m) r) (c : Dev nD) :
    r.2.mem ((c.tc : Thread nD τ).loc main_arg12) = m ((c.tc : Thread nD τ).loc main_arg12) :=
  ((h c).1 10).trans (((dats 0 c).arrAt_in 10 rfl _).trans ((hA c 10).trans (V_main_arg12 m c)))
/-- `main_arg13` ends as launched: window 11's array, an input, ends at its entry contents, which the host operations did not write. -/
theorem frame_arg13 (dats : (p : Fin 1) → (c : Dev nD) → Dat τ (Elt F) Unit ℕ (UR sig nD τ) ℕ (cfgs p) c)
    (hA : ∀ c w, (dats 0 c).A w = V m c (Pipeline.arrRef spec0 w)) (r : PUnit × MemSt nD τ sig (Elt F))
    (h : Pipeline.FramePost cfgs dats 0 (V m) r) (c : Dev nD) :
    r.2.mem ((c.tc : Thread nD τ).loc main_arg13) = m ((c.tc : Thread nD τ).loc main_arg13) :=
  ((h c).1 11).trans (((dats 0 c).arrAt_in 11 rfl _).trans ((hA c 11).trans (V_main_arg13 m c)))
/-- `main_arg14` ends as launched: window 12's array, an input, ends at its entry contents, which the host operations did not write. -/
theorem frame_arg14 (dats : (p : Fin 1) → (c : Dev nD) → Dat τ (Elt F) Unit ℕ (UR sig nD τ) ℕ (cfgs p) c)
    (hA : ∀ c w, (dats 0 c).A w = V m c (Pipeline.arrRef spec0 w)) (r : PUnit × MemSt nD τ sig (Elt F))
    (h : Pipeline.FramePost cfgs dats 0 (V m) r) (c : Dev nD) :
    r.2.mem ((c.tc : Thread nD τ).loc main_arg14) = m ((c.tc : Thread nD τ).loc main_arg14) :=
  ((h c).1 12).trans (((dats 0 c).arrAt_in 12 rfl _).trans ((hA c 12).trans (V_main_arg14 m c)))
/-- `main_arg15` ends as launched: window 13's array, an input, ends at its entry contents, which the host operations did not write. -/
theorem frame_arg15 (dats : (p : Fin 1) → (c : Dev nD) → Dat τ (Elt F) Unit ℕ (UR sig nD τ) ℕ (cfgs p) c)
    (hA : ∀ c w, (dats 0 c).A w = V m c (Pipeline.arrRef spec0 w)) (r : PUnit × MemSt nD τ sig (Elt F))
    (h : Pipeline.FramePost cfgs dats 0 (V m) r) (c : Dev nD) :
    r.2.mem ((c.tc : Thread nD τ).loc main_arg15) = m ((c.tc : Thread nD τ).loc main_arg15) :=
  ((h c).1 13).trans (((dats 0 c).arrAt_in 13 rfl _).trans ((hA c 13).trans (V_main_arg15 m c)))
/-- `main_arg16` ends as launched: window 14's array, an input, ends at its entry contents, which the host operations did not write. -/
theorem frame_arg16 (dats : (p : Fin 1) → (c : Dev nD) → Dat τ (Elt F) Unit ℕ (UR sig nD τ) ℕ (cfgs p) c)
    (hA : ∀ c w, (dats 0 c).A w = V m c (Pipeline.arrRef spec0 w)) (r : PUnit × MemSt nD τ sig (Elt F))
    (h : Pipeline.FramePost cfgs dats 0 (V m) r) (c : Dev nD) :
    r.2.mem ((c.tc : Thread nD τ).loc main_arg16) = m ((c.tc : Thread nD τ).loc main_arg16) :=
  ((h c).1 14).trans (((dats 0 c).arrAt_in 14 rfl _).trans ((hA c 14).trans (V_main_arg16 m c)))
/-- `main_arg17` ends as launched: window 15's array, an input, ends at its entry contents, which the host operations did not write. -/
theorem frame_arg17 (dats : (p : Fin 1) → (c : Dev nD) → Dat τ (Elt F) Unit ℕ (UR sig nD τ) ℕ (cfgs p) c)
    (hA : ∀ c w, (dats 0 c).A w = V m c (Pipeline.arrRef spec0 w)) (r : PUnit × MemSt nD τ sig (Elt F))
    (h : Pipeline.FramePost cfgs dats 0 (V m) r) (c : Dev nD) :
    r.2.mem ((c.tc : Thread nD τ).loc main_arg17) = m ((c.tc : Thread nD τ).loc main_arg17) :=
  ((h c).1 15).trans (((dats 0 c).arrAt_in 15 rfl _).trans ((hA c 15).trans (V_main_arg17 m c)))
/-- `main_arg18` ends as launched: window 16's array, an input, ends at its entry contents, which the host operations did not write. -/
theorem frame_arg18 (dats : (p : Fin 1) → (c : Dev nD) → Dat τ (Elt F) Unit ℕ (UR sig nD τ) ℕ (cfgs p) c)
    (hA : ∀ c w, (dats 0 c).A w = V m c (Pipeline.arrRef spec0 w)) (r : PUnit × MemSt nD τ sig (Elt F))
    (h : Pipeline.FramePost cfgs dats 0 (V m) r) (c : Dev nD) :
    r.2.mem ((c.tc : Thread nD τ).loc main_arg18) = m ((c.tc : Thread nD τ).loc main_arg18) :=
  ((h c).1 16).trans (((dats 0 c).arrAt_in 16 rfl _).trans ((hA c 16).trans (V_main_arg18 m c)))
/-- `main_arg19` ends as launched: window 17's array, an input, ends at its entry contents, which the host operations did not write. -/
theorem frame_arg19 (dats : (p : Fin 1) → (c : Dev nD) → Dat τ (Elt F) Unit ℕ (UR sig nD τ) ℕ (cfgs p) c)
    (hA : ∀ c w, (dats 0 c).A w = V m c (Pipeline.arrRef spec0 w)) (r : PUnit × MemSt nD τ sig (Elt F))
    (h : Pipeline.FramePost cfgs dats 0 (V m) r) (c : Dev nD) :
    r.2.mem ((c.tc : Thread nD τ).loc main_arg19) = m ((c.tc : Thread nD τ).loc main_arg19) :=
  ((h c).1 17).trans (((dats 0 c).arrAt_in 17 rfl _).trans ((hA c 17).trans (V_main_arg19 m c)))

/-- The frame from a frame run: for any proof data whose arrays are the region-entry contents, a run to the library's
    frame post is a run to the frame claim's post, argument by argument. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun _ h c => ⟨frame_arg0 m dats hA _ h c,
      frame_arg1 m dats hA _ h c,
      frame_arg2 m dats hA _ h c,
      frame_arg3 m dats hA _ h c,
      frame_arg4 m dats hA _ h c,
      frame_arg5 m dats hA _ h c,
      frame_arg6 m dats hA _ h c,
      frame_arg7 m dats hA _ h c,
      frame_arg8 m dats hA _ h c,
      frame_arg9 m dats hA _ h c,
      frame_arg10 m dats hA _ h c,
      frame_arg11 m dats hA _ h c,
      frame_arg12 m dats hA _ h c,
      frame_arg13 m dats hA _ h c,
      frame_arg14 m dats hA _ h c,
      frame_arg15 m dats hA _ h c,
      frame_arg16 m dats hA _ h c,
      frame_arg17 m dats hA _ h c,
      frame_arg18 m dats hA _ h c,
      frame_arg19 m dats hA _ h c⟩) h

/-! ## What the body leaves in the output window's buffer -/

/-- Window 18's staging buffer after the body, from the input windows' blocks: its one store, of the whole block. -/
def out0_18 (x0 : Vec F S1024x60 .f32) (x1 : Vec F S1024x20 .f32) (x2 : Vec F S1024x3 .f32) (x3 : Vec F S1x101 .f32) (x4 : Vec F S80x256 .f32) (x5 : Vec F S256 .f32) (x6 : Vec F S256 .f32) (x7 : Vec F S256 .f32) (x8 : Vec F S256x128 .f32) (x9 : Vec F S128 .f32) (x10 : Vec F S128 .f32) (x11 : Vec F S128 .f32) (x12 : Vec F S128x64 .f32) (x13 : Vec F S64 .f32) (x14 : Vec F S64 .f32) (x15 : Vec F S64 .f32) (x16 : Vec F S64x101 .f32) (x17 : Vec F S101 .f32) : Vec F S1024x101 .f32 :=
  View.canon [⟨r0_14, bodyVal x0 x1 x2 x3 x4 x5 x6 x7 x8 x9 x10 x11 x12 x13 x14 x15 x16 x17⟩]

/-- The store is of the whole block, so it covers the buffer. -/
theorem cover0_18 (p0 : Vec F S1024x101 .f32) (y : S1024x101.Idx) :
    ∃ pc ∈ ([⟨r0_14, p0⟩] : List (View.Piece (Elt F) S1024x101 .f32)), y ∈ pc.1.set :=
  View.cover_of_tiled [⟨r0_14, p0⟩] S1024x101.size (by rfl) y

/-! ## The body's triple -/

set_option maxHeartbeats 4000000 in
/-- The kernel body on whole staging memrefs, the inputs' at read contents `xW` and the output's at anything, runs to
    the continuation holding the inputs' as they were and the output's at `out0_18` of the inputs': the printed parts
    are run one by one through their skeletons, each a theorem of its own, composed along the body's sequence. -/
theorem sound_kernel (c : Dev nD) (E : Set ℕ) (i : grid0.Coords) (arg1 : Memref sig .tc .vmem S1024x60 .f32) (harg1 : arg1.IsWhole) (arg2 : Memref sig .tc .vmem S1024x20 .f32) (harg2 : arg2.IsWhole) (arg3 : Memref sig .tc .vmem S1024x3 .f32) (harg3 : arg3.IsWhole) (arg4 : Memref sig .tc .vmem S1x101 .f32) (harg4 : arg4.IsWhole) (arg5 : Memref sig .tc .vmem S80x256 .f32) (harg5 : arg5.IsWhole) (arg6 : Memref sig .tc .vmem S256 .f32) (harg6 : arg6.IsWhole) (arg7 : Memref sig .tc .vmem S256 .f32) (harg7 : arg7.IsWhole) (arg8 : Memref sig .tc .vmem S256 .f32) (harg8 : arg8.IsWhole) (arg9 : Memref sig .tc .vmem S256x128 .f32) (harg9 : arg9.IsWhole) (arg10 : Memref sig .tc .vmem S128 .f32) (harg10 : arg10.IsWhole) (arg11 : Memref sig .tc .vmem S128 .f32) (harg11 : arg11.IsWhole) (arg12 : Memref sig .tc .vmem S128 .f32) (harg12 : arg12.IsWhole) (arg13 : Memref sig .tc .vmem S128x64 .f32) (harg13 : arg13.IsWhole) (arg14 : Memref sig .tc .vmem S64 .f32) (harg14 : arg14.IsWhole) (arg15 : Memref sig .tc .vmem S64 .f32) (harg15 : arg15.IsWhole) (arg16 : Memref sig .tc .vmem S64 .f32) (harg16 : arg16.IsWhole) (arg17 : Memref sig .tc .vmem S64x101 .f32) (harg17 : arg17.IsWhole) (arg18 : Memref sig .tc .vmem S101 .f32) (harg18 : arg18.IsWhole) (arg19 : Memref sig .tc .vmem S1024x101 .f32) (harg19 : arg19.IsWhole)
    (x0 : Vec F S1024x60 .f32) (x1 : Vec F S1024x20 .f32) (x2 : Vec F S1024x3 .f32) (x3 : Vec F S1x101 .f32) (x4 : Vec F S80x256 .f32) (x5 : Vec F S256 .f32) (x6 : Vec F S256 .f32) (x7 : Vec F S256 .f32) (x8 : Vec F S256x128 .f32) (x9 : Vec F S128 .f32) (x10 : Vec F S128 .f32) (x11 : Vec F S128 .f32) (x12 : Vec F S128x64 .f32) (x13 : Vec F S64 .f32) (x14 : Vec F S64 .f32) (x15 : Vec F S64 .f32) (x16 : Vec F S64x101 .f32) (x17 : Vec F S101 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ (∃ d, owns (c : Thread nD τ) arg19 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare (out0_18 x0 x1 x2 x3 x4 x5 x6 x7 x8 x9 x10 x11 x12 x13 x14 x15 x16 x17)) -∗ K ⟨⟩))
      ⊢ wp frame (wpE (defs₀ (F := F)) Variants.none c none) E (cc0__kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0__kernel_eq_skeleton]; unfold cc0__kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%d18, %f18, -, H18⟩, Hk⟩
  subst hf0 hf1 hf2 hf3 hf4 hf5 hf6 hf7 hf8 hf9 hf10 hf11 hf12 hf13 hf14 hf15 hf16 hf17
  sl_exec_parts
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  iexists _; isplitr
  swap; · iexact H18
  ipureintro
  exact View.read_writes_eq_canon _ _ _ (cover0_18 _)

/-! ## The pipeline's proof data -/

/-- The proof data of the one pipeline on core `c`: the arrays as the region finds them (`V`); after the body at
    point `t` each input's buffer at its block and the output's at `out0_18` of the input blocks; the invariant the
    scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)
    | ⟨_ + 19, h⟩ => absurd h (Nat.not_lt.2 (Nat.le_add_left _ _))
  Φ _ := Pipeline.ΦA spec0 c
  q _ := fullShare
  owed _ := 0

/-- The proof data's arrays are the region-entry contents (the definition projected; `V` stays folded). -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t))

set_option maxHeartbeats 4000000 in
/-- The body at any point: the inputs' memrefs hold their blocks, so `sound_kernel` applies; the invariant and
    the core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
  iapply (sound_kernel c Set.univ (grid0.coords t) _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexists _; iexact H18
  iintro ⟨H0, H1, H2, H3, H4, H5, H6, H7, H8, H9, H10, H11, H12, H13, H14, H15, H16, H17, H18⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iexact H18

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- At the compiled mesh, for any values, from any memory with zero counters: every weakly fair execution of @main on the
    TensorCores terminates, and every final state has every array of the pipeline at what the library computes from the
    proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- info: 'Cert.Kernel.Hand.run_main' depends on axioms: [propext, Classical.choice, Quot.sound] -/
#guard_msgs in #print axioms run_main

/-- The frame: the program runs (terminates, no fault) and every argument array ends as launched, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  frame_of m ρ (dats m) (A_eq m) (run_main m ρ)

end Cert.Kernel.Hand

end
-- ==== Proof.BodyVal.lean ====
/- The value the body stores in its one output block, as a function of the eighteen input blocks: the
   body's pure payloads composed in the order the body computes them, each load replaced by the
   block read through the load's rectangle. -/
import proofs.«100750_j352187318805_1_alg».proof.Proof.Gen.KernelIdeal.Skeleton
import Idealize.ShloMosaic.Lib.Pipeline.FrameBody

set_option synthInstance.maxSize 4096

noncomputable section

namespace Cert.KernelIdeal.Hand

open Idealize.ShloMosaic Idealize.SL.Sem
open Cert.KernelIdeal.Gen

variable {F : FTy → Type} [FloatOps F]

/-! ## The rectangles the body reads and writes through -/

abbrev r0_0 : Rect S1024x60 := Rect.unit (s := S1024x60) ![0, 0] S1024x60.size inb_S1024x60_S1024x60_0_0
abbrev r0_1 : Rect S1024x20 := Rect.unit (s := S1024x20) ![0, 0] S1024x20.size inb_S1024x20_S1024x20_0_0
abbrev r0_2 : Rect S80x256 := Rect.unit (s := S80x256) ![0, 0] S80x256.size inb_S80x256_S80x256_0_0
abbrev r0_3 : Rect S256 := Rect.unit (s := S256) ![0] S256.size inb_S256_S256_0
abbrev r0_4 : Rect S256x128 := Rect.unit (s := S256x128) ![0, 0] S256x128.size inb_S256x128_S256x128_0_0
abbrev r0_5 : Rect S128 := Rect.unit (s := S128) ![0] S128.size inb_S128_S128_0
abbrev r0_6 : Rect S128x64 := Rect.unit (s := S128x64) ![0, 0] S128x64.size inb_S128x64_S128x64_0_0
abbrev r0_7 : Rect S64 := Rect.unit (s := S64) ![0] S64.size inb_S64_S64_0
abbrev r0_8 : Rect S64x101 := Rect.unit (s := S64x101) ![0, 0] S64x101.size inb_S64x101_S64x101_0_0
abbrev r0_9 : Rect S101 := Rect.unit (s := S101) ![0] S101.size inb_S101_S101_0
abbrev r0_10 : Rect S1024x3 := Rect.unit (s := S1024x3) ![0, 0] S1024x1.size inb_S1024x3_S1024x1_0_0
abbrev r0_11 : Rect S1024x3 := Rect.unit (s := S1024x3) ![0, 1] S1024x1.size inb_S1024x3_S1024x1_0_1
abbrev r0_12 : Rect S1024x3 := Rect.unit (s := S1024x3) ![0, 2] S1024x1.size inb_S1024x3_S1024x1_0_2
abbrev r0_13 : Rect S1x101 := Rect.unit (s := S1x101) ![0, 0] S1x101.size inb_S1x101_S1x101_0_0
/-- the whole output block: the body's one store -/
abbrev r0_14 : Rect S1024x101 := Rect.unit (s := S1024x101) ![0, 0] S1024x101.size inb_S1024x101_S1024x101_0_0

/-! ## The stored value -/

/-- What the body stores, from the input windows' blocks `x0 … x17`: two dense layers with layer
    normalisation and `silu`, the logits and their softmax, then the 101 compare–select–add rounds
    of the projection, the last round's sum being the stored block. -/
noncomputable def bodyVal (x0 : Vec F S1024x60 .f32) (x1 : Vec F S1024x20 .f32) (x2 : Vec F S1024x3 .f32) (x3 : Vec F S1x101 .f32)
    (x4 : Vec F S80x256 .f32) (x5 x6 x7 : Vec F S256 .f32) (x8 : Vec F S256x128 .f32) (x9 x10 x11 : Vec F S128 .f32)
    (x12 : Vec F S128x64 .f32) (x13 x14 x15 : Vec F S64 .f32) (x16 : Vec F S64x101 .f32) (x17 : Vec F S101 .f32) :
    FVec F S1024x101 .f32 :=
  -- part 1
  have v0 : Vec F S1024x60 .f32 := View.ld x0 r0_0
  have v1 : Vec F S1024x20 .f32 := View.ld x1 r0_1
  have v4 : Vec F S80x256 .f32 := View.ld x4 r0_2
  have v7 : Vec F S256 .f32 := View.ld x5 r0_3
  have v29 : Vec F S256 .f32 := View.ld x6 r0_3
  have v33 : Vec F S256 .f32 := View.ld x7 r0_3
  have v40 : Vec F S256x128 .f32 := View.ld x8 r0_4
  have v39 : FVec F S1024x256 .bf16 := k0_pay2 v0 v1 v4 v7 v29 v33
  have v41 : FVec F S256x128 .bf16 := k0_pay3 v40
  -- part 2
  have v43 : Vec F S128 .f32 := View.ld x9 r0_5
  have v65 : Vec F S128 .f32 := View.ld x10 r0_5
  have v69 : Vec F S128 .f32 := View.ld x11 r0_5
  have v76 : Vec F S128x64 .f32 := View.ld x12 r0_6
  have v79 : Vec F S64 .f32 := View.ld x13 r0_7
  have v82 : FVec F S1024x64 .f32 := k0_pay4 v39 v41 v43 v65 v69 v76 v79
  have v86 : FVec F S1024x1 .f32 := k0_pay5 v39 v41 v43 v65 v69 v76 v79
  -- part 3
  have v101 : Vec F S64 .f32 := View.ld x14 r0_7
  have v105 : Vec F S64 .f32 := View.ld x15 r0_7
  have v112 : Vec F S64x101 .f32 := View.ld x16 r0_8
  have v115 : Vec F S101 .f32 := View.ld x17 r0_9
  have v130 : Vec F S1024x1 .f32 := View.ld x2 r0_10
  have v129 : FVec F S1024x101 .f32 := k0_pay6 v82 v86 v101 v105 v112 v115
  have v131 : FVec F S1024x1 .f32 := k0_pay7 v130
  -- part 4
  have v132 : Vec F S1024x1 .f32 := View.ld x2 r0_11
  have v134 : Vec F S1024x1 .f32 := View.ld x2 r0_12
  have v136 : Vec F S1x101 .f32 := View.ld x3 r0_13
  have v170 : IVec S1x101 32 := iota .tc S1x101 32 [1] iota_S1x101_d1_w32
  have cst_54 : F .f32 := Scalar.ofBits .f32 0x00000000#32
  have v162 : IVec S1024x101 32 := k0_pay9 v131 v132 v134 v136
  have v167 : FVec F S1024x101 .f32 := k0_pay11 v129 v131 v132 v134 v136
  have v169 : FVec F S1024x101 .f32 := k0_pay12 v129 v131 v132 v134 v136
  have v171 : FVec F S1024x101 .f32 := k0_pay13 (F := F)
  have v172 : IVec S1024x1 32 := k0_pay14 v131 v132 v134 v136
  have v173 : FVec F S1024x1 .f32 := k0_pay15 v129 v131 v132 v134 v136
  have v174 : FVec F S1024x1 .f32 := k0_pay16 v129 v131 v132 v134 v136
  have v177 : IVec S1024x101 1 := k0_pay17 v131 v132 v134 v136
  -- part 5
  have cst_62 : F .f32 := Scalar.ofBits .f32 0x00000000#32
  have v216 : FVec F S1024x1 .f32 := k0_pay19 v169
  have v224 : FVec F S1024x101 .f32 := k0_pay20 v162 v167 v169 v170 v171 v172 v173 v174 v177 cst_54
  have v229 : IVec S1024x101 1 := k0_pay21 v162 v170
  -- part 6
  have cst_69 : F .f32 := Scalar.ofBits .f32 0x00000000#32
  have v276 : FVec F S1024x101 .f32 := k0_pay22 v162 v167 v169 v170 v216 v224 v229 cst_62
  have v277 : IVec S1024x1 32 := k0_pay23 v162
  have v278 : FVec F S1024x1 .f32 := k0_pay24 v167
  have v279 : FVec F S1024x1 .f32 := k0_pay25 v169
  have v282 : IVec S1024x101 1 := k0_pay26 v162 v170
  -- part 7
  have cst_77 : F .f32 := Scalar.ofBits .f32 0x00000000#32
  have v321 : FVec F S1024x1 .f32 := k0_pay28 v169
  have v329 : FVec F S1024x101 .f32 := k0_pay29 v162 v167 v169 v170 v276 v277 v278 v279 v282 cst_69
  have v334 : IVec S1024x101 1 := k0_pay30 v162 v170
  -- part 8
  have cst_84 : F .f32 := Scalar.ofBits .f32 0x00000000#32
  have v381 : FVec F S1024x101 .f32 := k0_pay31 v162 v167 v169 v170 v321 v329 v334 cst_77
  have v382 : IVec S1024x1 32 := k0_pay32 v162
  have v383 : FVec F S1024x1 .f32 := k0_pay33 v167
  have v384 : FVec F S1024x1 .f32 := k0_pay34 v169
  have v387 : IVec S1024x101 1 := k0_pay35 v162 v170
  -- part 9
  have cst_92 : F .f32 := Scalar.ofBits .f32 0x00000000#32
  have v426 : FVec F S1024x1 .f32 := k0_pay37 v169
  have v434 : FVec F S1024x101 .f32 := k0_pay38 v162 v167 v169 v170 v381 v382 v383 v384 v387 cst_84
  have v439 : IVec S1024x101 1 := k0_pay39 v162 v170
  -- part 10
  have cst_99 : F .f32 := Scalar.ofBits .f32 0x00000000#32
  have v486 : FVec F S1024x101 .f32 := k0_pay40 v162 v167 v169 v170 v426 v434 v439 cst_92
  have v487 : IVec S1024x1 32 := k0_pay41 v162
  have v488 : FVec F S1024x1 .f32 := k0_pay42 v167
  have v489 : FVec F S1024x1 .f32 := k0_pay43 v169
  have v492 : IVec S1024x101 1 := k0_pay44 v162 v170
  -- part 11
  have cst_107 : F .f32 := Scalar.ofBits .f32 0x00000000#32
  have v531 : FVec F S1024x1 .f32 := k0_pay46 v169
  have v539 : FVec F S1024x101 .f32 := k0_pay47 v162 v167 v169 v170 v486 v487 v488 v489 v492 cst_99
  have v544 : IVec S1024x101 1 := k0_pay48 v162 v170
  -- part 12
  have cst_114 : F .f32 := Scalar.ofBits .f32 0x00000000#32
  have v591 : FVec F S1024x101 .f32 := k0_pay49 v162 v167 v169 v170 v531 v539 v544 cst_107
  have v592 : IVec S1024x1 32 := k0_pay50 v162
  have v593 : FVec F S1024x1 .f32 := k0_pay51 v167
  have v594 : FVec F S1024x1 .f32 := k0_pay52 v169
  have v597 : IVec S1024x101 1 := k0_pay53 v162 v170
  -- part 13
  have cst_122 : F .f32 := Scalar.ofBits .f32 0x00000000#32
  have v636 : FVec F S1024x1 .f32 := k0_pay55 v169
  have v644 : FVec F S1024x101 .f32 := k0_pay56 v162 v167 v169 v170 v591 v592 v593 v594 v597 cst_114
  have v649 : IVec S1024x101 1 := k0_pay57 v162 v170
  -- part 14
  have cst_129 : F .f32 := Scalar.ofBits .f32 0x00000000#32
  have v696 : FVec F S1024x101 .f32 := k0_pay58 v162 v167 v169 v170 v636 v644 v649 cst_122
  have v697 : IVec S1024x1 32 := k0_pay59 v162
  have v698 : FVec F S1024x1 .f32 := k0_pay60 v167
  have v699 : FVec F S1024x1 .f32 := k0_pay61 v169
  have v702 : IVec S1024x101 1 := k0_pay62 v162 v170
  -- part 15
  have cst_137 : F .f32 := Scalar.ofBits .f32 0x00000000#32
  have v741 : FVec F S1024x1 .f32 := k0_pay64 v169
  have v749 : FVec F S1024x101 .f32 := k0_pay65 v162 v167 v169 v170 v696 v697 v698 v699 v702 cst_129
  have v754 : IVec S1024x101 1 := k0_pay66 v162 v170
  -- part 16
  have cst_144 : F .f32 := Scalar.ofBits .f32 0x00000000#32
  have v801 : FVec F S1024x101 .f32 := k0_pay67 v162 v167 v169 v170 v741 v749 v754 cst_137
  have v802 : IVec S1024x1 32 := k0_pay68 v162
  have v803 : FVec F S1024x1 .f32 := k0_pay69 v167
  have v804 : FVec F S1024x1 .f32 := k0_pay70 v169
  have v807 : IVec S1024x101 1 := k0_pay71 v162 v170
  -- part 17
  have cst_152 : F .f32 := Scalar.ofBits .f32 0x00000000#32
  have v846 : FVec F S1024x1 .f32 := k0_pay73 v169
  have v854 : FVec F S1024x101 .f32 := k0_pay74 v162 v167 v169 v170 v801 v802 v803 v804 v807 cst_144
  have v859 : IVec S1024x101 1 := k0_pay75 v162 v170
  -- part 18
  have cst_159 : F .f32 := Scalar.ofBits .f32 0x00000000#32
  have v906 : FVec F S1024x101 .f32 := k0_pay76 v162 v167 v169 v170 v846 v854 v859 cst_152
  have v907 : IVec S1024x1 32 := k0_pay77 v162
  have v908 : FVec F S1024x1 .f32 := k0_pay78 v167
  have v909 : FVec F S1024x1 .f32 := k0_pay79 v169
  have v912 : IVec S1024x101 1 := k0_pay80 v162 v170
  -- part 19
  have cst_167 : F .f32 := Scalar.ofBits .f32 0x00000000#32
  have v951 : FVec F S1024x1 .f32 := k0_pay82 v169
  have v959 : FVec F S1024x101 .f32 := k0_pay83 v162 v167 v169 v170 v906 v907 v908 v909 v912 cst_159
  have v964 : IVec S1024x101 1 := k0_pay84 v162 v170
  -- part 20
  have cst_174 : F .f32 := Scalar.ofBits .f32 0x00000000#32
  have v1011 : FVec F S1024x101 .f32 := k0_pay85 v162 v167 v169 v170 v951 v959 v964 cst_167
  have v1012 : IVec S1024x1 32 := k0_pay86 v162
  have v1013 : FVec F S1024x1 .f32 := k0_pay87 v167
  have v1014 : FVec F S1024x1 .f32 := k0_pay88 v169
  have v1017 : IVec S1024x101 1 := k0_pay89 v162 v170
  -- part 21
  have cst_182 : F .f32 := Scalar.ofBits .f32 0x00000000#32
  have v1056 : FVec F S1024x1 .f32 := k0_pay91 v169
  have v1064 : FVec F S1024x101 .f32 := k0_pay92 v162 v167 v169 v170 v1011 v1012 v1013 v1014 v1017 cst_174
  have v1069 : IVec S1024x101 1 := k0_pay93 v162 v170
  -- part 22
  have cst_189 : F .f32 := Scalar.ofBits .f32 0x00000000#32
  have v1116 : FVec F S1024x101 .f32 := k0_pay94 v162 v167 v169 v170 v1056 v1064 v1069 cst_182
  have v1117 : IVec S1024x1 32 := k0_pay95 v162
  have v1118 : FVec F S1024x1 .f32 := k0_pay96 v167
  have v1119 : FVec F S1024x1 .f32 := k0_pay97 v169
  have v1122 : IVec S1024x101 1 := k0_pay98 v162 v170
  -- part 23
  have cst_197 : F .f32 := Scalar.ofBits .f32 0x00000000#32
  have v1161 : FVec F S1024x1 .f32 := k0_pay100 v169
  have v1169 : FVec F S1024x101 .f32 := k0_pay101 v162 v167 v169 v170 v1116 v1117 v1118 v1119 v1122 cst_189
  have v1174 : IVec S1024x101 1 := k0_pay102 v162 v170
  -- part 24
  have cst_204 : F .f32 := Scalar.ofBits .f32 0x00000000#32
  have v1221 : FVec F S1024x101 .f32 := k0_pay103 v162 v167 v169 v170 v1161 v1169 v1174 cst_197
  have v1222 : IVec S1024x1 32 := k0_pay104 v162
  have v1223 : FVec F S1024x1 .f32 := k0_pay105 v167
  have v1224 : FVec F S1024x1 .f32 := k0_pay106 v169
  have v1227 : IVec S1024x101 1 := k0_pay107 v162 v170
  -- part 25
  have cst_212 : F .f32 := Scalar.ofBits .f32 0x00000000#32
  have v1266 : FVec F S1024x1 .f32 := k0_pay109 v169
  have v1274 : FVec F S1024x101 .f32 := k0_pay110 v162 v167 v169 v170 v1221 v1222 v1223 v1224 v1227 cst_204
  have v1279 : IVec S1024x101 1 := k0_pay111 v162 v170
  -- part 26
  have cst_219 : F .f32 := Scalar.ofBits .f32 0x00000000#32
  have v1326 : FVec F S1024x101 .f32 := k0_pay112 v162 v167 v169 v170 v1266 v1274 v1279 cst_212
  have v1327 : IVec S1024x1 32 := k0_pay113 v162
  have v1328 : FVec F S1024x1 .f32 := k0_pay114 v167
  have v1329 : FVec F S1024x1 .f32 := k0_pay115 v169
  have v1332 : IVec S1024x101 1 := k0_pay116 v162 v170
  -- part 27
  have cst_227 : F .f32 := Scalar.ofBits .f32 0x00000000#32
  have v1371 : FVec F S1024x1 .f32 := k0_pay118 v169
  have v1379 : FVec F S1024x101 .f32 := k0_pay119 v162 v167 v169 v170 v1326 v1327 v1328 v1329 v1332 cst_219
  have v1384 : IVec S1024x101 1 := k0_pay120 v162 v170
  -- part 28
  have cst_234 : F .f32 := Scalar.ofBits .f32 0x00000000#32
  have v1431 : FVec F S1024x101 .f32 := k0_pay121 v162 v167 v169 v170 v1371 v1379 v1384 cst_227
  have v1432 : IVec S1024x1 32 := k0_pay122 v162
  have v1433 : FVec F S1024x1 .f32 := k0_pay123 v167
  have v1434 : FVec F S1024x1 .f32 := k0_pay124 v169
  have v1437 : IVec S1024x101 1 := k0_pay125 v162 v170
  -- part 29
  have cst_242 : F .f32 := Scalar.ofBits .f32 0x00000000#32
  have v1476 : FVec F S1024x1 .f32 := k0_pay127 v169
  have v1484 : FVec F S1024x101 .f32 := k0_pay128 v162 v167 v169 v170 v1431 v1432 v1433 v1434 v1437 cst_234
  have v1489 : IVec S1024x101 1 := k0_pay129 v162 v170
  -- part 30
  have cst_249 : F .f32 := Scalar.ofBits .f32 0x00000000#32
  have v1536 : FVec F S1024x101 .f32 := k0_pay130 v162 v167 v169 v170 v1476 v1484 v1489 cst_242
  have v1537 : IVec S1024x1 32 := k0_pay131 v162
  have v1538 : FVec F S1024x1 .f32 := k0_pay132 v167
  have v1539 : FVec F S1024x1 .f32 := k0_pay133 v169
  have v1542 : IVec S1024x101 1 := k0_pay134 v162 v170
  -- part 31
  have cst_257 : F .f32 := Scalar.ofBits .f32 0x00000000#32
  have v1581 : FVec F S1024x1 .f32 := k0_pay136 v169
  have v1589 : FVec F S1024x101 .f32 := k0_pay137 v162 v167 v169 v170 v1536 v1537 v1538 v1539 v1542 cst_249
  have v1594 : IVec S1024x101 1 := k0_pay138 v162 v170
  -- part 32
  have cst_264 : F .f32 := Scalar.ofBits .f32 0x00000000#32
  have v1641 : FVec F S1024x101 .f32 := k0_pay139 v162 v167 v169 v170 v1581 v1589 v1594 cst_257
  have v1642 : IVec S1024x1 32 := k0_pay140 v162
  have v1643 : FVec F S1024x1 .f32 := k0_pay141 v167
  have v1644 : FVec F S1024x1 .f32 := k0_pay142 v169
  have v1647 : IVec S1024x101 1 := k0_pay143 v162 v170
  -- part 33
  have cst_272 : F .f32 := Scalar.ofBits .f32 0x00000000#32
  have v1686 : FVec F S1024x1 .f32 := k0_pay145 v169
  have v1694 : FVec F S1024x101 .f32 := k0_pay146 v162 v167 v169 v170 v1641 v1642 v1643 v1644 v1647 cst_264
  have v1699 : IVec S1024x101 1 := k0_pay147 v162 v170
  -- part 34
  have cst_279 : F .f32 := Scalar.ofBits .f32 0x00000000#32
  have v1746 : FVec F S1024x101 .f32 := k0_pay148 v162 v167 v169 v170 v1686 v1694 v1699 cst_272
  have v1747 : IVec S1024x1 32 := k0_pay149 v162
  have v1748 : FVec F S1024x1 .f32 := k0_pay150 v167
  have v1749 : FVec F S1024x1 .f32 := k0_pay151 v169
  have v1752 : IVec S1024x101 1 := k0_pay152 v162 v170
  -- part 35
  have cst_287 : F .f32 := Scalar.ofBits .f32 0x00000000#32
  have v1791 : FVec F S1024x1 .f32 := k0_pay154 v169
  have v1799 : FVec F S1024x101 .f32 := k0_pay155 v162 v167 v169 v170 v1746 v1747 v1748 v1749 v1752 cst_279
  have v1804 : IVec S1024x101 1 := k0_pay156 v162 v170
  -- part 36
  have cst_294 : F .f32 := Scalar.ofBits .f32 0x00000000#32
  have v1851 : FVec F S1024x101 .f32 := k0_pay157 v162 v167 v169 v170 v1791 v1799 v1804 cst_287
  have v1852 : IVec S1024x1 32 := k0_pay158 v162
  have v1853 : FVec F S1024x1 .f32 := k0_pay159 v167
  have v1854 : FVec F S1024x1 .f32 := k0_pay160 v169
  have v1857 : IVec S1024x101 1 := k0_pay161 v162 v170
  -- part 37
  have cst_302 : F .f32 := Scalar.ofBits .f32 0x00000000#32
  have v1896 : FVec F S1024x1 .f32 := k0_pay163 v169
  have v1904 : FVec F S1024x101 .f32 := k0_pay164 v162 v167 v169 v170 v1851 v1852 v1853 v1854 v1857 cst_294
  have v1909 : IVec S1024x101 1 := k0_pay165 v162 v170
  -- part 38
  have cst_309 : F .f32 := Scalar.ofBits .f32 0x00000000#32
  have v1956 : FVec F S1024x101 .f32 := k0_pay166 v162 v167 v169 v170 v1896 v1904 v1909 cst_302
  have v1957 : IVec S1024x1 32 := k0_pay167 v162
  have v1958 : FVec F S1024x1 .f32 := k0_pay168 v167
  have v1959 : FVec F S1024x1 .f32 := k0_pay169 v169
  have v1962 : IVec S1024x101 1 := k0_pay170 v162 v170
  -- part 39
  have cst_317 : F .f32 := Scalar.ofBits .f32 0x00000000#32
  have v2001 : FVec F S1024x1 .f32 := k0_pay172 v169
  have v2009 : FVec F S1024x101 .f32 := k0_pay173 v162 v167 v169 v170 v1956 v1957 v1958 v1959 v1962 cst_309
  have v2014 : IVec S1024x101 1 := k0_pay174 v162 v170
  -- part 40
  have cst_324 : F .f32 := Scalar.ofBits .f32 0x00000000#32
  have v2061 : FVec F S1024x101 .f32 := k0_pay175 v162 v167 v169 v170 v2001 v2009 v2014 cst_317
  have v2062 : IVec S1024x1 32 := k0_pay176 v162
  have v2063 : FVec F S1024x1 .f32 := k0_pay177 v167
  have v2064 : FVec F S1024x1 .f32 := k0_pay178 v169
  have v2067 : IVec S1024x101 1 := k0_pay179 v162 v170
  -- part 41
  have cst_332 : F .f32 := Scalar.ofBits .f32 0x00000000#32
  have v2106 : FVec F S1024x1 .f32 := k0_pay181 v169
  have v2114 : FVec F S1024x101 .f32 := k0_pay182 v162 v167 v169 v170 v2061 v2062 v2063 v2064 v2067 cst_324
  have v2119 : IVec S1024x101 1 := k0_pay183 v162 v170
  -- part 42
  have cst_339 : F .f32 := Scalar.ofBits .f32 0x00000000#32
  have v2166 : FVec F S1024x101 .f32 := k0_pay184 v162 v167 v169 v170 v2106 v2114 v2119 cst_332
  have v2167 : IVec S1024x1 32 := k0_pay185 v162
  have v2168 : FVec F S1024x1 .f32 := k0_pay186 v167
  have v2169 : FVec F S1024x1 .f32 := k0_pay187 v169
  have v2172 : IVec S1024x101 1 := k0_pay188 v162 v170
  -- part 43
  have cst_347 : F .f32 := Scalar.ofBits .f32 0x00000000#32
  have v2211 : FVec F S1024x1 .f32 := k0_pay190 v169
  have v2219 : FVec F S1024x101 .f32 := k0_pay191 v162 v167 v169 v170 v2166 v2167 v2168 v2169 v2172 cst_339
  have v2224 : IVec S1024x101 1 := k0_pay192 v162 v170
  -- part 44
  have cst_354 : F .f32 := Scalar.ofBits .f32 0x00000000#32
  have v2271 : FVec F S1024x101 .f32 := k0_pay193 v162 v167 v169 v170 v2211 v2219 v2224 cst_347
  have v2272 : IVec S1024x1 32 := k0_pay194 v162
  have v2273 : FVec F S1024x1 .f32 := k0_pay195 v167
  have v2274 : FVec F S1024x1 .f32 := k0_pay196 v169
  have v2277 : IVec S1024x101 1 := k0_pay197 v162 v170
  -- the last part's results and the stored sum
  have v2282 : FVec F S1024x101 .f32 := k0_pay198 v2271 v2273 v2277 cst_354
  have v2291 : FVec F S1024x101 .f32 := k0_pay199 v170 v2272 v2274
  k0_pay1 v2282 v2291

end Cert.KernelIdeal.Hand

end
-- ==== Proof.KernelIdealFrame.lean ====
/- The frame of `KernelIdeal`: @main is five host operations (three broadcasts, a three-way concatenation, a
   reshape) and then one pipelined region over 128 grid points. The region's body reads its eighteen input
   windows through literal rectangles and writes its one output window whole, once. So: the arrays the region
   finds are what the host operations leave (`V`), no host operation writes an argument array, every input
   window's staging buffer holds its block at every point, the body leaves the inputs as they were and the
   output block at a value computed from the input blocks alone (`bodyVal`); the pipeline's frame run then gives that
   every array of the pipeline ends at what the proof data say and every other unscoped buffer as the region
   found it — in particular every argument array ends as launched. -/
import proofs.«100750_j352187318805_1_alg».proof.Proof.BodyVal
import proofs.«100750_j352187318805_1_alg».proof.Proof.Gen.KernelIdeal.Launch
import proofs.«100750_j352187318805_1_alg».proof.Proof.Gen.KernelIdeal.Skeleton
import proofs.«100750_j352187318805_1_alg».proof.Proof.Gen.KernelIdeal.Points
import Idealize.ShloMosaic.Lib.Pipeline.FrameBody
import Idealize.ShloMosaic.Lib.StableHlo.Run
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
variable (m : (ℓ : Loc nD τ sig) → Buf (Elt F) ℓ) (ρ : Dev nD → PrngReg)
/-! ## @main up to the region -/

/-- Core `c`'s TensorCore buffers when the region is entered: what the five host operations before it
    (three broadcasts, the three-way concatenation, the reshape) leave of the memory as launched. -/
abbrev V (c : Dev nD) (b : Ref sig .tc) : Buf (Elt F) ((c : Thread nD τ).loc b) :=
  StableHlo.after hostOps0 (fun b => m (c, b)) b

/-- The host operations allocate nothing. -/
theorem hostOps0_fresh : (hostOps0 : List (HloOp τ sig (Elt F))).Forall fun op => op.fresh = ∅ := by
  simp only [List.Forall]; repeat' constructor

/-- @main up to the region: the host operations, then the region found at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes `main_arg10`: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes `main_arg11`: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes `main_arg12`: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes `main_arg13`: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes `main_arg14`: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes `main_arg15`: the region finds it as launched. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes `main_arg16`: the region finds it as launched. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes `main_arg17`: the region finds it as launched. -/
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes `main_arg18`: the region finds it as launched. -/
theorem V_main_arg18 (c : Dev nD) : V m c main_arg18 = m ((c : Thread nD τ).loc main_arg18) :=
  StableHlo.after_of_forall_not_mem (b := Proc.devRef .tc main_arg18) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes `main_arg19`: the region finds it as launched. -/
theorem V_main_arg19 (c : Dev nD) : V m c main_arg19 = m ((c : Thread nD τ).loc main_arg19) :=
  StableHlo.after_of_forall_not_mem (b := Proc.devRef .tc main_arg19) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof
    data whose array is `V`'s and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for any proof
    data whose array is `V`'s and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for any proof
    data whose array is `V`'s and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for any proof
    data whose array is `V`'s and whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for any proof
    data whose array is `V`'s and whose body leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for any proof
    data whose array is `V`'s and whose body leaves the block in place. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for any proof
    data whose array is `V`'s and whose body leaves the block in place. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for any proof
    data whose array is `V`'s and whose body leaves the block in place. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for any proof
    data whose array is `V`'s and whose body leaves the block in place. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for any proof
    data whose array is `V`'s and whose body leaves the block in place. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not, for any proof
    data whose array is `V`'s and whose body leaves the block in place. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, fetched there or not, for any proof
    data whose array is `V`'s and whose body leaves the block in place. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's current staging buffer holds its block at every point, fetched there or not, for any proof
    data whose array is `V`'s and whose body leaves the block in place. -/
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- Input window 13's current staging buffer holds its block at every point, fetched there or not, for any proof
    data whose array is `V`'s and whose body leaves the block in place. -/
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
/-- Input window 14's current staging buffer holds its block at every point, fetched there or not, for any proof
    data whose array is `V`'s and whose body leaves the block in place. -/
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
/-- Input window 15's current staging buffer holds its block at every point, fetched there or not, for any proof
    data whose array is `V`'s and whose body leaves the block in place. -/
theorem before0_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)
/-- Input window 16's current staging buffer holds its block at every point, fetched there or not, for any proof
    data whose array is `V`'s and whose body leaves the block in place. -/
theorem before0_16_of {c : Dev nD} (dat : Dat τ (Elt F) Unit ℕ (UR sig nD τ) ℕ cfg0 c) (hA : dat.A 16 = V m c (Pipeline.arrRef spec0 16))
    (hafter : ∀ t, dat.after 16 t = iblk m c 16 t) (t : Fin cfg0.N) (d) : dat.before 16 t d = iblk m c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)
/-- Input window 17's current staging buffer holds its block at every point, fetched there or not, for any proof
    data whose array is `V`'s and whose body leaves the block in place. -/
theorem before0_17_of {c : Dev nD} (dat : Dat τ (Elt F) Unit ℕ (UR sig nD τ) ℕ cfg0 c) (hA : dat.A 17 = V m c (Pipeline.arrRef spec0 17))
    (hafter : ∀ t, dat.after 17 t = iblk m c 17 t) (t : Fin cfg0.N) (d) : dat.before 17 t d = iblk m c 17 t :=
  (dat.before_in_eq_fetched 17 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- `main_arg0` ends as launched: window 0's array, an input, ends at its entry contents, which the host operations did not write. -/
theorem frame_arg0 (dats : (p : Fin 1) → (c : Dev nD) → Dat τ (Elt F) Unit ℕ (UR sig nD τ) ℕ (cfgs p) c)
    (hA : ∀ c w, (dats 0 c).A w = V m c (Pipeline.arrRef spec0 w)) (r : PUnit × MemSt nD τ sig (Elt F))
    (h : Pipeline.FramePost cfgs dats 0 (V m) r) (c : Dev nD) :
    r.2.mem ((c.tc : Thread nD τ).loc main_arg0) = m ((c.tc : Thread nD τ).loc main_arg0) :=
  ((h c).1 0).trans (((dats 0 c).arrAt_in 0 rfl _).trans ((hA c 0).trans (V_main_arg0 m c)))
/-- `main_arg1` ends as launched: window 1's array, an input, ends at its entry contents, which the host operations did not write. -/
theorem frame_arg1 (dats : (p : Fin 1) → (c : Dev nD) → Dat τ (Elt F) Unit ℕ (UR sig nD τ) ℕ (cfgs p) c)
    (hA : ∀ c w, (dats 0 c).A w = V m c (Pipeline.arrRef spec0 w)) (r : PUnit × MemSt nD τ sig (Elt F))
    (h : Pipeline.FramePost cfgs dats 0 (V m) r) (c : Dev nD) :
    r.2.mem ((c.tc : Thread nD τ).loc main_arg1) = m ((c.tc : Thread nD τ).loc main_arg1) :=
  ((h c).1 1).trans (((dats 0 c).arrAt_in 1 rfl _).trans ((hA c 1).trans (V_main_arg1 m c)))
/-- `main_arg2` ends as launched: no window stages it, so the frame post's second clause reads it at the region's entry, which the host operations did not write. -/
theorem frame_arg2 (dats : (p : Fin 1) → (c : Dev nD) → Dat τ (Elt F) Unit ℕ (UR sig nD τ) ℕ (cfgs p) c)
    (hA : ∀ c w, (dats 0 c).A w = V m c (Pipeline.arrRef spec0 w)) (r : PUnit × MemSt nD τ sig (Elt F))
    (h : Pipeline.FramePost cfgs dats 0 (V m) r) (c : Dev nD) :
    r.2.mem ((c.tc : Thread nD τ).loc main_arg2) = m ((c.tc : Thread nD τ).loc main_arg2) :=
  ((h c).2 main_arg2 (Pipeline.mem_restRefs_of main_arg2 (by decide) (by decide))).trans (V_main_arg2 m c)
/-- `main_arg3` ends as launched: no window stages it, so the frame post's second clause reads it at the region's entry, which the host operations did not write. -/
theorem frame_arg3 (dats : (p : Fin 1) → (c : Dev nD) → Dat τ (Elt F) Unit ℕ (UR sig nD τ) ℕ (cfgs p) c)
    (hA : ∀ c w, (dats 0 c).A w = V m c (Pipeline.arrRef spec0 w)) (r : PUnit × MemSt nD τ sig (Elt F))
    (h : Pipeline.FramePost cfgs dats 0 (V m) r) (c : Dev nD) :
    r.2.mem ((c.tc : Thread nD τ).loc main_arg3) = m ((c.tc : Thread nD τ).loc main_arg3) :=
  ((h c).2 main_arg3 (Pipeline.mem_restRefs_of main_arg3 (by decide) (by decide))).trans (V_main_arg3 m c)
/-- `main_arg4` ends as launched: no window stages it, so the frame post's second clause reads it at the region's entry, which the host operations did not write. -/
theorem frame_arg4 (dats : (p : Fin 1) → (c : Dev nD) → Dat τ (Elt F) Unit ℕ (UR sig nD τ) ℕ (cfgs p) c)
    (hA : ∀ c w, (dats 0 c).A w = V m c (Pipeline.arrRef spec0 w)) (r : PUnit × MemSt nD τ sig (Elt F))
    (h : Pipeline.FramePost cfgs dats 0 (V m) r) (c : Dev nD) :
    r.2.mem ((c.tc : Thread nD τ).loc main_arg4) = m ((c.tc : Thread nD τ).loc main_arg4) :=
  ((h c).2 main_arg4 (Pipeline.mem_restRefs_of main_arg4 (by decide) (by decide))).trans (V_main_arg4 m c)
/-- `main_arg5` ends as launched: no window stages it, so the frame post's second clause reads it at the region's entry, which the host operations did not write. -/
theorem frame_arg5 (dats : (p : Fin 1) → (c : Dev nD) → Dat τ (Elt F) Unit ℕ (UR sig nD τ) ℕ (cfgs p) c)
    (hA : ∀ c w, (dats 0 c).A w = V m c (Pipeline.arrRef spec0 w)) (r : PUnit × MemSt nD τ sig (Elt F))
    (h : Pipeline.FramePost cfgs dats 0 (V m) r) (c : Dev nD) :
    r.2.mem ((c.tc : Thread nD τ).loc main_arg5) = m ((c.tc : Thread nD τ).loc main_arg5) :=
  ((h c).2 main_arg5 (Pipeline.mem_restRefs_of main_arg5 (by decide) (by decide))).trans (V_main_arg5 m c)
/-- `main_arg6` ends as launched: window 4's array, an input, ends at its entry contents, which the host operations did not write. -/
theorem frame_arg6 (dats : (p : Fin 1) → (c : Dev nD) → Dat τ (Elt F) Unit ℕ (UR sig nD τ) ℕ (cfgs p) c)
    (hA : ∀ c w, (dats 0 c).A w = V m c (Pipeline.arrRef spec0 w)) (r : PUnit × MemSt nD τ sig (Elt F))
    (h : Pipeline.FramePost cfgs dats 0 (V m) r) (c : Dev nD) :
    r.2.mem ((c.tc : Thread nD τ).loc main_arg6) = m ((c.tc : Thread nD τ).loc main_arg6) :=
  ((h c).1 4).trans (((dats 0 c).arrAt_in 4 rfl _).trans ((hA c 4).trans (V_main_arg6 m c)))
/-- `main_arg7` ends as launched: window 5's array, an input, ends at its entry contents, which the host operations did not write. -/
theorem frame_arg7 (dats : (p : Fin 1) → (c : Dev nD) → Dat τ (Elt F) Unit ℕ (UR sig nD τ) ℕ (cfgs p) c)
    (hA : ∀ c w, (dats 0 c).A w = V m c (Pipeline.arrRef spec0 w)) (r : PUnit × MemSt nD τ sig (Elt F))
    (h : Pipeline.FramePost cfgs dats 0 (V m) r) (c : Dev nD) :
    r.2.mem ((c.tc : Thread nD τ).loc main_arg7) = m ((c.tc : Thread nD τ).loc main_arg7) :=
  ((h c).1 5).trans (((dats 0 c).arrAt_in 5 rfl _).trans ((hA c 5).trans (V_main_arg7 m c)))
/-- `main_arg8` ends as launched: window 6's array, an input, ends at its entry contents, which the host operations did not write. -/
theorem frame_arg8 (dats : (p : Fin 1) → (c : Dev nD) → Dat τ (Elt F) Unit ℕ (UR sig nD τ) ℕ (cfgs p) c)
    (hA : ∀ c w, (dats 0 c).A w = V m c (Pipeline.arrRef spec0 w)) (r : PUnit × MemSt nD τ sig (Elt F))
    (h : Pipeline.FramePost cfgs dats 0 (V m) r) (c : Dev nD) :
    r.2.mem ((c.tc : Thread nD τ).loc main_arg8) = m ((c.tc : Thread nD τ).loc main_arg8) :=
  ((h c).1 6).trans (((dats 0 c).arrAt_in 6 rfl _).trans ((hA c 6).trans (V_main_arg8 m c)))
/-- `main_arg9` ends as launched: window 7's array, an input, ends at its entry contents, which the host operations did not write. -/
theorem frame_arg9 (dats : (p : Fin 1) → (c : Dev nD) → Dat τ (Elt F) Unit ℕ (UR sig nD τ) ℕ (cfgs p) c)
    (hA : ∀ c w, (dats 0 c).A w = V m c (Pipeline.arrRef spec0 w)) (r : PUnit × MemSt nD τ sig (Elt F))
    (h : Pipeline.FramePost cfgs dats 0 (V m) r) (c : Dev nD) :
    r.2.mem ((c.tc : Thread nD τ).loc main_arg9) = m ((c.tc : Thread nD τ).loc main_arg9) :=
  ((h c).1 7).trans (((dats 0 c).arrAt_in 7 rfl _).trans ((hA c 7).trans (V_main_arg9 m c)))
/-- `main_arg10` ends as launched: window 8's array, an input, ends at its entry contents, which the host operations did not write. -/
theorem frame_arg10 (dats : (p : Fin 1) → (c : Dev nD) → Dat τ (Elt F) Unit ℕ (UR sig nD τ) ℕ (cfgs p) c)
    (hA : ∀ c w, (dats 0 c).A w = V m c (Pipeline.arrRef spec0 w)) (r : PUnit × MemSt nD τ sig (Elt F))
    (h : Pipeline.FramePost cfgs dats 0 (V m) r) (c : Dev nD) :
    r.2.mem ((c.tc : Thread nD τ).loc main_arg10) = m ((c.tc : Thread nD τ).loc main_arg10) :=
  ((h c).1 8).trans (((dats 0 c).arrAt_in 8 rfl _).trans ((hA c 8).trans (V_main_arg10 m c)))
/-- `main_arg11` ends as launched: window 9's array, an input, ends at its entry contents, which the host operations did not write. -/
theorem frame_arg11 (dats : (p : Fin 1) → (c : Dev nD) → Dat τ (Elt F) Unit ℕ (UR sig nD τ) ℕ (cfgs p) c)
    (hA : ∀ c w, (dats 0 c).A w = V m c (Pipeline.arrRef spec0 w)) (r : PUnit × MemSt nD τ sig (Elt F))
    (h : Pipeline.FramePost cfgs dats 0 (V m) r) (c : Dev nD) :
    r.2.mem ((c.tc : Thread nD τ).loc main_arg11) = m ((c.tc : Thread nD τ).loc main_arg11) :=
  ((h c).1 9).trans (((dats 0 c).arrAt_in 9 rfl _).trans ((hA c 9).trans (V_main_arg11 m c)))
/-- `main_arg12` ends as launched: window 10's array, an input, ends at its entry contents, which the host operations did not write. -/
theorem frame_arg12 (dats : (p : Fin 1) → (c : Dev nD) → Dat τ (Elt F) Unit ℕ (UR sig nD τ) ℕ (cfgs p) c)
    (hA : ∀ c w, (dats 0 c).A w = V m c (Pipeline.arrRef spec0 w)) (r : PUnit × MemSt nD τ sig (Elt F))
    (h : Pipeline.FramePost cfgs dats 0 (V m) r) (c : Dev nD) :
    r.2.mem ((c.tc : Thread nD τ).loc main_arg12) = m ((c.tc : Thread nD τ).loc main_arg12) :=
  ((h c).1 10).trans (((dats 0 c).arrAt_in 10 rfl _).trans ((hA c 10).trans (V_main_arg12 m c)))
/-- `main_arg13` ends as launched: window 11's array, an input, ends at its entry contents, which the host operations did not write. -/
theorem frame_arg13 (dats : (p : Fin 1) → (c : Dev nD) → Dat τ (Elt F) Unit ℕ (UR sig nD τ) ℕ (cfgs p) c)
    (hA : ∀ c w, (dats 0 c).A w = V m c (Pipeline.arrRef spec0 w)) (r : PUnit × MemSt nD τ sig (Elt F))
    (h : Pipeline.FramePost cfgs dats 0 (V m) r) (c : Dev nD) :
    r.2.mem ((c.tc : Thread nD τ).loc main_arg13) = m ((c.tc : Thread nD τ).loc main_arg13) :=
  ((h c).1 11).trans (((dats 0 c).arrAt_in 11 rfl _).trans ((hA c 11).trans (V_main_arg13 m c)))
/-- `main_arg14` ends as launched: window 12's array, an input, ends at its entry contents, which the host operations did not write. -/
theorem frame_arg14 (dats : (p : Fin 1) → (c : Dev nD) → Dat τ (Elt F) Unit ℕ (UR sig nD τ) ℕ (cfgs p) c)
    (hA : ∀ c w, (dats 0 c).A w = V m c (Pipeline.arrRef spec0 w)) (r : PUnit × MemSt nD τ sig (Elt F))
    (h : Pipeline.FramePost cfgs dats 0 (V m) r) (c : Dev nD) :
    r.2.mem ((c.tc : Thread nD τ).loc main_arg14) = m ((c.tc : Thread nD τ).loc main_arg14) :=
  ((h c).1 12).trans (((dats 0 c).arrAt_in 12 rfl _).trans ((hA c 12).trans (V_main_arg14 m c)))
/-- `main_arg15` ends as launched: window 13's array, an input, ends at its entry contents, which the host operations did not write. -/
theorem frame_arg15 (dats : (p : Fin 1) → (c : Dev nD) → Dat τ (Elt F) Unit ℕ (UR sig nD τ) ℕ (cfgs p) c)
    (hA : ∀ c w, (dats 0 c).A w = V m c (Pipeline.arrRef spec0 w)) (r : PUnit × MemSt nD τ sig (Elt F))
    (h : Pipeline.FramePost cfgs dats 0 (V m) r) (c : Dev nD) :
    r.2.mem ((c.tc : Thread nD τ).loc main_arg15) = m ((c.tc : Thread nD τ).loc main_arg15) :=
  ((h c).1 13).trans (((dats 0 c).arrAt_in 13 rfl _).trans ((hA c 13).trans (V_main_arg15 m c)))
/-- `main_arg16` ends as launched: window 14's array, an input, ends at its entry contents, which the host operations did not write. -/
theorem frame_arg16 (dats : (p : Fin 1) → (c : Dev nD) → Dat τ (Elt F) Unit ℕ (UR sig nD τ) ℕ (cfgs p) c)
    (hA : ∀ c w, (dats 0 c).A w = V m c (Pipeline.arrRef spec0 w)) (r : PUnit × MemSt nD τ sig (Elt F))
    (h : Pipeline.FramePost cfgs dats 0 (V m) r) (c : Dev nD) :
    r.2.mem ((c.tc : Thread nD τ).loc main_arg16) = m ((c.tc : Thread nD τ).loc main_arg16) :=
  ((h c).1 14).trans (((dats 0 c).arrAt_in 14 rfl _).trans ((hA c 14).trans (V_main_arg16 m c)))
/-- `main_arg17` ends as launched: window 15's array, an input, ends at its entry contents, which the host operations did not write. -/
theorem frame_arg17 (dats : (p : Fin 1) → (c : Dev nD) → Dat τ (Elt F) Unit ℕ (UR sig nD τ) ℕ (cfgs p) c)
    (hA : ∀ c w, (dats 0 c).A w = V m c (Pipeline.arrRef spec0 w)) (r : PUnit × MemSt nD τ sig (Elt F))
    (h : Pipeline.FramePost cfgs dats 0 (V m) r) (c : Dev nD) :
    r.2.mem ((c.tc : Thread nD τ).loc main_arg17) = m ((c.tc : Thread nD τ).loc main_arg17) :=
  ((h c).1 15).trans (((dats 0 c).arrAt_in 15 rfl _).trans ((hA c 15).trans (V_main_arg17 m c)))
/-- `main_arg18` ends as launched: window 16's array, an input, ends at its entry contents, which the host operations did not write. -/
theorem frame_arg18 (dats : (p : Fin 1) → (c : Dev nD) → Dat τ (Elt F) Unit ℕ (UR sig nD τ) ℕ (cfgs p) c)
    (hA : ∀ c w, (dats 0 c).A w = V m c (Pipeline.arrRef spec0 w)) (r : PUnit × MemSt nD τ sig (Elt F))
    (h : Pipeline.FramePost cfgs dats 0 (V m) r) (c : Dev nD) :
    r.2.mem ((c.tc : Thread nD τ).loc main_arg18) = m ((c.tc : Thread nD τ).loc main_arg18) :=
  ((h c).1 16).trans (((dats 0 c).arrAt_in 16 rfl _).trans ((hA c 16).trans (V_main_arg18 m c)))
/-- `main_arg19` ends as launched: window 17's array, an input, ends at its entry contents, which the host operations did not write. -/
theorem frame_arg19 (dats : (p : Fin 1) → (c : Dev nD) → Dat τ (Elt F) Unit ℕ (UR sig nD τ) ℕ (cfgs p) c)
    (hA : ∀ c w, (dats 0 c).A w = V m c (Pipeline.arrRef spec0 w)) (r : PUnit × MemSt nD τ sig (Elt F))
    (h : Pipeline.FramePost cfgs dats 0 (V m) r) (c : Dev nD) :
    r.2.mem ((c.tc : Thread nD τ).loc main_arg19) = m ((c.tc : Thread nD τ).loc main_arg19) :=
  ((h c).1 17).trans (((dats 0 c).arrAt_in 17 rfl _).trans ((hA c 17).trans (V_main_arg19 m c)))

/-- The frame from a frame run: for any proof data whose arrays are the region-entry contents, a run to the library's
    frame post is a run to the frame claim's post, argument by argument. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun _ h c => ⟨frame_arg0 m dats hA _ h c,
      frame_arg1 m dats hA _ h c,
      frame_arg2 m dats hA _ h c,
      frame_arg3 m dats hA _ h c,
      frame_arg4 m dats hA _ h c,
      frame_arg5 m dats hA _ h c,
      frame_arg6 m dats hA _ h c,
      frame_arg7 m dats hA _ h c,
      frame_arg8 m dats hA _ h c,
      frame_arg9 m dats hA _ h c,
      frame_arg10 m dats hA _ h c,
      frame_arg11 m dats hA _ h c,
      frame_arg12 m dats hA _ h c,
      frame_arg13 m dats hA _ h c,
      frame_arg14 m dats hA _ h c,
      frame_arg15 m dats hA _ h c,
      frame_arg16 m dats hA _ h c,
      frame_arg17 m dats hA _ h c,
      frame_arg18 m dats hA _ h c,
      frame_arg19 m dats hA _ h c⟩) h

/-! ## What the body leaves in the output window's buffer -/

/-- Window 18's staging buffer after the body, from the input windows' blocks: its one store, of the whole block. -/
def out0_18 (x0 : Vec F S1024x60 .f32) (x1 : Vec F S1024x20 .f32) (x2 : Vec F S1024x3 .f32) (x3 : Vec F S1x101 .f32) (x4 : Vec F S80x256 .f32) (x5 : Vec F S256 .f32) (x6 : Vec F S256 .f32) (x7 : Vec F S256 .f32) (x8 : Vec F S256x128 .f32) (x9 : Vec F S128 .f32) (x10 : Vec F S128 .f32) (x11 : Vec F S128 .f32) (x12 : Vec F S128x64 .f32) (x13 : Vec F S64 .f32) (x14 : Vec F S64 .f32) (x15 : Vec F S64 .f32) (x16 : Vec F S64x101 .f32) (x17 : Vec F S101 .f32) : Vec F S1024x101 .f32 :=
  View.canon [⟨r0_14, bodyVal x0 x1 x2 x3 x4 x5 x6 x7 x8 x9 x10 x11 x12 x13 x14 x15 x16 x17⟩]

/-- The store is of the whole block, so it covers the buffer. -/
theorem cover0_18 (p0 : Vec F S1024x101 .f32) (y : S1024x101.Idx) :
    ∃ pc ∈ ([⟨r0_14, p0⟩] : List (View.Piece (Elt F) S1024x101 .f32)), y ∈ pc.1.set :=
  View.cover_of_tiled [⟨r0_14, p0⟩] S1024x101.size (by rfl) y

/-! ## The body's triple -/

set_option maxHeartbeats 4000000 in
/-- The kernel body on whole staging memrefs, the inputs' at read contents `xW` and the output's at anything, runs to
    the continuation holding the inputs' as they were and the output's at `out0_18` of the inputs': the printed parts
    are run one by one through their skeletons, each a theorem of its own, composed along the body's sequence. -/
theorem sound_kernel (c : Dev nD) (E : Set ℕ) (i : grid0.Coords) (arg1 : Memref sig .tc .vmem S1024x60 .f32) (harg1 : arg1.IsWhole) (arg2 : Memref sig .tc .vmem S1024x20 .f32) (harg2 : arg2.IsWhole) (arg3 : Memref sig .tc .vmem S1024x3 .f32) (harg3 : arg3.IsWhole) (arg4 : Memref sig .tc .vmem S1x101 .f32) (harg4 : arg4.IsWhole) (arg5 : Memref sig .tc .vmem S80x256 .f32) (harg5 : arg5.IsWhole) (arg6 : Memref sig .tc .vmem S256 .f32) (harg6 : arg6.IsWhole) (arg7 : Memref sig .tc .vmem S256 .f32) (harg7 : arg7.IsWhole) (arg8 : Memref sig .tc .vmem S256 .f32) (harg8 : arg8.IsWhole) (arg9 : Memref sig .tc .vmem S256x128 .f32) (harg9 : arg9.IsWhole) (arg10 : Memref sig .tc .vmem S128 .f32) (harg10 : arg10.IsWhole) (arg11 : Memref sig .tc .vmem S128 .f32) (harg11 : arg11.IsWhole) (arg12 : Memref sig .tc .vmem S128 .f32) (harg12 : arg12.IsWhole) (arg13 : Memref sig .tc .vmem S128x64 .f32) (harg13 : arg13.IsWhole) (arg14 : Memref sig .tc .vmem S64 .f32) (harg14 : arg14.IsWhole) (arg15 : Memref sig .tc .vmem S64 .f32) (harg15 : arg15.IsWhole) (arg16 : Memref sig .tc .vmem S64 .f32) (harg16 : arg16.IsWhole) (arg17 : Memref sig .tc .vmem S64x101 .f32) (harg17 : arg17.IsWhole) (arg18 : Memref sig .tc .vmem S101 .f32) (harg18 : arg18.IsWhole) (arg19 : Memref sig .tc .vmem S1024x101 .f32) (harg19 : arg19.IsWhole)
    (x0 : Vec F S1024x60 .f32) (x1 : Vec F S1024x20 .f32) (x2 : Vec F S1024x3 .f32) (x3 : Vec F S1x101 .f32) (x4 : Vec F S80x256 .f32) (x5 : Vec F S256 .f32) (x6 : Vec F S256 .f32) (x7 : Vec F S256 .f32) (x8 : Vec F S256x128 .f32) (x9 : Vec F S128 .f32) (x10 : Vec F S128 .f32) (x11 : Vec F S128 .f32) (x12 : Vec F S128x64 .f32) (x13 : Vec F S64 .f32) (x14 : Vec F S64 .f32) (x15 : Vec F S64 .f32) (x16 : Vec F S64x101 .f32) (x17 : Vec F S101 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ (∃ d, owns (c : Thread nD τ) arg19 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare (out0_18 x0 x1 x2 x3 x4 x5 x6 x7 x8 x9 x10 x11 x12 x13 x14 x15 x16 x17)) -∗ K ⟨⟩))
      ⊢ wp frame (wpE (defs₀ (F := F)) Variants.none c none) E (cc0__kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0__kernel_eq_skeleton]; unfold cc0__kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%d18, %f18, -, H18⟩, Hk⟩
  subst hf0 hf1 hf2 hf3 hf4 hf5 hf6 hf7 hf8 hf9 hf10 hf11 hf12 hf13 hf14 hf15 hf16 hf17
  sl_exec_parts
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  iexists _; isplitr
  swap; · iexact H18
  ipureintro
  exact View.read_writes_eq_canon _ _ _ (cover0_18 _)

/-! ## The pipeline's proof data -/

/-- The proof data of the one pipeline on core `c`: the arrays as the region finds them (`V`); after the body at
    point `t` each input's buffer at its block and the output's at `out0_18` of the input blocks; the invariant the
    scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)
    | ⟨_ + 19, h⟩ => absurd h (Nat.not_lt.2 (Nat.le_add_left _ _))
  Φ _ := Pipeline.ΦA spec0 c
  q _ := fullShare
  owed _ := 0

/-- The proof data's arrays are the region-entry contents (the definition projected; `V` stays folded). -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t))

set_option maxHeartbeats 4000000 in
/-- The body at any point: the inputs' memrefs hold their blocks, so `sound_kernel` applies; the invariant and
    the core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
  iapply (sound_kernel c Set.univ (grid0.coords t) _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexists _; iexact H18
  iintro ⟨H0, H1, H2, H3, H4, H5, H6, H7, H8, H9, H10, H11, H12, H13, H14, H15, H16, H17, H18⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iexact H18

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- At the compiled mesh, for any values, from any memory with zero counters: every weakly fair execution of @main on the
    TensorCores terminates, and every final state has every array of the pipeline at what the library computes from the
    proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- info: 'Cert.KernelIdeal.Hand.run_main' depends on axioms: [propext, Classical.choice, Quot.sound] -/
#guard_msgs in #print axioms run_main

/-- The frame: the program runs (terminates, no fault) and every argument array ends as launched, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  frame_of m ρ (dats m) (A_eq m) (run_main m ρ)

/-! ## The two windows whose arrays the host operations write -/

/-- The result of a three-operand host operation at its own result buffer, each operand's contents read at its own
    reference (the four-operand form is the library's `StableHlo.nary4_result`). -/
theorem nary3_result {Val : EltTy → Type} {x a b y : Ref sig .tc}
    (f : ((k : Fin 3) → ((![x, a, b] : Fin 3 → Ref sig .tc) k).ty.Contents Val) → y.ty.Contents Val) (hxs hy)
    (G : Valuation τ sig Val) :
    (StableHlo.nary (τ := τ) ![x, a, b] y f hxs hy).result G (Proc.devRef .tc y)
      = f (Fin.cons (G (Proc.devRef .tc x)) (Fin.cons (G (Proc.devRef .tc a)) (Fin.cons (G (Proc.devRef .tc b)) (fun i => i.elim0)))) := by
  rw [StableHlo.nary_result]; congr 1; funext k; fin_cases k <;> rfl

/-- Window 2's array when the region is entered: the rewards, the bootstrap values and the discounts, each
    broadcast to a column, side by side. -/
theorem V_main_v3 (c : Dev nD) : (V m c main_v3 : S131072x3.Idx → Elt F .f32) =
    concatenate S131072x3 1
      [⟨S131072x1, broadcastInDim S131072x1 ![0] bcast_S131072_S131072x1_0 (m ((c : Thread nD τ).loc main_arg2))⟩,
       ⟨S131072x1, broadcastInDim S131072x1 ![0] bcast_S131072_S131072x1_0 (m ((c : Thread nD τ).loc main_arg3))⟩,
       ⟨S131072x1, broadcastInDim S131072x1 ![0] bcast_S131072_S131072x1_0 (m ((c : Thread nD τ).loc main_arg4))⟩]
      concatenates_S131072x1_S131072x1_S131072x1_S131072x3_d1 := by
  dsimp only [V, hostOps0]
  simp only [StableHlo.after_cons, StableHlo.after_nil]
  rw [StableHlo.reshape_result_ne]; rotate_left; decide
  rw [nary3_result]
  repeat (first
    | rw [StableHlo.unary_result]
    | (rw [StableHlo.unary_result_ne]; rotate_left; decide))
  rfl

/-- Window 3's array when the region is entered: the support, reshaped to one row. -/
theorem V_main_v4 (c : Dev nD) : (V m c main_v4 : S1x101.Idx → Elt F .f32) =
    shapeCast S1x101 (m ((c : Thread nD τ).loc main_arg5)) shapeCasts_S101_S1x101 := by
  dsimp only [V, hostOps0]; after_results; rfl

end Cert.KernelIdeal.Hand

end
-- ==== Proof.Spec.lean ====
/-
  The common mathematics of both programs, on the extended reals, row by row.

  A row of the batch is an 80-vector x (60 observation entries followed by 20 action entries).  Three layers
  h ↦ silu (layerNorm (h · W + b)) take it to a 64-vector, a last affine map to 101 logits, and a softmax to 101
  probabilities p.  Independently the row's reward, bootstrap flag and discount give, for each of the 101 atoms q_a of
  the support, the clipped Bellman target min 10 (max (-10) (rew + (boot · disc) · q_a)) and its bin coordinate
  b_a = (target + 10) / 0.2 (the divisor is the f32 word of 0.2).  Every quantity is spelt with the exact operations of
  the extended reals (quotient, reciprocal square root, exponential, logistic), so that both programs' terms reduce to
  these by unfolding alone.
-/
import Idealize.ShloMosaic.PureOps.Ideal
import Mathlib.Algebra.BigOperators.Group.Finset.Basic

noncomputable section

namespace C51

open Idealize.ShloMosaic

/-- The extended real an f32 word denotes. -/
abbrev lit (b : BitVec 32) : EReal := Ideal.ofBits .f32 b

/-- An affine map: entry j of x · W + b. -/
def dense {K N : ℕ} (x : Fin K → EReal) (W : Fin K → Fin N → EReal) (b : Fin N → EReal) (j : Fin N) : EReal :=
  (∑ k : Fin K, x k * W k j) + b j

/-- The mean of a vector whose length is the f32 word n. -/
def mean {N : ℕ} (n : BitVec 32) (h : Fin N → EReal) : EReal :=
  Ideal.div (∑ k : Fin N, h k) (lit n)

/-- Layer normalisation with scale g and shift be: (h - μ) · rsqrt (σ² + ε) · g + be, the variance the mean of the
    squared deviations and ε the f32 word of 1e-5. -/
def lnorm {N : ℕ} (n : BitVec 32) (g be : Fin N → EReal) (h : Fin N → EReal) (j : Fin N) : EReal :=
  (h j - mean n h) * Ideal.rsqrt (mean n (fun k => (h k - mean n h) * (h k - mean n h)) + lit 0x3727C5AC#32) * g j + be j

/-- x · σ(x). -/
def silu (x : EReal) : EReal := x * Ideal.logistic x

/-- One hidden layer. -/
def layer {K N : ℕ} (n : BitVec 32) (W : Fin K → Fin N → EReal) (b g be : Fin N → EReal) (x : Fin K → EReal)
    (j : Fin N) : EReal :=
  silu (lnorm n g be (dense x W b) j)

/-- The largest entry of a vector, taken from -∞ and compared with -∞ once more. -/
def rowMax {N : ℕ} (z : Fin N → EReal) : EReal :=
  max (lit 0xFF800000#32) ((Finset.univ : Finset (Fin N)).fold max (lit 0xFF800000#32) z)

/-- Softmax: exp (z_j - max z) over the sum of those. -/
def softmax {N : ℕ} (z : Fin N → EReal) (j : Fin N) : EReal :=
  Ideal.div (Ideal.exp (z j - rowMax z)) (∑ k : Fin N, Ideal.exp (z k - rowMax z))

/-- The weights of the network. -/
structure Params where
  W1 : Fin 80 → Fin 256 → EReal
  b1 : Fin 256 → EReal
  g1 : Fin 256 → EReal
  be1 : Fin 256 → EReal
  W2 : Fin 256 → Fin 128 → EReal
  b2 : Fin 128 → EReal
  g2 : Fin 128 → EReal
  be2 : Fin 128 → EReal
  W3 : Fin 128 → Fin 64 → EReal
  b3 : Fin 64 → EReal
  g3 : Fin 64 → EReal
  be3 : Fin 64 → EReal
  W4 : Fin 64 → Fin 101 → EReal
  b4 : Fin 101 → EReal

/-- The three hidden layers' outputs and the logits of a row x. -/
def h1 (θ : Params) (x : Fin 80 → EReal) : Fin 256 → EReal := layer 0x43800000#32 θ.W1 θ.b1 θ.g1 θ.be1 x
def h2 (θ : Params) (x : Fin 80 → EReal) : Fin 128 → EReal := layer 0x43000000#32 θ.W2 θ.b2 θ.g2 θ.be2 (h1 θ x)
def h3 (θ : Params) (x : Fin 80 → EReal) : Fin 64 → EReal := layer 0x42800000#32 θ.W3 θ.b3 θ.g3 θ.be3 (h2 θ x)
def logits (θ : Params) (x : Fin 80 → EReal) : Fin 101 → EReal := dense (h3 θ x) θ.W4 θ.b4

/-- The row's probabilities over the 101 atoms. -/
def probs (θ : Params) (x : Fin 80 → EReal) : Fin 101 → EReal := softmax (logits θ x)

/-- The row x: the 60 observation entries, then the 20 action entries. -/
def xrow (o : Fin 60 → EReal) (a : Fin 20 → EReal) (k : Fin 80) : EReal :=
  if h : k.val < 60 then o ⟨k.val, h⟩ else a ⟨k.val - 60, by have := k.isLt; omega⟩

/-- The bin coordinate of an atom q: (min 10 (max (-10) (rew + (boot · disc) · q)) - (-10)) / 0.2. -/
def bcoef (rew boot disc q : EReal) : EReal :=
  Ideal.div (min (lit 0x41200000#32) (max (lit 0xC1200000#32) (rew + boot * disc * q)) - lit 0xC1200000#32)
    (lit 0x3E4CCCCD#32)

end C51

end
-- ==== Proof.RefMlp.lean ====
/-
  The reference's network, read one entry at a time.

  The reference computes the whole batch at once: the rows [obs | actions] of width 80 go through three layers
  h ↦ silu (layerNorm (h · W + b)) of widths 256, 128 and 64, one more affine map to 101 logits, and a softmax along
  each row.  Every stage of the program is an array over the batch; read at row r (and column j) each of them is the
  corresponding row-level function of the common specification, applied to row r of the inputs.  The matrix products
  and the sums along a row are finite sums over the contracted coordinate, the broadcasts of a bias or of a row
  statistic read the one entry they repeat, and the concatenation reads the observation for the first 60 columns and
  the action for the last 20.  The softmax takes its row maximum from -∞ and compares it with -∞ once more.
-/
import proofs.«100750_j352187318805_1_alg».proof.Proof.RefRead
import proofs.«100750_j352187318805_1_alg».proof.Proof.Spec

noncomputable section

namespace Cert.ReferenceIdeal.Hand

open Cert.ReferenceIdeal Cert.ReferenceIdeal.Gen Cert.ReferenceIdeal.ReadP Idealize.ShloMosaic Idealize.ShloMosaic.ValueIdx

/-- A matrix array as a function of its two coordinates. -/
def mat {a b : Nat} (w : FVec Ideal ⟨2, ![a, b]⟩ .f32) (k : Fin a) (j : Fin b) : EReal := w (ix2 k j)

/-- A vector array as a function of its coordinate. -/
def vec {a : Nat} (w : FVec Ideal ⟨1, ![a]⟩ .f32) (j : Fin a) : EReal := w (ix1 j)

/-- The f32 word of 1.0 denotes the extended real 1. -/
theorem ofBits_one : Ideal.ofBits .f32 0x3F800000#32 = 1 := IdealRules.sign_bit.ideal_onePat .f32

variable (obs : FVec Ideal S131072x60 .f32) (actions : FVec Ideal S131072x20 .f32)
  (W1 : FVec Ideal S80x256 .f32) (b1 g1 be1 : FVec Ideal S256 .f32)
  (W2 : FVec Ideal S256x128 .f32) (b2 g2 be2 : FVec Ideal S128 .f32)
  (W3 : FVec Ideal S128x64 .f32) (b3 g3 be3 : FVec Ideal S64 .f32)
  (W4 : FVec Ideal S64x101 .f32) (b4 : FVec Ideal S101 .f32)

/-! ## The row-level functions of row r -/

/-- Row r of the network's input: its 60 observation entries, then its 20 action entries. -/
def X (r : Fin 131072) : Fin 80 → EReal := C51.xrow (fun k => obs (ix2 r k)) (fun k => actions (ix2 r k))

/-- Row r after the first hidden layer. -/
def H1 (r : Fin 131072) : Fin 256 → EReal :=
  C51.layer 0x43800000#32 (mat W1) (vec b1) (vec g1) (vec be1) (X obs actions r)

/-- Row r after the second hidden layer. -/
def H2 (r : Fin 131072) : Fin 128 → EReal :=
  C51.layer 0x43000000#32 (mat W2) (vec b2) (vec g2) (vec be2) (H1 obs actions W1 b1 g1 be1 r)

/-- Row r after the third hidden layer. -/
def H3 (r : Fin 131072) : Fin 64 → EReal :=
  C51.layer 0x42800000#32 (mat W3) (vec b3) (vec g3) (vec be3) (H2 obs actions W1 b1 g1 be1 W2 b2 g2 be2 r)

/-- Row r's logits. -/
def Z4 (r : Fin 131072) : Fin 101 → EReal :=
  C51.dense (H3 obs actions W1 b1 g1 be1 W2 b2 g2 be2 W3 b3 g3 be3 r) (mat W4) (vec b4)

/-- Row r's probabilities over the 101 atoms. -/
def P (r : Fin 131072) (a : Fin 101) : EReal :=
  C51.softmax (Z4 obs actions W1 b1 g1 be1 W2 b2 g2 be2 W3 b3 g3 be3 W4 b4 r) a

/-- The network's weights as the specification's parameter record. -/
def T : C51.Params where
  W1 := mat W1
  b1 := vec b1
  g1 := vec g1
  be1 := vec be1
  W2 := mat W2
  b2 := vec b2
  g2 := vec g2
  be2 := vec be2
  W3 := mat W3
  b3 := vec b3
  g3 := vec g3
  be3 := vec be3
  W4 := mat W4
  b4 := vec b4

/-- Row r's probabilities are the specification's, of row r of the input. -/
theorem P_eq_probs (r : Fin 131072) (a : Fin 101) :
    P obs actions W1 b1 g1 be1 W2 b2 g2 be2 W3 b3 g3 be3 W4 b4 r a
      = C51.probs (T W1 b1 g1 be1 W2 b2 g2 be2 W3 b3 g3 be3 W4 b4)
          (C51.xrow (fun k => obs (ix2 r k)) (fun k => actions (ix2 r k))) a := rfl

/-! ## The concatenated input -/

/-- The concatenation [obs | actions] at (r, k) is entry k of row r of the input. -/
theorem x_at (r : Fin 131072) (k : Fin 80) :
    val_main_v34 (F := Ideal) obs actions (ix2 r k) = X obs actions r k := by
  unfold val_main_v34 X C51.xrow
  by_cases h : k.val < 60
  · rw [dif_pos h]
    exact concatenate_pair_apply_left (1 : Fin 2) obs actions concatenates_S131072x60_S131072x20_S131072x80_d1 (ix2 r k) rfl
      (ix2 r ⟨k.val, h⟩) (fun b => match b with | ⟨0, _⟩ => rfl | ⟨1, _⟩ => rfl)
  · rw [dif_neg h]
    exact concatenate_pair_apply_right (1 : Fin 2) obs actions concatenates_S131072x60_S131072x20_S131072x80_d1 (ix2 r k) rfl rfl
      (ix2 r ⟨k.val - 60, by have := k.isLt; omega⟩)
      (fun b hb => match b, hb with | ⟨0, _⟩, _ => rfl | ⟨1, _⟩, hb => absurd rfl hb)
      (by show k.val - 60 + 60 = k.val; omega)

/-! ## Layer 1: 80 → 256 -/

theorem z1_at (r : Fin 131072) (j : Fin 256) :
    val_main_v38 (F := Ideal) obs actions W1 b1 (ix2 r j) = C51.dense (X obs actions r) (mat W1) (vec b1) j := by
  have e1 : ∀ k, lidx_main_v35 (ix2 r j) k = ix2 r k := fun k => funext fun a => Fin.ext (by match a with | ⟨0, _⟩ => rfl | ⟨1, _⟩ => rfl)
  have e2 : ∀ k, ridx_main_v35 (ix2 r j) k = ix2 k j := fun k => funext fun a => Fin.ext (by match a with | ⟨0, _⟩ => rfl | ⟨1, _⟩ => rfl)
  have e3 : idx_main_v36 (idx_main_v37 (ix2 r j)) = ix1 j := funext fun a => Fin.ext (by match a with | ⟨0, _⟩ => rfl)
  rw [val_main_v38_apply, val_main_v35_apply, val_main_v37_apply, val_main_v36_apply, e3]
  simp only [e1, e2, x_at, Ideal.addf_def]
  rfl

theorem mean1_at (r : Fin 131072) :
    val_main_v42 (F := Ideal) obs actions W1 b1 (ix2 r (0 : Fin 1)) = C51.mean 0x43800000#32 (C51.dense (X obs actions r) (mat W1) (vec b1)) := by
  have e1 : idx_main_v40 (ix2 r (0 : Fin 1)) = ix1 r := funext fun a => Fin.ext (by match a with | ⟨0, _⟩ => rfl)
  have e2 : ∀ k, idx_main_v39 (ix1 r) k = ix2 r k := fun k => funext fun a => Fin.ext (by match a with | ⟨0, _⟩ => rfl | ⟨1, _⟩ => rfl)
  rw [val_main_v42_apply, val_main_v40_apply, e1, val_main_v39_apply, val_main_v41_apply,
    val_main_cst_7_apply, val_main_cst_6_apply]
  simp only [e2, z1_at, Ideal.hostDivf_def, Ideal.ofBits_def, Ideal.ofBits_zero_f32, zero_add]
  rfl

theorem dev1_at (r : Fin 131072) (j : Fin 256) :
    val_main_v44 (F := Ideal) obs actions W1 b1 (ix2 r j) = C51.dense (X obs actions r) (mat W1) (vec b1) j - C51.mean 0x43800000#32 (C51.dense (X obs actions r) (mat W1) (vec b1)) := by
  have e1 : idx_main_v43 (ix2 r j) = ix2 r (0 : Fin 1) := funext fun a => Fin.ext (by match a with | ⟨0, _⟩ => rfl | ⟨1, _⟩ => rfl)
  rw [val_main_v44_apply, val_main_v43_apply, e1, z1_at, mean1_at]
  rfl

theorem var1_at (r : Fin 131072) :
    val_main_v49 (F := Ideal) obs actions W1 b1 (ix2 r (0 : Fin 1))
      = C51.mean 0x43800000#32 (fun k => (C51.dense (X obs actions r) (mat W1) (vec b1) k - C51.mean 0x43800000#32 (C51.dense (X obs actions r) (mat W1) (vec b1))) * (C51.dense (X obs actions r) (mat W1) (vec b1) k - C51.mean 0x43800000#32 (C51.dense (X obs actions r) (mat W1) (vec b1)))) := by
  have e1 : idx_main_v47 (ix2 r (0 : Fin 1)) = ix1 r := funext fun a => Fin.ext (by match a with | ⟨0, _⟩ => rfl)
  have e2 : ∀ k, idx_main_v46 (ix1 r) k = ix2 r k := fun k => funext fun a => Fin.ext (by match a with | ⟨0, _⟩ => rfl | ⟨1, _⟩ => rfl)
  rw [val_main_v49_apply, val_main_v47_apply, e1, val_main_v46_apply, val_main_v48_apply,
    val_main_cst_9_apply, val_main_cst_8_apply]
  simp only [e2, val_main_v45_apply, dev1_at, Ideal.hostDivf_def, Ideal.mulf_def, Ideal.ofBits_def, Ideal.ofBits_zero_f32,
    zero_add]
  rfl

theorem ln1_at (r : Fin 131072) (j : Fin 256) :
    val_main_v62 (F := Ideal) obs actions W1 b1 g1 be1 (ix2 r j) = C51.lnorm 0x43800000#32 (vec g1) (vec be1) (C51.dense (X obs actions r) (mat W1) (vec b1)) j := by
  have e1 : idx_main_v50 (ix2 r j) = ix2 r (0 : Fin 1) := funext fun a => Fin.ext (by match a with | ⟨0, _⟩ => rfl | ⟨1, _⟩ => rfl)
  have e2 : idx_main_v55 (ix2 r j) = ix2 r (0 : Fin 1) := funext fun a => Fin.ext (by match a with | ⟨0, _⟩ => rfl | ⟨1, _⟩ => rfl)
  have e3 : idx_main_v57 (idx_main_v58 (ix2 r j)) = ix1 j := funext fun a => Fin.ext (by match a with | ⟨0, _⟩ => rfl)
  have e4 : idx_main_v60 (idx_main_v61 (ix2 r j)) = ix1 j := funext fun a => Fin.ext (by match a with | ⟨0, _⟩ => rfl)
  rw [val_main_v62_apply, val_main_v59_apply, val_main_v56_apply, val_main_v51_apply, val_main_v50_apply, e1,
    val_main_v55_apply, e2, val_main_v54_apply, val_main_v53_apply, val_main_v52_apply, val_main_cst_10_apply,
    val_main_v58_apply, val_main_v57_apply, e3, val_main_v61_apply, val_main_v60_apply, e4, z1_at, mean1_at,
    var1_at]
  rfl

theorem h1_at (r : Fin 131072) (j : Fin 256) :
    val_main_v63 (F := Ideal) obs actions W1 b1 g1 be1 (ix2 r j)
      = C51.layer 0x43800000#32 (mat W1) (vec b1) (vec g1) (vec be1) (X obs actions r) j := by
  rw [val_main_v63_apply, val_main_call3_v5_apply, val_main_call3_v4_apply, val_main_call3_cst_0_apply,
    val_main_call3_v3_apply, val_main_call3_v2_apply, val_main_call3_cst_apply, val_main_call3_v1_apply,
    val_main_call3_v0_apply, ln1_at]
  simp only [Ideal.mulf_def, Ideal.hostDivf_def, Ideal.addf_def, Ideal.hostUnary_exp_def, Ideal.hostNegf_def, Ideal.negf_def,
    Ideal.ofBits_def, ofBits_one]
  rfl

/-- The stage after layer 1, at (r, j), is entry j of row r's layer-1 output. -/
theorem H1_at (r : Fin 131072) (j : Fin 256) :
    val_main_v63 (F := Ideal) obs actions W1 b1 g1 be1 (ix2 r j) = H1 obs actions W1 b1 g1 be1 r j := h1_at obs actions W1 b1 g1 be1 r j

/-! ## Layer 2: 256 → 128 -/

theorem z2_at (r : Fin 131072) (j : Fin 128) :
    val_main_v67 (F := Ideal) obs actions W1 b1 g1 be1 W2 b2 (ix2 r j) = C51.dense (H1 obs actions W1 b1 g1 be1 r) (mat W2) (vec b2) j := by
  have e1 : ∀ k, lidx_main_v64 (ix2 r j) k = ix2 r k := fun k => funext fun a => Fin.ext (by match a with | ⟨0, _⟩ => rfl | ⟨1, _⟩ => rfl)
  have e2 : ∀ k, ridx_main_v64 (ix2 r j) k = ix2 k j := fun k => funext fun a => Fin.ext (by match a with | ⟨0, _⟩ => rfl | ⟨1, _⟩ => rfl)
  have e3 : idx_main_v65 (idx_main_v66 (ix2 r j)) = ix1 j := funext fun a => Fin.ext (by match a with | ⟨0, _⟩ => rfl)
  rw [val_main_v67_apply, val_main_v64_apply, val_main_v66_apply, val_main_v65_apply, e3]
  simp only [e1, e2, H1_at, Ideal.addf_def]
  rfl

theorem mean2_at (r : Fin 131072) :
    val_main_v71 (F := Ideal) obs actions W1 b1 g1 be1 W2 b2 (ix2 r (0 : Fin 1)) = C51.mean 0x43000000#32 (C51.dense (H1 obs actions W1 b1 g1 be1 r) (mat W2) (vec b2)) := by
  have e1 : idx_main_v69 (ix2 r (0 : Fin 1)) = ix1 r := funext fun a => Fin.ext (by match a with | ⟨0, _⟩ => rfl)
  have e2 : ∀ k, idx_main_v68 (ix1 r) k = ix2 r k := fun k => funext fun a => Fin.ext (by match a with | ⟨0, _⟩ => rfl | ⟨1, _⟩ => rfl)
  rw [val_main_v71_apply, val_main_v69_apply, e1, val_main_v68_apply, val_main_v70_apply,
    val_main_cst_12_apply, val_main_cst_11_apply]
  simp only [e2, z2_at, Ideal.hostDivf_def, Ideal.ofBits_def, Ideal.ofBits_zero_f32, zero_add]
  rfl

theorem dev2_at (r : Fin 131072) (j : Fin 128) :
    val_main_v73 (F := Ideal) obs actions W1 b1 g1 be1 W2 b2 (ix2 r j) = C51.dense (H1 obs actions W1 b1 g1 be1 r) (mat W2) (vec b2) j - C51.mean 0x43000000#32 (C51.dense (H1 obs actions W1 b1 g1 be1 r) (mat W2) (vec b2)) := by
  have e1 : idx_main_v72 (ix2 r j) = ix2 r (0 : Fin 1) := funext fun a => Fin.ext (by match a with | ⟨0, _⟩ => rfl | ⟨1, _⟩ => rfl)
  rw [val_main_v73_apply, val_main_v72_apply, e1, z2_at, mean2_at]
  rfl

theorem var2_at (r : Fin 131072) :
    val_main_v78 (F := Ideal) obs actions W1 b1 g1 be1 W2 b2 (ix2 r (0 : Fin 1))
      = C51.mean 0x43000000#32 (fun k => (C51.dense (H1 obs actions W1 b1 g1 be1 r) (mat W2) (vec b2) k - C51.mean 0x43000000#32 (C51.dense (H1 obs actions W1 b1 g1 be1 r) (mat W2) (vec b2))) * (C51.dense (H1 obs actions W1 b1 g1 be1 r) (mat W2) (vec b2) k - C51.mean 0x43000000#32 (C51.dense (H1 obs actions W1 b1 g1 be1 r) (mat W2) (vec b2)))) := by
  have e1 : idx_main_v76 (ix2 r (0 : Fin 1)) = ix1 r := funext fun a => Fin.ext (by match a with | ⟨0, _⟩ => rfl)
  have e2 : ∀ k, idx_main_v75 (ix1 r) k = ix2 r k := fun k => funext fun a => Fin.ext (by match a with | ⟨0, _⟩ => rfl | ⟨1, _⟩ => rfl)
  rw [val_main_v78_apply, val_main_v76_apply, e1, val_main_v75_apply, val_main_v77_apply,
    val_main_cst_14_apply, val_main_cst_13_apply]
  simp only [e2, val_main_v74_apply, dev2_at, Ideal.hostDivf_def, Ideal.mulf_def, Ideal.ofBits_def, Ideal.ofBits_zero_f32,
    zero_add]
  rfl

theorem ln2_at (r : Fin 131072) (j : Fin 128) :
    val_main_v91 (F := Ideal) obs actions W1 b1 g1 be1 W2 b2 g2 be2 (ix2 r j) = C51.lnorm 0x43000000#32 (vec g2) (vec be2) (C51.dense (H1 obs actions W1 b1 g1 be1 r) (mat W2) (vec b2)) j := by
  have e1 : idx_main_v79 (ix2 r j) = ix2 r (0 : Fin 1) := funext fun a => Fin.ext (by match a with | ⟨0, _⟩ => rfl | ⟨1, _⟩ => rfl)
  have e2 : idx_main_v84 (ix2 r j) = ix2 r (0 : Fin 1) := funext fun a => Fin.ext (by match a with | ⟨0, _⟩ => rfl | ⟨1, _⟩ => rfl)
  have e3 : idx_main_v86 (idx_main_v87 (ix2 r j)) = ix1 j := funext fun a => Fin.ext (by match a with | ⟨0, _⟩ => rfl)
  have e4 : idx_main_v89 (idx_main_v90 (ix2 r j)) = ix1 j := funext fun a => Fin.ext (by match a with | ⟨0, _⟩ => rfl)
  rw [val_main_v91_apply, val_main_v88_apply, val_main_v85_apply, val_main_v80_apply, val_main_v79_apply, e1,
    val_main_v84_apply, e2, val_main_v83_apply, val_main_v82_apply, val_main_v81_apply, val_main_cst_15_apply,
    val_main_v87_apply, val_main_v86_apply, e3, val_main_v90_apply, val_main_v89_apply, e4, z2_at, mean2_at,
    var2_at]
  rfl

theorem h2_at (r : Fin 131072) (j : Fin 128) :
    val_main_v92 (F := Ideal) obs actions W1 b1 g1 be1 W2 b2 g2 be2 (ix2 r j)
      = C51.layer 0x43000000#32 (mat W2) (vec b2) (vec g2) (vec be2) (H1 obs actions W1 b1 g1 be1 r) j := by
  rw [val_main_v92_apply, val_main_call4_v5_apply, val_main_call4_v4_apply, val_main_call4_cst_0_apply,
    val_main_call4_v3_apply, val_main_call4_v2_apply, val_main_call4_cst_apply, val_main_call4_v1_apply,
    val_main_call4_v0_apply, ln2_at]
  simp only [Ideal.mulf_def, Ideal.hostDivf_def, Ideal.addf_def, Ideal.hostUnary_exp_def, Ideal.hostNegf_def, Ideal.negf_def,
    Ideal.ofBits_def, ofBits_one]
  rfl

/-- The stage after layer 2, at (r, j), is entry j of row r's layer-2 output. -/
theorem H2_at (r : Fin 131072) (j : Fin 128) :
    val_main_v92 (F := Ideal) obs actions W1 b1 g1 be1 W2 b2 g2 be2 (ix2 r j) = H2 obs actions W1 b1 g1 be1 W2 b2 g2 be2 r j := h2_at obs actions W1 b1 g1 be1 W2 b2 g2 be2 r j

/-! ## Layer 3: 128 → 64 -/

theorem z3_at (r : Fin 131072) (j : Fin 64) :
    val_main_v96 (F := Ideal) obs actions W1 b1 g1 be1 W2 b2 g2 be2 W3 b3 (ix2 r j) = C51.dense (H2 obs actions W1 b1 g1 be1 W2 b2 g2 be2 r) (mat W3) (vec b3) j := by
  have e1 : ∀ k, lidx_main_v93 (ix2 r j) k = ix2 r k := fun k => funext fun a => Fin.ext (by match a with | ⟨0, _⟩ => rfl | ⟨1, _⟩ => rfl)
  have e2 : ∀ k, ridx_main_v93 (ix2 r j) k = ix2 k j := fun k => funext fun a => Fin.ext (by match a with | ⟨0, _⟩ => rfl | ⟨1, _⟩ => rfl)
  have e3 : idx_main_v94 (idx_main_v95 (ix2 r j)) = ix1 j := funext fun a => Fin.ext (by match a with | ⟨0, _⟩ => rfl)
  rw [val_main_v96_apply, val_main_v93_apply, val_main_v95_apply, val_main_v94_apply, e3]
  simp only [e1, e2, H2_at, Ideal.addf_def]
  rfl

theorem mean3_at (r : Fin 131072) :
    val_main_v100 (F := Ideal) obs actions W1 b1 g1 be1 W2 b2 g2 be2 W3 b3 (ix2 r (0 : Fin 1)) = C51.mean 0x42800000#32 (C51.dense (H2 obs actions W1 b1 g1 be1 W2 b2 g2 be2 r) (mat W3) (vec b3)) := by
  have e1 : idx_main_v98 (ix2 r (0 : Fin 1)) = ix1 r := funext fun a => Fin.ext (by match a with | ⟨0, _⟩ => rfl)
  have e2 : ∀ k, idx_main_v97 (ix1 r) k = ix2 r k := fun k => funext fun a => Fin.ext (by match a with | ⟨0, _⟩ => rfl | ⟨1, _⟩ => rfl)
  rw [val_main_v100_apply, val_main_v98_apply, e1, val_main_v97_apply, val_main_v99_apply,
    val_main_cst_17_apply, val_main_cst_16_apply]
  simp only [e2, z3_at, Ideal.hostDivf_def, Ideal.ofBits_def, Ideal.ofBits_zero_f32, zero_add]
  rfl

theorem dev3_at (r : Fin 131072) (j : Fin 64) :
    val_main_v102 (F := Ideal) obs actions W1 b1 g1 be1 W2 b2 g2 be2 W3 b3 (ix2 r j) = C51.dense (H2 obs actions W1 b1 g1 be1 W2 b2 g2 be2 r) (mat W3) (vec b3) j - C51.mean 0x42800000#32 (C51.dense (H2 obs actions W1 b1 g1 be1 W2 b2 g2 be2 r) (mat W3) (vec b3)) := by
  have e1 : idx_main_v101 (ix2 r j) = ix2 r (0 : Fin 1) := funext fun a => Fin.ext (by match a with | ⟨0, _⟩ => rfl | ⟨1, _⟩ => rfl)
  rw [val_main_v102_apply, val_main_v101_apply, e1, z3_at, mean3_at]
  rfl

theorem var3_at (r : Fin 131072) :
    val_main_v107 (F := Ideal) obs actions W1 b1 g1 be1 W2 b2 g2 be2 W3 b3 (ix2 r (0 : Fin 1))
      = C51.mean 0x42800000#32 (fun k => (C51.dense (H2 obs actions W1 b1 g1 be1 W2 b2 g2 be2 r) (mat W3) (vec b3) k - C51.mean 0x42800000#32 (C51.dense (H2 obs actions W1 b1 g1 be1 W2 b2 g2 be2 r) (mat W3) (vec b3))) * (C51.dense (H2 obs actions W1 b1 g1 be1 W2 b2 g2 be2 r) (mat W3) (vec b3) k - C51.mean 0x42800000#32 (C51.dense (H2 obs actions W1 b1 g1 be1 W2 b2 g2 be2 r) (mat W3) (vec b3)))) := by
  have e1 : idx_main_v105 (ix2 r (0 : Fin 1)) = ix1 r := funext fun a => Fin.ext (by match a with | ⟨0, _⟩ => rfl)
  have e2 : ∀ k, idx_main_v104 (ix1 r) k = ix2 r k := fun k => funext fun a => Fin.ext (by match a with | ⟨0, _⟩ => rfl | ⟨1, _⟩ => rfl)
  rw [val_main_v107_apply, val_main_v105_apply, e1, val_main_v104_apply, val_main_v106_apply,
    val_main_cst_19_apply, val_main_cst_18_apply]
  simp only [e2, val_main_v103_apply, dev3_at, Ideal.hostDivf_def, Ideal.mulf_def, Ideal.ofBits_def, Ideal.ofBits_zero_f32,
    zero_add]
  rfl

theorem ln3_at (r : Fin 131072) (j : Fin 64) :
    val_main_v120 (F := Ideal) obs actions W1 b1 g1 be1 W2 b2 g2 be2 W3 b3 g3 be3 (ix2 r j) = C51.lnorm 0x42800000#32 (vec g3) (vec be3) (C51.dense (H2 obs actions W1 b1 g1 be1 W2 b2 g2 be2 r) (mat W3) (vec b3)) j := by
  have e1 : idx_main_v108 (ix2 r j) = ix2 r (0 : Fin 1) := funext fun a => Fin.ext (by match a with | ⟨0, _⟩ => rfl | ⟨1, _⟩ => rfl)
  have e2 : idx_main_v113 (ix2 r j) = ix2 r (0 : Fin 1) := funext fun a => Fin.ext (by match a with | ⟨0, _⟩ => rfl | ⟨1, _⟩ => rfl)
  have e3 : idx_main_v115 (idx_main_v116 (ix2 r j)) = ix1 j := funext fun a => Fin.ext (by match a with | ⟨0, _⟩ => rfl)
  have e4 : idx_main_v118 (idx_main_v119 (ix2 r j)) = ix1 j := funext fun a => Fin.ext (by match a with | ⟨0, _⟩ => rfl)
  rw [val_main_v120_apply, val_main_v117_apply, val_main_v114_apply, val_main_v109_apply, val_main_v108_apply, e1,
    val_main_v113_apply, e2, val_main_v112_apply, val_main_v111_apply, val_main_v110_apply, val_main_cst_20_apply,
    val_main_v116_apply, val_main_v115_apply, e3, val_main_v119_apply, val_main_v118_apply, e4, z3_at, mean3_at,
    var3_at]
  rfl

theorem h3_at (r : Fin 131072) (j : Fin 64) :
    val_main_v121 (F := Ideal) obs actions W1 b1 g1 be1 W2 b2 g2 be2 W3 b3 g3 be3 (ix2 r j)
      = C51.layer 0x42800000#32 (mat W3) (vec b3) (vec g3) (vec be3) (H2 obs actions W1 b1 g1 be1 W2 b2 g2 be2 r) j := by
  rw [val_main_v121_apply, val_main_call5_v5_apply, val_main_call5_v4_apply, val_main_call5_cst_0_apply,
    val_main_call5_v3_apply, val_main_call5_v2_apply, val_main_call5_cst_apply, val_main_call5_v1_apply,
    val_main_call5_v0_apply, ln3_at]
  simp only [Ideal.mulf_def, Ideal.hostDivf_def, Ideal.addf_def, Ideal.hostUnary_exp_def, Ideal.hostNegf_def, Ideal.negf_def,
    Ideal.ofBits_def, ofBits_one]
  rfl

/-- The stage after layer 3, at (r, j), is entry j of row r's layer-3 output. -/
theorem H3_at (r : Fin 131072) (j : Fin 64) :
    val_main_v121 (F := Ideal) obs actions W1 b1 g1 be1 W2 b2 g2 be2 W3 b3 g3 be3 (ix2 r j) = H3 obs actions W1 b1 g1 be1 W2 b2 g2 be2 W3 b3 g3 be3 r j := h3_at obs actions W1 b1 g1 be1 W2 b2 g2 be2 W3 b3 g3 be3 r j

/-! ## Logits and softmax -/

theorem z4_at (r : Fin 131072) (j : Fin 101) :
    val_main_v125 (F := Ideal) obs actions W1 b1 g1 be1 W2 b2 g2 be2 W3 b3 g3 be3 W4 b4 (ix2 r j) = C51.dense (H3 obs actions W1 b1 g1 be1 W2 b2 g2 be2 W3 b3 g3 be3 r) (mat W4) (vec b4) j := by
  have e1 : ∀ k, lidx_main_v122 (ix2 r j) k = ix2 r k := fun k => funext fun a => Fin.ext (by match a with | ⟨0, _⟩ => rfl | ⟨1, _⟩ => rfl)
  have e2 : ∀ k, ridx_main_v122 (ix2 r j) k = ix2 k j := fun k => funext fun a => Fin.ext (by match a with | ⟨0, _⟩ => rfl | ⟨1, _⟩ => rfl)
  have e3 : idx_main_v123 (idx_main_v124 (ix2 r j)) = ix1 j := funext fun a => Fin.ext (by match a with | ⟨0, _⟩ => rfl)
  rw [val_main_v125_apply, val_main_v122_apply, val_main_v124_apply, val_main_v123_apply, e3]
  simp only [e1, e2, H3_at, Ideal.addf_def]
  rfl

/-- Dropping the column coordinate of a [131072, 101] array gives the rows. -/
theorem reduces_row : S131072x101.Reduces [1] S131072 := by decide

/-- Row r with the column k put back is (r, k). -/
theorem lift_row (r : Fin 131072) (k : Fin (S131072x101.size 1)) :
    reduces_row.lift (ix1 r) k = ix2 r (⟨k.val, k.isLt⟩ : Fin 101) := by
  funext c; apply Fin.ext
  fin_cases c <;> rfl

/-- The row maximum, taken from -∞ and compared with -∞ once more. -/
theorem max_at (r : Fin 131072) :
    val_main_v128 (F := Ideal) obs actions W1 b1 g1 be1 W2 b2 g2 be2 W3 b3 g3 be3 W4 b4 (ix1 r) = C51.rowMax (Z4 obs actions W1 b1 g1 be1 W2 b2 g2 be2 W3 b3 g3 be3 W4 b4 r) := by
  rw [val_main_v128_apply, val_main_v127_apply, val_main_cst_22_apply]
  unfold val_main_v126
  rw [Host.reduce_eq_fold_single FloatOps.maximumf _ _ reducesTo_S131072x101_S131072_d1 reduces_row h_S_, val_main_cst_21_apply]
  have hf : (val_main_v125 (F := Ideal) obs actions W1 b1 g1 be1 W2 b2 g2 be2 W3 b3 g3 be3 W4 b4 ∘ reduces_row.lift (ix1 r))
      = fun k : Fin 101 => Z4 obs actions W1 b1 g1 be1 W2 b2 g2 be2 W3 b3 g3 be3 W4 b4 r k :=
    funext fun k => by rw [Function.comp_apply, lift_row, z4_at]; rfl
  rw [hf]
  rfl

/-- The softmax at (r, a). -/
theorem p_at (r : Fin 131072) (a : Fin 101) :
    val_main_v136 (F := Ideal) obs actions W1 b1 g1 be1 W2 b2 g2 be2 W3 b3 g3 be3 W4 b4 (ix2 r a) = P obs actions W1 b1 g1 be1 W2 b2 g2 be2 W3 b3 g3 be3 W4 b4 r a := by
  have e1 : ∀ a' : Fin 101, idx_main_v129 (idx_main_v130 (ix2 r a')) = ix1 r := fun a' => funext fun a => Fin.ext (by match a with | ⟨0, _⟩ => rfl)
  have ex : ∀ a' : Fin 101, val_main_v132 (F := Ideal) obs actions W1 b1 g1 be1 W2 b2 g2 be2 W3 b3 g3 be3 W4 b4 (ix2 r a')
      = Ideal.exp (Z4 obs actions W1 b1 g1 be1 W2 b2 g2 be2 W3 b3 g3 be3 W4 b4 r a' - C51.rowMax (Z4 obs actions W1 b1 g1 be1 W2 b2 g2 be2 W3 b3 g3 be3 W4 b4 r)) := fun a' => by
    rw [val_main_v132_apply, val_main_v131_apply, val_main_v130_apply, val_main_v129_apply, e1, max_at, z4_at]
    rfl
  have e2 : idx_main_v134 (idx_main_v135 (ix2 r a)) = ix1 r := funext fun a => Fin.ext (by match a with | ⟨0, _⟩ => rfl)
  have e3 : ∀ k, idx_main_v133 (ix1 r) k = ix2 r k := fun k => funext fun a => Fin.ext (by match a with | ⟨0, _⟩ => rfl | ⟨1, _⟩ => rfl)
  rw [val_main_v136_apply, val_main_v135_apply, val_main_v134_apply, e2, val_main_v133_apply, val_main_cst_23_apply, ex]
  simp only [e3, ex, Ideal.hostDivf_def, Ideal.ofBits_def, Ideal.ofBits_zero_f32, zero_add]
  rfl

end Cert.ReferenceIdeal.Hand

end
-- ==== Proof.RefBins.lean ====
/-
  The reference's bin arithmetic, read one entry at a time.

  For row r and atom a the reference forms the clipped Bellman target and its bin coordinate b, the two neighbouring bin
  numbers floor b and ceil b as 32-bit words, moves the lower one down by one when b is a positive whole number and the
  upper one up by one when b is zero (so that the two always differ), and weighs the row's probability p of the atom
  by the distances to the two: p · (upper - b) for the lower bin and p · (b - lower) for the upper bin.
-/
import proofs.«100750_j352187318805_1_alg».proof.Proof.RefMlp

noncomputable section

namespace Cert.ReferenceIdeal.Hand

open Cert.ReferenceIdeal Cert.ReferenceIdeal.Gen Cert.ReferenceIdeal.ReadP Idealize.ShloMosaic Idealize.ShloMosaic.ValueIdx

variable (obs : FVec Ideal S131072x60 .f32) (actions : FVec Ideal S131072x20 .f32)
  (rewards bootstrap discount : FVec Ideal S131072 .f32) (q_support : FVec Ideal S101 .f32)
  (W1 : FVec Ideal S80x256 .f32) (b1 g1 be1 : FVec Ideal S256 .f32)
  (W2 : FVec Ideal S256x128 .f32) (b2 g2 be2 : FVec Ideal S128 .f32)
  (W3 : FVec Ideal S128x64 .f32) (b3 g3 be3 : FVec Ideal S64 .f32)
  (W4 : FVec Ideal S64x101 .f32) (b4 : FVec Ideal S101 .f32)

/-! ## The bin coordinate -/

/-- The bin coordinate of atom a in row r. -/
def B (r : Fin 131072) (a : Fin 101) : EReal :=
  C51.bcoef (rewards (ix1 r)) (bootstrap (ix1 r)) (discount (ix1 r)) (q_support (ix1 a))

theorem b_at (r : Fin 131072) (a : Fin 101) :
    val_main_v14 (F := Ideal) rewards bootstrap discount q_support (ix2 r a) = B rewards bootstrap discount q_support r a := by
  have e0 : idx_main_v0 (idx_main_v8 (ix2 r a)) = ix1 r := funext fun a => Fin.ext (by match a with | ⟨0, _⟩ => rfl)
  have e1 : idx_main_v1 (idx_main_v5 (ix2 r a)) = ix1 r := funext fun a => Fin.ext (by match a with | ⟨0, _⟩ => rfl)
  have e2 : idx_main_v2 (idx_main_v5 (ix2 r a)) = ix1 r := funext fun a => Fin.ext (by match a with | ⟨0, _⟩ => rfl)
  have e4 : idx_main_v4 (idx_main_v6 (ix2 r a)) = ix1 a := funext fun a => Fin.ext (by match a with | ⟨0, _⟩ => rfl)
  rw [val_main_v14_apply, val_main_v12_apply, val_main_v10_apply, val_main_call0_v4_apply, val_main_call0_v3_apply,
    val_main_cst_0_apply, val_main_call0_v2_apply, val_main_call0_v1_apply, val_main_call0_v0_apply, val_main_cst_apply,
    val_main_v9_apply, val_main_v8_apply, val_main_v0_apply, e0, val_main_v7_apply, val_main_v5_apply, val_main_v3_apply,
    val_main_v1_apply, e1, val_main_v2_apply, e2, val_main_v6_apply, val_main_v4_apply, e4, val_main_v11_apply,
    val_main_cst_1_apply, val_main_v13_apply, val_main_cst_2_apply]
  rfl

/-! ## The two bin numbers -/

/-- floor b as a 32-bit word. -/
def LI0 (r : Fin 131072) (a : Fin 101) : BitVec 32 := Ideal.fptosi 32 (Ideal.liftRound Int.floor (B rewards bootstrap discount q_support r a))

/-- ceil b as a 32-bit word. -/
def UI0 (r : Fin 131072) (a : Fin 101) : BitVec 32 := Ideal.fptosi 32 (Ideal.liftRound Int.ceil (B rewards bootstrap discount q_support r a))

/-- The lower bin: floor b, less one when floor b = ceil b and floor b > 0. -/
def LI (r : Fin 131072) (a : Fin 101) : BitVec 32 :=
  Scalar.select (IntOp.andi (IntOp.cmpi .eq (UI0 rewards bootstrap discount q_support r a) (LI0 rewards bootstrap discount q_support r a)) (IntOp.cmpi .sgt (LI0 rewards bootstrap discount q_support r a) 0#32))
    (IntOp.subi (LI0 rewards bootstrap discount q_support r a) 1#32) (LI0 rewards bootstrap discount q_support r a)

/-- The upper bin: ceil b, plus one when floor b = ceil b and floor b = 0. -/
def UI (r : Fin 131072) (a : Fin 101) : BitVec 32 :=
  Scalar.select (IntOp.andi (IntOp.cmpi .eq (UI0 rewards bootstrap discount q_support r a) (LI0 rewards bootstrap discount q_support r a)) (IntOp.cmpi .eq (LI0 rewards bootstrap discount q_support r a) 0#32))
    (IntOp.addi (UI0 rewards bootstrap discount q_support r a) 1#32) (UI0 rewards bootstrap discount q_support r a)

theorem li0_at (r : Fin 131072) (a : Fin 101) :
    val_main_v16 (F := Ideal) rewards bootstrap discount q_support (ix2 r a) = LI0 rewards bootstrap discount q_support r a := by
  rw [val_main_v16_apply, val_main_v15_apply, b_at]
  rfl

theorem ui0_at (r : Fin 131072) (a : Fin 101) :
    val_main_v18 (F := Ideal) rewards bootstrap discount q_support (ix2 r a) = UI0 rewards bootstrap discount q_support r a := by
  rw [val_main_v18_apply, val_main_v17_apply, b_at]
  rfl

theorem li_at (r : Fin 131072) (a : Fin 101) :
    val_main_v28 (F := Ideal) rewards bootstrap discount q_support (ix2 r a) = LI rewards bootstrap discount q_support r a := by
  rw [val_main_v28_apply, val_main_v22_apply, val_main_v19_apply, val_main_v21_apply, val_main_v20_apply, val_main_c_apply,
    val_main_v27_apply, val_main_v26_apply, val_main_c_4_apply, li0_at, ui0_at]
  rfl

theorem ui_at (r : Fin 131072) (a : Fin 101) :
    val_main_v31 (F := Ideal) rewards bootstrap discount q_support (ix2 r a) = UI rewards bootstrap discount q_support r a := by
  rw [val_main_v31_apply, val_main_v25_apply, val_main_v19_apply, val_main_v24_apply, val_main_v23_apply, val_main_c_3_apply,
    val_main_v30_apply, val_main_v29_apply, val_main_c_5_apply, li0_at, ui0_at]
  rfl

/-! ## The two weights -/

/-- The weight atom a of row r gives its lower bin: p · (upper - b). -/
def LW (r : Fin 131072) (a : Fin 101) : EReal :=
  P obs actions W1 b1 g1 be1 W2 b2 g2 be2 W3 b3 g3 be3 W4 b4 r a * ((((UI rewards bootstrap discount q_support r a).toInt : ℝ) : EReal) - B rewards bootstrap discount q_support r a)

/-- The weight atom a of row r gives its upper bin: p · (b - lower). -/
def UW (r : Fin 131072) (a : Fin 101) : EReal :=
  P obs actions W1 b1 g1 be1 W2 b2 g2 be2 W3 b3 g3 be3 W4 b4 r a * (B rewards bootstrap discount q_support r a - (((LI rewards bootstrap discount q_support r a).toInt : ℝ) : EReal))

theorem lw_at (r : Fin 131072) (a : Fin 101) :
    val_main_v150 (F := Ideal) obs actions rewards bootstrap discount q_support W1 b1 g1 be1 W2 b2 g2 be2 W3 b3 g3 be3 W4 b4 (ix2 r a) = LW obs actions rewards bootstrap discount q_support W1 b1 g1 be1 W2 b2 g2 be2 W3 b3 g3 be3 W4 b4 r a := by
  rw [val_main_v150_apply, val_main_v149_apply, val_main_v33_apply, p_at, ui_at, b_at]
  rfl

theorem uw_at (r : Fin 131072) (a : Fin 101) :
    val_main_v153 (F := Ideal) obs actions rewards bootstrap discount q_support W1 b1 g1 be1 W2 b2 g2 be2 W3 b3 g3 be3 W4 b4 (ix2 r a) = UW obs actions rewards bootstrap discount q_support W1 b1 g1 be1 W2 b2 g2 be2 W3 b3 g3 be3 W4 b4 r a := by
  rw [val_main_v153_apply, val_main_v152_apply, val_main_v32_apply, p_at, li_at, b_at]
  rfl

end Cert.ReferenceIdeal.Hand

end
-- ==== Proof.LibVectorGatherScatter.lean ====
/- A vector gathered and a vector scattered, read at an index. A gather of single entries of an [N] array at an
   [E, 1] table of positions gives an [E] array whose entry e is the entry the table names, the number read signed
   and clamped into [0, N - 1]. A scatter of the entries of an [E] array into an [N] array by addition, at an [E, 1]
   table of positions, adds entry e to the position the table names, the number read signed and NOT clamped: an
   entry whose position falls outside [0, N) is dropped. At the ideal values the scattered array at n is therefore
   the operand's entry plus the sum over the entries e that land on n of the update's entry e. Stated over abstract
   sizes. -/
import Idealize.ShloMosaic.Lib.ValueIdx
import Idealize.ShloMosaic.PureOps.Ideal.Laws

noncomputable section

open scoped BigOperators

namespace Cert.Lib.VectorGatherScatter

open Idealize.ShloMosaic Idealize.ShloMosaic.ValueIdx

variable {N E w : Nat}

/-! ## A one-axis index set is its one coordinate range -/

/-- A rank-1 index is its one coordinate … -/
def idxEquiv1 {n : Nat} : (⟨1, ![n]⟩ : Shape).Idx ≃ Fin n where
  toFun i := i 0
  invFun a := ix1 a
  left_inv i := (eq_ix1 i).symm
  right_inv _ := rfl

/-- … so a sum over the index set is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## The gather of entries -/

/-- The dimension numbers of a gather of single entries of a vector: the one axis collapsed and named by the
    one-component start index, no offset axis, a slice one entry long. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The position that result entry e reads: the table's entry e as a signed integer, clamped into [0, N - 1]. -/
def gatherPos (hN : 0 < N) (idx : IVec ⟨2, ![E, 1]⟩ w) (e : Fin E) : Fin N :=
  ⟨min (idx (ix2 e (0 : Fin 1))).toInt.toNat (N - 1), by omega⟩

/-- THE GATHER READ AT e: the operand at the position the table names for e. -/
theorem gather_vec_apply {α : Type} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e) = x (ix1 (gatherPos hN idx e)) := by
  unfold Host.gather
  congr 1
  funext a
  obtain rfl : a = 0 := Subsingleton.elim _ _
  refine Fin.ext ?_
  show (vecGatherDims N E wf).start (ix1 e) idx 0 + (vecGatherDims N E wf).batchCoord (ix1 e) 0
    + (vecGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx (ix1 e) ⟨List.idxOf (0 : Fin 1) (vecGatherDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- A table entry that already lies in [0, N) is its own clamped position. -/
theorem gatherPos_val_of_inRange (hN : 0 < N) (idx : IVec ⟨2, ![E, 1]⟩ w) (e : Fin E)
    (h0 : 0 ≤ (idx (ix2 e (0 : Fin 1))).toInt) (h1 : (idx (ix2 e (0 : Fin 1))).toInt < (N : Int)) :
    (gatherPos hN idx e).val = (idx (ix2 e (0 : Fin 1))).toInt.toNat := by
  show min (idx (ix2 e (0 : Fin 1))).toInt.toNat (N - 1) = _
  omega

/-- THE GATHER READ AT e WHEN THE TABLE'S ENTRY LIES IN [0, N): the operand at that very position. -/
theorem gather_vec_apply_of_inRange {α : Type}
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E)
    (h0 : 0 ≤ (idx (ix2 e (0 : Fin 1))).toInt) (h1 : (idx (ix2 e (0 : Fin 1))).toInt < (N : Int)) :
    Host.gather (vecGatherDims N E wf) x idx (ix1 e)
      = x (ix1 ⟨(idx (ix2 e (0 : Fin 1))).toInt.toNat, by omega⟩) := by
  have hN : 0 < N := by omega
  rw [gather_vec_apply hN wf x idx e]
  congr 2
  exact Fin.ext (gatherPos_val_of_inRange hN idx e h0 h1)

/-! ## The scatter of entries by addition -/

/-- The dimension numbers of a scatter of single entries into a vector: the operand's one axis inserted and named by
    the one-component scatter index, the update without window axes. -/
abbrev vecScatterDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- The position that update entry e lands on: the table's entry e as a signed integer when it lies in [0, N), no
    position otherwise (the update entry is dropped). -/
def landPos (N : Nat) (idx : IVec ⟨2, ![E, 1]⟩ w) (e : Fin E) : Option (Fin N) :=
  if h : 0 ≤ (idx (ix2 e (0 : Fin 1))).toInt ∧ (idx (ix2 e (0 : Fin 1))).toInt < (N : Int) then
    some ⟨(idx (ix2 e (0 : Fin 1))).toInt.toNat, by omega⟩
  else none

/-- Update entry e lands on operand entry n exactly when the table sends e to n. -/
theorem resultIdx_vec (wf : ScatterDims.WF ⟨1, ![N]⟩ ⟨2, ![E, 1]⟩ ⟨1, ![E]⟩ [] [0] [0] 1)
    (idx : IVec ⟨2, ![E, 1]⟩ w) (e : Fin E) (n : Fin N) :
    (vecScatterDims N E wf).resultIdx? (ix1 e) idx = some (ix1 n) ↔ landPos N idx e = some n := by
  have hsi : (vecScatterDims N E wf).siIdx (ix1 e) ⟨List.idxOf (0 : Fin 1) (vecScatterDims N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  have s0 : (vecScatterDims N E wf).start (ix1 e) idx (0 : Fin 1) = (idx (ix2 e (0 : Fin 1))).toInt := by
    unfold ScatterDims.start
    rw [dif_pos (show (0 : Fin 1) ∈ (vecScatterDims N E wf).scatterDimsToOperandDims from List.mem_singleton.mpr rfl), hsi]
  have k0 : (0 : Fin 1) ∉ (vecScatterDims N E wf).sKept := by
    simp [ScatterDims.sKept, Shape.kept, List.mem_filter]
  have w0 : (vecScatterDims N E wf).window (ix1 e) (0 : Fin 1) = 0 := by
    unfold ScatterDims.window
    rw [dif_neg k0]
  unfold ScatterDims.resultIdx? landPos
  by_cases hl : 0 ≤ (idx (ix2 e (0 : Fin 1))).toInt ∧ (idx (ix2 e (0 : Fin 1))).toInt < (N : Int)
  · have hall : ∀ a, 0 ≤ (vecScatterDims N E wf).start (ix1 e) idx a + (vecScatterDims N E wf).window (ix1 e) a
        ∧ (vecScatterDims N E wf).start (ix1 e) idx a + (vecScatterDims N E wf).window (ix1 e) a
          < ((⟨1, ![N]⟩ : Shape).size a : Int) := by
      intro a
      obtain rfl : a = 0 := Subsingleton.elim _ _
      show 0 ≤ (vecScatterDims N E wf).start (ix1 e) idx (0 : Fin 1) + ((vecScatterDims N E wf).window (ix1 e) (0 : Fin 1) : Int)
        ∧ (vecScatterDims N E wf).start (ix1 e) idx (0 : Fin 1) + ((vecScatterDims N E wf).window (ix1 e) (0 : Fin 1) : Int) < (N : Int)
      rw [s0, w0]; omega
    rw [dif_pos hall, dif_pos hl]
    simp only [Option.some.injEq]
    constructor
    · intro h
      have e0 := congrArg (fun i => (i (0 : Fin 1)).val) h
      simp only at e0
      have e0' : ((vecScatterDims N E wf).start (ix1 e) idx (0 : Fin 1) + ((vecScatterDims N E wf).window (ix1 e) (0 : Fin 1) : Int)).toNat = n.val := e0
      rw [s0, w0] at e0'
      exact Fin.ext (by simp only; omega)
    · intro hn
      have hn' : (idx (ix2 e (0 : Fin 1))).toInt.toNat = n.val := congrArg Fin.val hn
      funext a; refine Fin.ext ?_
      obtain rfl : a = 0 := Subsingleton.elim _ _
      show ((vecScatterDims N E wf).start (ix1 e) idx (0 : Fin 1) + ((vecScatterDims N E wf).window (ix1 e) (0 : Fin 1) : Int)).toNat = n.val
      rw [s0, w0]; omega
  · have hnot : ¬ ∀ a, 0 ≤ (vecScatterDims N E wf).start (ix1 e) idx a + (vecScatterDims N E wf).window (ix1 e) a
        ∧ (vecScatterDims N E wf).start (ix1 e) idx a + (vecScatterDims N E wf).window (ix1 e) a
          < ((⟨1, ![N]⟩ : Shape).size a : Int) := by
      intro h
      have h0 := h (0 : Fin 1)
      rw [s0, w0] at h0
      have h0' : 0 ≤ (idx (ix2 e (0 : Fin 1))).toInt + ((0 : Nat) : Int) ∧ (idx (ix2 e (0 : Fin 1))).toInt + ((0 : Nat) : Int) < (N : Int) := h0
      exact hl (by omega)
    rw [dif_neg hnot, dif_neg hl]
    simp

/-- THE SCATTER BY ADDITION READ AT n, at the ideal values: the operand's entry plus the sum, over the update
    entries that land on n, of the update's entry. -/
theorem scatterAdd_vec_apply (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w) (upd : (⟨1, ![E]⟩ : Shape).Idx → EReal)
    (n : Fin N) :
    Ideal.hostScatterAdd (vecScatterDims N E wf) x idx upd (ix1 n)
      = x (ix1 n) + ∑ e ∈ Finset.univ.filter (fun e : Fin E => landPos N idx e = some n), upd (ix1 e) := by
  unfold Ideal.hostScatterAdd
  congr 1
  rw [Finset.sum_filter, sum_idx1, Finset.sum_filter]
  refine Finset.sum_congr rfl fun e _ => ?_
  by_cases hL : landPos N idx e = some n
  · simp [resultIdx_vec, hL]
  · simp [resultIdx_vec, hL]

/-- The same, stated of the host operation's own spelling (at the ideal values it is that exact sum). -/
theorem host_scatterAdd_vec_apply {φ : FTy} (wf : ScatterDims.WF ⟨1, ![N]⟩ ⟨2, ![E, 1]⟩ ⟨1, ![E]⟩ [] [0] [0] 1)
    (x : FVec Ideal ⟨1, ![N]⟩ φ) (idx : IVec ⟨2, ![E, 1]⟩ w) (upd : FVec Ideal ⟨1, ![E]⟩ φ) (n : Fin N) :
    Host.scatterAdd (vecScatterDims N E wf) x idx upd (ix1 n)
      = x (ix1 n) + ∑ e ∈ Finset.univ.filter (fun e : Fin E => landPos N idx e = some n), upd (ix1 e) :=
  scatterAdd_vec_apply wf x idx upd n

end Cert.Lib.VectorGatherScatter

end
-- ==== Proof.LibIndexWords.lean ====
/- Row numbers kept in 32-bit words. A program that indexes an array by such a word first adds the array's extent to
   a negative word (so that -1 names the last row) and then uses the word read as a signed integer. When the word is
   already known to be non-negative that first step changes nothing; and the word written for a natural number
   below 2^31 reads back as that number. Also the two truth values of a signed comparison, and what a comparison's
   bit counts for when it is turned into a number: one when it holds, zero when it does not. -/
import Idealize.ShloMosaic.Lib.ValueIdx

noncomputable section

namespace Cert.Lib.IndexWords

open Idealize.ShloMosaic Idealize.ShloMosaic.ValueIdx

/-- The word written for a natural number below 2^31 reads back, signed, as that number. -/
theorem toInt_ofNat_small (n : Nat) (h : n < 2 ^ 31) : (BitVec.ofNat 32 n).toInt = (n : Int) := by
  have hm : n % 2 ^ 32 = n := Nat.mod_eq_of_lt (by omega)
  have h2 : 2 * (BitVec.ofNat 32 n).toNat < 2 ^ 32 := by
    rw [BitVec.toNat_ofNat, hm]; omega
  rw [BitVec.toInt_eq_toNat_of_lt h2, BitVec.toNat_ofNat, hm]

/-- A signed "less than" that does not hold is the bit 0. -/
theorem cmpi_slt_of_not_lt (x y : BitVec 32) (h : ¬ x.toInt < y.toInt) : IntOp.cmpi .slt x y = 0#1 := by
  show BitVec.ofBool (x.slt y) = 0#1
  rw [BitVec.slt_eq_decide, decide_eq_false h]
  rfl

/-- A signed "less than" that holds is the bit 1. -/
theorem cmpi_slt_of_lt (x y : BitVec 32) (h : x.toInt < y.toInt) : IntOp.cmpi .slt x y = 1#1 := by
  show BitVec.ofBool (x.slt y) = 1#1
  rw [BitVec.slt_eq_decide, decide_eq_true h]
  rfl

/-- NORMALISING A ROW NUMBER THAT IS NOT NEGATIVE changes nothing: "if the word is below zero take the word plus the
    extent, else the word" is the word. -/
theorem normalize_of_nonneg (w k : BitVec 32) (h : 0 ≤ w.toInt) :
    Scalar.select (IntOp.cmpi .slt w 0#32) (IntOp.addi w k) w = w := by
  rw [cmpi_slt_of_not_lt w 0#32 (by rw [BitVec.toInt_zero]; omega)]
  exact select_zero _ _

/-- The word of a natural number below 2^31 is not negative, so normalising it changes nothing. -/
theorem normalize_ofNat (n : Nat) (h : n < 2 ^ 31) (k : BitVec 32) :
    Scalar.select (IntOp.cmpi .slt (BitVec.ofNat 32 n) 0#32) (IntOp.addi (BitVec.ofNat 32 n) k) (BitVec.ofNat 32 n)
      = BitVec.ofNat 32 n :=
  normalize_of_nonneg _ k (by rw [toInt_ofNat_small n h]; omega)

end Cert.Lib.IndexWords

end
-- ==== Proof.RefScatter.lean ====
/-
  The reference's two scatters, read one entry at a time, and the projected row.

  The reference flattens the [131072, 101] arrays of bin numbers and weights to 13238272 entries, entry e coming from row
  e / 101 and atom e % 101, adds 101 · row to each bin number so that it names a position of the flattened result, clips
  the position into [0, 13238271], and adds the lower weights and then the upper weights into an array of zeros at those
  positions.  Read at position n the result is therefore 0 plus the sum of the lower weights of the entries that land
  on n plus the sum of the upper weights of the entries that land on n.  When every lower bin number is at most 99 and
  every upper one at most 100 no position leaves its row, the clip and the wrap of negative positions change nothing,
  and entry (r, j) of the result collects exactly the weights of row r whose bin number is j.
-/
import proofs.«100750_j352187318805_1_alg».proof.Proof.RefBins
import proofs.«100750_j352187318805_1_alg».proof.Proof.LibVectorGatherScatter
import proofs.«100750_j352187318805_1_alg».proof.Proof.LibIndexWords

noncomputable section

namespace Cert.ReferenceIdeal.Hand

open Cert.ReferenceIdeal Cert.ReferenceIdeal.Gen Cert.ReferenceIdeal.ReadP Idealize.ShloMosaic Idealize.ShloMosaic.ValueIdx
open Cert.Lib.VectorGatherScatter

/-! ## Flat positions -/

/-- The row a flat position comes from. -/
def rowOf (e : Fin 13238272) : Fin 131072 := ⟨e.val / 101, by have := e.isLt; omega⟩

/-- The atom a flat position comes from. -/
def colOf (e : Fin 13238272) : Fin 101 := ⟨e.val % 101, Nat.mod_lt _ (by decide)⟩

/-- The flat position of (r, a). -/
def flat (r : Fin 131072) (a : Fin 101) : Fin 13238272 :=
  ⟨r.val * 101 + a.val, by have := r.isLt; have := a.isLt; omega⟩

/-- Flat positions are the pairs (row, atom). -/
def flatEquiv : Fin 13238272 ≃ Fin 131072 × Fin 101 where
  toFun e := (rowOf e, colOf e)
  invFun p := flat p.1 p.2
  left_inv e := Fin.ext (by show e.val / 101 * 101 + e.val % 101 = e.val; omega)
  right_inv p := by
    obtain ⟨r, a⟩ := p
    refine Prod.ext (Fin.ext ?_) (Fin.ext ?_)
    · show (r.val * 101 + a.val) / 101 = r.val
      have := a.isLt; omega
    · show (r.val * 101 + a.val) % 101 = a.val
      have := a.isLt; omega

/-! ## The position words -/

/-- 101 · r as a 32-bit word. -/
def rowBase (r : Fin 131072) : BitVec 32 := IntOp.muli (BitVec.ofNat 32 r.val) 101#32

/-- A position word clipped into [0, 13238271]. -/
def clipIdx (w : BitVec 32) : BitVec 32 := IntOp.minsi 13238271#32 (IntOp.maxsi 0#32 w)

/-- A negative position word counted from the end. -/
def normIdx (w : BitVec 32) : BitVec 32 := Scalar.select (IntOp.cmpi .slt w 0#32) (IntOp.addi w 13238272#32) w

variable (obs : FVec Ideal S131072x60 .f32) (actions : FVec Ideal S131072x20 .f32)
  (rewards bootstrap discount : FVec Ideal S131072 .f32) (q_support : FVec Ideal S101 .f32)
  (W1 : FVec Ideal S80x256 .f32) (b1 g1 be1 : FVec Ideal S256 .f32)
  (W2 : FVec Ideal S256x128 .f32) (b2 g2 be2 : FVec Ideal S128 .f32)
  (W3 : FVec Ideal S128x64 .f32) (b3 g3 be3 : FVec Ideal S64 .f32)
  (W4 : FVec Ideal S64x101 .f32) (b4 : FVec Ideal S101 .f32)

/-- The position the lower weight of flat entry e is added at. -/
def Lword (e : Fin 13238272) : BitVec 32 :=
  normIdx (clipIdx (IntOp.addi (LI rewards bootstrap discount q_support (rowOf e) (colOf e)) (rowBase (rowOf e))))

/-- The position the upper weight of flat entry e is added at. -/
def Uword (e : Fin 13238272) : BitVec 32 :=
  normIdx (clipIdx (IntOp.addi (UI rewards bootstrap discount q_support (rowOf e) (colOf e)) (rowBase (rowOf e))))

/-- The table of lower positions. -/
def Ltab : IVec S13238272x1 32 := fun i => Lword rewards bootstrap discount q_support ⟨(i 0).val, (i 0).isLt⟩

/-- The table of upper positions. -/
def Utab : IVec S13238272x1 32 := fun i => Uword rewards bootstrap discount q_support ⟨(i 0).val, (i 0).isLt⟩

theorem ltab_at (e : Fin 13238272) :
    val_main_v161 (F := Ideal) rewards bootstrap discount q_support (ix2 e (0 : Fin 1)) = Lword rewards bootstrap discount q_support e := by
  have e1 : idx_main_v161 (ix2 e (0 : Fin 1)) = ix1 e := funext fun a => Fin.ext (by match a with | ⟨0, _⟩ => rfl)
  have e2 : idx_main_v143 (ix1 e) = ix2 (rowOf e) (colOf e) := funext fun a => Fin.ext (by match a with | ⟨0, _⟩ => rfl | ⟨1, _⟩ => rfl)
  have e3 : idx_main_v140 (idx_main_v141 (ix2 (rowOf e) (colOf e))) = ix1 (rowOf e) := funext fun a => Fin.ext (by match a with | ⟨0, _⟩ => rfl)
  rw [val_main_v161_apply, e1, val_main_v160_apply, val_main_v157_apply, val_main_v159_apply, val_main_v156_apply,
    val_main_c_30_apply, val_main_v158_apply, val_main_c_31_apply, val_main_v144_apply, val_main_call6_v4_apply,
    val_main_call6_v3_apply, val_main_c_26_apply, val_main_call6_v2_apply, val_main_call6_v1_apply, val_main_call6_v0_apply,
    val_main_c_25_apply, val_main_v143_apply, e2, val_main_v142_apply, li_at, val_main_v141_apply,
    val_main_v140_apply, e3, val_main_v139_apply, val_main_v137_apply, val_main_v138_apply, val_main_c_24_apply]
  rfl

theorem utab_at (e : Fin 13238272) :
    val_main_v168 (F := Ideal) rewards bootstrap discount q_support (ix2 e (0 : Fin 1)) = Uword rewards bootstrap discount q_support e := by
  have e1 : idx_main_v168 (ix2 e (0 : Fin 1)) = ix1 e := funext fun a => Fin.ext (by match a with | ⟨0, _⟩ => rfl)
  have e2 : idx_main_v147 (ix1 e) = ix2 (rowOf e) (colOf e) := funext fun a => Fin.ext (by match a with | ⟨0, _⟩ => rfl | ⟨1, _⟩ => rfl)
  have e3 : idx_main_v140 (idx_main_v145 (ix2 (rowOf e) (colOf e))) = ix1 (rowOf e) := funext fun a => Fin.ext (by match a with | ⟨0, _⟩ => rfl)
  rw [val_main_v168_apply, e1, val_main_v167_apply, val_main_v164_apply, val_main_v166_apply, val_main_v163_apply,
    val_main_c_32_apply, val_main_v165_apply, val_main_c_33_apply, val_main_v148_apply, val_main_call7_v4_apply,
    val_main_call7_v3_apply, val_main_c_28_apply, val_main_call7_v2_apply, val_main_call7_v1_apply, val_main_call7_v0_apply,
    val_main_c_27_apply, val_main_v147_apply, e2, val_main_v146_apply, ui_at, val_main_v145_apply,
    val_main_v140_apply, e3, val_main_v139_apply, val_main_v137_apply, val_main_v138_apply, val_main_c_24_apply]
  rfl

/-- Every index of a one-column table is (e, 0). -/
theorem col_idx (i : S13238272x1.Idx) : i = ix2 (⟨(i 0).val, (i 0).isLt⟩ : Fin 13238272) (0 : Fin 1) :=
  funext fun d => match d with
    | ⟨0, _⟩ => rfl
    | ⟨1, _⟩ => Fin.ext (by have := idx2_lt1 i; show (i 1).val = 0; omega)

theorem ltab_eq : val_main_v161 (F := Ideal) rewards bootstrap discount q_support = Ltab rewards bootstrap discount q_support := by
  funext i
  rw [col_idx i]
  exact ltab_at rewards bootstrap discount q_support _

theorem utab_eq : val_main_v168 (F := Ideal) rewards bootstrap discount q_support = Utab rewards bootstrap discount q_support := by
  funext i
  rw [col_idx i]
  exact utab_at rewards bootstrap discount q_support _

/-! ## The scatters -/

/-- The printed scatter dimension numbers are those of a scatter of single entries into a vector. -/
theorem scatter_rec_eq : scatter_S13238272_S13238272x1_S13238272_n_0_0_1
    = vecScatterDims 13238272 13238272 scatter_S13238272_S13238272x1_S13238272_n_0_0_1_wf := rfl

theorem lwflat_at (e : Fin 13238272) :
    val_main_v151 (F := Ideal) obs actions rewards bootstrap discount q_support W1 b1 g1 be1 W2 b2 g2 be2 W3 b3 g3 be3 W4 b4 (ix1 e) = LW obs actions rewards bootstrap discount q_support W1 b1 g1 be1 W2 b2 g2 be2 W3 b3 g3 be3 W4 b4 (rowOf e) (colOf e) := by
  have e1 : idx_main_v151 (ix1 e) = ix2 (rowOf e) (colOf e) := funext fun a => Fin.ext (by match a with | ⟨0, _⟩ => rfl | ⟨1, _⟩ => rfl)
  rw [val_main_v151_apply, e1, lw_at]

theorem uwflat_at (e : Fin 13238272) :
    val_main_v154 (F := Ideal) obs actions rewards bootstrap discount q_support W1 b1 g1 be1 W2 b2 g2 be2 W3 b3 g3 be3 W4 b4 (ix1 e) = UW obs actions rewards bootstrap discount q_support W1 b1 g1 be1 W2 b2 g2 be2 W3 b3 g3 be3 W4 b4 (rowOf e) (colOf e) := by
  have e1 : idx_main_v154 (ix1 e) = ix2 (rowOf e) (colOf e) := funext fun a => Fin.ext (by match a with | ⟨0, _⟩ => rfl | ⟨1, _⟩ => rfl)
  rw [val_main_v154_apply, e1, uw_at]

/-- The flattened result at position n: zero, plus the lower weights landing on n, plus the upper weights landing on n. -/
def outFlat (n : Fin 13238272) : EReal :=
  (0 + ∑ e ∈ Finset.univ.filter (fun e : Fin 13238272 => landPos 13238272 (Ltab rewards bootstrap discount q_support) e = some n),
      LW obs actions rewards bootstrap discount q_support W1 b1 g1 be1 W2 b2 g2 be2 W3 b3 g3 be3 W4 b4 (rowOf e) (colOf e))
    + ∑ e ∈ Finset.univ.filter (fun e : Fin 13238272 => landPos 13238272 (Utab rewards bootstrap discount q_support) e = some n),
      UW obs actions rewards bootstrap discount q_support W1 b1 g1 be1 W2 b2 g2 be2 W3 b3 g3 be3 W4 b4 (rowOf e) (colOf e)

theorem out_at (n : Fin 13238272) :
    val_main_v169 (F := Ideal) obs actions rewards bootstrap discount q_support W1 b1 g1 be1 W2 b2 g2 be2 W3 b3 g3 be3 W4 b4 (ix1 n) = outFlat obs actions rewards bootstrap discount q_support W1 b1 g1 be1 W2 b2 g2 be2 W3 b3 g3 be3 W4 b4 n := by
  unfold val_main_v169 val_main_v162
  rw [scatter_rec_eq, host_scatterAdd_vec_apply, host_scatterAdd_vec_apply, ltab_eq, utab_eq, val_main_v155_apply,
    val_main_cst_29_apply]
  simp only [lwflat_at, uwflat_at, Ideal.ofBits_def, Ideal.ofBits_zero_f32]
  rfl

/-- The reference's result, entry by entry. -/
def refOut (i : S131072x101.Idx) : EReal :=
  outFlat obs actions rewards bootstrap discount q_support W1 b1 g1 be1 W2 b2 g2 be2 W3 b3 g3 be3 W4 b4 (flat ⟨(i 0).val, (i 0).isLt⟩ ⟨(i 1).val, (i 1).isLt⟩)

/-- STAGE 1: the reference's result array is refOut. -/
theorem result_eq : val_main_v170 (F := Ideal) obs actions rewards bootstrap discount q_support W1 b1 g1 be1 W2 b2 g2 be2 W3 b3 g3 be3 W4 b4 = refOut obs actions rewards bootstrap discount q_support W1 b1 g1 be1 W2 b2 g2 be2 W3 b3 g3 be3 W4 b4 := by
  funext i
  have e1 : idx_main_v170 i = ix1 (flat ⟨(i 0).val, (i 0).isLt⟩ ⟨(i 1).val, (i 1).isLt⟩) := funext fun a => Fin.ext (by match a with | ⟨0, _⟩ => rfl)
  rw [val_main_v170_apply, e1, out_at]
  rfl

theorem refOut_at (r : Fin 131072) (j : Fin 101) :
    refOut obs actions rewards bootstrap discount q_support W1 b1 g1 be1 W2 b2 g2 be2 W3 b3 g3 be3 W4 b4 (ix2 r j) = outFlat obs actions rewards bootstrap discount q_support W1 b1 g1 be1 W2 b2 g2 be2 W3 b3 g3 be3 W4 b4 (flat r j) := rfl

/-! ## Positions that stay in their row -/

/-- A bin number at most 100 plus 101 · r, as a word: clipping and wrapping change nothing, and it reads back as
    that number. -/
theorem posWord (x : BitVec 32) (r : Fin 131072) (hx : x.toNat ≤ 100) :
    normIdx (clipIdx (IntOp.addi x (rowBase r))) = IntOp.addi x (rowBase r)
      ∧ (IntOp.addi x (rowBase r)).toInt = ((x.toNat + 101 * r.val : Nat) : Int) := by
  have hr := r.isLt
  have hb : (rowBase r).toNat = 101 * r.val := by
    show (BitVec.ofNat 32 r.val * 101#32).toNat = _
    rw [BitVec.toNat_mul, BitVec.toNat_ofNat, show (101#32 : BitVec 32).toNat = 101 from rfl]
    omega
  have hw : (IntOp.addi x (rowBase r)).toNat = x.toNat + 101 * r.val := by
    show (x + rowBase r).toNat = _
    rw [BitVec.toNat_add, hb]
    omega
  have hi : (IntOp.addi x (rowBase r)).toInt = ((x.toNat + 101 * r.val : Nat) : Int) := by
    rw [BitVec.toInt_eq_toNat_of_lt (by rw [hw]; omega), hw]
  refine ⟨?_, hi⟩
  generalize IntOp.addi x (rowBase r) = w at hi ⊢
  have h0 : w.slt 0#32 = false := by
    rw [BitVec.slt_eq_decide, decide_eq_false (by rw [BitVec.toInt_zero, hi]; omega)]
  have hm : IntOp.maxsi 0#32 w = w := by
    show (if w.slt 0#32 then 0#32 else w) = w
    rw [h0]; rfl
  have h1 : (13238271#32 : BitVec 32).slt w = false := by
    rw [BitVec.slt_eq_decide, decide_eq_false (by rw [show (13238271#32 : BitVec 32).toInt = 13238271 from by decide, hi]; omega)]
  have hc : clipIdx w = w := by
    show IntOp.minsi 13238271#32 (IntOp.maxsi 0#32 w) = w
    rw [hm]
    show (if (13238271#32 : BitVec 32).slt w then 13238271#32 else w) = w
    rw [h1]; rfl
  rw [hc]
  exact Cert.Lib.IndexWords.normalize_of_nonneg w _ (by rw [hi]; omega)

/-- A table whose entry e is such a position word sends e to (r, j) exactly when e comes from row r and its bin number
    is j. -/
theorem land_iff (tab : IVec S13238272x1 32) (I : Fin 131072 → Fin 101 → BitVec 32)
    (htab : ∀ e : Fin 13238272, tab (ix2 e (0 : Fin 1))
      = normIdx (clipIdx (IntOp.addi (I (rowOf e) (colOf e)) (rowBase (rowOf e)))))
    (hI : ∀ r a, (I r a).toNat ≤ 100) (e : Fin 13238272) (r : Fin 131072) (j : Fin 101) :
    landPos 13238272 tab e = some (flat r j) ↔ rowOf e = r ∧ (I (rowOf e) (colOf e)).toNat = j.val := by
  obtain ⟨hw, hi⟩ := posWord (I (rowOf e) (colOf e)) (rowOf e) (hI _ _)
  have ht : (tab (ix2 e (0 : Fin 1))).toInt = (((I (rowOf e) (colOf e)).toNat + 101 * (rowOf e).val : Nat) : Int) := by
    rw [htab e, hw, hi]
  have hx := hI (rowOf e) (colOf e)
  have hr' := (rowOf e).isLt
  have hj := j.isLt
  have hr := r.isLt
  unfold landPos
  rw [dif_pos ⟨by rw [ht]; omega, by rw [ht]; omega⟩]
  simp only [Option.some.injEq]
  constructor
  · intro h
    have hv : (tab (ix2 e (0 : Fin 1))).toInt.toNat = r.val * 101 + j.val := congrArg Fin.val h
    rw [ht] at hv
    exact ⟨Fin.ext (by omega), by omega⟩
  · rintro ⟨h1, h2⟩
    refine Fin.ext ?_
    show (tab (ix2 e (0 : Fin 1))).toInt.toNat = r.val * 101 + j.val
    rw [ht, ← h1]
    omega

/-- The weights landing on (r, j) are those of row r whose bin number is j. -/
theorem sum_land (tab : IVec S13238272x1 32) (I : Fin 131072 → Fin 101 → BitVec 32) (Wt : Fin 131072 → Fin 101 → EReal)
    (hland : ∀ (e : Fin 13238272) (r : Fin 131072) (j : Fin 101),
      landPos 13238272 tab e = some (flat r j) ↔ rowOf e = r ∧ (I (rowOf e) (colOf e)).toNat = j.val)
    (r : Fin 131072) (j : Fin 101) :
    ∑ e ∈ Finset.univ.filter (fun e : Fin 13238272 => landPos 13238272 tab e = some (flat r j)), Wt (rowOf e) (colOf e)
      = ∑ a : Fin 101, if (I r a).toNat = j.val then Wt r a else 0 := by
  rw [Finset.sum_filter]
  have step1 : ∑ e : Fin 13238272, (if landPos 13238272 tab e = some (flat r j) then Wt (rowOf e) (colOf e) else 0)
      = ∑ e : Fin 13238272,
          (fun p : Fin 131072 × Fin 101 => if p.1 = r ∧ (I p.1 p.2).toNat = j.val then Wt p.1 p.2 else 0) (flatEquiv e) :=
    Finset.sum_congr rfl fun e _ => if_congr (hland e r j) rfl rfl
  rw [step1,
    Equiv.sum_comp flatEquiv
      (fun p : Fin 131072 × Fin 101 => if p.1 = r ∧ (I p.1 p.2).toNat = j.val then Wt p.1 p.2 else 0),
    Fintype.sum_prod_type, Fintype.sum_eq_single r]
  · exact Finset.sum_congr rfl fun a _ => if_congr (and_iff_right rfl) rfl rfl
  · intro r' hr'
    exact Finset.sum_eq_zero fun a _ => if_neg fun h => hr' h.1

/-- STAGE 2: when every lower bin number is at most 99 and every upper one at most 100, entry (r, j) of the result is
    zero plus the lower weights of row r whose lower bin is j plus the upper weights of row r whose upper bin is j. -/
theorem refOut_row (hL : ∀ r a, (LI rewards bootstrap discount q_support r a).toNat ≤ 99) (hU : ∀ r a, (UI rewards bootstrap discount q_support r a).toNat ≤ 100)
    (r : Fin 131072) (j : Fin 101) :
    refOut obs actions rewards bootstrap discount q_support W1 b1 g1 be1 W2 b2 g2 be2 W3 b3 g3 be3 W4 b4 (ix2 r j)
      = (0 + ∑ a : Fin 101, if (LI rewards bootstrap discount q_support r a).toNat = j.val then LW obs actions rewards bootstrap discount q_support W1 b1 g1 be1 W2 b2 g2 be2 W3 b3 g3 be3 W4 b4 r a else 0)
        + ∑ a : Fin 101, if (UI rewards bootstrap discount q_support r a).toNat = j.val then UW obs actions rewards bootstrap discount q_support W1 b1 g1 be1 W2 b2 g2 be2 W3 b3 g3 be3 W4 b4 r a else 0 := by
  rw [refOut_at]
  unfold outFlat
  rw [sum_land (Ltab rewards bootstrap discount q_support) (LI rewards bootstrap discount q_support) (LW obs actions rewards bootstrap discount q_support W1 b1 g1 be1 W2 b2 g2 be2 W3 b3 g3 be3 W4 b4)
      (land_iff (Ltab rewards bootstrap discount q_support) (LI rewards bootstrap discount q_support) (fun e => rfl) (fun r a => Nat.le_succ_of_le (hL r a))) r j,
    sum_land (Utab rewards bootstrap discount q_support) (UI rewards bootstrap discount q_support) (UW obs actions rewards bootstrap discount q_support W1 b1 g1 be1 W2 b2 g2 be2 W3 b3 g3 be3 W4 b4)
      (land_iff (Utab rewards bootstrap discount q_support) (UI rewards bootstrap discount q_support) (fun e => rfl) hU) r j]

end Cert.ReferenceIdeal.Hand

end
-- ==== Proof.RefFinal.lean ====
/-
  The reference's run ends with its result array at refOut of the arguments.

  Every weakly fair execution of the reference terminates with the result buffer at the composition of the program's
  stages applied to the arguments' contents at launch, the arguments unchanged; that composition is the function refOut
  read entry by entry in the preceding modules.
-/
import proofs.«100750_j352187318805_1_alg».proof.Proof.RefRun
import proofs.«100750_j352187318805_1_alg».proof.Proof.RefScatter

noncomputable section

namespace Cert.ReferenceIdeal.Hand

open Cert.ReferenceIdeal Cert.ReferenceIdeal.Gen Idealize.ShloMosaic Idealize.ShloMosaic.TcCoe Idealize.SL.Sem Idealize.ShloMosaic.StableHlo

/-- The run's result term is refOut of the arguments' contents at launch. -/
theorem res_eq_refOut (m : (ℓ : Loc nD τ sig) → Buf (Elt Ideal) ℓ) (c : Dev nD) :
    Cert.ReferenceIdeal.ValueP.res_main_v170 (F := Ideal) m c
      = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) :=
  (Cert.ReferenceIdeal.ValueP.res_main_v170_eq (F := Ideal) m c).trans
    (result_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)))

/-- Every weakly fair execution of the reference terminates with the result at refOut of the arguments, the arguments
    unchanged. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v170)
        = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19) :=
  (θ_run defs _ _).mono (fun _ h c => ⟨(h c).1.trans (res_eq_refOut m c), (h c).2⟩)
    (Cert.ReferenceIdeal.ValueP.run (F := Ideal) m ρ)

end Cert.ReferenceIdeal.Hand

end
-- ==== Proof.LibKeepdims.lean ====
/-
  A reduction along the last axis of an `[a, b]` array that keeps its dimension (`keepdims=True`): the `[a]` result is
  re-laid as a column `[a, 1]` and the column is spread back over the `b` lanes of every row. Read at an index, the
  column at `(i, u)` is the vector at `i`, the spread column at `(p, c)` is the column at `(p, 0)`, and the source
  index that a one-axis reduction along axis 1 visits for row `p` and coordinate `k` is `(p, k)`. Stated for any
  extents `a`, `b` and any element type.
-/
import Idealize.ShloMosaic.Lib.Pipeline.Value
import Idealize.ShloMosaic.Lib.ValueIdx
import Idealize.ShloMosaic.PureOps.Reduce

namespace Cert.Lib.Keepdims

open Idealize.ShloMosaic Idealize.ShloMosaic.ValueIdx

variable {α : Type}

/-- An `[a]` vector cast to the column `[a, 1]` reads, at `(i, u)`, the vector at `i`, whatever the unit coordinate `u`:
    both positions are `i` in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a vector re-laid as a column and spread over the lanes reads, at `(p, c)`, the vector at `p`. -/
theorem column_spread_apply {a b : ℕ} (x : (⟨1, ![a]⟩ : Shape).Idx → α) (hc : (⟨1, ![a]⟩ : Shape).ShapeCasts ⟨2, ![a, 1]⟩)
    (hb : (⟨2, ![a, 1]⟩ : Shape).Broadcasts ⟨2, ![a, b]⟩) (p : Fin a) (c : Fin b) :
    broadcastTo ⟨2, ![a, b]⟩ (shapeCast ⟨2, ![a, 1]⟩ x hc) hb (ix2 p c) = x (ix1 p) :=
  (broadcastTo_a1_ab_apply _ hb p c).trans (shapeCast_a_a1_apply x hc p 0)

/-- A one-axis reduction of `[a, b]` along axis 1 visits, for row `p` and coordinate `k` of the reduced axis, the
    source index `(p, k)`. -/
theorem lift_axis1 {a b : ℕ} (h : (⟨2, ![a, b]⟩ : Shape).Reduces [1] ⟨1, ![a]⟩) (p : Fin a) (k : Fin b) :
    h.lift (ix1 p) k = ix2 p k :=
  funext fun c => Fin.ext (by match c with | ⟨0, _⟩ => rfl | ⟨1, _⟩ => rfl)

end Cert.Lib.Keepdims
-- ==== Proof.KOps.lean ====
/-
  Vector operations of the kernel's body read at one index, at the extended reals.

  Each elementwise operation at an index is the scalar operation of the operands at that index; a one-column slice of a
  matrix reads the matrix's column; a lane sum from zero is the row's sum and a lane maximum from −∞ the fold of max
  over the row, the reduction visiting (p, k) for row p and lane k.
-/
import proofs.«100750_j352187318805_1_alg».proof.Proof.LibKeepdims
import Idealize.ShloMosaic.Lib.ValueIdx
import Idealize.ShloMosaic.Lib.ValueLayout
import Idealize.ShloMosaic.Lib.Pipeline.Value
import Idealize.ShloMosaic.PureOps.Ideal.Laws

set_option backward.isDefEq.respectTransparency.types false

noncomputable section

namespace C51.KOps

open Idealize.ShloMosaic Idealize.ShloMosaic.ValueIdx

variable {α : Type} {s : Shape} {φ : FTy} {w : ℕ}

/-! The elementwise operations the payloads use that the library's index lemmas do not cover, each read at an index. -/
theorem rsqrt_apply (a : FVec Ideal s φ) (i : s.Idx) : rsqrt a i = Ideal.rsqrt (a i) := rfl
theorem exp_apply (a : FVec Ideal s φ) (i : s.Idx) : exp a i = Ideal.exp (a i) := rfl
theorem logistic_apply (a : FVec Ideal s φ) (i : s.Idx) : logistic a i = Ideal.logistic (a i) := rfl
theorem floor_apply (a : FVec Ideal s φ) (i : s.Idx) : floor a i = Ideal.liftRound Int.floor (a i) := rfl
theorem ceil_apply (a : FVec Ideal s φ) (i : s.Idx) : ceil a i = Ideal.liftRound Int.ceil (a i) := rfl
theorem fptosi_apply (n : ℕ) (a : FVec Ideal s φ) (i : s.Idx) : fptosi n a i = Ideal.fptosi n (a i) := rfl
theorem sitofp_ideal_apply (x : IVec s w) (i : s.Idx) : (sitofp φ x : FVec Ideal s φ) i = (((x i).toInt : ℝ) : EReal) := rfl
theorem cmpi_apply (p : CmpIPredicate) (x y : IVec s w) (i : s.Idx) : cmpi p x y i = IntOp.cmpi p (x i) (y i) := rfl
theorem addi_apply (x y : IVec s w) (i : s.Idx) : addi x y i = IntOp.addi (x i) (y i) := rfl
theorem subi_apply (x y : IVec s w) (i : s.Idx) : subi x y i = IntOp.subi (x i) (y i) := rfl
theorem andi_apply (x y : IVec s w) (i : s.Idx) : andi x y i = IntOp.andi (x i) (y i) := rfl

/-- A one-column slice [:, o:o+1] of a matrix reads, at (a, 0), the matrix at (a, o). -/
theorem slice_col_lt {n0 n1 o : ℕ} (h : (⟨2, ![n0, n1]⟩ : Shape).Slices ![0, o] ⟨2, ![n0, 1]⟩) : o < n1 := by
  have := h.2 (1 : Fin 2)
  simp at this
  omega

theorem slice_col_apply {n0 n1 o : ℕ} (X : (⟨2, ![n0, n1]⟩ : Shape).Idx → α)
    (h : (⟨2, ![n0, n1]⟩ : Shape).Slices ![0, o] ⟨2, ![n0, 1]⟩) (a : Fin n0) (u : Fin 1) :
    extractStridedSlice ⟨2, ![n0, 1]⟩ ![0, o] X h (ix2 a u) = X (ix2 a ⟨o, slice_col_lt h⟩) :=
  slice2_axis1_apply o X h a u ⟨o, slice_col_lt h⟩ (by
    have hu : u.val = 0 := by omega
    show o = o + u.val
    omega)

/-- A lane sum of an [a, b] array from zero, at row p: the sum of the row. -/
theorem rowSum_at {a b : ℕ} (g : FVec Ideal ⟨2, ![a, b]⟩ .f32)
    (hr : (⟨2, ![a, b]⟩ : Shape).Reduces [1] ⟨1, ![a]⟩) (hφ : FKind.Formats .f32)
    (hacc : (0x00000000#32 : BitVec FTy.f32.bits) = FKind.add.neutral .f32 hφ) (p : Fin a) :
    multiReduction .add [1] ⟨1, ![a]⟩ g 0x00000000#32 hr hφ hacc (ix1 p) = ∑ k : Fin b, g (ix2 p k) := by
  refine (Ideal.multiReduction_add_single g _ hr hφ hacc (ix1 p)).trans ?_
  show ∑ k : Fin b, _ = _
  exact Finset.sum_congr rfl fun k _ => congrArg g (Cert.Lib.Keepdims.lift_axis1 hr p k)

/-- A lane maximum of an [a, b] array from -∞, at row p: the fold of max over the row. -/
theorem rowMax_at {a b : ℕ} (v : FVec Ideal ⟨2, ![a, b]⟩ .f32)
    (hr : (⟨2, ![a, b]⟩ : Shape).Reduces [1] ⟨1, ![a]⟩) (hφ : FKind.Formats .f32)
    (hacc : (0xFF800000#32 : BitVec FTy.f32.bits) = FKind.maximumf.neutral .f32 hφ) (p : Fin a) :
    multiReduction .maximumf [1] ⟨1, ![a]⟩ v 0xFF800000#32 hr hφ hacc (ix1 p)
      = (Finset.univ : Finset (Fin b)).fold max (Ideal.ofBits .f32 0xFF800000#32) (fun k => v (ix2 p k)) := by
  refine (Ideal.multiReduction_maximumf_single v _ hr hφ hacc (ix1 p)).trans ?_
  show (Finset.univ : Finset (Fin b)).fold max _ _ = _
  refine congrArg (fun g => (Finset.univ : Finset (Fin b)).fold max (Ideal.ofBits .f32 0xFF800000#32) g) ?_
  funext k
  exact congrArg v (Cert.Lib.Keepdims.lift_axis1 hr p k)

end C51.KOps

end
-- ==== Proof.Project.lean ====
/-
  The arithmetic of the histogram projection, on one row.

  The bin coordinate b of an atom is (clip − (−10)) / δ with the clip in [−10, 10] whatever extended real it clips and
  δ the f32 word of 0.2, a little more than 1/5: so b is a real number with 0 ≤ b < 100.  Hence its floor n is one of
  0 … 99 and its ceiling is n or n + 1, and over those two hundred cases the two programs' index words are decided:
  the lower word (the floor, moved one down where b is a positive integer) is at most 99, and the reference's upper
  word (the ceiling, moved one up where b is the integer 0) is the lower word plus one — the kernel's own upper index.
  The unrolled loop's running sum, from zero adding a lower and then an upper deposit per atom, is the sum of the lower
  deposits plus the sum of the upper ones: addition of extended reals is commutative and associative.
-/
import Idealize.ShloMosaic.PureOps.Ideal
import Mathlib.Tactic
import proofs.«100750_j352187318805_1_alg».proof.Proof.Spec

open Idealize.ShloMosaic

noncomputable section

namespace C51

theorem lit_ten : lit 0x41200000#32 = ((10 : ℝ) : EReal) := by
  simp [lit, Ideal.ofBits, Ideal.ieee]
  rw [← EReal.coe_mul, EReal.coe_eq_coe_iff]; norm_num

theorem lit_neg_ten : lit 0xC1200000#32 = ((-10 : ℝ) : EReal) := by
  simp [lit, Ideal.ofBits, Ideal.ieee]
  rw [← EReal.coe_mul, EReal.coe_eq_coe_iff]; norm_num

theorem lit_fifth : lit 0x3E4CCCCD#32 = ((13421773 / 67108864 : ℝ) : EReal) := by
  simp [lit, Ideal.ofBits, Ideal.ieee]
  rw [← EReal.coe_mul, EReal.coe_eq_coe_iff]; norm_num

theorem lit_one : lit 0x3F800000#32 = ((1 : ℝ) : EReal) := by
  simp [lit, Ideal.ofBits, Ideal.ieee]
  rw [← EReal.coe_mul, ← EReal.coe_one, EReal.coe_eq_coe_iff]; norm_num

/-- A value clipped to [-10, 10] is a real number in that interval, whatever extended real it was. -/
theorem clip_real (X : EReal) :
    ∃ C : ℝ, min ((10 : ℝ) : EReal) (max ((-10 : ℝ) : EReal) X) = (C : EReal) ∧ -10 ≤ C ∧ C ≤ 10 := by
  have h1 : ((-10 : ℝ) : EReal) ≤ min ((10 : ℝ) : EReal) (max ((-10 : ℝ) : EReal) X) :=
    le_min (by exact_mod_cast (by norm_num : (-10 : ℝ) ≤ 10)) (le_max_left _ _)
  have h2 : min ((10 : ℝ) : EReal) (max ((-10 : ℝ) : EReal) X) ≤ ((10 : ℝ) : EReal) := min_le_left _ _
  have hne_top : min ((10 : ℝ) : EReal) (max ((-10 : ℝ) : EReal) X) ≠ ⊤ :=
    ne_top_of_le_ne_top (EReal.coe_ne_top 10) h2
  have hne_bot : min ((10 : ℝ) : EReal) (max ((-10 : ℝ) : EReal) X) ≠ ⊥ :=
    ne_bot_of_le_ne_bot (EReal.coe_ne_bot (-10)) h1
  refine ⟨(min ((10 : ℝ) : EReal) (max ((-10 : ℝ) : EReal) X)).toReal, (EReal.coe_toReal hne_top hne_bot).symm, ?_, ?_⟩
  · have := EReal.toReal_le_toReal h1 (EReal.coe_ne_bot _) hne_top
    simpa using this
  · have := EReal.toReal_le_toReal h2 hne_bot (EReal.coe_ne_top _)
    simpa using this

/-- The bin coordinate is a real number in [0, 100): the clip bounds the target by 10 and the divisor is a little more than 1/5. -/
theorem bcoef_real (rew boot disc q : EReal) : ∃ B : ℝ, bcoef rew boot disc q = (B : EReal) ∧ 0 ≤ B ∧ B < 100 := by
  obtain ⟨C, hC, hlo, hhi⟩ := clip_real (rew + boot * disc * q)
  refine ⟨(C + 10) * (67108864 / 13421773), ?_, ?_, ?_⟩
  · unfold bcoef
    rw [lit_ten, lit_neg_ten, lit_fifth, hC, Ideal.div_coe (by norm_num)]
    rw [← EReal.coe_sub, ← EReal.coe_mul, EReal.coe_eq_coe_iff]
    norm_num
  · have : 0 ≤ C + 10 := by linarith
    positivity
  · have : C + 10 ≤ 20 := by linarith
    nlinarith

/-- The floor and the ceiling as 32-bit words. -/
def flW (b : EReal) : BitVec 32 := Ideal.fptosi 32 (Ideal.liftRound Int.floor b)
def ceW (b : EReal) : BitVec 32 := Ideal.fptosi 32 (Ideal.liftRound Int.ceil b)

theorem flW_coe (B : ℝ) (h0 : 0 ≤ B) (h1 : B < 100) : flW (B : EReal) = BitVec.ofInt 32 ⌊B⌋ := by
  have hf0 : 0 ≤ ⌊B⌋ := Int.floor_nonneg.2 h0
  have hf1 : ⌊B⌋ < 100 := Int.floor_lt.2 (by exact_mod_cast h1)
  unfold flW Ideal.fptosi
  rw [Ideal.liftRound_coe, Ideal.toIntClamped_coe]
  have hc : (0 : ℝ) ≤ ((⌊B⌋ : ℤ) : ℝ) := by exact_mod_cast hf0
  rw [if_pos hc, Int.floor_intCast]
  congr 1
  omega

theorem ceW_coe (B : ℝ) (h0 : 0 ≤ B) (h1 : B < 100) : ceW (B : EReal) = BitVec.ofInt 32 ⌈B⌉ := by
  have hf0 : 0 ≤ ⌈B⌉ := Int.ceil_nonneg h0
  have hf1 : ⌈B⌉ ≤ 100 := Int.ceil_le.2 (by exact_mod_cast h1.le)
  unfold ceW Ideal.fptosi
  rw [Ideal.liftRound_coe, Ideal.toIntClamped_coe]
  have hc : (0 : ℝ) ≤ ((⌈B⌉ : ℤ) : ℝ) := by exact_mod_cast hf0
  rw [if_pos hc, Int.floor_intCast]
  congr 1
  omega

/-- The lower index word: the floor, moved one down where the coordinate is a positive integer. -/
def liW (b : EReal) : BitVec 32 :=
  Scalar.select (IntOp.andi (IntOp.cmpi .eq (ceW b) (flW b)) (IntOp.cmpi .sgt (flW b) 0#32)) (IntOp.subi (flW b) 1#32) (flW b)

/-- The upper index word: the ceiling, moved one up where the coordinate is the integer zero. -/
def uiW (b : EReal) : BitVec 32 :=
  Scalar.select (IntOp.andi (IntOp.cmpi .eq (ceW b) (flW b)) (IntOp.cmpi .eq (flW b) 0#32)) (IntOp.addi (ceW b) 1#32) (ceW b)

/-- Over the hundred possible floors n and the two possible ceilings n, n + 1: the lower word is at most 99, reads back
    as itself, and the upper word is the lower one plus one. -/
theorem words_table : ∀ n : Fin 100, ∀ d : Fin 2,
    (Scalar.select (IntOp.andi (IntOp.cmpi .eq (BitVec.ofNat 32 (n.val + d.val)) (BitVec.ofNat 32 n.val)) (IntOp.cmpi .sgt (BitVec.ofNat 32 n.val) 0#32)) (IntOp.subi (BitVec.ofNat 32 n.val) 1#32) (BitVec.ofNat 32 n.val)).toNat ≤ 99
    ∧ Scalar.select (IntOp.andi (IntOp.cmpi .eq (BitVec.ofNat 32 (n.val + d.val)) (BitVec.ofNat 32 n.val)) (IntOp.cmpi .eq (BitVec.ofNat 32 n.val) 0#32)) (IntOp.addi (BitVec.ofNat 32 (n.val + d.val)) 1#32) (BitVec.ofNat 32 (n.val + d.val))
      = IntOp.addi (Scalar.select (IntOp.andi (IntOp.cmpi .eq (BitVec.ofNat 32 (n.val + d.val)) (BitVec.ofNat 32 n.val)) (IntOp.cmpi .sgt (BitVec.ofNat 32 n.val) 0#32)) (IntOp.subi (BitVec.ofNat 32 n.val) 1#32) (BitVec.ofNat 32 n.val)) 1#32 := by
  decide

theorem ceil_cases (B : ℝ) : ⌈B⌉ = ⌊B⌋ ∨ ⌈B⌉ = ⌊B⌋ + 1 := by
  have h1 := Int.floor_le_ceil B
  have h2 := Int.ceil_le_floor_add_one B
  omega

/-- For a coordinate in [0, 100): the lower word is at most 99 and the upper word is the lower one plus one. -/
theorem li_ui (b : EReal) (hb : ∃ B : ℝ, b = (B : EReal) ∧ 0 ≤ B ∧ B < 100) :
    (liW b).toNat ≤ 99 ∧ uiW b = IntOp.addi (liW b) 1#32 := by
  obtain ⟨B, rfl, h0, h1⟩ := hb
  have hf0 : 0 ≤ ⌊B⌋ := Int.floor_nonneg.2 h0
  have hf1 : ⌊B⌋ < 100 := Int.floor_lt.2 (by exact_mod_cast h1)
  obtain ⟨n, hn⟩ : ∃ n : Fin 100, ⌊B⌋ = (n.val : ℤ) := ⟨⟨⌊B⌋.toNat, by omega⟩, by simp; omega⟩
  obtain ⟨d, hd⟩ : ∃ d : Fin 2, ⌈B⌉ = ((n.val + d.val : ℕ) : ℤ) := by
    rcases ceil_cases B with h | h
    · exact ⟨0, by rw [h, hn]; simp⟩
    · exact ⟨1, by rw [h, hn]; simp⟩
  have hfl : flW (B : EReal) = BitVec.ofNat 32 n.val := by rw [flW_coe B h0 h1, hn]; rfl
  have hce : ceW (B : EReal) = BitVec.ofNat 32 (n.val + d.val) := by rw [ceW_coe B h0 h1, hd]; rfl
  unfold liW uiW
  rw [hfl, hce]
  exact words_table n d

/-- A word at most 99 reads back, signed, as its value. -/
theorem toInt_small (w : BitVec 32) (h : w.toNat ≤ 100) : w.toInt = (w.toNat : ℤ) := by
  rw [BitVec.toInt_eq_toNat_cond]
  split <;> omega

theorem toNat_add_one (w : BitVec 32) (h : w.toNat ≤ 99) : (IntOp.addi w 1#32).toNat = w.toNat + 1 := by
  unfold IntOp.addi
  rw [BitVec.toNat_add]
  simp
  omega

/-- The lane number j meets the word w exactly when w reads j. -/
theorem cmp_iota (j : ℕ) (hj : j < 2 ^ 32) (w : BitVec 32) :
    IntOp.cmpi .eq (BitVec.ofNat 32 j) w = 1#1 ↔ w.toNat = j := by
  have key : (BitVec.ofNat 32 j = w) ↔ w.toNat = j := by
    constructor
    · intro h; rw [← h, BitVec.toNat_ofNat]; exact Nat.mod_eq_of_lt hj
    · intro h; apply BitVec.eq_of_toNat_eq; rw [BitVec.toNat_ofNat, h]; exact Nat.mod_eq_of_lt (h ▸ hj)
  rw [← key]
  show BitVec.ofBool (BitVec.ofNat 32 j == w) = 1#1 ↔ _
  by_cases hw : BitVec.ofNat 32 j = w
  · simp [hw]
  · rw [show (BitVec.ofNat 32 j == w) = false from beq_false_of_ne hw]
    simp [hw]

/-- The running sum of the unrolled loop: from zero, each step adds its lower and then its upper deposit. -/
def kacc (s1 s2 : ℕ → EReal) : ℕ → EReal
  | 0 => 0
  | n + 1 => kacc s1 s2 n + s1 n + s2 n

theorem kacc_eq (s1 s2 : ℕ → EReal) (n : ℕ) :
    kacc s1 s2 n = (∑ i ∈ Finset.range n, s1 i) + ∑ i ∈ Finset.range n, s2 i := by
  induction n with
  | zero => simp [kacc]
  | succ n ih =>
    rw [kacc, ih, Finset.sum_range_succ, Finset.sum_range_succ]
    abel

end C51

end
-- ==== Proof.KLoop.lean ====
/-
  The 101 rounds of the histogram projection, read at one entry.

  From the array L of lower index words and the two weight arrays lw, uw (all [1024, 101]) the body keeps a running
  [1024, 101] sum, starting from zero: round a takes column a of each, compares the lane number j with L[p, a] and
  with L[p, a] + 1 on every row p, and adds lw[p, a] where the first comparison holds and uw[p, a] where the second
  does.  So the stored value at (p, j) is the running sum over a = 0 … 100 of those two deposits, in that order.
-/
import proofs.«100750_j352187318805_1_alg».proof.Proof.Gen.KernelIdeal.Skeleton
import proofs.«100750_j352187318805_1_alg».proof.Proof.KOps
import proofs.«100750_j352187318805_1_alg».proof.Proof.Project

set_option backward.isDefEq.respectTransparency.types false

noncomputable section

namespace Cert.KernelIdeal.Hand

open Idealize.ShloMosaic Idealize.ShloMosaic.ValueIdx Cert.KernelIdeal Cert.KernelIdeal.Gen Cert.Lib.Keepdims C51.KOps

/-- The rounds as a function of the lower index words and the two weight arrays: the body's payloads from the first
    round on, composed in the body's order. -/
def loopVal {F : FTy → Type} [FloatOps F] (v162 : IVec S1024x101 32) (v167 v169 : FVec F S1024x101 .f32) : FVec F S1024x101 .f32 :=
  have v170 : IVec S1x101 32 := iota .tc S1x101 32 [1] iota_S1x101_d1_w32
  have cst_54 : F .f32 := Scalar.ofBits .f32 0x00000000#32
  have v171 : FVec F S1024x101 .f32 := k0_pay13 (F := F)
  have v172 : IVec S1024x1 32 := extractStridedSlice S1024x1 ![0, 0] v162 slices_S1024x101_o0_0_S1024x1
  have v173 : FVec F S1024x1 .f32 := extractStridedSlice S1024x1 ![0, 0] v167 slices_S1024x101_o0_0_S1024x1
  have v174 : FVec F S1024x1 .f32 := extractStridedSlice S1024x1 ![0, 0] v169 slices_S1024x101_o0_0_S1024x1
  have v177 : IVec S1024x101 1 := cmpi .eq (broadcastTo S1024x101 v170 broadcasts_S1x101_S1024x101) (broadcastTo S1024x101 v172 broadcasts_S1024x1_S1024x101)
  -- part 5
  have cst_62 : F .f32 := Scalar.ofBits .f32 0x00000000#32
  have v216 : FVec F S1024x1 .f32 := k0_pay19 v169
  have v224 : FVec F S1024x101 .f32 := k0_pay20 v162 v167 v169 v170 v171 v172 v173 v174 v177 cst_54
  have v229 : IVec S1024x101 1 := k0_pay21 v162 v170
  -- part 6
  have cst_69 : F .f32 := Scalar.ofBits .f32 0x00000000#32
  have v276 : FVec F S1024x101 .f32 := k0_pay22 v162 v167 v169 v170 v216 v224 v229 cst_62
  have v277 : IVec S1024x1 32 := k0_pay23 v162
  have v278 : FVec F S1024x1 .f32 := k0_pay24 v167
  have v279 : FVec F S1024x1 .f32 := k0_pay25 v169
  have v282 : IVec S1024x101 1 := k0_pay26 v162 v170
  -- part 7
  have cst_77 : F .f32 := Scalar.ofBits .f32 0x00000000#32
  have v321 : FVec F S1024x1 .f32 := k0_pay28 v169
  have v329 : FVec F S1024x101 .f32 := k0_pay29 v162 v167 v169 v170 v276 v277 v278 v279 v282 cst_69
  have v334 : IVec S1024x101 1 := k0_pay30 v162 v170
  -- part 8
  have cst_84 : F .f32 := Scalar.ofBits .f32 0x00000000#32
  have v381 : FVec F S1024x101 .f32 := k0_pay31 v162 v167 v169 v170 v321 v329 v334 cst_77
  have v382 : IVec S1024x1 32 := k0_pay32 v162
  have v383 : FVec F S1024x1 .f32 := k0_pay33 v167
  have v384 : FVec F S1024x1 .f32 := k0_pay34 v169
  have v387 : IVec S1024x101 1 := k0_pay35 v162 v170
  -- part 9
  have cst_92 : F .f32 := Scalar.ofBits .f32 0x00000000#32
  have v426 : FVec F S1024x1 .f32 := k0_pay37 v169
  have v434 : FVec F S1024x101 .f32 := k0_pay38 v162 v167 v169 v170 v381 v382 v383 v384 v387 cst_84
  have v439 : IVec S1024x101 1 := k0_pay39 v162 v170
  -- part 10
  have cst_99 : F .f32 := Scalar.ofBits .f32 0x00000000#32
  have v486 : FVec F S1024x101 .f32 := k0_pay40 v162 v167 v169 v170 v426 v434 v439 cst_92
  have v487 : IVec S1024x1 32 := k0_pay41 v162
  have v488 : FVec F S1024x1 .f32 := k0_pay42 v167
  have v489 : FVec F S1024x1 .f32 := k0_pay43 v169
  have v492 : IVec S1024x101 1 := k0_pay44 v162 v170
  -- part 11
  have cst_107 : F .f32 := Scalar.ofBits .f32 0x00000000#32
  have v531 : FVec F S1024x1 .f32 := k0_pay46 v169
  have v539 : FVec F S1024x101 .f32 := k0_pay47 v162 v167 v169 v170 v486 v487 v488 v489 v492 cst_99
  have v544 : IVec S1024x101 1 := k0_pay48 v162 v170
  -- part 12
  have cst_114 : F .f32 := Scalar.ofBits .f32 0x00000000#32
  have v591 : FVec F S1024x101 .f32 := k0_pay49 v162 v167 v169 v170 v531 v539 v544 cst_107
  have v592 : IVec S1024x1 32 := k0_pay50 v162
  have v593 : FVec F S1024x1 .f32 := k0_pay51 v167
  have v594 : FVec F S1024x1 .f32 := k0_pay52 v169
  have v597 : IVec S1024x101 1 := k0_pay53 v162 v170
  -- part 13
  have cst_122 : F .f32 := Scalar.ofBits .f32 0x00000000#32
  have v636 : FVec F S1024x1 .f32 := k0_pay55 v169
  have v644 : FVec F S1024x101 .f32 := k0_pay56 v162 v167 v169 v170 v591 v592 v593 v594 v597 cst_114
  have v649 : IVec S1024x101 1 := k0_pay57 v162 v170
  -- part 14
  have cst_129 : F .f32 := Scalar.ofBits .f32 0x00000000#32
  have v696 : FVec F S1024x101 .f32 := k0_pay58 v162 v167 v169 v170 v636 v644 v649 cst_122
  have v697 : IVec S1024x1 32 := k0_pay59 v162
  have v698 : FVec F S1024x1 .f32 := k0_pay60 v167
  have v699 : FVec F S1024x1 .f32 := k0_pay61 v169
  have v702 : IVec S1024x101 1 := k0_pay62 v162 v170
  -- part 15
  have cst_137 : F .f32 := Scalar.ofBits .f32 0x00000000#32
  have v741 : FVec F S1024x1 .f32 := k0_pay64 v169
  have v749 : FVec F S1024x101 .f32 := k0_pay65 v162 v167 v169 v170 v696 v697 v698 v699 v702 cst_129
  have v754 : IVec S1024x101 1 := k0_pay66 v162 v170
  -- part 16
  have cst_144 : F .f32 := Scalar.ofBits .f32 0x00000000#32
  have v801 : FVec F S1024x101 .f32 := k0_pay67 v162 v167 v169 v170 v741 v749 v754 cst_137
  have v802 : IVec S1024x1 32 := k0_pay68 v162
  have v803 : FVec F S1024x1 .f32 := k0_pay69 v167
  have v804 : FVec F S1024x1 .f32 := k0_pay70 v169
  have v807 : IVec S1024x101 1 := k0_pay71 v162 v170
  -- part 17
  have cst_152 : F .f32 := Scalar.ofBits .f32 0x00000000#32
  have v846 : FVec F S1024x1 .f32 := k0_pay73 v169
  have v854 : FVec F S1024x101 .f32 := k0_pay74 v162 v167 v169 v170 v801 v802 v803 v804 v807 cst_144
  have v859 : IVec S1024x101 1 := k0_pay75 v162 v170
  -- part 18
  have cst_159 : F .f32 := Scalar.ofBits .f32 0x00000000#32
  have v906 : FVec F S1024x101 .f32 := k0_pay76 v162 v167 v169 v170 v846 v854 v859 cst_152
  have v907 : IVec S1024x1 32 := k0_pay77 v162
  have v908 : FVec F S1024x1 .f32 := k0_pay78 v167
  have v909 : FVec F S1024x1 .f32 := k0_pay79 v169
  have v912 : IVec S1024x101 1 := k0_pay80 v162 v170
  -- part 19
  have cst_167 : F .f32 := Scalar.ofBits .f32 0x00000000#32
  have v951 : FVec F S1024x1 .f32 := k0_pay82 v169
  have v959 : FVec F S1024x101 .f32 := k0_pay83 v162 v167 v169 v170 v906 v907 v908 v909 v912 cst_159
  have v964 : IVec S1024x101 1 := k0_pay84 v162 v170
  -- part 20
  have cst_174 : F .f32 := Scalar.ofBits .f32 0x00000000#32
  have v1011 : FVec F S1024x101 .f32 := k0_pay85 v162 v167 v169 v170 v951 v959 v964 cst_167
  have v1012 : IVec S1024x1 32 := k0_pay86 v162
  have v1013 : FVec F S1024x1 .f32 := k0_pay87 v167
  have v1014 : FVec F S1024x1 .f32 := k0_pay88 v169
  have v1017 : IVec S1024x101 1 := k0_pay89 v162 v170
  -- part 21
  have cst_182 : F .f32 := Scalar.ofBits .f32 0x00000000#32
  have v1056 : FVec F S1024x1 .f32 := k0_pay91 v169
  have v1064 : FVec F S1024x101 .f32 := k0_pay92 v162 v167 v169 v170 v1011 v1012 v1013 v1014 v1017 cst_174
  have v1069 : IVec S1024x101 1 := k0_pay93 v162 v170
  -- part 22
  have cst_189 : F .f32 := Scalar.ofBits .f32 0x00000000#32
  have v1116 : FVec F S1024x101 .f32 := k0_pay94 v162 v167 v169 v170 v1056 v1064 v1069 cst_182
  have v1117 : IVec S1024x1 32 := k0_pay95 v162
  have v1118 : FVec F S1024x1 .f32 := k0_pay96 v167
  have v1119 : FVec F S1024x1 .f32 := k0_pay97 v169
  have v1122 : IVec S1024x101 1 := k0_pay98 v162 v170
  -- part 23
  have cst_197 : F .f32 := Scalar.ofBits .f32 0x00000000#32
  have v1161 : FVec F S1024x1 .f32 := k0_pay100 v169
  have v1169 : FVec F S1024x101 .f32 := k0_pay101 v162 v167 v169 v170 v1116 v1117 v1118 v1119 v1122 cst_189
  have v1174 : IVec S1024x101 1 := k0_pay102 v162 v170
  -- part 24
  have cst_204 : F .f32 := Scalar.ofBits .f32 0x00000000#32
  have v1221 : FVec F S1024x101 .f32 := k0_pay103 v162 v167 v169 v170 v1161 v1169 v1174 cst_197
  have v1222 : IVec S1024x1 32 := k0_pay104 v162
  have v1223 : FVec F S1024x1 .f32 := k0_pay105 v167
  have v1224 : FVec F S1024x1 .f32 := k0_pay106 v169
  have v1227 : IVec S1024x101 1 := k0_pay107 v162 v170
  -- part 25
  have cst_212 : F .f32 := Scalar.ofBits .f32 0x00000000#32
  have v1266 : FVec F S1024x1 .f32 := k0_pay109 v169
  have v1274 : FVec F S1024x101 .f32 := k0_pay110 v162 v167 v169 v170 v1221 v1222 v1223 v1224 v1227 cst_204
  have v1279 : IVec S1024x101 1 := k0_pay111 v162 v170
  -- part 26
  have cst_219 : F .f32 := Scalar.ofBits .f32 0x00000000#32
  have v1326 : FVec F S1024x101 .f32 := k0_pay112 v162 v167 v169 v170 v1266 v1274 v1279 cst_212
  have v1327 : IVec S1024x1 32 := k0_pay113 v162
  have v1328 : FVec F S1024x1 .f32 := k0_pay114 v167
  have v1329 : FVec F S1024x1 .f32 := k0_pay115 v169
  have v1332 : IVec S1024x101 1 := k0_pay116 v162 v170
  -- part 27
  have cst_227 : F .f32 := Scalar.ofBits .f32 0x00000000#32
  have v1371 : FVec F S1024x1 .f32 := k0_pay118 v169
  have v1379 : FVec F S1024x101 .f32 := k0_pay119 v162 v167 v169 v170 v1326 v1327 v1328 v1329 v1332 cst_219
  have v1384 : IVec S1024x101 1 := k0_pay120 v162 v170
  -- part 28
  have cst_234 : F .f32 := Scalar.ofBits .f32 0x00000000#32
  have v1431 : FVec F S1024x101 .f32 := k0_pay121 v162 v167 v169 v170 v1371 v1379 v1384 cst_227
  have v1432 : IVec S1024x1 32 := k0_pay122 v162
  have v1433 : FVec F S1024x1 .f32 := k0_pay123 v167
  have v1434 : FVec F S1024x1 .f32 := k0_pay124 v169
  have v1437 : IVec S1024x101 1 := k0_pay125 v162 v170
  -- part 29
  have cst_242 : F .f32 := Scalar.ofBits .f32 0x00000000#32
  have v1476 : FVec F S1024x1 .f32 := k0_pay127 v169
  have v1484 : FVec F S1024x101 .f32 := k0_pay128 v162 v167 v169 v170 v1431 v1432 v1433 v1434 v1437 cst_234
  have v1489 : IVec S1024x101 1 := k0_pay129 v162 v170
  -- part 30
  have cst_249 : F .f32 := Scalar.ofBits .f32 0x00000000#32
  have v1536 : FVec F S1024x101 .f32 := k0_pay130 v162 v167 v169 v170 v1476 v1484 v1489 cst_242
  have v1537 : IVec S1024x1 32 := k0_pay131 v162
  have v1538 : FVec F S1024x1 .f32 := k0_pay132 v167
  have v1539 : FVec F S1024x1 .f32 := k0_pay133 v169
  have v1542 : IVec S1024x101 1 := k0_pay134 v162 v170
  -- part 31
  have cst_257 : F .f32 := Scalar.ofBits .f32 0x00000000#32
  have v1581 : FVec F S1024x1 .f32 := k0_pay136 v169
  have v1589 : FVec F S1024x101 .f32 := k0_pay137 v162 v167 v169 v170 v1536 v1537 v1538 v1539 v1542 cst_249
  have v1594 : IVec S1024x101 1 := k0_pay138 v162 v170
  -- part 32
  have cst_264 : F .f32 := Scalar.ofBits .f32 0x00000000#32
  have v1641 : FVec F S1024x101 .f32 := k0_pay139 v162 v167 v169 v170 v1581 v1589 v1594 cst_257
  have v1642 : IVec S1024x1 32 := k0_pay140 v162
  have v1643 : FVec F S1024x1 .f32 := k0_pay141 v167
  have v1644 : FVec F S1024x1 .f32 := k0_pay142 v169
  have v1647 : IVec S1024x101 1 := k0_pay143 v162 v170
  -- part 33
  have cst_272 : F .f32 := Scalar.ofBits .f32 0x00000000#32
  have v1686 : FVec F S1024x1 .f32 := k0_pay145 v169
  have v1694 : FVec F S1024x101 .f32 := k0_pay146 v162 v167 v169 v170 v1641 v1642 v1643 v1644 v1647 cst_264
  have v1699 : IVec S1024x101 1 := k0_pay147 v162 v170
  -- part 34
  have cst_279 : F .f32 := Scalar.ofBits .f32 0x00000000#32
  have v1746 : FVec F S1024x101 .f32 := k0_pay148 v162 v167 v169 v170 v1686 v1694 v1699 cst_272
  have v1747 : IVec S1024x1 32 := k0_pay149 v162
  have v1748 : FVec F S1024x1 .f32 := k0_pay150 v167
  have v1749 : FVec F S1024x1 .f32 := k0_pay151 v169
  have v1752 : IVec S1024x101 1 := k0_pay152 v162 v170
  -- part 35
  have cst_287 : F .f32 := Scalar.ofBits .f32 0x00000000#32
  have v1791 : FVec F S1024x1 .f32 := k0_pay154 v169
  have v1799 : FVec F S1024x101 .f32 := k0_pay155 v162 v167 v169 v170 v1746 v1747 v1748 v1749 v1752 cst_279
  have v1804 : IVec S1024x101 1 := k0_pay156 v162 v170
  -- part 36
  have cst_294 : F .f32 := Scalar.ofBits .f32 0x00000000#32
  have v1851 : FVec F S1024x101 .f32 := k0_pay157 v162 v167 v169 v170 v1791 v1799 v1804 cst_287
  have v1852 : IVec S1024x1 32 := k0_pay158 v162
  have v1853 : FVec F S1024x1 .f32 := k0_pay159 v167
  have v1854 : FVec F S1024x1 .f32 := k0_pay160 v169
  have v1857 : IVec S1024x101 1 := k0_pay161 v162 v170
  -- part 37
  have cst_302 : F .f32 := Scalar.ofBits .f32 0x00000000#32
  have v1896 : FVec F S1024x1 .f32 := k0_pay163 v169
  have v1904 : FVec F S1024x101 .f32 := k0_pay164 v162 v167 v169 v170 v1851 v1852 v1853 v1854 v1857 cst_294
  have v1909 : IVec S1024x101 1 := k0_pay165 v162 v170
  -- part 38
  have cst_309 : F .f32 := Scalar.ofBits .f32 0x00000000#32
  have v1956 : FVec F S1024x101 .f32 := k0_pay166 v162 v167 v169 v170 v1896 v1904 v1909 cst_302
  have v1957 : IVec S1024x1 32 := k0_pay167 v162
  have v1958 : FVec F S1024x1 .f32 := k0_pay168 v167
  have v1959 : FVec F S1024x1 .f32 := k0_pay169 v169
  have v1962 : IVec S1024x101 1 := k0_pay170 v162 v170
  -- part 39
  have cst_317 : F .f32 := Scalar.ofBits .f32 0x00000000#32
  have v2001 : FVec F S1024x1 .f32 := k0_pay172 v169
  have v2009 : FVec F S1024x101 .f32 := k0_pay173 v162 v167 v169 v170 v1956 v1957 v1958 v1959 v1962 cst_309
  have v2014 : IVec S1024x101 1 := k0_pay174 v162 v170
  -- part 40
  have cst_324 : F .f32 := Scalar.ofBits .f32 0x00000000#32
  have v2061 : FVec F S1024x101 .f32 := k0_pay175 v162 v167 v169 v170 v2001 v2009 v2014 cst_317
  have v2062 : IVec S1024x1 32 := k0_pay176 v162
  have v2063 : FVec F S1024x1 .f32 := k0_pay177 v167
  have v2064 : FVec F S1024x1 .f32 := k0_pay178 v169
  have v2067 : IVec S1024x101 1 := k0_pay179 v162 v170
  -- part 41
  have cst_332 : F .f32 := Scalar.ofBits .f32 0x00000000#32
  have v2106 : FVec F S1024x1 .f32 := k0_pay181 v169
  have v2114 : FVec F S1024x101 .f32 := k0_pay182 v162 v167 v169 v170 v2061 v2062 v2063 v2064 v2067 cst_324
  have v2119 : IVec S1024x101 1 := k0_pay183 v162 v170
  -- part 42
  have cst_339 : F .f32 := Scalar.ofBits .f32 0x00000000#32
  have v2166 : FVec F S1024x101 .f32 := k0_pay184 v162 v167 v169 v170 v2106 v2114 v2119 cst_332
  have v2167 : IVec S1024x1 32 := k0_pay185 v162
  have v2168 : FVec F S1024x1 .f32 := k0_pay186 v167
  have v2169 : FVec F S1024x1 .f32 := k0_pay187 v169
  have v2172 : IVec S1024x101 1 := k0_pay188 v162 v170
  -- part 43
  have cst_347 : F .f32 := Scalar.ofBits .f32 0x00000000#32
  have v2211 : FVec F S1024x1 .f32 := k0_pay190 v169
  have v2219 : FVec F S1024x101 .f32 := k0_pay191 v162 v167 v169 v170 v2166 v2167 v2168 v2169 v2172 cst_339
  have v2224 : IVec S1024x101 1 := k0_pay192 v162 v170
  -- part 44
  have cst_354 : F .f32 := Scalar.ofBits .f32 0x00000000#32
  have v2271 : FVec F S1024x101 .f32 := k0_pay193 v162 v167 v169 v170 v2211 v2219 v2224 cst_347
  have v2272 : IVec S1024x1 32 := k0_pay194 v162
  have v2273 : FVec F S1024x1 .f32 := k0_pay195 v167
  have v2274 : FVec F S1024x1 .f32 := k0_pay196 v169
  have v2277 : IVec S1024x101 1 := k0_pay197 v162 v170
  -- the last part's results and the stored sum
  have v2282 : FVec F S1024x101 .f32 := k0_pay198 v2271 v2273 v2277 cst_354
  have v2291 : FVec F S1024x101 .f32 := k0_pay199 v170 v2272 v2274
  k0_pay1 v2282 v2291

/-- The lower deposit of atom a at lane j: lw a where the lane number meets the lower word. -/
def dep1 (L : Fin 101 → BitVec 32) (lw : Fin 101 → EReal) (j : Fin 101) (a : ℕ) : EReal :=
  if h : a < 101 then Scalar.select (IntOp.cmpi .eq (BitVec.ofNat 32 j.val) (L ⟨a, h⟩)) (lw ⟨a, h⟩) (Ideal.ofBits .f32 0x00000000#32) else 0

/-- The upper deposit: uw a where the lane number meets the lower word plus one. -/
def dep2 (L : Fin 101 → BitVec 32) (uw : Fin 101 → EReal) (j : Fin 101) (a : ℕ) : EReal :=
  if h : a < 101 then Scalar.select (IntOp.cmpi .eq (BitVec.ofNat 32 j.val) (IntOp.addi (L ⟨a, h⟩) 1#32)) (uw ⟨a, h⟩) (Ideal.ofBits .f32 0x00000000#32) else 0

set_option maxHeartbeats 4000000 in
/-- The rounds' result at (p, j): the running sum of the 101 pairs of deposits of row p. -/
theorem loop_at (v162 : IVec S1024x101 32) (v167 v169 : FVec Ideal S1024x101 .f32) (p : Fin 1024) (j : Fin 101) :
    loopVal v162 v167 v169 (ix2 p j)
      = C51.kacc (dep1 (fun a => v162 (ix2 p a)) (fun a => v167 (ix2 p a)) j)
          (dep2 (fun a => v162 (ix2 p a)) (fun a => v169 (ix2 p a)) j) 101 := by
  have hiota : ∀ j : Fin 101, iota .tc S1x101 32 [1] iota_S1x101_d1_w32 (ix2 0 j) = BitVec.ofNat 32 j.val :=
    fun j => iota_single_apply .tc S1x101 32 1 iota_S1x101_d1_w32 (ix2 0 j)
  unfold loopVal
  simp only [hiota, Ideal.ofBits_def, Ideal.ofBits_zero_f32, k0_pay1, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, addf_apply, select_apply, cmpi_apply, addi_apply, broadcast_apply, shapeCast_self,
    broadcastTo_a1_ab_apply, broadcastTo_1b_ab_apply, slice_col_apply]
  simp only [C51.kacc, dep1, dep2, Nat.reduceLT, dite_true, Ideal.ofBits_zero_f32]

end Cert.KernelIdeal.Hand

end
-- ==== Proof.Row.lean ====
/-
  One row of the projection in the kernel's arrangement.

  For a row with probabilities P over the 101 atoms, reward r, bootstrap flag b, discount d and support q: atom a has
  bin coordinate bcoef r b d (q a), lower index word liW of it, lower weight P a · (lower + 1 − coordinate) and upper
  weight P a · (coordinate − lower), the lower index read as the signed value of its word.
-/
import proofs.«100750_j352187318805_1_alg».proof.Proof.Project

noncomputable section

namespace C51

open Idealize.ShloMosaic

/-- The bin coordinates of a row. -/
def Brow (r b d : EReal) (q : Fin 101 → EReal) (a : Fin 101) : EReal := bcoef r b d (q a)

/-- The lower index words of a row. -/
def Lrow (r b d : EReal) (q : Fin 101 → EReal) (a : Fin 101) : BitVec 32 := liW (Brow r b d q a)

/-- The lower weights: probability times (lower index + 1 − coordinate). -/
def lwK (P : Fin 101 → EReal) (r b d : EReal) (q : Fin 101 → EReal) (a : Fin 101) : EReal :=
  P a * ((((Lrow r b d q a).toInt : ℝ) : EReal) + lit 0x3F800000#32 - Brow r b d q a)

/-- The upper weights: probability times (coordinate − lower index). -/
def uwK (P : Fin 101 → EReal) (r b d : EReal) (q : Fin 101 → EReal) (a : Fin 101) : EReal :=
  P a * (Brow r b d q a - (((Lrow r b d q a).toInt : ℝ) : EReal))

end C51

end
-- ==== Proof.Bridge.lean ====
/-
  The kernel's running sum of a row as two plain sums, and the reference's upper index in the kernel's terms.

  With every lower index word at most 99 (the coordinate is a real in [0, 100)): the lane number j meets the lower word
  of atom a exactly when the word reads j, and meets the lower word plus one exactly when the word reads j − 1; so the
  running sum of the 101 pairs of deposits at lane j is the sum of the lower weights of the atoms whose lower index is
  j plus the sum of the upper weights of the atoms whose lower index plus one is j.  And the reference's upper index
  word is the lower word plus one, so read as a float it is the lower index plus 1.
-/
import proofs.«100750_j352187318805_1_alg».proof.Proof.KLoop
import proofs.«100750_j352187318805_1_alg».proof.Proof.Row

noncomputable section

namespace C51

open Idealize.ShloMosaic Cert.KernelIdeal.Hand

theorem Brow_real (r b d : EReal) (q : Fin 101 → EReal) (a : Fin 101) :
    ∃ x : ℝ, Brow r b d q a = (x : EReal) ∧ 0 ≤ x ∧ x < 100 := bcoef_real r b d (q a)

/-- Every lower index word of a row is at most 99. -/
theorem Lrow_le (r b d : EReal) (q : Fin 101 → EReal) (a : Fin 101) : (Lrow r b d q a).toNat ≤ 99 :=
  (li_ui _ (Brow_real r b d q a)).1

/-- The reference's upper index word of an atom is the lower word plus one. -/
theorem uiW_Brow (r b d : EReal) (q : Fin 101 → EReal) (a : Fin 101) :
    uiW (Brow r b d q a) = IntOp.addi (Lrow r b d q a) 1#32 :=
  (li_ui _ (Brow_real r b d q a)).2

/-- Read as a float it is the lower index plus 1 (the f32 word of 1.0). -/
theorem ui_float (r b d : EReal) (q : Fin 101 → EReal) (a : Fin 101) :
    (((uiW (Brow r b d q a)).toInt : ℝ) : EReal) = (((Lrow r b d q a).toInt : ℝ) : EReal) + lit 0x3F800000#32 := by
  have h99 := Lrow_le r b d q a
  rw [uiW_Brow, toInt_small _ (by rw [toNat_add_one _ h99]; omega), toNat_add_one _ h99, toInt_small _ (by omega),
    lit_one, ← EReal.coe_add]
  push_cast
  rfl

/-- The lower deposit as a case on the word's value. -/
theorem dep1_eq (L : Fin 101 → BitVec 32) (lw : Fin 101 → EReal) (j a : Fin 101) :
    dep1 L lw j a.val = if (L a).toNat = j.val then lw a else 0 := by
  unfold dep1
  rw [dif_pos a.isLt]
  show Scalar.select (IntOp.cmpi .eq (BitVec.ofNat 32 j.val) (L a)) (lw a) (Ideal.ofBits .f32 0x00000000#32) = _
  unfold Scalar.select
  have hj : j.val < 2 ^ 32 := by have := j.isLt; omega
  by_cases h : (L a).toNat = j.val
  · rw [if_pos h]
    exact if_pos ((cmp_iota j.val hj _).2 h)
  · rw [if_neg h]
    exact (if_neg (fun hc => h ((cmp_iota j.val hj _).1 hc))).trans Ideal.ofBits_zero_f32

/-- The upper deposit, for a lower word at most 99. -/
theorem dep2_eq (L : Fin 101 → BitVec 32) (uw : Fin 101 → EReal) (j a : Fin 101) (hL : (L a).toNat ≤ 99) :
    dep2 L uw j a.val = if (L a).toNat + 1 = j.val then uw a else 0 := by
  unfold dep2
  rw [dif_pos a.isLt]
  show Scalar.select (IntOp.cmpi .eq (BitVec.ofNat 32 j.val) (IntOp.addi (L a) 1#32)) (uw a) (Ideal.ofBits .f32 0x00000000#32) = _
  unfold Scalar.select
  have hj : j.val < 2 ^ 32 := by have := j.isLt; omega
  have hc := cmp_iota j.val hj (IntOp.addi (L a) 1#32)
  rw [toNat_add_one _ hL] at hc
  by_cases h : (L a).toNat + 1 = j.val
  · rw [if_pos h]
    exact if_pos (hc.2 h)
  · rw [if_neg h]
    exact (if_neg (fun hc' => h (hc.1 hc'))).trans Ideal.ofBits_zero_f32

/-- The kernel's value of a row at lane j as two sums over the atoms. -/
theorem krow_eq (P : Fin 101 → EReal) (r b d : EReal) (q : Fin 101 → EReal) (j : Fin 101) :
    kacc (dep1 (Lrow r b d q) (lwK P r b d q) j) (dep2 (Lrow r b d q) (uwK P r b d q) j) 101
      = (∑ a : Fin 101, if (Lrow r b d q a).toNat = j.val then lwK P r b d q a else 0)
        + ∑ a : Fin 101, if (Lrow r b d q a).toNat + 1 = j.val then uwK P r b d q a else 0 := by
  rw [kacc_eq, ← Fin.sum_univ_eq_sum_range (fun i => dep1 (Lrow r b d q) (lwK P r b d q) j i) 101,
    ← Fin.sum_univ_eq_sum_range (fun i => dep2 (Lrow r b d q) (uwK P r b d q) j i) 101]
  congr 1
  · exact Finset.sum_congr rfl fun a _ => dep1_eq _ _ j a
  · exact Finset.sum_congr rfl fun a _ => dep2_eq _ _ j a (Lrow_le r b d q a)

/-- The upper index word of an atom is at most 100. -/
theorem uiW_le (r b d : EReal) (q : Fin 101 → EReal) (a : Fin 101) : (uiW (Brow r b d q a)).toNat ≤ 100 := by
  rw [uiW_Brow, toNat_add_one _ (Lrow_le r b d q a)]
  have := Lrow_le r b d q a
  omega

/-- The reference's arrangement of a row — the lower weights P·(upper − b) summed over the atoms whose lower index is
    j, plus the upper weights P·(b − lower) over the atoms whose upper index is j, from zero — is the kernel's running
    sum: the upper index is the lower one plus one. -/
theorem row_eq (P : Fin 101 → EReal) (r b d : EReal) (q : Fin 101 → EReal) (j : Fin 101) :
    ((0 + ∑ a : Fin 101, if (liW (Brow r b d q a)).toNat = j.val
          then P a * ((((uiW (Brow r b d q a)).toInt : ℝ) : EReal) - Brow r b d q a) else 0)
      + (∑ a : Fin 101, if (uiW (Brow r b d q a)).toNat = j.val
          then P a * (Brow r b d q a - (((liW (Brow r b d q a)).toInt : ℝ) : EReal)) else 0))
      = kacc (dep1 (Lrow r b d q) (lwK P r b d q) j) (dep2 (Lrow r b d q) (uwK P r b d q) j) 101 := by
  rw [krow_eq, zero_add]
  congr 1
  · refine Finset.sum_congr rfl fun a _ => ?_
    rw [ui_float]
    rfl
  · refine Finset.sum_congr rfl fun a _ => ?_
    rw [uiW_Brow, toNat_add_one _ (Lrow_le r b d q a)]
    rfl

end C51

end
-- ==== Proof.KernelIdealBlocks.lean ====
/- The output array of `KernelIdeal` after the run, block by block: each grid point writes back the body's stored
   value at that point's input blocks, the 128 output blocks are pairwise disjoint, so block `t` of the final
   array read back is exactly what point `t` stored. -/
import proofs.«100750_j352187318805_1_alg».proof.Proof.KernelIdealFrame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final output array block by block -/

/-- `![0, 0]` is the zero offset. -/
theorem off2_zero : (![0, 0] : Fin 2 → Nat) = fun _ => 0 := funext fun a => by fin_cases a <;> rfl

/-- The output buffer after the body IS the stored value: the one store is of the whole block. -/
theorem out0_18_eq (x0 : Vec F S1024x60 .f32) (x1 : Vec F S1024x20 .f32) (x2 : Vec F S1024x3 .f32) (x3 : Vec F S1x101 .f32) (x4 : Vec F S80x256 .f32) (x5 : Vec F S256 .f32) (x6 : Vec F S256 .f32) (x7 : Vec F S256 .f32) (x8 : Vec F S256x128 .f32) (x9 : Vec F S128 .f32) (x10 : Vec F S128 .f32) (x11 : Vec F S128 .f32) (x12 : Vec F S128x64 .f32) (x13 : Vec F S64 .f32) (x14 : Vec F S64 .f32) (x15 : Vec F S64 .f32) (x16 : Vec F S64x101 .f32) (x17 : Vec F S101 .f32) :
    out0_18 x0 x1 x2 x3 x4 x5 x6 x7 x8 x9 x10 x11 x12 x13 x14 x15 x16 x17 = bodyVal x0 x1 x2 x3 x4 x5 x6 x7 x8 x9 x10 x11 x12 x13 x14 x15 x16 x17 := by
  unfold out0_18
  exact View.canon_unit_zero off2_zero _ _

/-- What point `t` writes back to the output array: the body's result at the input windows' blocks at `t`, read
    through the window's block. -/
theorem flushed18 (c : Dev nD) (t : Fin cfg0.N) :
    (dats m 0 c).flushed 18 t = (cfg0.win 18).cut (grid0.coords t) (out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)) := by
  show (cfg0.win 18).cut (grid0.coords t) ((dats m 0 c).after 18 t) = _
  rw [after0_18]

/-- The output's index map sends distinct grid points to distinct block indices (decided over the 128 points). -/
theorem idx_inj18 : ∀ t t' : Fin cfg0.N, win0_18.index t = win0_18.index t' → t = t' :=
  (by decide +kernel : ∀ t t' : Fin grid0.N, win0_18.index t = win0_18.index t' → t = t')

/-- So two points' output blocks share no array index. -/
theorem disjoint18 : ∀ t t' : Fin cfg0.N, (cfg0.win 18).flush t = true → (cfg0.win 18).flush t' = true → t ≠ t' →
    Disjoint ((cfg0.win 18).blk t).view.set ((cfg0.win 18).blk t').view.set :=
  fun t t' _ _ hne => (cfg0.win 18).disjoint_blk fun h => hne (idx_inj18 t t' h)

/-- Block `t` of the final output array, read back through the window, is what point `t` wrote back: no other
    point's block meets it. -/
theorem blocks18 (c : Dev nD) (t : Fin cfg0.N) :
    ((cfg0.win 18).blk t).view.read (Elt F) ((dats m 0 c).arrAt 18 cfg0.N) = (dats m 0 c).flushed 18 t :=
  (dats m 0 c).read_blk_arrAt_eq_flushed 18 disjoint18 cfg0.N t t.isLt (flush0_18 t)

/-- After the frame run, the output array is what the library computes from the proof data. -/
theorem post18 (r : PUnit × MemSt nD τ sig (Elt F)) (h : Pipeline.FramePost cfgs (dats m) 0 (V m) r) (c : Dev nD) :
    r.2.mem ((c : Thread nD τ).loc main_v5) = (dats m 0 c).arrAt 18 cfg0.N :=
  (h c).1 18

/-- The frame run with the output array after the run named, the claim's frame beside it. -/
theorem run_blocks : θ_run defs (onTc (τ := τ) (main (F := F))) ⟨m, fun _ => 0, ρ⟩ fun r => ∀ c : Dev nD,
      r.2.mem ((c : Thread nD τ).loc main_v5) = (dats m 0 c).arrAt 18 cfg0.N :=
  (θ_run defs _ _).mono (fun r h c => post18 m r h c) (run_main m ρ)

end Cert.KernelIdeal.Hand

end
-- ==== Proof.KernelIdealRead.lean ====
/-
  The region's input blocks, read in terms of the arguments.

  The grid has 128 points.  At point t the blocks of the observations, the actions and the joined column array are the
  rows 1024 t … 1024 t + 1023 of their arrays; every other input block is its whole array.  The joined column array
  holds the rewards, the bootstrap flags and the discounts in its columns 0, 1, 2, and the one-row array the support.
-/
import proofs.«100750_j352187318805_1_alg».proof.Proof.KernelIdealFrame
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- The block index maps of the row-blocked windows, decided over the 128 grid points: block t on the row axis, block 0
    on the other; the one-row window always reads block (0, 0). -/
theorem idx_rows : ∀ t : Fin cfg0.N,
    win0_0.index t (0 : Fin 2) = t.val
    ∧ win0_0.index t (1 : Fin 2) = 0
    ∧ win0_1.index t (0 : Fin 2) = t.val
    ∧ win0_1.index t (1 : Fin 2) = 0
    ∧ win0_2.index t (0 : Fin 2) = t.val
    ∧ win0_2.index t (1 : Fin 2) = 0
    ∧ win0_3.index t (0 : Fin 2) = 0
    ∧ win0_3.index t (1 : Fin 2) = 0
    ∧ win0_18.index t (0 : Fin 2) = t.val
    ∧ win0_18.index t (1 : Fin 2) = 0 :=
  (by decide +kernel : ∀ t : Fin grid0.N, _)

/-- The resident windows always read block 0 on every axis. -/
theorem idx_resident : ∀ t : Fin cfg0.N,
    win0_4.index t (0 : Fin 2) = 0
    ∧ win0_4.index t (1 : Fin 2) = 0
    ∧ win0_5.index t (0 : Fin 1) = 0
    ∧ win0_6.index t (0 : Fin 1) = 0
    ∧ win0_7.index t (0 : Fin 1) = 0
    ∧ win0_8.index t (0 : Fin 2) = 0
    ∧ win0_8.index t (1 : Fin 2) = 0
    ∧ win0_9.index t (0 : Fin 1) = 0
    ∧ win0_10.index t (0 : Fin 1) = 0
    ∧ win0_11.index t (0 : Fin 1) = 0
    ∧ win0_12.index t (0 : Fin 2) = 0
    ∧ win0_12.index t (1 : Fin 2) = 0
    ∧ win0_13.index t (0 : Fin 1) = 0
    ∧ win0_14.index t (0 : Fin 1) = 0
    ∧ win0_15.index t (0 : Fin 1) = 0
    ∧ win0_16.index t (0 : Fin 2) = 0
    ∧ win0_16.index t (1 : Fin 2) = 0
    ∧ win0_17.index t (0 : Fin 1) = 0 :=
  (by decide +kernel : ∀ t : Fin grid0.N, _)

/-- Row p of the observation block at point t is row 1024 t + p of the observations. -/
theorem iblk0_at (c : Dev nD) (t : Fin cfg0.N) (p : Fin 1024) (k : Fin 60) (R : Fin 131072) (hR : R.val = t.val * 1024 + p.val) :
    (iblk m c 0 t : Vec Ideal S1024x60 .f32) (ix2 p k)
      = (m ((c : Thread nD τ).loc main_arg0) : S131072x60.Idx → Elt Ideal .f32) (ix2 R k) := by
  obtain ⟨e0, e1, -⟩ := idx_rows t
  show V m c main_arg0 (((cfg0.win 0).blk t).view.emb (ix2 p k)) = _
  rw [V_main_arg0]
  refine congrArg _ (funext fun a => Fin.ext ?_)
  match a with
  | ⟨0, _⟩ => show win0_0.index t (0 : Fin 2) * 1024 + 1 * p.val = R.val; rw [e0, hR]; omega
  | ⟨1, _⟩ => show win0_0.index t (1 : Fin 2) * 60 + 1 * k.val = k.val; rw [e1]; omega

/-- Row p of the action block at point t is row 1024 t + p of the actions. -/
theorem iblk1_at (c : Dev nD) (t : Fin cfg0.N) (p : Fin 1024) (k : Fin 20) (R : Fin 131072) (hR : R.val = t.val * 1024 + p.val) :
    (iblk m c 1 t : Vec Ideal S1024x20 .f32) (ix2 p k)
      = (m ((c : Thread nD τ).loc main_arg1) : S131072x20.Idx → Elt Ideal .f32) (ix2 R k) := by
  obtain ⟨-, -, e0, e1, -⟩ := idx_rows t
  show V m c main_arg1 (((cfg0.win 1).blk t).view.emb (ix2 p k)) = _
  rw [V_main_arg1]
  refine congrArg _ (funext fun a => Fin.ext ?_)
  match a with
  | ⟨0, _⟩ => show win0_1.index t (0 : Fin 2) * 1024 + 1 * p.val = R.val; rw [e0, hR]; omega
  | ⟨1, _⟩ => show win0_1.index t (1 : Fin 2) * 20 + 1 * k.val = k.val; rw [e1]; omega

/-- Row p of the joined column block at point t is row 1024 t + p of the joined column array. -/
theorem iblk2_at (c : Dev nD) (t : Fin cfg0.N) (p : Fin 1024) (k : Fin 3) (R : Fin 131072) (hR : R.val = t.val * 1024 + p.val) :
    (iblk m c 2 t : Vec Ideal S1024x3 .f32) (ix2 p k)
      = (V m c main_v3 : S131072x3.Idx → Elt Ideal .f32) (ix2 R k) := by
  obtain ⟨-, -, -, -, e0, e1, -⟩ := idx_rows t
  show V m c main_v3 (((cfg0.win 2).blk t).view.emb (ix2 p k)) = _
  refine congrArg _ (funext fun a => Fin.ext ?_)
  match a with
  | ⟨0, _⟩ => show win0_2.index t (0 : Fin 2) * 1024 + 1 * p.val = R.val; rw [e0, hR]; omega
  | ⟨1, _⟩ => show win0_2.index t (1 : Fin 2) * 3 + 1 * k.val = k.val; rw [e1]; omega

/-- The one-row block is the one-row array. -/
theorem iblk3_at (c : Dev nD) (t : Fin cfg0.N) (a : Fin 101) :
    (iblk m c 3 t : Vec Ideal S1x101 .f32) (ix2 (0 : Fin 1) a)
      = (V m c main_v4 : S1x101.Idx → Elt Ideal .f32) (ix2 (0 : Fin 1) a) := by
  obtain ⟨-, -, -, -, -, -, e0, e1, -⟩ := idx_rows t
  show V m c main_v4 (((cfg0.win 3).blk t).view.emb (ix2 (0 : Fin 1) a)) = _
  refine congrArg _ (funext fun b => Fin.ext ?_)
  match b with
  | ⟨0, _⟩ => show win0_3.index t (0 : Fin 2) * 1 + 1 * 0 = 0; rw [e0]
  | ⟨1, _⟩ => show win0_3.index t (1 : Fin 2) * 101 + 1 * a.val = a.val; rw [e1]; omega

/-! The joined column array, column by column, and the one-row array. -/

private theorem bcast_col (x : S131072.Idx → Elt Ideal .f32) (R : Fin 131072) :
    broadcastInDim S131072x1 ![0] bcast_S131072_S131072x1_0 x (ix2 R (0 : Fin 1)) = x (ix1 R) :=
  broadcastInDim_apply _ _ x (ix2 R (0 : Fin 1)) (ix1 R) (fun a => by
    match a with
    | ⟨0, _⟩ => exact (if_neg (by show ¬ ((131072 : ℕ) = 1); decide)).symm)

/-- Column 0 of the joined array holds the rewards. -/
theorem v3_col0 (c : Dev nD) (R : Fin 131072) :
    (V m c main_v3 : S131072x3.Idx → Elt Ideal .f32) (ix2 R (0 : Fin 3))
      = (m ((c : Thread nD τ).loc main_arg2) : S131072.Idx → Elt Ideal .f32) (ix1 R) := by
  rw [V_main_v3]
  refine (concatenate_apply_piece (1 : Fin 2) _ _ (ix2 R (0 : Fin 3)) 0 (by show (0 : ℕ) < 3; decide) S131072x1 _ rfl rfl 0 rfl
    (ix2 R (0 : Fin 1)) (fun b hb => match b, hb with | ⟨0, _⟩, _ => rfl | ⟨1, _⟩, hb => absurd rfl hb) rfl).trans ?_
  exact bcast_col _ R

/-- Column 1 holds the bootstrap flags. -/
theorem v3_col1 (c : Dev nD) (R : Fin 131072) :
    (V m c main_v3 : S131072x3.Idx → Elt Ideal .f32) (ix2 R (1 : Fin 3))
      = (m ((c : Thread nD τ).loc main_arg3) : S131072.Idx → Elt Ideal .f32) (ix1 R) := by
  rw [V_main_v3]
  refine (concatenate_apply_piece (1 : Fin 2) _ _ (ix2 R (1 : Fin 3)) 1 (by show (1 : ℕ) < 3; decide) S131072x1 _ rfl rfl 1 rfl
    (ix2 R (0 : Fin 1)) (fun b hb => match b, hb with | ⟨0, _⟩, _ => rfl | ⟨1, _⟩, hb => absurd rfl hb) rfl).trans ?_
  exact bcast_col _ R

/-- Column 2 holds the discounts. -/
theorem v3_col2 (c : Dev nD) (R : Fin 131072) :
    (V m c main_v3 : S131072x3.Idx → Elt Ideal .f32) (ix2 R (2 : Fin 3))
      = (m ((c : Thread nD τ).loc main_arg4) : S131072.Idx → Elt Ideal .f32) (ix1 R) := by
  rw [V_main_v3]
  refine (concatenate_apply_piece (1 : Fin 2) _ _ (ix2 R (2 : Fin 3)) 2 (by show (2 : ℕ) < 3; decide) S131072x1 _ rfl rfl 2 rfl
    (ix2 R (0 : Fin 1)) (fun b hb => match b, hb with | ⟨0, _⟩, _ => rfl | ⟨1, _⟩, hb => absurd rfl hb) rfl).trans ?_
  exact bcast_col _ R

/-- The one-row array holds the support. -/
theorem v4_at (c : Dev nD) (a : Fin 101) :
    (V m c main_v4 : S1x101.Idx → Elt Ideal .f32) (ix2 (0 : Fin 1) a)
      = (m ((c : Thread nD τ).loc main_arg5) : S101.Idx → Elt Ideal .f32) (ix1 a) := by
  rw [V_main_v4]
  exact shapeCast_a_1a_apply _ _ (0 : Fin 1) a

/-! Every resident block is its whole array. -/

theorem iblk4_eq (c : Dev nD) (t : Fin cfg0.N) :
    (iblk m c 4 t : Vec Ideal S80x256 .f32) = (m ((c : Thread nD τ).loc main_arg6) : S80x256.Idx → Elt Ideal .f32) := by
  obtain ⟨e0, e1, -⟩ := idx_resident t
  funext y
  show V m c main_arg6 (((cfg0.win 4).blk t).view.emb y) = _
  rw [V_main_arg6]
  refine congrArg _ (funext fun a => Fin.ext ?_)
  match a with
  | ⟨0, _⟩ => show win0_4.index t (0 : Fin 2) * 80 + 1 * (y 0).val = (y 0).val; rw [e0]; omega
  | ⟨1, _⟩ => show win0_4.index t (1 : Fin 2) * 256 + 1 * (y 1).val = (y 1).val; rw [e1]; omega

theorem iblk5_eq (c : Dev nD) (t : Fin cfg0.N) :
    (iblk m c 5 t : Vec Ideal S256 .f32) = (m ((c : Thread nD τ).loc main_arg7) : S256.Idx → Elt Ideal .f32) := by
  obtain ⟨-, -, e0, -⟩ := idx_resident t
  funext y
  show V m c main_arg7 (((cfg0.win 5).blk t).view.emb y) = _
  rw [V_main_arg7]
  refine congrArg _ (funext fun a => Fin.ext ?_)
  match a with
  | ⟨0, _⟩ => show win0_5.index t (0 : Fin 1) * 256 + 1 * (y 0).val = (y 0).val; rw [e0]; omega

theorem iblk6_eq (c : Dev nD) (t : Fin cfg0.N) :
    (iblk m c 6 t : Vec Ideal S256 .f32) = (m ((c : Thread nD τ).loc main_arg8) : S256.Idx → Elt Ideal .f32) := by
  obtain ⟨-, -, -, e0, -⟩ := idx_resident t
  funext y
  show V m c main_arg8 (((cfg0.win 6).blk t).view.emb y) = _
  rw [V_main_arg8]
  refine congrArg _ (funext fun a => Fin.ext ?_)
  match a with
  | ⟨0, _⟩ => show win0_6.index t (0 : Fin 1) * 256 + 1 * (y 0).val = (y 0).val; rw [e0]; omega

theorem iblk7_eq (c : Dev nD) (t : Fin cfg0.N) :
    (iblk m c 7 t : Vec Ideal S256 .f32) = (m ((c : Thread nD τ).loc main_arg9) : S256.Idx → Elt Ideal .f32) := by
  obtain ⟨-, -, -, -, e0, -⟩ := idx_resident t
  funext y
  show V m c main_arg9 (((cfg0.win 7).blk t).view.emb y) = _
  rw [V_main_arg9]
  refine congrArg _ (funext fun a => Fin.ext ?_)
  match a with
  | ⟨0, _⟩ => show win0_7.index t (0 : Fin 1) * 256 + 1 * (y 0).val = (y 0).val; rw [e0]; omega

theorem iblk8_eq (c : Dev nD) (t : Fin cfg0.N) :
    (iblk m c 8 t : Vec Ideal S256x128 .f32) = (m ((c : Thread nD τ).loc main_arg10) : S256x128.Idx → Elt Ideal .f32) := by
  obtain ⟨-, -, -, -, -, e0, e1, -⟩ := idx_resident t
  funext y
  show V m c main_arg10 (((cfg0.win 8).blk t).view.emb y) = _
  rw [V_main_arg10]
  refine congrArg _ (funext fun a => Fin.ext ?_)
  match a with
  | ⟨0, _⟩ => show win0_8.index t (0 : Fin 2) * 256 + 1 * (y 0).val = (y 0).val; rw [e0]; omega
  | ⟨1, _⟩ => show win0_8.index t (1 : Fin 2) * 128 + 1 * (y 1).val = (y 1).val; rw [e1]; omega

theorem iblk9_eq (c : Dev nD) (t : Fin cfg0.N) :
    (iblk m c 9 t : Vec Ideal S128 .f32) = (m ((c : Thread nD τ).loc main_arg11) : S128.Idx → Elt Ideal .f32) := by
  obtain ⟨-, -, -, -, -, -, -, e0, -⟩ := idx_resident t
  funext y
  show V m c main_arg11 (((cfg0.win 9).blk t).view.emb y) = _
  rw [V_main_arg11]
  refine congrArg _ (funext fun a => Fin.ext ?_)
  match a with
  | ⟨0, _⟩ => show win0_9.index t (0 : Fin 1) * 128 + 1 * (y 0).val = (y 0).val; rw [e0]; omega

theorem iblk10_eq (c : Dev nD) (t : Fin cfg0.N) :
    (iblk m c 10 t : Vec Ideal S128 .f32) = (m ((c : Thread nD τ).loc main_arg12) : S128.Idx → Elt Ideal .f32) := by
  obtain ⟨-, -, -, -, -, -, -, -, e0, -⟩ := idx_resident t
  funext y
  show V m c main_arg12 (((cfg0.win 10).blk t).view.emb y) = _
  rw [V_main_arg12]
  refine congrArg _ (funext fun a => Fin.ext ?_)
  match a with
  | ⟨0, _⟩ => show win0_10.index t (0 : Fin 1) * 128 + 1 * (y 0).val = (y 0).val; rw [e0]; omega

theorem iblk11_eq (c : Dev nD) (t : Fin cfg0.N) :
    (iblk m c 11 t : Vec Ideal S128 .f32) = (m ((c : Thread nD τ).loc main_arg13) : S128.Idx → Elt Ideal .f32) := by
  obtain ⟨-, -, -, -, -, -, -, -, -, e0, -⟩ := idx_resident t
  funext y
  show V m c main_arg13 (((cfg0.win 11).blk t).view.emb y) = _
  rw [V_main_arg13]
  refine congrArg _ (funext fun a => Fin.ext ?_)
  match a with
  | ⟨0, _⟩ => show win0_11.index t (0 : Fin 1) * 128 + 1 * (y 0).val = (y 0).val; rw [e0]; omega

theorem iblk12_eq (c : Dev nD) (t : Fin cfg0.N) :
    (iblk m c 12 t : Vec Ideal S128x64 .f32) = (m ((c : Thread nD τ).loc main_arg14) : S128x64.Idx → Elt Ideal .f32) := by
  obtain ⟨-, -, -, -, -, -, -, -, -, -, e0, e1, -⟩ := idx_resident t
  funext y
  show V m c main_arg14 (((cfg0.win 12).blk t).view.emb y) = _
  rw [V_main_arg14]
  refine congrArg _ (funext fun a => Fin.ext ?_)
  match a with
  | ⟨0, _⟩ => show win0_12.index t (0 : Fin 2) * 128 + 1 * (y 0).val = (y 0).val; rw [e0]; omega
  | ⟨1, _⟩ => show win0_12.index t (1 : Fin 2) * 64 + 1 * (y 1).val = (y 1).val; rw [e1]; omega

theorem iblk13_eq (c : Dev nD) (t : Fin cfg0.N) :
    (iblk m c 13 t : Vec Ideal S64 .f32) = (m ((c : Thread nD τ).loc main_arg15) : S64.Idx → Elt Ideal .f32) := by
  obtain ⟨-, -, -, -, -, -, -, -, -, -, -, -, e0, -⟩ := idx_resident t
  funext y
  show V m c main_arg15 (((cfg0.win 13).blk t).view.emb y) = _
  rw [V_main_arg15]
  refine congrArg _ (funext fun a => Fin.ext ?_)
  match a with
  | ⟨0, _⟩ => show win0_13.index t (0 : Fin 1) * 64 + 1 * (y 0).val = (y 0).val; rw [e0]; omega

theorem iblk14_eq (c : Dev nD) (t : Fin cfg0.N) :
    (iblk m c 14 t : Vec Ideal S64 .f32) = (m ((c : Thread nD τ).loc main_arg16) : S64.Idx → Elt Ideal .f32) := by
  obtain ⟨-, -, -, -, -, -, -, -, -, -, -, -, -, e0, -⟩ := idx_resident t
  funext y
  show V m c main_arg16 (((cfg0.win 14).blk t).view.emb y) = _
  rw [V_main_arg16]
  refine congrArg _ (funext fun a => Fin.ext ?_)
  match a with
  | ⟨0, _⟩ => show win0_14.index t (0 : Fin 1) * 64 + 1 * (y 0).val = (y 0).val; rw [e0]; omega

theorem iblk15_eq (c : Dev nD) (t : Fin cfg0.N) :
    (iblk m c 15 t : Vec Ideal S64 .f32) = (m ((c : Thread nD τ).loc main_arg17) : S64.Idx → Elt Ideal .f32) := by
  obtain ⟨-, -, -, -, -, -, -, -, -, -, -, -, -, -, e0, -⟩ := idx_resident t
  funext y
  show V m c main_arg17 (((cfg0.win 15).blk t).view.emb y) = _
  rw [V_main_arg17]
  refine congrArg _ (funext fun a => Fin.ext ?_)
  match a with
  | ⟨0, _⟩ => show win0_15.index t (0 : Fin 1) * 64 + 1 * (y 0).val = (y 0).val; rw [e0]; omega

theorem iblk16_eq (c : Dev nD) (t : Fin cfg0.N) :
    (iblk m c 16 t : Vec Ideal S64x101 .f32) = (m ((c : Thread nD τ).loc main_arg18) : S64x101.Idx → Elt Ideal .f32) := by
  obtain ⟨-, -, -, -, -, -, -, -, -, -, -, -, -, -, -, e0, e1, -⟩ := idx_resident t
  funext y
  show V m c main_arg18 (((cfg0.win 16).blk t).view.emb y) = _
  rw [V_main_arg18]
  refine congrArg _ (funext fun a => Fin.ext ?_)
  match a with
  | ⟨0, _⟩ => show win0_16.index t (0 : Fin 2) * 64 + 1 * (y 0).val = (y 0).val; rw [e0]; omega
  | ⟨1, _⟩ => show win0_16.index t (1 : Fin 2) * 101 + 1 * (y 1).val = (y 1).val; rw [e1]; omega

theorem iblk17_eq (c : Dev nD) (t : Fin cfg0.N) :
    (iblk m c 17 t : Vec Ideal S101 .f32) = (m ((c : Thread nD τ).loc main_arg19) : S101.Idx → Elt Ideal .f32) := by
  obtain ⟨-, -, -, -, -, -, -, -, -, -, -, -, -, -, -, -, -, e0⟩ := idx_resident t
  funext y
  show V m c main_arg19 (((cfg0.win 17).blk t).view.emb y) = _
  rw [V_main_arg19]
  refine congrArg _ (funext fun a => Fin.ext ?_)
  match a with
  | ⟨0, _⟩ => show win0_17.index t (0 : Fin 1) * 101 + 1 * (y 0).val = (y 0).val; rw [e0]; omega

end Cert.KernelIdeal.Hand

end
-- ==== Proof.LibMlpAt.lean ====
/-
  The two-layer perceptron with rectifiers, read at one entry.

  For matrices x : [N, K], wa : [K, D], wb : [D, D] and one-row biases ba, bb : [1, D] the value at (r, q) is
      max (∑ j, max (∑ i, x[r,i] · wa[i,j] + ba[0,j]) 0 · wb[j,q] + bb[0,q]) 0
  on the extended reals. Two spellings of that function occur: the host's (two `dot_general`s, the biases broadcast
  along the rows, the rectifier a maximum with a broadcast zero) and a tile's (two matrix products into a zero
  accumulator with the operands narrowed to bf16 first, the biases broadcast as vectors). At the ideal values a change of
  format is the identity and both products are plain sums over the contracted coordinate, so each spelling reads the
  formula above at every entry; nothing here needs the entries to be finite.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Mlp

open Idealize.ShloMosaic Idealize.ShloMosaic.ValueIdx

/-! ## A plain matrix product's dimension numbers, and its sum -/

/-- The dimension numbers of a plain product [m, k] × [k, n] → [m, n]: contract the left operand's axis 1 with the
    right operand's axis 0. -/
abbrev D2 {m k n : Nat} (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

variable {m k n : Nat}

/-- The left operand's index at output (a, b) and contracted coordinate c is (a, c). -/
theorem lhsIdx_D2 (w : DotDims.WF ⟨2, ![m, k]⟩ ⟨2, ![k, n]⟩ ⟨2, ![m, n]⟩ [1] [0] [0] [1] [] []) (a : Fin m) (b : Fin n) (c : Fin k) :
    (D2 w).lhsIdx (ix2 a b) ((contrEquiv1 (D2 w) k rfl rfl).symm c) = ix2 a c := by
  have c2 := contrEquiv1_symm_val (D2 w) k rfl rfl c
  funext ax; apply Fin.ext
  match ax with
  | ⟨0, _⟩ => simp [DotDims.lhsIdx]; rfl
  | ⟨1, _⟩ => simp [DotDims.lhsIdx]; exact c2

/-- The right operand's index at output (a, b) and contracted coordinate c is (c, b). -/
theorem rhsIdx_D2 (w : DotDims.WF ⟨2, ![m, k]⟩ ⟨2, ![k, n]⟩ ⟨2, ![m, n]⟩ [1] [0] [0] [1] [] []) (a : Fin m) (b : Fin n) (c : Fin k) :
    (D2 w).rhsIdx (ix2 a b) ((contrEquiv1 (D2 w) k rfl rfl).symm c) = ix2 c b := by
  have c2 := contrEquiv1_symm_val (D2 w) k rfl rfl c
  funext ax; apply Fin.ext
  match ax with
  | ⟨0, _⟩ => simp [DotDims.rhsIdx]; exact c2
  | ⟨1, _⟩ => simp [DotDims.rhsIdx]; rfl

/-- The host's product at (a, b): the sum over the contracted coordinate of the entries' products. -/
theorem dotGeneral_at {φ₁ φ₂ : FTy} (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    Host.dotGeneral (D2 w) prec A B (ix2 a b) = ∑ c : Fin k, A (ix2 a c) * B (ix2 c b) := by
  show FloatOps.dotGeneral _ prec _ A B (ix2 a b) = _
  rw [Ideal.dotGeneral_apply, ← Equiv.sum_comp (contrEquiv1 (D2 w) k rfl rfl).symm]
  refine Finset.sum_congr rfl fun c _ => ?_
  rw [lhsIdx_D2, rhsIdx_D2]

/-- A tile's product into a zero accumulator at (a, b): the same sum. -/
theorem matmul_zero_at {φ₁ φ₂ : FTy} (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    matmul (D2 w) prec A B (constant ⟨2, ![m, n]⟩ .f32 0x00000000#32) (ix2 a b) = ∑ c : Fin k, A (ix2 a c) * B (ix2 c b) := by
  show FloatOps.matmul _ prec A B _ (ix2 a b) = _
  rw [Ideal.matmul_constant_zero_apply, ← Equiv.sum_comp (contrEquiv1 (D2 w) k rfl rfl).symm]
  refine Finset.sum_congr rfl fun c _ => ?_
  rw [lhsIdx_D2, rhsIdx_D2]

/-! ## Broadcasts of a one-row bias and of a scalar, at an entry -/

/-- A [1, D] row broadcast along the rows of [N, D] reads, at (r, q), the row at q. -/
theorem bcastRow_at {N D : Nat} {α : Type} (h : (⟨2, ![1, D]⟩ : Shape).BroadcastsInDim ⟨2, ![N, D]⟩ (![0, 1] : Fin 2 → Fin 2))
    (v : (⟨2, ![1, D]⟩ : Shape).Idx → α) (r : Fin N) (q : Fin D) :
    broadcastInDim ⟨2, ![N, D]⟩ (![0, 1] : Fin 2 → Fin 2) h v (ix2 r q) = v (ix2 (0 : Fin 1) q) := by
  refine broadcastInDim_apply _ h v (ix2 r q) (ix2 (0 : Fin 1) q) fun ax => ?_
  match ax with
  | ⟨0, _⟩ => rfl
  | ⟨1, _⟩ =>
    show q.val = if D = 1 then 0 else q.val
    split
    · have := q.isLt; omega
    · rfl

/-- A scalar broadcast to [N, D] reads the scalar everywhere. -/
theorem bcastScalar_at {N D : Nat} {α : Type} (h : (⟨0, ![]⟩ : Shape).BroadcastsInDim ⟨2, ![N, D]⟩ (![] : Fin 0 → Fin 2))
    (v : (⟨0, ![]⟩ : Shape).Idx → α) (i : (⟨2, ![N, D]⟩ : Shape).Idx) :
    broadcastInDim ⟨2, ![N, D]⟩ (![] : Fin 0 → Fin 2) h v i = v ix0 :=
  broadcastInDim_apply _ h v i ix0 fun ax => ax.elim0

/-- A [D] vector viewed as its one row [1, D] is the vector broadcast along a new leading unit axis: both read the
    vector's entry i at (0, i). -/
theorem rowCast_eq_bcast {D : Nat} {α : Type} (x : (⟨1, ![D]⟩ : Shape).Idx → α) (h : (⟨1, ![D]⟩ : Shape).ShapeCasts ⟨2, ![1, D]⟩)
    (h' : (⟨1, ![D]⟩ : Shape).BroadcastsInDim ⟨2, ![1, D]⟩ (![1] : Fin 1 → Fin 2)) :
    shapeCast ⟨2, ![1, D]⟩ x h = broadcastInDim ⟨2, ![1, D]⟩ (![1] : Fin 1 → Fin 2) h' x := by
  funext j
  obtain ⟨u, i, rfl⟩ : ∃ (u : Fin 1) (i : Fin D), j = ix2 u i := ⟨j 0, j 1, eq_ix2 j⟩
  rw [shapeCast_a_1a_apply]
  refine (broadcastInDim_apply _ h' x (ix2 u i) (ix1 i) fun ax => ?_).symm
  match ax with
  | ⟨0, _⟩ =>
    show i.val = if D = 1 then 0 else i.val
    split
    · have := i.isLt; omega
    · rfl

/-! ## The perceptron at an entry -/

/-- The value at (r, q): the second layer's rectified affine map of the first layer's. -/
def mlpVal {N K D : Nat} (x : FVec Ideal ⟨2, ![N, K]⟩ .f32) (wa : FVec Ideal ⟨2, ![K, D]⟩ .f32) (ba : FVec Ideal ⟨2, ![1, D]⟩ .f32)
    (wb : FVec Ideal ⟨2, ![D, D]⟩ .f32) (bb : FVec Ideal ⟨2, ![1, D]⟩ .f32) (r : Fin N) (q : Fin D) : Ideal .f32 :=
  max ((∑ j : Fin D, max ((∑ i : Fin K, x (ix2 r i) * wa (ix2 i j)) + ba (ix2 (0 : Fin 1) j)) (Ideal.ofBits .f32 0x00000000#32) * wb (ix2 j q))
    + bb (ix2 (0 : Fin 1) q)) (Ideal.ofBits .f32 0x00000000#32)

/-- The value at row r depends only on row r of x: two inputs with equal rows give equal values. -/
theorem mlpVal_congr_row {N N' K D : Nat} (x : FVec Ideal ⟨2, ![N, K]⟩ .f32) (x' : FVec Ideal ⟨2, ![N', K]⟩ .f32)
    (wa : FVec Ideal ⟨2, ![K, D]⟩ .f32) (ba : FVec Ideal ⟨2, ![1, D]⟩ .f32) (wb : FVec Ideal ⟨2, ![D, D]⟩ .f32) (bb : FVec Ideal ⟨2, ![1, D]⟩ .f32)
    (r : Fin N) (r' : Fin N') (hrow : ∀ i : Fin K, x (ix2 r i) = x' (ix2 r' i)) (q : Fin D) :
    mlpVal x wa ba wb bb r q = mlpVal x' wa ba wb bb r' q := by
  unfold mlpVal
  simp only [hrow]

/-- The host's spelling: two `dot_general`s, the biases broadcast along the rows, each rectifier a maximum with a
    broadcast zero. -/
def mlpHost {N K D : Nat} (wA : DotDims.WF ⟨2, ![N, K]⟩ ⟨2, ![K, D]⟩ ⟨2, ![N, D]⟩ [1] [0] [0] [1] [] [])
    (wB : DotDims.WF ⟨2, ![N, D]⟩ ⟨2, ![D, D]⟩ ⟨2, ![N, D]⟩ [1] [0] [0] [1] [] [])
    (hb : (⟨2, ![1, D]⟩ : Shape).BroadcastsInDim ⟨2, ![N, D]⟩ (![0, 1] : Fin 2 → Fin 2))
    (hz : (⟨0, ![]⟩ : Shape).BroadcastsInDim ⟨2, ![N, D]⟩ (![] : Fin 0 → Fin 2))
    (x : FVec Ideal ⟨2, ![N, K]⟩ .f32) (wa : FVec Ideal ⟨2, ![K, D]⟩ .f32) (ba : FVec Ideal ⟨2, ![1, D]⟩ .f32)
    (wb : FVec Ideal ⟨2, ![D, D]⟩ .f32) (bb : FVec Ideal ⟨2, ![1, D]⟩ .f32) : FVec Ideal ⟨2, ![N, D]⟩ .f32 :=
  maximumf (addf (Host.dotGeneral (D2 wB) none
      (maximumf (addf (Host.dotGeneral (D2 wA) none x wa) (broadcastInDim ⟨2, ![N, D]⟩ (![0, 1] : Fin 2 → Fin 2) hb ba))
        (broadcastInDim ⟨2, ![N, D]⟩ (![] : Fin 0 → Fin 2) hz (constant (F := Ideal) ⟨0, ![]⟩ .f32 0x00000000#32))) wb)
      (broadcastInDim ⟨2, ![N, D]⟩ (![0, 1] : Fin 2 → Fin 2) hb bb))
    (broadcastInDim ⟨2, ![N, D]⟩ (![] : Fin 0 → Fin 2) hz (constant (F := Ideal) ⟨0, ![]⟩ .f32 0x00000000#32))

theorem mlpHost_at {N K D : Nat} (wA : DotDims.WF ⟨2, ![N, K]⟩ ⟨2, ![K, D]⟩ ⟨2, ![N, D]⟩ [1] [0] [0] [1] [] [])
    (wB : DotDims.WF ⟨2, ![N, D]⟩ ⟨2, ![D, D]⟩ ⟨2, ![N, D]⟩ [1] [0] [0] [1] [] [])
    (hb : (⟨2, ![1, D]⟩ : Shape).BroadcastsInDim ⟨2, ![N, D]⟩ (![0, 1] : Fin 2 → Fin 2))
    (hz : (⟨0, ![]⟩ : Shape).BroadcastsInDim ⟨2, ![N, D]⟩ (![] : Fin 0 → Fin 2))
    (x : FVec Ideal ⟨2, ![N, K]⟩ .f32) (wa : FVec Ideal ⟨2, ![K, D]⟩ .f32) (ba : FVec Ideal ⟨2, ![1, D]⟩ .f32)
    (wb : FVec Ideal ⟨2, ![D, D]⟩ .f32) (bb : FVec Ideal ⟨2, ![1, D]⟩ .f32) (r : Fin N) (q : Fin D) :
    mlpHost wA wB hb hz x wa ba wb bb (ix2 r q) = mlpVal x wa ba wb bb r q := by
  unfold mlpHost mlpVal
  rw [maximumf_apply, addf_apply, dotGeneral_at, bcastRow_at, bcastScalar_at, constant_apply]
  refine congrArg (fun s => max (s + bb (ix2 (0 : Fin 1) q)) (Ideal.ofBits .f32 0x00000000#32)) ?_
  refine Finset.sum_congr rfl fun j _ => ?_
  rw [maximumf_apply, addf_apply, dotGeneral_at, bcastRow_at, bcastScalar_at, constant_apply]

/-- The host's spelling with the biases given as vectors [D], each made a row by a broadcast along a new unit axis. -/
def mlpHostV {N K D : Nat} (wA : DotDims.WF ⟨2, ![N, K]⟩ ⟨2, ![K, D]⟩ ⟨2, ![N, D]⟩ [1] [0] [0] [1] [] [])
    (wB : DotDims.WF ⟨2, ![N, D]⟩ ⟨2, ![D, D]⟩ ⟨2, ![N, D]⟩ [1] [0] [0] [1] [] [])
    (hb : (⟨2, ![1, D]⟩ : Shape).BroadcastsInDim ⟨2, ![N, D]⟩ (![0, 1] : Fin 2 → Fin 2))
    (hz : (⟨0, ![]⟩ : Shape).BroadcastsInDim ⟨2, ![N, D]⟩ (![] : Fin 0 → Fin 2))
    (hr : (⟨1, ![D]⟩ : Shape).BroadcastsInDim ⟨2, ![1, D]⟩ (![1] : Fin 1 → Fin 2))
    (x : FVec Ideal ⟨2, ![N, K]⟩ .f32) (wa : FVec Ideal ⟨2, ![K, D]⟩ .f32) (ba : FVec Ideal ⟨1, ![D]⟩ .f32)
    (wb : FVec Ideal ⟨2, ![D, D]⟩ .f32) (bb : FVec Ideal ⟨1, ![D]⟩ .f32) : FVec Ideal ⟨2, ![N, D]⟩ .f32 :=
  mlpHost wA wB hb hz x wa (broadcastInDim ⟨2, ![1, D]⟩ (![1] : Fin 1 → Fin 2) hr ba) wb
    (broadcastInDim ⟨2, ![1, D]⟩ (![1] : Fin 1 → Fin 2) hr bb)

/-- With the biases reshaped to one row instead: the same array. -/
theorem mlpHost_rowCast {N K D : Nat} (wA : DotDims.WF ⟨2, ![N, K]⟩ ⟨2, ![K, D]⟩ ⟨2, ![N, D]⟩ [1] [0] [0] [1] [] [])
    (wB : DotDims.WF ⟨2, ![N, D]⟩ ⟨2, ![D, D]⟩ ⟨2, ![N, D]⟩ [1] [0] [0] [1] [] [])
    (hb : (⟨2, ![1, D]⟩ : Shape).BroadcastsInDim ⟨2, ![N, D]⟩ (![0, 1] : Fin 2 → Fin 2))
    (hz : (⟨0, ![]⟩ : Shape).BroadcastsInDim ⟨2, ![N, D]⟩ (![] : Fin 0 → Fin 2))
    (hr : (⟨1, ![D]⟩ : Shape).BroadcastsInDim ⟨2, ![1, D]⟩ (![1] : Fin 1 → Fin 2))
    (hc : (⟨1, ![D]⟩ : Shape).ShapeCasts ⟨2, ![1, D]⟩)
    (x : FVec Ideal ⟨2, ![N, K]⟩ .f32) (wa : FVec Ideal ⟨2, ![K, D]⟩ .f32) (ba : FVec Ideal ⟨1, ![D]⟩ .f32)
    (wb : FVec Ideal ⟨2, ![D, D]⟩ .f32) (bb : FVec Ideal ⟨1, ![D]⟩ .f32) :
    mlpHost wA wB hb hz x wa (shapeCast ⟨2, ![1, D]⟩ ba hc) wb (shapeCast ⟨2, ![1, D]⟩ bb hc)
      = mlpHostV wA wB hb hz hr x wa ba wb bb := by
  unfold mlpHostV
  rw [rowCast_eq_bcast ba hc hr, rowCast_eq_bcast bb hc hr]

/-- A tile's spelling: the operands narrowed to bf16, two products into a zero accumulator, the biases broadcast as
    vectors, each rectifier a maximum with a splat zero. -/
def mlpTile {T K D : Nat} (wA : DotDims.WF ⟨2, ![T, K]⟩ ⟨2, ![K, D]⟩ ⟨2, ![T, D]⟩ [1] [0] [0] [1] [] [])
    (wB : DotDims.WF ⟨2, ![T, D]⟩ ⟨2, ![D, D]⟩ ⟨2, ![T, D]⟩ [1] [0] [0] [1] [] [])
    (hb : (⟨2, ![1, D]⟩ : Shape).Broadcasts ⟨2, ![T, D]⟩) (hlt : FTy.bf16.bits < FTy.f32.bits)
    (x : FVec Ideal ⟨2, ![T, K]⟩ .f32) (wa : FVec Ideal ⟨2, ![K, D]⟩ .f32) (ba : FVec Ideal ⟨2, ![1, D]⟩ .f32)
    (wb : FVec Ideal ⟨2, ![D, D]⟩ .f32) (bb : FVec Ideal ⟨2, ![1, D]⟩ .f32) : FVec Ideal ⟨2, ![T, D]⟩ .f32 :=
  maximumf (addf (matmul (D2 wB) none
      (truncf .bf16 (maximumf (addf (matmul (D2 wA) none (truncf .bf16 x hlt) (truncf .bf16 wa hlt) (constant ⟨2, ![T, D]⟩ .f32 0x00000000#32))
          (broadcastTo ⟨2, ![T, D]⟩ ba hb)) (broadcast ⟨2, ![T, D]⟩ (Scalar.ofBits (F := Ideal) .f32 0x00000000#32))) hlt)
      (truncf .bf16 wb hlt) (constant ⟨2, ![T, D]⟩ .f32 0x00000000#32))
      (broadcastTo ⟨2, ![T, D]⟩ bb hb))
    (broadcast ⟨2, ![T, D]⟩ (Scalar.ofBits (F := Ideal) .f32 0x00000000#32))

theorem mlpTile_at {T K D : Nat} (wA : DotDims.WF ⟨2, ![T, K]⟩ ⟨2, ![K, D]⟩ ⟨2, ![T, D]⟩ [1] [0] [0] [1] [] [])
    (wB : DotDims.WF ⟨2, ![T, D]⟩ ⟨2, ![D, D]⟩ ⟨2, ![T, D]⟩ [1] [0] [0] [1] [] [])
    (hb : (⟨2, ![1, D]⟩ : Shape).Broadcasts ⟨2, ![T, D]⟩) (hlt : FTy.bf16.bits < FTy.f32.bits)
    (x : FVec Ideal ⟨2, ![T, K]⟩ .f32) (wa : FVec Ideal ⟨2, ![K, D]⟩ .f32) (ba : FVec Ideal ⟨2, ![1, D]⟩ .f32)
    (wb : FVec Ideal ⟨2, ![D, D]⟩ .f32) (bb : FVec Ideal ⟨2, ![1, D]⟩ .f32) (p : Fin T) (q : Fin D) :
    mlpTile wA wB hb hlt x wa ba wb bb (ix2 p q) = mlpVal x wa ba wb bb p q := by
  unfold mlpTile mlpVal
  rw [maximumf_apply, addf_apply, matmul_zero_at, broadcastTo_1b_ab_apply, broadcast_apply]
  refine congrArg (fun s => max (s + bb (ix2 (0 : Fin 1) q)) (Ideal.ofBits .f32 0x00000000#32)) ?_
  refine Finset.sum_congr rfl fun j _ => ?_
  rw [truncf_apply, truncf_apply, maximumf_apply, addf_apply, matmul_zero_at, broadcastTo_1b_ab_apply, broadcast_apply]
  refine congrArg (fun s => max (s + ba (ix2 (0 : Fin 1) j)) (Ideal.ofBits .f32 0x00000000#32) * wb (ix2 j q)) ?_
  refine Finset.sum_congr rfl fun i _ => ?_
  rw [truncf_apply, truncf_apply]

end Cert.Mlp

end
-- ==== Proof.KMlp.lean ====
/-
  The network part of the body, read at one entry against the row-level specification.

  Each hidden layer's block is, at (p, q), silu of the layer norm of the row's affine image: a product into the zero
  block is the sum over the contracted coordinate, a [N] vector viewed as one row and spread over the rows reads its
  entry q, a lane sum re-laid as a column and spread over the lanes reads the row's sum, and narrowing to bf16 changes
  nothing on the extended reals.  The body computes the third layer's pre-activation and its row mean in one step and
  the rest (variance, scale, shift, silu, logits, softmax) in the next; together they are the row's probabilities.
-/
import proofs.«100750_j352187318805_1_alg».proof.Proof.Gen.KernelIdeal.Skeleton
import proofs.«100750_j352187318805_1_alg».proof.Proof.Spec
import proofs.«100750_j352187318805_1_alg».proof.Proof.KOps
import proofs.«100750_j352187318805_1_alg».proof.Proof.LibMlpAt

set_option backward.isDefEq.respectTransparency.types false

noncomputable section

namespace Cert.KernelIdeal.Hand

open Idealize.ShloMosaic Idealize.ShloMosaic.ValueIdx Cert.KernelIdeal Cert.KernelIdeal.Gen Cert.Lib.Keepdims C51.KOps

/-- The 80 entries of a row: the observation block's row, then the action block's. -/
theorem xcat_at (v0 : FVec Ideal S1024x60 .f32) (v1 : FVec Ideal S1024x20 .f32)
    (h : Shape.Concatenates [S1024x60, S1024x20] S1024x80 1) (p : Fin 1024) (k : Fin 80) :
    concatenate S1024x80 1 [⟨S1024x60, v0⟩, ⟨S1024x20, v1⟩] h (ix2 p k)
      = C51.xrow (fun k => v0 (ix2 p k)) (fun k => v1 (ix2 p k)) k := by
  unfold C51.xrow
  split
  · rename_i hk
    exact concatenate_pair_apply_left (1 : Fin 2) v0 v1 h (ix2 p k) rfl (ix2 p ⟨k.val, hk⟩)
      (fun b => by match b with | ⟨0, _⟩ => rfl | ⟨1, _⟩ => rfl)
  · rename_i hk
    have hk' : k.val - 60 < 20 := by have := k.isLt; omega
    exact concatenate_pair_apply_right (1 : Fin 2) v0 v1 h (ix2 p k) rfl rfl (ix2 p ⟨k.val - 60, hk'⟩)
      (fun b hb => by match b with | ⟨0, _⟩ => rfl | ⟨1, _⟩ => exact absurd rfl hb)
      (by show (k.val - 60) + 60 = k.val; omega)

/-- The four products' dimension numbers are the plain ones. -/
theorem dot1_eq : dot_S1024x80_S80x256_S1024x256_1_0_0_1_n_n = Cert.Mlp.D2 dot_S1024x80_S80x256_S1024x256_1_0_0_1_n_n_wf := rfl
theorem dot2_eq : dot_S1024x256_S256x128_S1024x128_1_0_0_1_n_n = Cert.Mlp.D2 dot_S1024x256_S256x128_S1024x128_1_0_0_1_n_n_wf := rfl
theorem dot3_eq : dot_S1024x128_S128x64_S1024x64_1_0_0_1_n_n = Cert.Mlp.D2 dot_S1024x128_S128x64_S1024x64_1_0_0_1_n_n_wf := rfl
theorem dot4_eq : dot_S1024x64_S64x101_S1024x101_1_0_0_1_n_n = Cert.Mlp.D2 dot_S1024x64_S64x101_S1024x101_1_0_0_1_n_n_wf := rfl

/-- The first hidden layer at (p, q). -/
theorem pay2_at (v0 : Vec Ideal S1024x60 .f32) (v1 : Vec Ideal S1024x20 .f32) (v4 : Vec Ideal S80x256 .f32) (v7 v29 v33 : Vec Ideal S256 .f32)
    (p : Fin 1024) (q : Fin 256) :
    k0_pay2 v0 v1 v4 v7 v29 v33 (ix2 p q)
      = C51.layer 0x43800000#32 (fun k j => v4 (ix2 k j)) (fun j => v7 (ix1 j)) (fun j => v29 (ix1 j)) (fun j => v33 (ix1 j))
          (C51.xrow (fun k => v0 (ix2 p k)) (fun k => v1 (ix2 p k))) q := by
  have hsum256 : ∀ (g : FVec Ideal S1024x256 .f32) (p : Fin 1024),
      multiReduction .add [1] S1024 g 0x00000000#32 reduces_S1024x256_S1024 (.inl rfl) rfl (ix1 p) = ∑ k : Fin 256, g (ix2 p k) :=
    fun g p => rowSum_at g reduces_S1024x256_S1024 (.inl rfl) rfl p
  unfold k0_pay2
  simp only [hsum256, Ideal.ofBits_def, truncf_apply, mulf_apply, logistic_apply, exp_apply, addf_apply, subf_apply, divf_apply, maximumf_apply, rsqrt_apply, broadcast_apply,
    broadcastTo_1b_ab_apply, shapeCast_a_1a_apply, broadcastTo_a1_ab_apply, shapeCast_a_a1_apply,
    dot1_eq, Cert.Mlp.matmul_zero_at, xcat_at]
  unfold C51.layer C51.silu C51.lnorm C51.mean C51.dense
  rfl

/-- The second layer's weights narrowed to bf16 are the weights. -/
theorem pay3_at (v40 : Vec Ideal S256x128 .f32) (i : S256x128.Idx) : k0_pay3 v40 i = v40 i := rfl

/-- The third layer's pre-activation at (p, q): the affine image of the second hidden layer of the row v39 p. -/
theorem pay4_at (v39 : FVec Ideal S1024x256 .bf16) (v41 : FVec Ideal S256x128 .bf16) (v43 v65 v69 : Vec Ideal S128 .f32)
    (v76 : Vec Ideal S128x64 .f32) (v79 : Vec Ideal S64 .f32) (p : Fin 1024) (q : Fin 64) :
    k0_pay4 v39 v41 v43 v65 v69 v76 v79 (ix2 p q)
      = C51.dense (C51.layer 0x43000000#32 (fun k j => v41 (ix2 k j)) (fun j => v43 (ix1 j)) (fun j => v65 (ix1 j)) (fun j => v69 (ix1 j))
          (fun k => v39 (ix2 p k))) (fun k j => v76 (ix2 k j)) (fun j => v79 (ix1 j)) q := by
  have hsum128 : ∀ (g : FVec Ideal S1024x128 .f32) (p : Fin 1024),
      multiReduction .add [1] S1024 g 0x00000000#32 reduces_S1024x128_S1024 (.inl rfl) rfl (ix1 p) = ∑ k : Fin 128, g (ix2 p k) :=
    fun g p => rowSum_at g reduces_S1024x128_S1024 (.inl rfl) rfl p
  unfold k0_pay4
  simp only [hsum128, Ideal.ofBits_def, truncf_apply, mulf_apply, logistic_apply, exp_apply, addf_apply, subf_apply, divf_apply, maximumf_apply, rsqrt_apply, broadcast_apply,
    broadcastTo_1b_ab_apply, shapeCast_a_1a_apply, broadcastTo_a1_ab_apply, shapeCast_a_a1_apply,
    dot2_eq, dot3_eq, Cert.Mlp.matmul_zero_at]
  unfold C51.dense C51.layer C51.silu C51.lnorm C51.mean C51.dense
  rfl

/-- Its row mean, as a column. -/
theorem pay5_at (v39 : FVec Ideal S1024x256 .bf16) (v41 : FVec Ideal S256x128 .bf16) (v43 v65 v69 : Vec Ideal S128 .f32)
    (v76 : Vec Ideal S128x64 .f32) (v79 : Vec Ideal S64 .f32) (p : Fin 1024) (u : Fin 1) :
    k0_pay5 v39 v41 v43 v65 v69 v76 v79 (ix2 p u)
      = C51.mean 0x42800000#32 (fun q : Fin 64 => k0_pay4 v39 v41 v43 v65 v69 v76 v79 (ix2 p q)) := by
  have hsum64 : ∀ (g : FVec Ideal S1024x64 .f32) (p : Fin 1024),
      multiReduction .add [1] S1024 g 0x00000000#32 reduces_S1024x64_S1024 (.inl rfl) rfl (ix1 p) = ∑ k : Fin 64, g (ix2 p k) :=
    fun g p => rowSum_at g reduces_S1024x64_S1024 (.inl rfl) rfl p
  unfold k0_pay5
  simp only [hsum64, Ideal.ofBits_def, divf_apply, broadcast_apply, shapeCast_a_a1_apply]
  rfl

/-- From the third layer's pre-activation v82 and its row means v86: the row's probabilities at (p, a). -/
theorem pay6_at (v82 : FVec Ideal S1024x64 .f32) (v86 : FVec Ideal S1024x1 .f32) (v101 v105 : Vec Ideal S64 .f32)
    (v112 : Vec Ideal S64x101 .f32) (v115 : Vec Ideal S101 .f32) (p : Fin 1024) (a : Fin 101)
    (hμ : v86 (ix2 p 0) = C51.mean 0x42800000#32 (fun q : Fin 64 => v82 (ix2 p q))) :
    k0_pay6 v82 v86 v101 v105 v112 v115 (ix2 p a)
      = C51.softmax (C51.dense (fun q : Fin 64 => C51.silu (C51.lnorm 0x42800000#32 (fun j => v101 (ix1 j)) (fun j => v105 (ix1 j))
          (fun k => v82 (ix2 p k)) q)) (fun k j => v112 (ix2 k j)) (fun j => v115 (ix1 j))) a := by
  have hsum64 : ∀ (g : FVec Ideal S1024x64 .f32) (p : Fin 1024),
      multiReduction .add [1] S1024 g 0x00000000#32 reduces_S1024x64_S1024 (.inl rfl) rfl (ix1 p) = ∑ k : Fin 64, g (ix2 p k) :=
    fun g p => rowSum_at g reduces_S1024x64_S1024 (.inl rfl) rfl p
  have hsum101 : ∀ (g : FVec Ideal S1024x101 .f32) (p : Fin 1024),
      multiReduction .add [1] S1024 g 0x00000000#32 reduces_S1024x101_S1024 (.inl rfl) rfl (ix1 p) = ∑ k : Fin 101, g (ix2 p k) :=
    fun g p => rowSum_at g reduces_S1024x101_S1024 (.inl rfl) rfl p
  have hmax : ∀ (g : FVec Ideal S1024x101 .f32) (p : Fin 1024),
      multiReduction .maximumf [1] S1024 g 0xFF800000#32 reduces_S1024x101_S1024 (.inl rfl) rfl (ix1 p)
        = (Finset.univ : Finset (Fin 101)).fold max (Ideal.ofBits .f32 0xFF800000#32) (fun k => g (ix2 p k)) :=
    fun g p => rowMax_at g reduces_S1024x101_S1024 (.inl rfl) rfl p
  unfold k0_pay6
  simp only [hsum64, hsum101, hmax, Ideal.ofBits_def, truncf_apply, mulf_apply, logistic_apply, exp_apply, addf_apply, subf_apply, divf_apply, maximumf_apply, rsqrt_apply, broadcast_apply,
    broadcastTo_1b_ab_apply, shapeCast_a_1a_apply, broadcastTo_a1_ab_apply, shapeCast_a_a1_apply,
    dot4_eq, Cert.Mlp.matmul_zero_at, hμ]
  unfold C51.softmax C51.rowMax C51.dense C51.silu C51.lnorm C51.mean
  rfl

end Cert.KernelIdeal.Hand

end
-- ==== Proof.KBins.lean ====
/-
  The bin arithmetic of the body, read at one entry.

  From the three per-row columns (reward, bootstrap flag, discount) and the one-row support the body forms, for row p
  and atom a, the bin coordinate b; its lower index word (the floor, one lower where b is a positive integer); that
  word as a float; and the two weights p·(lower + 1 − b) and p·(b − lower) of the probability p.
-/
import proofs.«100750_j352187318805_1_alg».proof.Proof.Gen.KernelIdeal.Skeleton
import proofs.«100750_j352187318805_1_alg».proof.Proof.Spec
import proofs.«100750_j352187318805_1_alg».proof.Proof.KOps
import proofs.«100750_j352187318805_1_alg».proof.Proof.Project

set_option backward.isDefEq.respectTransparency.types false

noncomputable section

namespace Cert.KernelIdeal.Hand

open Idealize.ShloMosaic Idealize.ShloMosaic.ValueIdx Cert.KernelIdeal Cert.KernelIdeal.Gen Cert.Lib.Keepdims C51.KOps

/-- The reward column as loaded. -/
theorem pay7_at (v130 : Vec Ideal S1024x1 .f32) (i : S1024x1.Idx) : k0_pay7 v130 i = v130 i := by
  unfold k0_pay7
  rw [shapeCast_self]

/-- The bin coordinate of atom a on row p. -/
theorem pay8_at (v131 : FVec Ideal S1024x1 .f32) (v132 v134 : Vec Ideal S1024x1 .f32) (v136 : Vec Ideal S1x101 .f32) (p : Fin 1024) (a : Fin 101) :
    k0_pay8 v131 v132 v134 v136 (ix2 p a) = C51.bcoef (v131 (ix2 p 0)) (v132 (ix2 p 0)) (v134 (ix2 p 0)) (v136 (ix2 0 a)) := by
  unfold k0_pay8 C51.bcoef
  simp only [divf_apply, subf_apply, minimumf_apply, maximumf_apply, addf_apply, mulf_apply, broadcast_apply, shapeCast_self,
    broadcastTo_a1_ab_apply, broadcastTo_1b_ab_apply]
  rfl

/-- The lower index word. -/
theorem pay9_at (v131 : FVec Ideal S1024x1 .f32) (v132 v134 : Vec Ideal S1024x1 .f32) (v136 : Vec Ideal S1x101 .f32) (i : S1024x101.Idx) :
    k0_pay9 v131 v132 v134 v136 i = C51.liW (k0_pay8 v131 v132 v134 v136 i) := by
  unfold k0_pay9 C51.liW C51.flW C51.ceW
  simp only [select_apply, andi_apply, cmpi_apply, subi_apply, fptosi_apply, floor_apply, ceil_apply, broadcast_apply]

/-- The lower index as a float: the word read signed. -/
theorem pay10_at (v131 : FVec Ideal S1024x1 .f32) (v132 v134 : Vec Ideal S1024x1 .f32) (v136 : Vec Ideal S1x101 .f32) (i : S1024x101.Idx) :
    k0_pay10 v131 v132 v134 v136 i = (((k0_pay9 v131 v132 v134 v136 i).toInt : ℝ) : EReal) := rfl

/-- The lower weight: the probability times (lower index + 1 − coordinate). -/
theorem pay11_at (v129 : FVec Ideal S1024x101 .f32) (v131 : FVec Ideal S1024x1 .f32) (v132 v134 : Vec Ideal S1024x1 .f32) (v136 : Vec Ideal S1x101 .f32)
    (i : S1024x101.Idx) :
    k0_pay11 v129 v131 v132 v134 v136 i
      = v129 i * ((((k0_pay9 v131 v132 v134 v136 i).toInt : ℝ) : EReal) + C51.lit 0x3F800000#32 - k0_pay8 v131 v132 v134 v136 i) := rfl

/-- The upper weight: the probability times (coordinate − lower index). -/
theorem pay12_at (v129 : FVec Ideal S1024x101 .f32) (v131 : FVec Ideal S1024x1 .f32) (v132 v134 : Vec Ideal S1024x1 .f32) (v136 : Vec Ideal S1x101 .f32)
    (i : S1024x101.Idx) :
    k0_pay12 v129 v131 v132 v134 v136 i
      = v129 i * (k0_pay8 v131 v132 v134 v136 i - (((k0_pay9 v131 v132 v134 v136 i).toInt : ℝ) : EReal)) := rfl

end Cert.KernelIdeal.Hand

end
-- ==== Proof.KValue.lean ====
/-
  The value the body stores, at one entry (p, j) of its [1024, 101] block, in the row-level language.

  The loads read their blocks (a whole-block load reads the block; the three column loads of the [1024, 3] block read
  its columns 0, 1, 2).  The network part gives the row's probabilities, the bin arithmetic the row's lower index
  words and weights, and the 101 rounds their running sum: the stored value is the running sum of the row's deposits.
-/
import proofs.«100750_j352187318805_1_alg».proof.Proof.BodyVal
import proofs.«100750_j352187318805_1_alg».proof.Proof.KMlp
import proofs.«100750_j352187318805_1_alg».proof.Proof.KBins
import proofs.«100750_j352187318805_1_alg».proof.Proof.KLoop
import proofs.«100750_j352187318805_1_alg».proof.Proof.Row

set_option backward.isDefEq.respectTransparency.types false

noncomputable section

namespace Cert.KernelIdeal.Hand

open Idealize.ShloMosaic Idealize.ShloMosaic.ValueIdx Cert.KernelIdeal Cert.KernelIdeal.Gen Cert.Lib.Keepdims C51.KOps

theorem hz1 : (![0] : Fin 1 → ℕ) = fun _ => 0 := funext fun a => by match a with | ⟨0, _⟩ => rfl
theorem hz2 : (![0, 0] : Fin 2 → ℕ) = fun _ => 0 := funext fun a => by match a with | ⟨0, _⟩ => rfl | ⟨1, _⟩ => rfl

/-! A whole-block load reads the block. -/
theorem ld_r0 (X : Vec Ideal S1024x60 .f32) : View.ld X r0_0 = X := View.ld_unit_zero hz2 _ X
theorem ld_r1 (X : Vec Ideal S1024x20 .f32) : View.ld X r0_1 = X := View.ld_unit_zero hz2 _ X
theorem ld_r2 (X : Vec Ideal S80x256 .f32) : View.ld X r0_2 = X := View.ld_unit_zero hz2 _ X
theorem ld_r3 (X : Vec Ideal S256 .f32) : View.ld X r0_3 = X := View.ld_unit_zero hz1 _ X
theorem ld_r4 (X : Vec Ideal S256x128 .f32) : View.ld X r0_4 = X := View.ld_unit_zero hz2 _ X
theorem ld_r5 (X : Vec Ideal S128 .f32) : View.ld X r0_5 = X := View.ld_unit_zero hz1 _ X
theorem ld_r6 (X : Vec Ideal S128x64 .f32) : View.ld X r0_6 = X := View.ld_unit_zero hz2 _ X
theorem ld_r7 (X : Vec Ideal S64 .f32) : View.ld X r0_7 = X := View.ld_unit_zero hz1 _ X
theorem ld_r8 (X : Vec Ideal S64x101 .f32) : View.ld X r0_8 = X := View.ld_unit_zero hz2 _ X
theorem ld_r9 (X : Vec Ideal S101 .f32) : View.ld X r0_9 = X := View.ld_unit_zero hz1 _ X
theorem ld_r13 (X : Vec Ideal S1x101 .f32) : View.ld X r0_13 = X := View.ld_unit_zero hz2 _ X

/-! The three column loads of the [1024, 3] block read its columns. -/
theorem ld_c0 (X : Vec Ideal S1024x3 .f32) (p : Fin 1024) : View.ld X r0_10 (ix2 p 0) = X (ix2 p 0) := by
  show X (r0_10.emb (ix2 p 0)) = X (ix2 p 0)
  refine congrArg X (funext fun a => Fin.ext ?_)
  match a with
  | ⟨0, _⟩ => show 0 + 1 * p.val = p.val; omega
  | ⟨1, _⟩ => rfl
theorem ld_c1 (X : Vec Ideal S1024x3 .f32) (p : Fin 1024) : View.ld X r0_11 (ix2 p 0) = X (ix2 p 1) := by
  show X (r0_11.emb (ix2 p 0)) = X (ix2 p 1)
  refine congrArg X (funext fun a => Fin.ext ?_)
  match a with
  | ⟨0, _⟩ => show 0 + 1 * p.val = p.val; omega
  | ⟨1, _⟩ => rfl
theorem ld_c2 (X : Vec Ideal S1024x3 .f32) (p : Fin 1024) : View.ld X r0_12 (ix2 p 0) = X (ix2 p 2) := by
  show X (r0_12.emb (ix2 p 0)) = X (ix2 p 2)
  refine congrArg X (funext fun a => Fin.ext ?_)
  match a with
  | ⟨0, _⟩ => show 0 + 1 * p.val = p.val; omega
  | ⟨1, _⟩ => rfl

/-- The network's weights as the kernel's resident blocks hold them. -/
def θK (x4 : Vec Ideal S80x256 .f32) (x5 x6 x7 : Vec Ideal S256 .f32) (x8 : Vec Ideal S256x128 .f32) (x9 x10 x11 : Vec Ideal S128 .f32)
    (x12 : Vec Ideal S128x64 .f32) (x13 x14 x15 : Vec Ideal S64 .f32) (x16 : Vec Ideal S64x101 .f32) (x17 : Vec Ideal S101 .f32) : C51.Params where
  W1 := fun k j => x4 (ix2 k j)
  b1 := fun j => x5 (ix1 j)
  g1 := fun j => x6 (ix1 j)
  be1 := fun j => x7 (ix1 j)
  W2 := fun k j => x8 (ix2 k j)
  b2 := fun j => x9 (ix1 j)
  g2 := fun j => x10 (ix1 j)
  be2 := fun j => x11 (ix1 j)
  W3 := fun k j => x12 (ix2 k j)
  b3 := fun j => x13 (ix1 j)
  g3 := fun j => x14 (ix1 j)
  be3 := fun j => x15 (ix1 j)
  W4 := fun k j => x16 (ix2 k j)
  b4 := fun j => x17 (ix1 j)

/-- The network part at (p, a): the probabilities of row p of the observation and action blocks. -/
theorem probs_at (x0 : Vec Ideal S1024x60 .f32) (x1 : Vec Ideal S1024x20 .f32) (x4 : Vec Ideal S80x256 .f32) (x5 x6 x7 : Vec Ideal S256 .f32) (x8 : Vec Ideal S256x128 .f32) (x9 x10 x11 : Vec Ideal S128 .f32)
    (x12 : Vec Ideal S128x64 .f32) (x13 x14 x15 : Vec Ideal S64 .f32) (x16 : Vec Ideal S64x101 .f32) (x17 : Vec Ideal S101 .f32) (p : Fin 1024) (a : Fin 101) :
    k0_pay6 (k0_pay4 (k0_pay2 x0 x1 x4 x5 x6 x7) (k0_pay3 x8) x9 x10 x11 x12 x13)
        (k0_pay5 (k0_pay2 x0 x1 x4 x5 x6 x7) (k0_pay3 x8) x9 x10 x11 x12 x13) x14 x15 x16 x17 (ix2 p a)
      = C51.probs (θK x4 x5 x6 x7 x8 x9 x10 x11 x12 x13 x14 x15 x16 x17) (C51.xrow (fun k => x0 (ix2 p k)) (fun k => x1 (ix2 p k))) a := by
  rw [pay6_at _ _ _ _ _ _ p a (pay5_at _ _ _ _ _ _ _ p 0)]
  simp only [pay4_at, pay3_at, pay2_at]
  rfl

/-- The stored value at (p, j): the running sum of row p's 101 pairs of deposits. -/
theorem bodyVal_at (x0 : Vec Ideal S1024x60 .f32) (x1 : Vec Ideal S1024x20 .f32) (x2 : Vec Ideal S1024x3 .f32) (x3 : Vec Ideal S1x101 .f32)
    (x4 : Vec Ideal S80x256 .f32) (x5 x6 x7 : Vec Ideal S256 .f32) (x8 : Vec Ideal S256x128 .f32) (x9 x10 x11 : Vec Ideal S128 .f32)
    (x12 : Vec Ideal S128x64 .f32) (x13 x14 x15 : Vec Ideal S64 .f32) (x16 : Vec Ideal S64x101 .f32) (x17 : Vec Ideal S101 .f32) (p : Fin 1024) (j : Fin 101) :
    bodyVal x0 x1 x2 x3 x4 x5 x6 x7 x8 x9 x10 x11 x12 x13 x14 x15 x16 x17 (ix2 p j)
      = C51.kacc
          (dep1 (C51.Lrow (x2 (ix2 p 0)) (x2 (ix2 p 1)) (x2 (ix2 p 2)) (fun a => x3 (ix2 0 a)))
            (C51.lwK (C51.probs (θK x4 x5 x6 x7 x8 x9 x10 x11 x12 x13 x14 x15 x16 x17) (C51.xrow (fun k => x0 (ix2 p k)) (fun k => x1 (ix2 p k))))
              (x2 (ix2 p 0)) (x2 (ix2 p 1)) (x2 (ix2 p 2)) (fun a => x3 (ix2 0 a))) j)
          (dep2 (C51.Lrow (x2 (ix2 p 0)) (x2 (ix2 p 1)) (x2 (ix2 p 2)) (fun a => x3 (ix2 0 a)))
            (C51.uwK (C51.probs (θK x4 x5 x6 x7 x8 x9 x10 x11 x12 x13 x14 x15 x16 x17) (C51.xrow (fun k => x0 (ix2 p k)) (fun k => x1 (ix2 p k))))
              (x2 (ix2 p 0)) (x2 (ix2 p 1)) (x2 (ix2 p 2)) (fun a => x3 (ix2 0 a))) j) 101 := by
  have h1 : bodyVal x0 x1 x2 x3 x4 x5 x6 x7 x8 x9 x10 x11 x12 x13 x14 x15 x16 x17
      = loopVal (k0_pay9 (k0_pay7 (View.ld x2 r0_10)) (View.ld x2 r0_11) (View.ld x2 r0_12) (View.ld x3 r0_13))
          (k0_pay11 (k0_pay6 (k0_pay4 (k0_pay2 x0 x1 x4 x5 x6 x7) (k0_pay3 x8) x9 x10 x11 x12 x13)
              (k0_pay5 (k0_pay2 x0 x1 x4 x5 x6 x7) (k0_pay3 x8) x9 x10 x11 x12 x13) x14 x15 x16 x17)
            (k0_pay7 (View.ld x2 r0_10)) (View.ld x2 r0_11) (View.ld x2 r0_12) (View.ld x3 r0_13))
          (k0_pay12 (k0_pay6 (k0_pay4 (k0_pay2 x0 x1 x4 x5 x6 x7) (k0_pay3 x8) x9 x10 x11 x12 x13)
              (k0_pay5 (k0_pay2 x0 x1 x4 x5 x6 x7) (k0_pay3 x8) x9 x10 x11 x12 x13) x14 x15 x16 x17)
            (k0_pay7 (View.ld x2 r0_10)) (View.ld x2 r0_11) (View.ld x2 r0_12) (View.ld x3 r0_13)) := by
    unfold bodyVal
    simp only [ld_r0, ld_r1, ld_r2, ld_r3, ld_r4, ld_r5, ld_r6, ld_r7, ld_r8, ld_r9]
    rfl
  have hB : ∀ a : Fin 101, k0_pay8 (k0_pay7 (View.ld x2 r0_10)) (View.ld x2 r0_11) (View.ld x2 r0_12) (View.ld x3 r0_13) (ix2 p a)
      = C51.Brow (x2 (ix2 p 0)) (x2 (ix2 p 1)) (x2 (ix2 p 2)) (fun a => x3 (ix2 0 a)) a := fun a => by
    rw [pay8_at, pay7_at, ld_c0, ld_c1, ld_c2, ld_r13]
    rfl
  rw [h1, loop_at]
  have eL : (fun a : Fin 101 => k0_pay9 (k0_pay7 (View.ld x2 r0_10)) (View.ld x2 r0_11) (View.ld x2 r0_12) (View.ld x3 r0_13) (ix2 p a))
      = C51.Lrow (x2 (ix2 p 0)) (x2 (ix2 p 1)) (x2 (ix2 p 2)) (fun a => x3 (ix2 0 a)) := funext fun a => by
    rw [pay9_at, hB]; rfl
  have elw : (fun a : Fin 101 => k0_pay11 (k0_pay6 (k0_pay4 (k0_pay2 x0 x1 x4 x5 x6 x7) (k0_pay3 x8) x9 x10 x11 x12 x13)
              (k0_pay5 (k0_pay2 x0 x1 x4 x5 x6 x7) (k0_pay3 x8) x9 x10 x11 x12 x13) x14 x15 x16 x17)
            (k0_pay7 (View.ld x2 r0_10)) (View.ld x2 r0_11) (View.ld x2 r0_12) (View.ld x3 r0_13) (ix2 p a))
      = C51.lwK (C51.probs (θK x4 x5 x6 x7 x8 x9 x10 x11 x12 x13 x14 x15 x16 x17) (C51.xrow (fun k => x0 (ix2 p k)) (fun k => x1 (ix2 p k))))
          (x2 (ix2 p 0)) (x2 (ix2 p 1)) (x2 (ix2 p 2)) (fun a => x3 (ix2 0 a)) := funext fun a => by
    rw [pay11_at, pay9_at, hB, probs_at]; rfl
  have euw : (fun a : Fin 101 => k0_pay12 (k0_pay6 (k0_pay4 (k0_pay2 x0 x1 x4 x5 x6 x7) (k0_pay3 x8) x9 x10 x11 x12 x13)
              (k0_pay5 (k0_pay2 x0 x1 x4 x5 x6 x7) (k0_pay3 x8) x9 x10 x11 x12 x13) x14 x15 x16 x17)
            (k0_pay7 (View.ld x2 r0_10)) (View.ld x2 r0_11) (View.ld x2 r0_12) (View.ld x3 r0_13) (ix2 p a))
      = C51.uwK (C51.probs (θK x4 x5 x6 x7 x8 x9 x10 x11 x12 x13 x14 x15 x16 x17) (C51.xrow (fun k => x0 (ix2 p k)) (fun k => x1 (ix2 p k))))
          (x2 (ix2 p 0)) (x2 (ix2 p 1)) (x2 (ix2 p 2)) (fun a => x3 (ix2 0 a)) := funext fun a => by
    rw [pay12_at, pay9_at, hB, probs_at]; rfl
  rw [eL, elw, euw]

end Cert.KernelIdeal.Hand

end
-- ==== Proof.KernelIdealValue.lean ====
/-
  The output array of the idealized kernel after the run, as one function of the arguments.

  Entry (r, j) of the result is the running sum, over the 101 atoms, of row r's pairs of deposits at lane j: the row's
  probabilities come from row r of the observations and actions through the network, its bin coordinates from entry r
  of the rewards, bootstrap flags and discounts and from the support.  Point t of the grid stores rows
  1024 t … 1024 t + 1023 of this array (its input blocks are those rows of the inputs and the whole weight arrays),
  the 128 blocks cover the array, so the array ends holding this function.
-/
import proofs.«100750_j352187318805_1_alg».proof.Proof.KernelIdealBlocks
import proofs.«100750_j352187318805_1_alg».proof.Proof.KernelIdealRead
import proofs.«100750_j352187318805_1_alg».proof.Proof.KValue

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

/-- Entry (r, j) of the projected distribution, from the twenty argument arrays. -/
def outAt (obs : Vec Ideal S131072x60 .f32) (act : Vec Ideal S131072x20 .f32) (rew boot disc : Vec Ideal S131072 .f32) (q : Vec Ideal S101 .f32)
    (x4 : Vec Ideal S80x256 .f32) (x5 x6 x7 : Vec Ideal S256 .f32) (x8 : Vec Ideal S256x128 .f32) (x9 x10 x11 : Vec Ideal S128 .f32)
    (x12 : Vec Ideal S128x64 .f32) (x13 x14 x15 : Vec Ideal S64 .f32) (x16 : Vec Ideal S64x101 .f32) (x17 : Vec Ideal S101 .f32)
    (r : Fin 131072) (j : Fin 101) : EReal :=
  C51.kacc
    (dep1 (C51.Lrow (rew (ix1 r)) (boot (ix1 r)) (disc (ix1 r)) (fun a => q (ix1 a)))
      (C51.lwK (C51.probs (θK x4 x5 x6 x7 x8 x9 x10 x11 x12 x13 x14 x15 x16 x17) (C51.xrow (fun k => obs (ix2 r k)) (fun k => act (ix2 r k))))
        (rew (ix1 r)) (boot (ix1 r)) (disc (ix1 r)) (fun a => q (ix1 a))) j)
    (dep2 (C51.Lrow (rew (ix1 r)) (boot (ix1 r)) (disc (ix1 r)) (fun a => q (ix1 a)))
      (C51.uwK (C51.probs (θK x4 x5 x6 x7 x8 x9 x10 x11 x12 x13 x14 x15 x16 x17) (C51.xrow (fun k => obs (ix2 r k)) (fun k => act (ix2 r k))))
        (rew (ix1 r)) (boot (ix1 r)) (disc (ix1 r)) (fun a => q (ix1 a))) j) 101

/-- What the body stores at (p, j), when row p of its row blocks is row R of the arrays, the three columns of its
    column block are entry R of the rewards, flags and discounts, and its one-row block is the support. -/
theorem body_point (x0 : Vec Ideal S1024x60 .f32) (x1 : Vec Ideal S1024x20 .f32) (x2 : Vec Ideal S1024x3 .f32) (x3 : Vec Ideal S1x101 .f32)
    (x4 : Vec Ideal S80x256 .f32) (x5 x6 x7 : Vec Ideal S256 .f32) (x8 : Vec Ideal S256x128 .f32) (x9 x10 x11 : Vec Ideal S128 .f32)
    (x12 : Vec Ideal S128x64 .f32) (x13 x14 x15 : Vec Ideal S64 .f32) (x16 : Vec Ideal S64x101 .f32) (x17 : Vec Ideal S101 .f32)
    (obs : Vec Ideal S131072x60 .f32) (act : Vec Ideal S131072x20 .f32) (rew boot disc : Vec Ideal S131072 .f32) (q : Vec Ideal S101 .f32)
    (p : Fin 1024) (R : Fin 131072) (j : Fin 101)
    (h0 : ∀ k, x0 (ix2 p k) = obs (ix2 R k)) (h1 : ∀ k, x1 (ix2 p k) = act (ix2 R k))
    (h2a : x2 (ix2 p 0) = rew (ix1 R)) (h2b : x2 (ix2 p 1) = boot (ix1 R)) (h2c : x2 (ix2 p 2) = disc (ix1 R))
    (h3 : ∀ a, x3 (ix2 0 a) = q (ix1 a)) :
    bodyVal x0 x1 x2 x3 x4 x5 x6 x7 x8 x9 x10 x11 x12 x13 x14 x15 x16 x17 (ix2 p j) = outAt obs act rew boot disc q x4 x5 x6 x7 x8 x9 x10 x11 x12 x13 x14 x15 x16 x17 R j := by
  rw [bodyVal_at]
  simp only [h0, h1, h2a, h2b, h2c, h3]
  rfl

variable (m : (ℓ : Loc nD τ sig) → Buf (Elt Ideal) ℓ) (ρ : Dev nD → PrngReg)

/-- The result array as one function of the arguments as launched. -/
def GK (c : Dev nD) : S131072x101.Idx → Elt Ideal .f32 := fun i =>
  outAt (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19))
    ⟨(i 0).val, (i 0).isLt⟩ ⟨(i 1).val, (i 1).isLt⟩

theorem GK_at (c : Dev nD) (r : Fin 131072) (j : Fin 101) :
    GK m c (ix2 r j) = outAt (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) r j := rfl

/-- What point t writes back is block t of that function. -/
theorem flushed18_eq (c : Dev nD) (t : Fin cfg0.N) :
    (dats m 0 c).flushed 18 t = ((cfg0.win 18).blk t).view.read (Elt Ideal) (GK m c) := by
  rw [flushed18, out0_18_eq]
  funext y
  obtain ⟨p, j, rfl⟩ : ∃ (p : Fin 1024) (j : Fin 101), y = ix2 p j := ⟨y 0, y 1, eq_ix2 y⟩
  have ht : t.val < 128 := lt_of_lt_of_eq t.isLt N_0
  have hp := p.isLt
  obtain ⟨R, hR⟩ : ∃ R : Fin 131072, R.val = t.val * 1024 + p.val := ⟨⟨t.val * 1024 + p.val, by omega⟩, rfl⟩
  obtain ⟨-, -, -, -, -, -, -, -, e0, e1⟩ := idx_rows t
  have hemb : ((cfg0.win 18).blk t).view.emb (ix2 p j) = ix2 R j := funext fun a => Fin.ext (by
    match a with
    | ⟨0, _⟩ => show win0_18.index t (0 : Fin 2) * 1024 + 1 * p.val = R.val; rw [e0, hR]; omega
    | ⟨1, _⟩ => show win0_18.index t (1 : Fin 2) * 101 + 1 * j.val = j.val; rw [e1]; omega)
  show bodyVal (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (ix2 p j) = GK m c (((cfg0.win 18).blk t).view.emb (ix2 p j))
  rw [hemb, GK_at]
  refine (body_point (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)
    (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) p R j
    (fun k => iblk0_at m c t p k R hR) (fun k => iblk1_at m c t p k R hR)
    ((iblk2_at m c t p 0 R hR).trans (v3_col0 m c R)) ((iblk2_at m c t p 1 R hR).trans (v3_col1 m c R))
    ((iblk2_at m c t p 2 R hR).trans (v3_col2 m c R))
    (fun a => (iblk3_at m c t a).trans (v4_at m c a))).trans ?_
  rw [iblk4_eq m c t, iblk5_eq m c t, iblk6_eq m c t, iblk7_eq m c t, iblk8_eq m c t, iblk9_eq m c t, iblk10_eq m c t, iblk11_eq m c t, iblk12_eq m c t, iblk13_eq m c t, iblk14_eq m c t, iblk15_eq m c t, iblk16_eq m c t, iblk17_eq m c t]

/-- An index of the array is in point t's block iff each coordinate is in the block's range on its axis. -/
theorem mem_blk18 (t : Fin cfg0.N) (i : S131072x101.Idx) :
    i ∈ ((cfg0.win 18).blk t).view.set ↔ ∀ a : Fin 2, win0_18.index t a * S1024x101.size a ≤ (i a).val ∧ (i a).val < win0_18.index t a * S1024x101.size a + S1024x101.size a := by
  show i ∈ ((View.whole main_v5).slice (win0_18.rect t)).set ↔ _
  rw [View.set_slice_whole, Rect.mem_set_unit]
  exact Iff.rfl

/-- Row r lies in the block of point r / 1024: the 128 blocks cover the array. -/
theorem cover18 (i : S131072x101.Idx) :
    ∃ t : Fin cfg0.N, (cfg0.win 18).flush t = true ∧ i ∈ ((cfg0.win 18).blk t).view.set := by
  have h0 : (i 0).val < 131072 := (i 0).isLt
  have h1 : (i 1).val < 101 := (i 1).isLt
  obtain ⟨t, hv⟩ : ∃ t : Fin cfg0.N, t.val = (i 0).val / 1024 :=
    ⟨⟨(i 0).val / 1024, by rw [show cfg0.N = 128 from N_0]; omega⟩, rfl⟩
  obtain ⟨-, -, -, -, -, -, -, -, e0, e1⟩ := idx_rows t
  refine ⟨t, flush0_18 t, ?_⟩
  rw [mem_blk18]
  intro a
  match a with
  | ⟨0, _⟩ => show win0_18.index t (0 : Fin 2) * 1024 ≤ (i 0).val ∧ (i 0).val < win0_18.index t (0 : Fin 2) * 1024 + 1024; rw [e0, hv]; omega
  | ⟨1, _⟩ => show win0_18.index t (1 : Fin 2) * 101 ≤ (i 1).val ∧ (i 1).val < win0_18.index t (1 : Fin 2) * 101 + 101; rw [e1]; omega

/-- The output array after the run is that function. -/
theorem final18 (c : Dev nD) : (dats m 0 c).arrAt 18 cfg0.N = GK m c :=
  (dats m 0 c).arrAt_eq_of_cover 18 (GK m c) (fun t _ => flushed18_eq m c t) cover18

/-- Every weakly fair execution of the idealized kernel terminates, without a fault, with the result array at that
    function of the arguments and every argument array as launched. -/
theorem run_value : θ_run defs (onTc (τ := τ) (main (F := Ideal))) ⟨m, fun _ => 0, ρ⟩ fun r => ∀ c : Dev nD,
      r.2.mem ((c.tc : Thread nD τ).loc main_v5) = GK m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19) :=
  (θ_run defs _ _).mono (fun r h c => ⟨(post18 m r h c).trans (final18 m c),
      frame_arg0 m (dats m) (A_eq m) r h c,
      frame_arg1 m (dats m) (A_eq m) r h c,
      frame_arg2 m (dats m) (A_eq m) r h c,
      frame_arg3 m (dats m) (A_eq m) r h c,
      frame_arg4 m (dats m) (A_eq m) r h c,
      frame_arg5 m (dats m) (A_eq m) r h c,
      frame_arg6 m (dats m) (A_eq m) r h c,
      frame_arg7 m (dats m) (A_eq m) r h c,
      frame_arg8 m (dats m) (A_eq m) r h c,
      frame_arg9 m (dats m) (A_eq m) r h c,
      frame_arg10 m (dats m) (A_eq m) r h c,
      frame_arg11 m (dats m) (A_eq m) r h c,
      frame_arg12 m (dats m) (A_eq m) r h c,
      frame_arg13 m (dats m) (A_eq m) r h c,
      frame_arg14 m (dats m) (A_eq m) r h c,
      frame_arg15 m (dats m) (A_eq m) r h c,
      frame_arg16 m (dats m) (A_eq m) r h c,
      frame_arg17 m (dats m) (A_eq m) r h c,
      frame_arg18 m (dats m) (A_eq m) r h c,
      frame_arg19 m (dats m) (A_eq m) r h c⟩)
    (run_main m ρ)

end Cert.KernelIdeal.Hand

end
-- ==== Proof.Final.lean ====
/-
  The two idealized programs compute one function.

  Entry (r, j) of the reference's result collects, from zero, the lower weights of row r's atoms whose lower bin is j
  and then the upper weights of those whose upper bin is j; the kernel's entry is the running sum of the row's pairs of
  deposits at lane j.  The bin coordinate of every atom is a real number in [0, 100), so the lower bin is at most 99,
  the upper bin is the lower one plus one, and the two arrangements are the same finite sum taken in another order.
  The network part is literally the same expression of the row on both sides.
-/
import proofs.«100750_j352187318805_1_alg».proof.Proof.RefFinal
import proofs.«100750_j352187318805_1_alg».proof.Proof.Bridge
import proofs.«100750_j352187318805_1_alg».proof.Proof.KernelIdealValue
import proofs.«100750_j352187318805_1_alg».proof.Defs
import proofs.«100750_j352187318805_1_alg».proof.Proof.Gen.Pre_finite_inputs
import proofs.«100750_j352187318805_1_alg».proof.Proof.Gen.KernelIdeal
import proofs.«100750_j352187318805_1_alg».proof.Proof.Gen.ReferenceIdeal

set_option maxRecDepth 16384

noncomputable section

namespace Cert.ReferenceIdeal.Hand

open Cert.ReferenceIdeal Cert.ReferenceIdeal.Gen Idealize.ShloMosaic Idealize.ShloMosaic.ValueIdx

variable (obs : FVec Ideal S131072x60 .f32) (actions : FVec Ideal S131072x20 .f32)
  (rewards bootstrap discount : FVec Ideal S131072 .f32) (q_support : FVec Ideal S101 .f32)
  (W1 : FVec Ideal S80x256 .f32) (b1 g1 be1 : FVec Ideal S256 .f32)
  (W2 : FVec Ideal S256x128 .f32) (b2 g2 be2 : FVec Ideal S128 .f32)
  (W3 : FVec Ideal S128x64 .f32) (b3 g3 be3 : FVec Ideal S64 .f32)
  (W4 : FVec Ideal S64x101 .f32) (b4 : FVec Ideal S101 .f32)

/-- The reference's result, entry by entry, is the kernel's running sum of the same row. -/
theorem refOut_eq_outAt :
    refOut obs actions rewards bootstrap discount q_support W1 b1 g1 be1 W2 b2 g2 be2 W3 b3 g3 be3 W4 b4
      = fun i => Cert.KernelIdeal.Hand.outAt obs actions rewards bootstrap discount q_support W1 b1 g1 be1 W2 b2 g2 be2 W3 b3 g3 be3 W4 b4
          ⟨(i 0).val, (i 0).isLt⟩ ⟨(i 1).val, (i 1).isLt⟩ := by
  funext i
  obtain ⟨r, j, rfl⟩ : ∃ (r : Fin 131072) (j : Fin 101), i = ix2 r j := ⟨i 0, i 1, eq_ix2 i⟩
  have eL : ∀ a, LI rewards bootstrap discount q_support r a = C51.liW (C51.Brow (rewards (ix1 r)) (bootstrap (ix1 r)) (discount (ix1 r)) (fun a => q_support (ix1 a)) a) := fun a => rfl
  have eU : ∀ a, UI rewards bootstrap discount q_support r a = C51.uiW (C51.Brow (rewards (ix1 r)) (bootstrap (ix1 r)) (discount (ix1 r)) (fun a => q_support (ix1 a)) a) := fun a => rfl
  have eLW : ∀ a, LW obs actions rewards bootstrap discount q_support W1 b1 g1 be1 W2 b2 g2 be2 W3 b3 g3 be3 W4 b4 r a
      = (C51.probs (T W1 b1 g1 be1 W2 b2 g2 be2 W3 b3 g3 be3 W4 b4) (C51.xrow (fun k => obs (ix2 r k)) (fun k => actions (ix2 r k)))) a * ((((C51.uiW (C51.Brow (rewards (ix1 r)) (bootstrap (ix1 r)) (discount (ix1 r)) (fun a => q_support (ix1 a)) a)).toInt : ℝ) : EReal) - C51.Brow (rewards (ix1 r)) (bootstrap (ix1 r)) (discount (ix1 r)) (fun a => q_support (ix1 a)) a) := fun a => rfl
  have eUW : ∀ a, UW obs actions rewards bootstrap discount q_support W1 b1 g1 be1 W2 b2 g2 be2 W3 b3 g3 be3 W4 b4 r a
      = (C51.probs (T W1 b1 g1 be1 W2 b2 g2 be2 W3 b3 g3 be3 W4 b4) (C51.xrow (fun k => obs (ix2 r k)) (fun k => actions (ix2 r k)))) a * (C51.Brow (rewards (ix1 r)) (bootstrap (ix1 r)) (discount (ix1 r)) (fun a => q_support (ix1 a)) a - (((C51.liW (C51.Brow (rewards (ix1 r)) (bootstrap (ix1 r)) (discount (ix1 r)) (fun a => q_support (ix1 a)) a)).toInt : ℝ) : EReal)) := fun a => rfl
  rw [refOut_row obs actions rewards bootstrap discount q_support W1 b1 g1 be1 W2 b2 g2 be2 W3 b3 g3 be3 W4 b4
    (fun r a => C51.Lrow_le (rewards (ix1 r)) (bootstrap (ix1 r)) (discount (ix1 r)) (fun a => q_support (ix1 a)) a)
    (fun r a => C51.uiW_le (rewards (ix1 r)) (bootstrap (ix1 r)) (discount (ix1 r)) (fun a => q_support (ix1 a)) a) r j]
  simp only [eL, eU, eLW, eUW]
  exact C51.row_eq (C51.probs (T W1 b1 g1 be1 W2 b2 g2 be2 W3 b3 g3 be3 W4 b4) (C51.xrow (fun k => obs (ix2 r k)) (fun k => actions (ix2 r k)))) (rewards (ix1 r)) (bootstrap (ix1 r)) (discount (ix1 r)) (fun a => q_support (ix1 a)) j

end Cert.ReferenceIdeal.Hand

namespace Cert.Proof.Hand

open Idealize.ShloMosaic Idealize.ShloMosaic.TcCoe Idealize.SL.Sem

/-- Run from memories that agree on the twenty arguments, both idealized programs terminate with equal results. -/
theorem algebraic : Cert.algebraic_KernelIdeal_ReferenceIdeal := by
  intro m g m' g' _ hagree
  refine ⟨fun c => Cert.KernelIdeal.Hand.GK m c, Cert.KernelIdeal.Hand.run_value m g, ?_⟩
  refine (θ_run Cert.ReferenceIdeal.defs _ _).mono (fun _ h c => ⟨(h c).1.trans ?_, (h c).2⟩)
    (Cert.ReferenceIdeal.Hand.ref_run m' g')
  obtain ⟨h0, h1, h2, h3, h4, h5, h6, h7, h8, h9, h10, h11, h12, h13, h14, h15, h16, h17, h18, h19⟩ := hagree c
  rw [h0, h1, h2, h3, h4, h5, h6, h7, h8, h9, h10, h11, h12, h13, h14, h15, h16, h17, h18, h19]
  exact Cert.ReferenceIdeal.Hand.refOut_eq_outAt _ _ _ _ _ _ _ _ _ _ _ _ _ _ _ _ _ _ _ _

end Cert.Proof.Hand

end
-- ==== Proof.lean ====
/-
  The certificate of the categorical projection kernel against its reference.

  Both programs take a batch of 131072 rows.  A row's 60 observation entries and 20 action entries go through three
  hidden layers (affine map, layer normalisation, x · σ(x)) and a last affine map to 101 logits, whose softmax gives
  the row's probabilities p_a over the 101 atoms of the support.  Each atom's Bellman target
  reward + bootstrap · discount · q_a is clipped to [-10, 10] and turned into a bin coordinate b_a in [0, 100); the
  probability p_a is split between the two neighbouring bins in proportion to the distances, and entry (r, j) of the
  result is the total weight that row r's atoms give bin j.

  The kernel handles 1024 rows per grid point and builds each row's 101 bins by 101 rounds of masked additions; the
  reference flattens the whole batch and adds the weights into an array of zeros at computed positions.  On the
  extended reals the clip makes every bin coordinate a real number in [0, 100) whatever the inputs are, so the lower
  bin is at most 99 and the upper bin is the lower one plus one; each entry is then the same finite sum taken in two
  orders, and addition on the extended reals is commutative and associative, so no finiteness of the inputs is used.

  The three frames: each program terminates on every weakly fair execution, without a fault, and leaves its twenty
  argument arrays as launched.  The idealization rewrote no operation, so there is nothing to preserve.
-/
import proofs.«100750_j352187318805_1_alg».proof.Defs
import proofs.«100750_j352187318805_1_alg».proof.Proof.Gen.Kernel
import proofs.«100750_j352187318805_1_alg».proof.Proof.Gen.Kernel.Skeleton
import proofs.«100750_j352187318805_1_alg».proof.Proof.Gen.Kernel.Launch
import proofs.«100750_j352187318805_1_alg».proof.Proof.Gen.Kernel.Points
import proofs.«100750_j352187318805_1_alg».proof.Proof.Gen.KernelIdeal
import proofs.«100750_j352187318805_1_alg».proof.Proof.Gen.KernelIdeal.Skeleton
import proofs.«100750_j352187318805_1_alg».proof.Proof.Gen.KernelIdeal.Launch
import proofs.«100750_j352187318805_1_alg».proof.Proof.Gen.KernelIdeal.Points
import proofs.«100750_j352187318805_1_alg».proof.Proof.Gen.ReferenceIdeal
import proofs.«100750_j352187318805_1_alg».proof.Proof.Gen.Pre_finite_inputs
import proofs.«100750_j352187318805_1_alg».proof.Proof.KernelFrame
import proofs.«100750_j352187318805_1_alg».proof.Proof.KernelIdealFrame
import proofs.«100750_j352187318805_1_alg».proof.Proof.Final
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  fun m ρ _ => Cert.Kernel.Hand.frame m ρ,
  fun m ρ _ => Cert.KernelIdeal.Hand.frame m ρ,
  fun m ρ _ => (θ_run Cert.ReferenceIdeal.defs _ _).mono (fun _ h c => (h c).2) (Cert.ReferenceIdeal.Hand.ref_run m ρ),
  trivial,
  Cert.Proof.Hand.algebraic⟩

end Cert.Proof

end
